-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4x512 : Shape := ⟨3, ![1024, 4, 512]⟩
abbrev S1024 : Shape := ⟨1, ![1024]⟩
abbrev S_ : Shape := ⟨0, ![]⟩

class Facts : Prop where
  bcast_S_S1024x4x512 : S_.BroadcastsInDim S1024x4x512 (![] : Fin 0 → Fin S1024x4x512.rank)
  reducesTo_S1024x4x512_S_d0_1_2 : S1024x4x512.ReducesTo [0, 1, 2] S_
  h_S_ : 0 < S_.numel

variable [Facts]

def fn {F : FTy → Type} [FloatOps F] (main_arg0 : FVec F S1024x4x512 .f32) (main_arg1 : IVec S1024 32) : IVec S_ 1 :=
  let main_v0 : FVec F S1024x4x512 .f32 := Host.absf main_arg0
  let main_cst : FVec F S_ .f32 := constant S_ .f32 0x7F800000#32
  let main_v1 : FVec F S1024x4x512 .f32 := broadcastInDim S1024x4x512 ![] bcast_S_S1024x4x512 main_cst
  let main_v2 : IVec S1024x4x512 1 := cmpf .olt main_v0 main_v1
  let main_c : IVec S_ 1 := constantI S_ 1 1#1
  let main_v3 : IVec S_ 1 := (fun x v => Host.reduce IntOp.andi x v reducesTo_S1024x4x512_S_d0_1_2 h_S_) main_v2 main_c
  main_v3
-- ==== Kernel.lean ====
abbrev S1024x4x512 : Shape := ⟨3, ![1024, 4, 512]⟩
abbrev S1024 : Shape := ⟨1, ![1024]⟩
abbrev S4096x512 : Shape := ⟨2, ![4096, 512]⟩
abbrev S1024x4 : Shape := ⟨2, ![1024, 4]⟩
abbrev S4096 : Shape := ⟨1, ![4096]⟩
abbrev S4 : Shape := ⟨1, ![4]⟩
abbrev S1x4 : Shape := ⟨2, ![1, 4]⟩
abbrev S4096x1 : Shape := ⟨2, ![4096, 1]⟩
abbrev S1x4096 : Shape := ⟨2, ![1, 4096]⟩
abbrev S512x512 : Shape := ⟨2, ![512, 512]⟩
abbrev S512x1 : Shape := ⟨2, ![512, 1]⟩
abbrev S1x512 : Shape := ⟨2, ![1, 512]⟩
abbrev S512 : Shape := ⟨1, ![512]⟩
abbrev S_ : Shape := ⟨0, ![]⟩

abbrev nBuf : Space → Nat
  | .hbm => 25
  | .vmem => 35
  | .smem => 0
  | _ => 0

abbrev bufTy : (tb : Table) → Fin (tcTables nBuf tb) → BufTy
  | .hbm, ⟨0, _⟩ => ⟨S1024x4x512, .f32⟩
  | .hbm, ⟨1, _⟩ => ⟨S1024, .i32⟩
  | .hbm, ⟨2, _⟩ => ⟨S4096x512, .f32⟩
  | .hbm, ⟨3, _⟩ => ⟨S4096x512, .bf16⟩
  | .hbm, ⟨4, _⟩ => ⟨S1024x4, .i32⟩
  | .hbm, ⟨5, _⟩ => ⟨S4096, .i32⟩
  | .hbm, ⟨6, _⟩ => ⟨S4, .i32⟩
  | .hbm, ⟨7, _⟩ => ⟨S1x4, .i32⟩
  | .hbm, ⟨8, _⟩ => ⟨S1024x4, .i32⟩
  | .hbm, ⟨9, _⟩ => ⟨S4096, .i32⟩
  | .hbm, ⟨10, _⟩ => ⟨S4096x1, .i32⟩
  | .hbm, ⟨11, _⟩ => ⟨S1x4096, .i32⟩
  | .hbm, ⟨12, _⟩ => ⟨S4096x1, .i32⟩
  | .hbm, ⟨13, _⟩ => ⟨S1x4096, .i32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S512x1, .i32⟩
  | .local _ .vmem, ⟨9, _⟩ => ⟨S512x1, .i32⟩
  | .local _ .vmem, ⟨10, _⟩ => ⟨S1x512, .i32⟩
  | .local _ .vmem, ⟨11, _⟩ => ⟨S1x512, .i32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x1, .i32⟩
  | .local _ .vmem, ⟨20, _⟩ => ⟨S512x1, .i32⟩
  | .local _ .vmem, ⟨21, _⟩ => ⟨S1x512, .i32⟩
  | .local _ .vmem, ⟨22, _⟩ => ⟨S1x512, .i32⟩
  | .local _ .vmem, ⟨23, _⟩ => ⟨S512x1, .i32⟩
  | .local _ .vmem, ⟨24, _⟩ => ⟨S512x1, .i32⟩
  | .local _ .vmem, ⟨25, _⟩ => ⟨S1x512, .i32⟩
  | .local _ .vmem, ⟨26, _⟩ => ⟨S1x512, .i32⟩
  | .local _ .vmem, ⟨27, _⟩ => ⟨S512x1, .f32⟩
  | .local _ .vmem, ⟨28, _⟩ => ⟨S512x1, .f32⟩
  | .local _ .vmem, ⟨29, _⟩ => ⟨S512x1, .f32⟩
  | .local _ .vmem, ⟨30, _⟩ => ⟨S512x1, .f32⟩
  | .local _ .vmem, ⟨31, _⟩ => ⟨S512x1, .f32⟩
  | .local _ .vmem, ⟨32, _⟩ => ⟨S512x1, .f32⟩
  | .local _ .vmem, ⟨33, _⟩ => ⟨S512x1, .f32⟩
  | .local _ .vmem, ⟨34, _⟩ => ⟨S512x1, .f32⟩
  | _, _ => ⟨S1024x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13_0 : Ref sig .tc := ⟨.hbm, 15, rfl⟩
abbrev main_v13_1 : Ref sig .tc := ⟨.hbm, 16, rfl⟩
abbrev main_cst : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_stg7_0 : Ref sig .tc := ⟨.vmem, 29, rfl⟩
abbrev cc1_stg7_1 : Ref sig .tc := ⟨.vmem, 30, rfl⟩
abbrev cc1_stg8_0 : Ref sig .tc := ⟨.vmem, 31, rfl⟩
abbrev cc1_stg8_1 : Ref sig .tc := ⟨.vmem, 32, rfl⟩
abbrev cc1_scratch0 : Ref sig .tc := ⟨.vmem, 33, rfl⟩
abbrev cc1_scratch1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v36 : BitVec 1 := Scalar.cmpi .eq arg1 c7_i32
  let v37 : BitVec 32 := Scalar.extui v36
  let c0_i32_20 : BitVec 32 := 0#32
  let v38 : BitVec 1 := Scalar.cmpi .ne v37 c0_i32_20
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v53 : BitVec 1 := Scalar.cmpi .eq arg1 c7_i32
  let v54 : BitVec 32 := Scalar.extui v53
  let c0_i32_29 : BitVec 32 := 0#32
  let v55 : BitVec 1 := Scalar.cmpi .ne v54 c0_i32_29
  v55

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x512 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S512x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

class Facts₀ : Prop where
  shapeCasts_S1024x4x512_S4096x512 : S1024x4x512.ShapeCasts S4096x512
  bitsLt_bf16_f32 : FTy.bits .bf16 < FTy.bits .f32
  bcast_S1024_S1024x4_0 : S1024.BroadcastsInDim S1024x4 (![0] : Fin 1 → Fin S1024x4.rank)
  shapeCasts_S1024x4_S4096 : S1024x4.ShapeCasts S4096
  shapeCasts_S4_S1x4 : S4.ShapeCasts S1x4
  bcast_S1x4_S1024x4_0_1 : S1x4.BroadcastsInDim S1024x4 (![0, 1] : Fin 2 → Fin S1024x4.rank)
  shapeCasts_S4096_S4096x1 : S4096.ShapeCasts S4096x1
  shapeCasts_S4096_S1x4096 : S4096.ShapeCasts S1x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  reducesTo_S4096x1_S_d0_1 : S4096x1.ReducesTo [0, 1] S_
  h_S_ : 0 < S_.numel
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .bf16 = 32 ∨ (Rect.block (s := S4096x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .bf16 = 32 ∨ (Rect.block (s := S4096x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .i32 = 32 ∨ (Rect.block (s := S1x4096) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .i32 = 32 ∨ (Rect.block (s := S4096x1) S512x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .i32 = 32 ∨ (Rect.block (s := S1x4096) S1x512.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S4096x1.size a
  hwx0_6 : ∀ i : grid0.Coords, EltTy.bits .f32 = 32 ∨ (Rect.block (s := S4096x1) S512x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x512.size a
  hwx1_0 : ∀ i : grid1.Coords, EltTy.bits .bf16 = 32 ∨ (Rect.block (s := S4096x512) S512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S4096x512.size a
  hwx1_1 : ∀ i : grid1.Coords, EltTy.bits .bf16 = 32 ∨ (Rect.block (s := S4096x512) S512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .i32 = 32 ∨ (Rect.block (s := S4096x1) S512x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x4096.size a
  hwx1_3 : ∀ i : grid1.Coords, EltTy.bits .i32 = 32 ∨ (Rect.block (s := S1x4096) S1x512.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S4096x1.size a
  hwx1_4 : ∀ i : grid1.Coords, EltTy.bits .i32 = 32 ∨ (Rect.block (s := S4096x1) S512x1.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x4096.size a
  hwx1_5 : ∀ i : grid1.Coords, EltTy.bits .i32 = 32 ∨ (Rect.block (s := S1x4096) S1x512.size (cc1_transform_5 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1.size a ≤ S4096x1.size a
  hwx1_6 : ∀ i : grid1.Coords, EltTy.bits .f32 = 32 ∨ (Rect.block (s := S4096x1) S512x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x1.size a ≤ S4096x1.size a
  hwx1_7 : ∀ i : grid1.Coords, EltTy.bits .f32 = 32 ∨ (Rect.block (s := S4096x1) S512x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x1.size a ≤ S4096x1.size a
  hwx1_8 : ∀ i : grid1.Coords, EltTy.bits .f32 = 32 ∨ (Rect.block (s := S4096x1) S512x1.size (cc1_transform_8 i) (hinb1_8 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v1) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v12) S512x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v13_0) S512x1.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v13_1) S512x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun i => !(k1_cond2 i == 1#1) | 8 => fun i => !(k1_cond2 i == 1#1) | ⟨_ + 9, h⟩ => absurd h (Nat.not_lt.2 (Nat.le_add_left _ _))

class Facts : Prop extends Facts₀ where

variable [Facts]
-- ==== ReferenceIdeal.lean ====
abbrev S1024x4x512 : Shape := ⟨3, ![1024, 4, 512]⟩
abbrev S1024 : Shape := ⟨1, ![1024]⟩
abbrev S4096x512 : Shape := ⟨2, ![4096, 512]⟩
abbrev S1024x4 : Shape := ⟨2, ![1024, 4]⟩
abbrev S4096 : Shape := ⟨1, ![4096]⟩
abbrev S4 : Shape := ⟨1, ![4]⟩
abbrev S1x4 : Shape := ⟨2, ![1, 4]⟩
abbrev S512x4096 : Shape := ⟨2, ![512, 4096]⟩
abbrev S4096x4096 : Shape := ⟨2, ![4096, 4096]⟩
abbrev S4096x1 : Shape := ⟨2, ![4096, 1]⟩
abbrev S1x4096 : Shape := ⟨2, ![1, 4096]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S1024x4x512, .f32⟩
  | .hbm, ⟨1, _⟩ => ⟨S1024, .i32⟩
  | .hbm, ⟨2, _⟩ => ⟨S4096x512, .f32⟩
  | .hbm, ⟨3, _⟩ => ⟨S1024x4, .i32⟩
  | .hbm, ⟨4, _⟩ => ⟨S4096, .i32⟩
  | .hbm, ⟨5, _⟩ => ⟨S4, .i32⟩
  | .hbm, ⟨6, _⟩ => ⟨S1x4, .i32⟩
  | .hbm, ⟨7, _⟩ => ⟨S1024x4, .i32⟩
  | .hbm, ⟨8, _⟩ => ⟨S4096, .i32⟩
  | .hbm, ⟨9, _⟩ => ⟨S512x4096, .f32⟩
  | .hbm, ⟨10, _⟩ => ⟨S4096x4096, .f32⟩
  | .hbm, ⟨11, _⟩ => ⟨S4096x1, .i32⟩
  | .hbm, ⟨12, _⟩ => ⟨S1x4096, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S4096x1, .i32⟩
  | .hbm, ⟨17, _⟩ => ⟨S1x4096, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S4096x4096, .i1⟩
  | .hbm, ⟨22, _⟩ => ⟨S4096x4096, .i1⟩
  | .hbm, ⟨23, _⟩ => ⟨S4096x4096, .i1⟩
  | .hbm, ⟨24, _⟩ => ⟨S4096x4096, .i1⟩
  | .hbm, ⟨25, _⟩ => ⟨S4096x4096, .i1⟩
  | .hbm, ⟨26, _⟩ => ⟨S4096x4096, .i1⟩
  | .hbm, ⟨27, _⟩ => ⟨S4096x4096, .i1⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S_, .f32⟩
  | .hbm, ⟨58, _⟩ => ⟨S_, .f32⟩
  | .hbm, ⟨59, _⟩ => ⟨S4096x4096, .f32⟩
  | .hbm, ⟨60, _⟩ => ⟨S4096x4096, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S1024x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_cst : Ref sig .tc := ⟨.hbm, 31, rfl⟩
abbrev main_call0_v0 : Ref sig .tc := ⟨.hbm, 32, rfl⟩
abbrev main_call0_v1 : Ref sig .tc := ⟨.hbm, 33, rfl⟩
abbrev main_v29 : Ref sig .tc := ⟨.hbm, 34, rfl⟩
abbrev main_cst_0 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_call1_v0 : Ref sig .tc := ⟨.hbm, 42, rfl⟩
abbrev main_call1_v1 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_cst_3 : Ref sig .tc := ⟨.hbm, 47, rfl⟩
abbrev main_call2_v0 : Ref sig .tc := ⟨.hbm, 48, rfl⟩
abbrev main_call2_v1 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_call3_v0 : Ref sig .tc := ⟨.hbm, 58, rfl⟩
abbrev main_call3_v1 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  shapeCasts_S1024x4x512_S4096x512 : S1024x4x512.ShapeCasts S4096x512
  bcast_S1024_S1024x4_0 : S1024.BroadcastsInDim S1024x4 (![0] : Fin 1 → Fin S1024x4.rank)
  shapeCasts_S1024x4_S4096 : S1024x4.ShapeCasts S4096
  shapeCasts_S4_S1x4 : S4.ShapeCasts S1x4
  bcast_S1x4_S1024x4_0_1 : S1x4.BroadcastsInDim S1024x4 (![0, 1] : Fin 2 → Fin S1024x4.rank)
  transposes_S4096x512_S512x4096_1_0 : S4096x512.Transposes [1, 0] S512x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  h_S_ : 0 < S_.numel
  reducesTo_S4096x4096_S_d0_1 : S4096x4096.ReducesTo [0, 1] S_
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.RowSums.Cases.lean ====
/-
  The first kernel computes, for the 512 rows of row tile i, the partial row sums
    S r = Σ_j [t r ≠ t j ∧ p r ≠ p j] · exp (prod r j)
  one 512-column tile k at a time, in a 512 x 1 scratch column: the column is zeroed when k = 0, every point adds its
  tile's lane sums to it, and the point k = 7 copies it to the output block. A grid point t = 8·i + k is therefore in
  one of three cases: the first column tile (k = 0: zero, then add), a middle one (0 < k < 7: add), the last (k = 7: add,
  then copy out). This module decides, over the 64 grid points, which points are in which case, where the output
  window is idle and where its block is written back, and names the buffers the body is called with.
-/
import proofs.«134967_j48713519072039_1_alg».proof.Proof.Gen.KernelIdeal.Launch
import proofs.«134967_j48713519072039_1_alg».proof.Proof.Gen.KernelIdeal.Skeleton
import proofs.«134967_j48713519072039_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.RowSums

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two conditions of the body, from the grid coordinates -/

/-- "This is the first column tile": the body's test k = 0, as it computes it from the second grid coordinate. -/
abbrev isFirst (i : grid0.Coords) : Prop :=
  (Scalar.cmpi .ne (Scalar.extui (Scalar.cmpi .eq (BitVec.ofNat 32 (i 1).val) 0#32)) 0#32) = 1#1

/-- "This is the last column tile": the body's test k = 7. -/
abbrev isLast (i : grid0.Coords) : Prop := k0_cond2 i = 1#1

/-- Point t = 8·i + k is a first column tile exactly when k = 0. -/
theorem isFirst_iff : ∀ t : Fin cfg0.N, isFirst (grid0.coords t) ↔ t.val % 8 = 0 :=
  (by decide +kernel : ∀ t : Fin grid0.N, isFirst (grid0.coords t) ↔ t.val % 8 = 0)

/-- Point t = 8·i + k is a last column tile exactly when k = 7. -/
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- Before the last column tile nothing is stored into the output block: the window is idle there, -/
theorem idle6_of_not_last : ∀ t : Fin cfg0.N, ¬isLast (grid0.coords t) → cfg0.idle 6 (grid0.coords t) = true := by decide +kernel
/-- and its block is not written back there. -/
theorem noFlush6_of_not_last : ∀ t : Fin cfg0.N, ¬isLast (grid0.coords t) → (cfg0.win 6).flush t = false := by decide +kernel
/-- At the last column tile the output block is stored into -/
theorem live6_of_last : ∀ t : Fin cfg0.N, isLast (grid0.coords t) → cfg0.idle 6 (grid0.coords t) = false := by decide +kernel
/-- and written back. -/
theorem flush6_of_last : ∀ t : Fin cfg0.N, isLast (grid0.coords t) → (cfg0.win 6).flush t = true := by decide +kernel

/-! ## The buffers the body is called with at a point -/

abbrev ms0 (t : Fin cfg0.N) : Memref sig .tc .vmem S512x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x1 .f32 := win0_6.stage (cfg0.slots t 6)
abbrev hs6 (t : Fin cfg0.N) : (ms6 t).IsWhole := hstage0_6 ((cfg0.slots t 6).cast nbuf0_6)
/-- The scratch column that carries the partial row sums from one column tile to the next. -/
abbrev acc : Memref sig .tc .vmem S512x1 .f32 := Memref.whole cc0_scratch0
abbrev accView : View sig .tc .vmem S512x1 .f32 := (acc).view
/-- One staging buffer of the output window, through which its contents are stated. -/
abbrev outView : View sig .tc .vmem S512x1 .f32 := (Memref.whole cc0_stg6_0 : Memref sig .tc .vmem S512x1 .f32).view

end Cert.KernelIdeal.RowSums

end
-- ==== Proof.RowSums.RunFirst.lean ====
/-
  The body of the first kernel at a first column tile (k = 0, which is not the last): it zeroes the scratch column,
  loads the two 512 x 512 tiles of X and the label and part columns and rows, and stores into the scratch column the
  zero column plus the tile's lane sums. The output block is not touched. What the scratch column holds afterwards is
  recorded as the list of stores made into it.
-/
import proofs.«134967_j48713519072039_1_alg».proof.Proof.RowSums.Cases

set_option maxRecDepth 16384

noncomputable section

namespace Cert.KernelIdeal.RowSums

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.RowSums

set_option maxHeartbeats 2000000 in
/-- The run at a first column tile: from the six input buffers at their contents and the scratch column at anything, to
    the inputs as they were and the scratch column with its stores written. -/
noncomputable def runFirst (c : Dev nD) (i : grid0.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole)
    (hf : isFirst i) (hl : ¬isLast i) (x0 x1 : Vec F S512x512 .bf16) (t0 : Vec F S512x1 .i32) (t1 : Vec F S1x512 .i32) (p0 : Vec F S512x1 .i32) (p1 : Vec F S1x512 .i32) :
    { LS : List (View.Piece (Elt F) S512x1 .f32) //
      ∀ (E : Set ℕ) (K : PUnit → sProp 𝕄),
        iprop(owns (c : Thread nD τ) a2 fullShare x0 ∗ owns (c : Thread nD τ) a3 fullShare x1 ∗ owns (c : Thread nD τ) a4 fullShare t0 ∗ owns (c : Thread nD τ) a5 fullShare t1 ∗ owns (c : Thread nD τ) a6 fullShare p0 ∗ owns (c : Thread nD τ) a7 fullShare p1 ∗ (∃ d, owns (c : Thread nD τ) a9 fullShare d)
            ∗ (iprop(owns (c : Thread nD τ) a2 fullShare x0 ∗ owns (c : Thread nD τ) a3 fullShare x1 ∗ owns (c : Thread nD τ) a4 fullShare t0 ∗ owns (c : Thread nD τ) a5 fullShare t1 ∗ owns (c : Thread nD τ) a6 fullShare p0 ∗ owns (c : Thread nD τ) a7 fullShare p1 ∗ (∃ f, a9.view.loc (c : Thread nD τ) ↦[a9.view.set]{fullShare} a9.view.writes (Elt F) f LS)) -∗ K ⟨⟩))
          ⊢ wp frame (wpE (defs₀ (F := F)) Variants.none c none) E (cc0__s_kernel i a2 h2 a3 h3 a4 h4 a5 h5 a6 h6 a7 h7 a8 h8 a9 h9) K } := by
  refine ⟨?_, fun E K => ?run⟩
  case run =>
    simp only [cc0__s_kernel_eq_skeleton]; unfold cc0__s_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d9, %f9, -, H9⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    iexists _; iexact H9

end Cert.KernelIdeal.RowSums

end
-- ==== Proof.RowSums.RunMiddle.lean ====
/-
  The body of the first kernel at a middle column tile (0 < k < 7): it loads the two tiles of X, the label and part
  columns and rows and the scratch column, and stores back into the scratch column what it held plus the tile's lane
  sums. The output block is not touched.
-/
import proofs.«134967_j48713519072039_1_alg».proof.Proof.RowSums.Cases

set_option maxRecDepth 16384

noncomputable section

namespace Cert.KernelIdeal.RowSums

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.RowSums

set_option maxHeartbeats 2000000 in
/-- The run at a middle column tile: from the six input buffers at their contents and the scratch column at `s`, to
    the inputs as they were and the scratch column with its stores written. -/
noncomputable def runMiddle (c : Dev nD) (i : grid0.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole)
    (hf : ¬isFirst i) (hl : ¬isLast i) (x0 x1 : Vec F S512x512 .bf16) (t0 : Vec F S512x1 .i32) (t1 : Vec F S1x512 .i32) (p0 : Vec F S512x1 .i32) (p1 : Vec F S1x512 .i32) (s : Vec F S512x1 .f32) :
    { LS : List (View.Piece (Elt F) S512x1 .f32) //
      ∀ (E : Set ℕ) (K : PUnit → sProp 𝕄),
        iprop(owns (c : Thread nD τ) a2 fullShare x0 ∗ owns (c : Thread nD τ) a3 fullShare x1 ∗ owns (c : Thread nD τ) a4 fullShare t0 ∗ owns (c : Thread nD τ) a5 fullShare t1 ∗ owns (c : Thread nD τ) a6 fullShare p0 ∗ owns (c : Thread nD τ) a7 fullShare p1 ∗ owns (c : Thread nD τ) a9 fullShare s
            ∗ (iprop(owns (c : Thread nD τ) a2 fullShare x0 ∗ owns (c : Thread nD τ) a3 fullShare x1 ∗ owns (c : Thread nD τ) a4 fullShare t0 ∗ owns (c : Thread nD τ) a5 fullShare t1 ∗ owns (c : Thread nD τ) a6 fullShare p0 ∗ owns (c : Thread nD τ) a7 fullShare p1 ∗ (∃ f, a9.view.loc (c : Thread nD τ) ↦[a9.view.set]{fullShare} a9.view.writes (Elt F) f LS)) -∗ K ⟨⟩))
          ⊢ wp frame (wpE (defs₀ (F := F)) Variants.none c none) E (cc0__s_kernel i a2 h2 a3 h3 a4 h4 a5 h5 a6 h6 a7 h7 a8 h8 a9 h9) K } := by
  refine ⟨?_, fun E K => ?run⟩
  case run =>
    simp only [cc0__s_kernel_eq_skeleton]; unfold cc0__s_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f9, %hf9, H9⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    obtain rfl := h9.eq_unread hf9
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    iexists _; iexact H9

end Cert.KernelIdeal.RowSums

end
-- ==== Proof.RowSums.RunLast.lean ====
/-
  The body of the first kernel at the last column tile (k = 7): as at a middle tile it adds the tile's lane sums to
  the scratch column, and then copies the scratch column into the output block, which the pipeline writes back.
-/
import proofs.«134967_j48713519072039_1_alg».proof.Proof.RowSums.Cases

set_option maxRecDepth 16384

noncomputable section

namespace Cert.KernelIdeal.RowSums

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.RowSums

set_option maxHeartbeats 2000000 in
/-- The run at the last column tile: from the six input buffers at their contents, the scratch column at `s` and the
    output block at anything, to the inputs as they were and the output block and the scratch column each with its
    stores written. -/
noncomputable def runLast (c : Dev nD) (i : grid0.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole)
    (hf : ¬isFirst i) (hl : isLast i) (x0 x1 : Vec F S512x512 .bf16) (t0 : Vec F S512x1 .i32) (t1 : Vec F S1x512 .i32) (p0 : Vec F S512x1 .i32) (p1 : Vec F S1x512 .i32) (s : Vec F S512x1 .f32) :
    Σ' (LO : List (View.Piece (Elt F) S512x1 .f32)), { LS : List (View.Piece (Elt F) S512x1 .f32) //
      ∀ (E : Set ℕ) (K : PUnit → sProp 𝕄),
        iprop(owns (c : Thread nD τ) a2 fullShare x0 ∗ owns (c : Thread nD τ) a3 fullShare x1 ∗ owns (c : Thread nD τ) a4 fullShare t0 ∗ owns (c : Thread nD τ) a5 fullShare t1 ∗ owns (c : Thread nD τ) a6 fullShare p0 ∗ owns (c : Thread nD τ) a7 fullShare p1 ∗ (∃ d, owns (c : Thread nD τ) a8 fullShare d) ∗ owns (c : Thread nD τ) a9 fullShare s
            ∗ (iprop(owns (c : Thread nD τ) a2 fullShare x0 ∗ owns (c : Thread nD τ) a3 fullShare x1 ∗ owns (c : Thread nD τ) a4 fullShare t0 ∗ owns (c : Thread nD τ) a5 fullShare t1 ∗ owns (c : Thread nD τ) a6 fullShare p0 ∗ owns (c : Thread nD τ) a7 fullShare p1 ∗ (∃ f, a8.view.loc (c : Thread nD τ) ↦[a8.view.set]{fullShare} a8.view.writes (Elt F) f LO)
                ∗ (∃ f, a9.view.loc (c : Thread nD τ) ↦[a9.view.set]{fullShare} a9.view.writes (Elt F) f LS)) -∗ K ⟨⟩))
          ⊢ wp frame (wpE (defs₀ (F := F)) Variants.none c none) E (cc0__s_kernel i a2 h2 a3 h3 a4 h4 a5 h5 a6 h6 a7 h7 a8 h8 a9 h9) K } := by
  refine ⟨?_, ?_, fun E K => ?run⟩
  case run =>
    simp only [cc0__s_kernel_eq_skeleton]; unfold cc0__s_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%f9, %hf9, H9⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    obtain rfl := h9.eq_unread hf9
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H8]; · iexists _; iexact H8
    iexists _; iexact H9

end Cert.KernelIdeal.RowSums

end
-- ==== Proof.RowSums.Contents.lean ====
/-
  What the first kernel's scratch column and output block hold after each grid point.

  Each case's run records the stores it made; they tile the 512 x 1 buffer, so reading them back gives the buffer's
  contents whatever it held before. Point by point: at a first column tile the scratch column is that case's contents
  of the point's six input blocks; at a middle or last tile it is that case's contents of the input blocks and of what
  the point before left in the scratch column; at a last tile the output block is what that case stores into it.
-/
import proofs.«134967_j48713519072039_1_alg».proof.Proof.RowSums.RunFirst
import proofs.«134967_j48713519072039_1_alg».proof.Proof.RowSums.RunMiddle
import proofs.«134967_j48713519072039_1_alg».proof.Proof.RowSums.RunLast

set_option maxRecDepth 16384

noncomputable section

namespace Cert.KernelIdeal.RowSums

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.RowSums

/-! ## The stores of each case cover the buffer they are made into -/

theorem coverFirst (c : Dev nD) (i : grid0.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (hf : isFirst i) (hl : ¬isLast i) (x0 x1 : Vec F S512x512 .bf16) (t0 : Vec F S512x1 .i32) (t1 : Vec F S1x512 .i32) (p0 : Vec F S512x1 .i32) (p1 : Vec F S1x512 .i32) (y : S512x1.Idx) :
    ∃ pc ∈ (runFirst c i a2 h2 a3 h3 a4 h4 a5 h5 a6 h6 a7 h7 a8 h8 a9 h9 hf hl x0 x1 t0 t1 p0 p1).1, y ∈ pc.1.set :=
  View.cover_of_tiledL (runFirst c i a2 h2 a3 h3 a4 h4 a5 h5 a6 h6 a7 h7 a8 h8 a9 h9 hf hl x0 x1 t0 t1 p0 p1).1 S512x1.size (by sl_kernel_rfl) y

theorem coverMiddle (c : Dev nD) (i : grid0.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (hf : ¬isFirst i) (hl : ¬isLast i) (x0 x1 : Vec F S512x512 .bf16) (t0 : Vec F S512x1 .i32) (t1 : Vec F S1x512 .i32) (p0 : Vec F S512x1 .i32) (p1 : Vec F S1x512 .i32) (s : Vec F S512x1 .f32) (y : S512x1.Idx) :
    ∃ pc ∈ (runMiddle c i a2 h2 a3 h3 a4 h4 a5 h5 a6 h6 a7 h7 a8 h8 a9 h9 hf hl x0 x1 t0 t1 p0 p1 s).1, y ∈ pc.1.set :=
  View.cover_of_tiledL (runMiddle c i a2 h2 a3 h3 a4 h4 a5 h5 a6 h6 a7 h7 a8 h8 a9 h9 hf hl x0 x1 t0 t1 p0 p1 s).1 S512x1.size (by sl_kernel_rfl) y

theorem coverLastAcc (c : Dev nD) (i : grid0.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (hf : ¬isFirst i) (hl : isLast i) (x0 x1 : Vec F S512x512 .bf16) (t0 : Vec F S512x1 .i32) (t1 : Vec F S1x512 .i32) (p0 : Vec F S512x1 .i32) (p1 : Vec F S1x512 .i32) (s : Vec F S512x1 .f32) (y : S512x1.Idx) :
    ∃ pc ∈ (runLast c i a2 h2 a3 h3 a4 h4 a5 h5 a6 h6 a7 h7 a8 h8 a9 h9 hf hl x0 x1 t0 t1 p0 p1 s).2.1, y ∈ pc.1.set :=
  View.cover_of_tiledL (runLast c i a2 h2 a3 h3 a4 h4 a5 h5 a6 h6 a7 h7 a8 h8 a9 h9 hf hl x0 x1 t0 t1 p0 p1 s).2.1 S512x1.size (by sl_kernel_rfl) y

theorem coverLastOut (c : Dev nD) (i : grid0.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (hf : ¬isFirst i) (hl : isLast i) (x0 x1 : Vec F S512x512 .bf16) (t0 : Vec F S512x1 .i32) (t1 : Vec F S1x512 .i32) (p0 : Vec F S512x1 .i32) (p1 : Vec F S1x512 .i32) (s : Vec F S512x1 .f32) (y : S512x1.Idx) :
    ∃ pc ∈ (runLast c i a2 h2 a3 h3 a4 h4 a5 h5 a6 h6 a7 h7 a8 h8 a9 h9 hf hl x0 x1 t0 t1 p0 p1 s).1, y ∈ pc.1.set :=
  View.cover_of_tiledL (runLast c i a2 h2 a3 h3 a4 h4 a5 h5 a6 h6 a7 h7 a8 h8 a9 h9 hf hl x0 x1 t0 t1 p0 p1 s).1 S512x1.size (by sl_kernel_rfl) y

/-! ## What each case leaves -/

/-- The scratch column after a first column tile. -/
def accFirst (c : Dev nD) (i : grid0.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (hf : isFirst i) (hl : ¬isLast i) (x0 x1 : Vec F S512x512 .bf16) (t0 : Vec F S512x1 .i32) (t1 : Vec F S1x512 .i32) (p0 : Vec F S512x1 .i32) (p1 : Vec F S1x512 .i32) : Vec F S512x1 .f32 :=
  accView.read (Elt F) (accView.writes (Elt F) accView.junk (runFirst c i a2 h2 a3 h3 a4 h4 a5 h5 a6 h6 a7 h7 a8 h8 a9 h9 hf hl x0 x1 t0 t1 p0 p1).1)

/-- The scratch column after a middle column tile that found `s` in it. -/
def accMiddle (c : Dev nD) (i : grid0.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (hf : ¬isFirst i) (hl : ¬isLast i) (x0 x1 : Vec F S512x512 .bf16) (t0 : Vec F S512x1 .i32) (t1 : Vec F S1x512 .i32) (p0 : Vec F S512x1 .i32) (p1 : Vec F S1x512 .i32) (s : Vec F S512x1 .f32) : Vec F S512x1 .f32 :=
  accView.read (Elt F) (accView.writes (Elt F) accView.junk (runMiddle c i a2 h2 a3 h3 a4 h4 a5 h5 a6 h6 a7 h7 a8 h8 a9 h9 hf hl x0 x1 t0 t1 p0 p1 s).1)

/-- The scratch column after the last column tile that found `s` in it. -/
def accLast (c : Dev nD) (i : grid0.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (hf : ¬isFirst i) (hl : isLast i) (x0 x1 : Vec F S512x512 .bf16) (t0 : Vec F S512x1 .i32) (t1 : Vec F S1x512 .i32) (p0 : Vec F S512x1 .i32) (p1 : Vec F S1x512 .i32) (s : Vec F S512x1 .f32) : Vec F S512x1 .f32 :=
  accView.read (Elt F) (accView.writes (Elt F) accView.junk (runLast c i a2 h2 a3 h3 a4 h4 a5 h5 a6 h6 a7 h7 a8 h8 a9 h9 hf hl x0 x1 t0 t1 p0 p1 s).2.1)

/-- The output block after the last column tile. -/
def outLast (c : Dev nD) (i : grid0.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (hf : ¬isFirst i) (hl : isLast i) (x0 x1 : Vec F S512x512 .bf16) (t0 : Vec F S512x1 .i32) (t1 : Vec F S1x512 .i32) (p0 : Vec F S512x1 .i32) (p1 : Vec F S1x512 .i32) (s : Vec F S512x1 .f32) : Vec F S512x1 .f32 :=
  outView.read (Elt F) (outView.writes (Elt F) outView.junk (runLast c i a2 h2 a3 h3 a4 h4 a5 h5 a6 h6 a7 h7 a8 h8 a9 h9 hf hl x0 x1 t0 t1 p0 p1 s).1)

/-! ## Point by point -/

section Points

variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch column after the body at point `n`. -/
def accAt (c : Dev nD) : (n : ℕ) → n < cfg0.N → Vec F S512x1 .f32
  | 0, hn => accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) acc (Memref.isWhole_whole _) ((isFirst_iff ⟨0, hn⟩).mpr (Nat.zero_mod _)) (fun h => by have := (isLast_iff ⟨0, hn⟩).mp h; simp at this) (blk V c 0 ⟨0, hn⟩) (blk V c 1 ⟨0, hn⟩) (blk V c 2 ⟨0, hn⟩) (blk V c 3 ⟨0, hn⟩) (blk V c 4 ⟨0, hn⟩) (blk V c 5 ⟨0, hn⟩)
  | n + 1, hn =>
    if h0 : (n + 1) % 8 = 0 then
      accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) acc (Memref.isWhole_whole _) ((isFirst_iff ⟨n + 1, hn⟩).mpr h0) (fun h => by have := (isLast_iff ⟨n + 1, hn⟩).mp h; dsimp only at this; omega) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩)
    else if h7 : (n + 1) % 8 = 7 then
      accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) acc (Memref.isWhole_whole _) (fun h => h0 ((isFirst_iff ⟨n + 1, hn⟩).mp h)) ((isLast_iff ⟨n + 1, hn⟩).mpr h7) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (accAt c n (Nat.lt_of_succ_lt hn))
    else
      accMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) acc (Memref.isWhole_whole _) (fun h => h0 ((isFirst_iff ⟨n + 1, hn⟩).mp h)) (fun h => h7 ((isLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (accAt c n (Nat.lt_of_succ_lt hn))

/-- The output block after the body at a last column tile `n` (elsewhere the block is idle and this is not consulted). -/
def outAt (c : Dev nD) (n : ℕ) (hn : n < cfg0.N) : Vec F S512x1 .f32 :=
  if h7 : n % 8 = 7 then
    outLast c (grid0.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) (ms4 ⟨n, hn⟩) (hs4 ⟨n, hn⟩) (ms5 ⟨n, hn⟩) (hs5 ⟨n, hn⟩) (ms6 ⟨n, hn⟩) (hs6 ⟨n, hn⟩) acc (Memref.isWhole_whole _) (fun h => by have := (isFirst_iff ⟨n, hn⟩).mp h; dsimp only at this; omega) ((isLast_iff ⟨n, hn⟩).mpr h7) (blk V c 0 ⟨n, hn⟩) (blk V c 1 ⟨n, hn⟩) (blk V c 2 ⟨n, hn⟩) (blk V c 3 ⟨n, hn⟩) (blk V c 4 ⟨n, hn⟩) (blk V c 5 ⟨n, hn⟩) (accAt V c (n - 1) (by omega))
  else accAt V c n hn

end Points

end Cert.KernelIdeal.RowSums

end
-- ==== Proof.RowSums.Data.lean ====
/-
  The first kernel's pipeline, point by point: its proof data and the body obligation.

  The two windows on X (the row tile and the column tile) read one array, so each holds half of its share. After the
  body at a point each input buffer holds its block; the output block holds what the last column tile stores into it
  (before that the window is idle and the buffer is left as found). The invariant carries the scratch column: before
  the first point it holds anything, after point n it holds the running partial row sums of n's row tile.
-/
import proofs.«134967_j48713519072039_1_alg».proof.Proof.RowSums.Contents
import Idealize.ShloMosaic.Lib.Pipeline.Frame

set_option maxRecDepth 16384

noncomputable section

namespace Cert.KernelIdeal.RowSums

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.RowSums

section

variable (V : (c : Dev nD) → (b : Ref sig .tc) → Buf (Elt F) ((c : Thread nD τ).loc b))

/-! ## The recursion, case by case -/

theorem accAt_first (c : Dev nD) (t : Fin cfg0.N) (h0 : t.val % 8 = 0) :
    accAt V c t.val t.isLt = accFirst c (grid0.coords t) (ms0 t) (hs0 t) (ms1 t) (hs1 t) (ms2 t) (hs2 t) (ms3 t) (hs3 t) (ms4 t) (hs4 t) (ms5 t) (hs5 t) (ms6 t) (hs6 t) acc (Memref.isWhole_whole _) ((isFirst_iff t).mpr h0) (fun h => by have := (isLast_iff t).mp h; omega) (blk V c 0 t) (blk V c 1 t) (blk V c 2 t) (blk V c 3 t) (blk V c 4 t) (blk V c 5 t) := by
  obtain ⟨n, hn⟩ := t
  cases n with
  | zero => rfl
  | succ n => exact (dif_pos h0)

theorem accAt_middle (c : Dev nD) (t : Fin cfg0.N) (h0 : ¬t.val % 8 = 0) (h7 : ¬t.val % 8 = 7) :
    accAt V c t.val t.isLt = accMiddle c (grid0.coords t) (ms0 t) (hs0 t) (ms1 t) (hs1 t) (ms2 t) (hs2 t) (ms3 t) (hs3 t) (ms4 t) (hs4 t) (ms5 t) (hs5 t) (ms6 t) (hs6 t) acc (Memref.isWhole_whole _) (fun h => h0 ((isFirst_iff t).mp h)) (fun h => h7 ((isLast_iff t).mp h)) (blk V c 0 t) (blk V c 1 t) (blk V c 2 t) (blk V c 3 t) (blk V c 4 t) (blk V c 5 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h7).trans rfl)

theorem accAt_last (c : Dev nD) (t : Fin cfg0.N) (h0 : ¬t.val % 8 = 0) (h7 : t.val % 8 = 7) :
    accAt V c t.val t.isLt = accLast c (grid0.coords t) (ms0 t) (hs0 t) (ms1 t) (hs1 t) (ms2 t) (hs2 t) (ms3 t) (hs3 t) (ms4 t) (hs4 t) (ms5 t) (hs5 t) (ms6 t) (hs6 t) acc (Memref.isWhole_whole _) (fun h => h0 ((isFirst_iff t).mp h)) ((isLast_iff t).mpr h7) (blk V c 0 t) (blk V c 1 t) (blk V c 2 t) (blk V c 3 t) (blk V c 4 t) (blk V c 5 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h7).trans rfl)

theorem outAt_last (c : Dev nD) (t : Fin cfg0.N) (h0 : ¬t.val % 8 = 0) (h7 : t.val % 8 = 7) :
    outAt V c t.val t.isLt = outLast c (grid0.coords t) (ms0 t) (hs0 t) (ms1 t) (hs1 t) (ms2 t) (hs2 t) (ms3 t) (hs3 t) (ms4 t) (hs4 t) (ms5 t) (hs5 t) (ms6 t) (hs6 t) acc (Memref.isWhole_whole _) (fun h => h0 ((isFirst_iff t).mp h)) ((isLast_iff t).mpr h7) (blk V c 0 t) (blk V c 1 t) (blk V c 2 t) (blk V c 3 t) (blk V c 4 t) (blk V c 5 t)
      (accAt V c (t.val - 1) (Nat.lt_of_le_of_lt (Nat.sub_le _ _) t.isLt)) := by
  unfold outAt; exact dif_pos h7

/-! ## The invariant -/

/-- The core's scoped buffers other than this kernel's staging buffers and its scratch column, at anything: the other
    kernel's staging buffers and scratch columns, which this kernel does not touch. -/
abbrev others (c : Dev nD) : sProp 𝕄 :=
  Pipeline.scopedRestBut (Ix := Unit) (Name := ℕ) (U := UR sig nD τ) (Lvl := ℕ) (Val := Elt F) spec0 c [cc0_scratch0]

/-- What the region hands the kernel — every scoped buffer that is no staging buffer at anything, and the generator
    register — is the scratch column at anything, the others, and the register. -/
theorem PhiA_eq (c : Dev nD) :
    (Pipeline.ΦA spec0 c : sProp 𝕄)
      = iprop(((∃ d, owns (c : Thread nD τ) acc fullShare d) ∗ others c) ∗ (∃ r, prngReg c r)) := by
  unfold Pipeline.ΦA
  rw [Pipeline.scopedRest_split_of_list spec0 c [cc0_scratch0] (by decide) (by decide)]
  simp only [Idealize.SL.BI.bigSepL_singleton, acc, owns_whole]
  try rfl

/-- The invariant before position `n`: before the first point what the region hands the kernel; afterwards the scratch
    column at what the point before left in it, the other scoped buffers at anything, the generator register at some
    state. -/
def PhiS (c : Dev nD) : (n : ℕ) → n ≤ cfg0.N → sProp 𝕄
  | 0, _ => Pipeline.ΦA spec0 c
  | n + 1, hn => iprop((owns (c : Thread nD τ) acc fullShare (accAt V c n hn) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) acc fullShare (accAt V c n hn) ∗ others c) ∗ (∃ r, prngReg c r)) := rfl

theorem PhiS_pos (c : Dev nD) (n : ℕ) (h : n ≤ cfg0.N) (hz : n ≠ 0) :
    PhiS V c n h = iprop((owns (c : Thread nD τ) acc fullShare (accAt V c (n - 1) (by omega)) ∗ others c) ∗ (∃ r, prngReg c r)) := by
  cases n with
  | zero => exact absurd rfl hz
  | succ n => rfl

/-! ## The proof data -/

/-- The proof data of the first kernel's pipeline on core `c`, at the contents `V` the region finds. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => outAt V c t.val t.isLt
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = blk V c 3 t := by dsimp only [dat]
theorem after4 (c : Dev nD) (t : Fin cfg0.N) : (dat V c).after 4 t = blk V c 4 t := by dsimp only [dat]
theorem after5 (c : Dev nD) (t : Fin cfg0.N) : (dat V c).after 5 t = blk V c 5 t := by dsimp only [dat]
theorem after6 (c : Dev nD) (t : Fin cfg0.N) : (dat V c).after 6 t = outAt V c t.val t.isLt := by dsimp only [dat]

/-! ## What the body finds in the input buffers: each one's block, fetched at the point or not -/

theorem before0 (c : Dev nD) (t : Fin cfg0.N) (d) : (dat V c).before 0 t d = blk V c 0 t :=
  ((dat V c).before_in_eq_fetched 0 rfl (fun _ => rfl) (fun _ _ _ => rfl)
    (fun t => by rw [after0]; unfold Dat.blockOf blk; rw [A_eq]; try rfl) t d).trans
    (by unfold Dat.fetched Dat.blockOf blk; rw [A_eq]; try rfl)
theorem before1 (c : Dev nD) (t : Fin cfg0.N) (d) : (dat V c).before 1 t d = blk V c 1 t :=
  ((dat V c).before_in_eq_fetched 1 rfl (fun _ => rfl) (fun _ _ _ => rfl)
    (fun t => by rw [after1]; unfold Dat.blockOf blk; rw [A_eq]; try rfl) t d).trans
    (by unfold Dat.fetched Dat.blockOf blk; rw [A_eq]; try rfl)
theorem before2 (c : Dev nD) (t : Fin cfg0.N) (d) : (dat V c).before 2 t d = blk V c 2 t :=
  ((dat V c).before_in_eq_fetched 2 rfl (fun _ => rfl) (fun _ _ _ => rfl)
    (fun t => by rw [after2]; unfold Dat.blockOf blk; rw [A_eq]; try rfl) t d).trans
    (by unfold Dat.fetched Dat.blockOf blk; rw [A_eq]; try rfl)
theorem before3 (c : Dev nD) (t : Fin cfg0.N) (d) : (dat V c).before 3 t d = blk V c 3 t :=
  ((dat V c).before_in_eq_fetched 3 rfl (fun _ => rfl) (fun _ _ _ => rfl)
    (fun t => by rw [after3]; unfold Dat.blockOf blk; rw [A_eq]; try rfl) t d).trans
    (by unfold Dat.fetched Dat.blockOf blk; rw [A_eq]; try rfl)
theorem before4 (c : Dev nD) (t : Fin cfg0.N) (d) : (dat V c).before 4 t d = blk V c 4 t :=
  ((dat V c).before_in_eq_fetched 4 rfl (fun _ => rfl) (fun _ _ _ => rfl)
    (fun t => by rw [after4]; unfold Dat.blockOf blk; rw [A_eq]; try rfl) t d).trans
    (by unfold Dat.fetched Dat.blockOf blk; rw [A_eq]; try rfl)
theorem before5 (c : Dev nD) (t : Fin cfg0.N) (d) : (dat V c).before 5 t d = blk V c 5 t :=
  ((dat V c).before_in_eq_fetched 5 rfl (fun _ => rfl) (fun _ _ _ => rfl)
    (fun t => by rw [after5]; unfold Dat.blockOf blk; rw [A_eq]; try rfl) t d).trans
    (by unfold Dat.fetched Dat.blockOf blk; rw [A_eq]; try rfl)

/-! ## The body obligation at a point -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 8000000 in
/-- The body at any point. The input buffers hold their blocks; the point's case is read off its position; the invariant
    hands the body the scratch column at what the point before left (at anything before the first point) and takes it
    back at this point's contents; the output block is handed back as found except at a last column tile, where it
    holds what the body stored; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  rw [show (dat V c).leavesExact 3 t = owns (c : Thread nD τ) (ms3 t) fullShare ((dat V c).after 3 t) from by
    unfold Dat.leavesExact; rw [live3 t], after3]
  rw [show (dat V c).leavesExact 4 t = owns (c : Thread nD τ) (ms4 t) fullShare ((dat V c).after 4 t) from by
    unfold Dat.leavesExact; rw [live4 t], after4]
  rw [show (dat V c).leavesExact 5 t = owns (c : Thread nD τ) (ms5 t) fullShare ((dat V c).after 5 t) from by
    unfold Dat.leavesExact; rw [live5 t], after5]
  by_cases h0 : t.val % 8 = 0
  · have h7 : ¬t.val % 8 = 7 := by omega
    rw [Dat.leavesExact_idle (dat V c) 6 t (idle6_of_not_last t (fun h => h7 ((isLast_iff t).mp h))) (noFlush6_of_not_last t (fun h => h7 ((isLast_iff t).mp h)))]
    rw [accAt_first V c t h0]
    unfold accFirst
    by_cases hz : t.val = 0
    · rw [PhiS_castSucc V c t, PhiS_zero V c _ _ hz, PhiA_eq]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) _ _ _ _ _ _ _ _ _ _ _ _ _ _ _ _ ((isFirst_iff t).mpr h0) (fun h => h7 ((isLast_iff t).mp h)) (blk V c 0 t) (blk V c 1 t) (blk V c 2 t) (blk V c 3 t) (blk V c 4 t) (blk V c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS Hoth]
        · isplitl [HS]
          · unfold owns; iexists _; isplitr
            swap; · iexact HS
            ipureintro; exact View.read_writes_of_cover _ _ _ _ _ (coverFirst c _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) _ _ _ _ _ _ _ _ _ _ _ _ _ _ _ _ ((isFirst_iff t).mpr h0) (fun h => h7 ((isLast_iff t).mp h)) (blk V c 0 t) (blk V c 1 t) (blk V c 2 t) (blk V c 3 t) (blk V c 4 t) (blk V c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hoth Hg]
      · isplitl [HS Hoth]
        · isplitl [HS]
          · unfold owns; iexists _; isplitr
            swap; · iexact HS
            ipureintro; exact View.read_writes_of_cover _ _ _ _ _ (coverFirst c _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h7 : t.val % 8 = 7
    · rw [show (dat V c).leavesExact 6 t = owns (c : Thread nD τ) (ms6 t) fullShare ((dat V c).after 6 t) from by
        unfold Dat.leavesExact; rw [live6_of_last t ((isLast_iff t).mpr h7)], after6]
      rw [accAt_last V c t h0 h7, outAt_last V c t h0 h7]
      unfold accLast outLast
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid0.coords t) _ _ _ _ _ _ _ _ _ _ _ _ _ _ _ _ (fun h => h0 ((isFirst_iff t).mp h)) ((isLast_iff t).mpr h7) (blk V c 0 t) (blk V c 1 t) (blk V c 2 t) (blk V c 3 t) (blk V c 4 t) (blk V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%eo, H6⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverLastAcc c _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverLastOut c _ _ _ _ _ _ _ _ _ _ _ _ _ _ _ _ _ _ _ _ _ _ _ _ _ _)
    · rw [Dat.leavesExact_idle (dat V c) 6 t (idle6_of_not_last t (fun h => h7 ((isLast_iff t).mp h))) (noFlush6_of_not_last t (fun h => h7 ((isLast_iff t).mp h)))]
      rw [accAt_middle V c t h0 h7]
      unfold accMiddle
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runMiddle c (grid0.coords t) _ _ _ _ _ _ _ _ _ _ _ _ _ _ _ _ (fun h => h0 ((isFirst_iff t).mp h)) (fun h => h7 ((isLast_iff t).mp h)) (blk V c 0 t) (blk V c 1 t) (blk V c 2 t) (blk V c 3 t) (blk V c 4 t) (blk V c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS Hoth]
        · isplitl [HS]
          · unfold owns; iexists _; isplitr
            swap; · iexact HS
            ipureintro; exact View.read_writes_of_cover _ _ _ _ _ (coverMiddle c _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dat (F := F) V c) (defs₀ (F := F)) Variants.none () Set.univ := fun t => by
  rw [bigSep_W0, bigSep_W0]
  exact sound_body V c t

/-! ## Into the invariant and out of it -/

theorem Phi_in (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives back what the region handed the kernel: the scratch column's contents are
    forgotten. -/
theorem Phi_out (c : Dev nD) : (dat V c).Φ (Fin.last cfg0.N) ⊢ Pipeline.ΦA spec0 c := by
  have hne : (Fin.last cfg0.N).val ≠ 0 := by rw [Fin.val_last]; have : cfg0.N = 64 := N_0; omega
  rw [show (dat V c).Φ (Fin.last cfg0.N) = PhiS V c (Fin.last cfg0.N).val (Nat.le_of_lt_succ (Fin.last cfg0.N).isLt) from rfl,
    PhiS_pos V c _ _ hne, PhiA_eq]
  iintro ⟨⟨HS, Hoth⟩, Hg⟩
  isplitl [HS Hoth]
  · isplitl [HS]
    · iexists _; iexact HS
    iexact Hoth
  iexact Hg

end

end Cert.KernelIdeal.RowSums

end
-- ==== Proof.Losses.Cases.lean ====
/-
  The second kernel computes, for the 512 rows of row tile i and with the row sums S r of the first kernel as an input,
  the two partial row sums
    Lsadc r = Σ_j [t r ≠ t j ∧ p r = p j] · log1p (S r · exp (0 - prod r j))
    Ldasc r = Σ_j [t r = t j ∧ p r ≠ p j] · log1p (S r · exp (0 - prod r j))
  one 512-column tile k at a time, each in a 512 x 1 scratch column of its own: both columns are zeroed when k = 0, every
  point adds its tile's lane sums to them, and the point k = 7 copies each to its output block. A grid point
  t = 8·i + k is in one of three cases: the first column tile, a middle one, the last. This module decides, over the 64
  grid points, which points are in which case, where the two output windows are idle and where their blocks are written
  back, and names the buffers the body is called with.
-/
import proofs.«134967_j48713519072039_1_alg».proof.Proof.Gen.KernelIdeal.Launch
import proofs.«134967_j48713519072039_1_alg».proof.Proof.Gen.KernelIdeal.Skeleton
import proofs.«134967_j48713519072039_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Losses

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two conditions of the body, from the grid coordinates -/

/-- "This is the first column tile": the body's test k = 0, as it computes it from the second grid coordinate. -/
abbrev isFirst (i : grid1.Coords) : Prop :=
  (Scalar.cmpi .ne (Scalar.extui (Scalar.cmpi .eq (BitVec.ofNat 32 (i 1).val) 0#32)) 0#32) = 1#1

/-- "This is the last column tile": the body's test k = 7. -/
abbrev isLast (i : grid1.Coords) : Prop := k1_cond2 i = 1#1

/-- Point t = 8·i + k is a first column tile exactly when k = 0. -/
theorem isFirst_iff : ∀ t : Fin cfg1.N, isFirst (grid1.coords t) ↔ t.val % 8 = 0 :=
  (by decide +kernel : ∀ t : Fin grid1.N, isFirst (grid1.coords t) ↔ t.val % 8 = 0)

/-- Point t = 8·i + k is a last column tile exactly when k = 7. -/
theorem isLast_iff : ∀ t : Fin cfg1.N, isLast (grid1.coords t) ↔ t.val % 8 = 7 :=
  (by decide +kernel : ∀ t : Fin grid1.N, isLast (grid1.coords t) ↔ t.val % 8 = 7)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
theorem live4 : ∀ t : Fin cfg1.N, cfg1.idle 4 (grid1.coords t) = false := by decide +kernel
theorem live5 : ∀ t : Fin cfg1.N, cfg1.idle 5 (grid1.coords t) = false := by decide +kernel
theorem live6 : ∀ t : Fin cfg1.N, cfg1.idle 6 (grid1.coords t) = false := by decide +kernel
/-- Before the last column tile nothing is stored into the output blocks: their windows are idle there, -/
theorem idle7_of_not_last : ∀ t : Fin cfg1.N, ¬isLast (grid1.coords t) → cfg1.idle 7 (grid1.coords t) = true := by decide +kernel
theorem idle8_of_not_last : ∀ t : Fin cfg1.N, ¬isLast (grid1.coords t) → cfg1.idle 8 (grid1.coords t) = true := by decide +kernel
/-- and their blocks are not written back there. -/
theorem noFlush7_of_not_last : ∀ t : Fin cfg1.N, ¬isLast (grid1.coords t) → (cfg1.win 7).flush t = false := by decide +kernel
theorem noFlush8_of_not_last : ∀ t : Fin cfg1.N, ¬isLast (grid1.coords t) → (cfg1.win 8).flush t = false := by decide +kernel
/-- At the last column tile the output blocks are stored into -/
theorem live7_of_last : ∀ t : Fin cfg1.N, isLast (grid1.coords t) → cfg1.idle 7 (grid1.coords t) = false := by decide +kernel
theorem live8_of_last : ∀ t : Fin cfg1.N, isLast (grid1.coords t) → cfg1.idle 8 (grid1.coords t) = false := by decide +kernel
/-- and written back. -/
theorem flush7_of_last : ∀ t : Fin cfg1.N, isLast (grid1.coords t) → (cfg1.win 7).flush t = true := by decide +kernel
theorem flush8_of_last : ∀ t : Fin cfg1.N, isLast (grid1.coords t) → (cfg1.win 8).flush t = true := by decide +kernel

/-! ## The buffers the body is called with at a point -/

abbrev ms0 (t : Fin cfg1.N) : Memref sig .tc .vmem S512x512 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x512 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x1 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x512 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S512x1 .i32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x512 .i32 := win1_5.stage (cfg1.slots t 5)
abbrev hs5 (t : Fin cfg1.N) : (ms5 t).IsWhole := hstage1_5 ((cfg1.slots t 5).cast nbuf1_5)
abbrev ms6 (t : Fin cfg1.N) : Memref sig .tc .vmem S512x1 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S512x1 .f32 := win1_7.stage (cfg1.slots t 7)
abbrev hs7 (t : Fin cfg1.N) : (ms7 t).IsWhole := hstage1_7 ((cfg1.slots t 7).cast nbuf1_7)
abbrev ms8 (t : Fin cfg1.N) : Memref sig .tc .vmem S512x1 .f32 := win1_8.stage (cfg1.slots t 8)
abbrev hs8 (t : Fin cfg1.N) : (ms8 t).IsWhole := hstage1_8 ((cfg1.slots t 8).cast nbuf1_8)
/-- The two scratch columns that carry the partial row sums from one column tile to the next. -/
abbrev accS : Memref sig .tc .vmem S512x1 .f32 := Memref.whole cc1_scratch0
abbrev accD : Memref sig .tc .vmem S512x1 .f32 := Memref.whole cc1_scratch1
abbrev accSView : View sig .tc .vmem S512x1 .f32 := (accS).view
abbrev accDView : View sig .tc .vmem S512x1 .f32 := (accD).view
/-- One staging buffer of each output window, through which its contents are stated. -/
abbrev outSView : View sig .tc .vmem S512x1 .f32 := (Memref.whole cc1_stg7_0 : Memref sig .tc .vmem S512x1 .f32).view
abbrev outDView : View sig .tc .vmem S512x1 .f32 := (Memref.whole cc1_stg8_0 : Memref sig .tc .vmem S512x1 .f32).view

end Cert.KernelIdeal.Losses

end
-- ==== Proof.Losses.RunFirst.lean ====
/-
  The body of the second kernel at a first column tile (k = 0): it zeroes both scratch columns, loads the two tiles of
  X, the label and part columns and rows and the row sums S of its row tile, and stores into each scratch column the
  zero column plus the tile's lane sums of its masked terms. The output blocks are not touched.
-/
import proofs.«134967_j48713519072039_1_alg».proof.Proof.Losses.Cases

set_option maxRecDepth 16384

noncomputable section

namespace Cert.KernelIdeal.Losses

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Losses

set_option maxHeartbeats 4000000 in
/-- The run at a first column tile: from the seven input buffers at their contents and the two scratch columns at
    anything, to the inputs as they were and each scratch column with its stores written. -/
noncomputable def runFirst (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole)
    (hf : isFirst i) (hl : ¬isLast i) (x0 x1 : Vec F S512x512 .bf16) (t0 : Vec F S512x1 .i32) (t1 : Vec F S1x512 .i32) (p0 : Vec F S512x1 .i32) (p1 : Vec F S1x512 .i32) (sr : Vec F S512x1 .f32) :
    Σ' (LS : List (View.Piece (Elt F) S512x1 .f32)), { LD : List (View.Piece (Elt F) S512x1 .f32) //
      ∀ (E : Set ℕ) (K : PUnit → sProp 𝕄),
        iprop(owns (c : Thread nD τ) a2 fullShare x0 ∗ owns (c : Thread nD τ) a3 fullShare x1 ∗ owns (c : Thread nD τ) a4 fullShare t0 ∗ owns (c : Thread nD τ) a5 fullShare t1 ∗ owns (c : Thread nD τ) a6 fullShare p0 ∗ owns (c : Thread nD τ) a7 fullShare p1 ∗ owns (c : Thread nD τ) a8 fullShare sr ∗ (∃ d, owns (c : Thread nD τ) a11 fullShare d) ∗ (∃ d, owns (c : Thread nD τ) a12 fullShare d)
            ∗ (iprop(owns (c : Thread nD τ) a2 fullShare x0 ∗ owns (c : Thread nD τ) a3 fullShare x1 ∗ owns (c : Thread nD τ) a4 fullShare t0 ∗ owns (c : Thread nD τ) a5 fullShare t1 ∗ owns (c : Thread nD τ) a6 fullShare p0 ∗ owns (c : Thread nD τ) a7 fullShare p1 ∗ owns (c : Thread nD τ) a8 fullShare sr ∗ (∃ f, a11.view.loc (c : Thread nD τ) ↦[a11.view.set]{fullShare} a11.view.writes (Elt F) f LS)
                ∗ (∃ f, a12.view.loc (c : Thread nD τ) ↦[a12.view.set]{fullShare} a12.view.writes (Elt F) f LD)) -∗ K ⟨⟩))
          ⊢ wp frame (wpE (defs₀ (F := F)) Variants.none c none) E (cc1__loss_kernel i a2 h2 a3 h3 a4 h4 a5 h5 a6 h6 a7 h7 a8 h8 a9 h9 a10 h10 a11 h11 a12 h12) K } := by
  refine ⟨?_, ?_, fun E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d11, %f11, -, H11⟩, ⟨%d12, %f12, -, H12⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    obtain rfl := h8.eq_unread hf6
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H11]; · iexists _; iexact H11
    iexists _; iexact H12

end Cert.KernelIdeal.Losses

end
-- ==== Proof.Losses.RunMiddle.lean ====
/-
  The body of the second kernel at a middle column tile (0 < k < 7): it loads its inputs and both scratch columns and
  stores back into each scratch column what it held plus the tile's lane sums of its masked terms. The output blocks
  are not touched.
-/
import proofs.«134967_j48713519072039_1_alg».proof.Proof.Losses.Cases

set_option maxRecDepth 16384

noncomputable section

namespace Cert.KernelIdeal.Losses

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Losses

set_option maxHeartbeats 4000000 in
/-- The run at a middle column tile: from the seven input buffers at their contents and the scratch columns at `ss`
    and `sd`, to the inputs as they were and each scratch column with its stores written. -/
noncomputable def runMiddle (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole)
    (hf : ¬isFirst i) (hl : ¬isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) :
    Σ' (LS : List (View.Piece (Elt F) S512x1 .f32)), { LD : List (View.Piece (Elt F) S512x1 .f32) //
      ∀ (E : Set ℕ) (K : PUnit → sProp 𝕄),
        iprop(owns (c : Thread nD τ) a2 fullShare x0 ∗ owns (c : Thread nD τ) a3 fullShare x1 ∗ owns (c : Thread nD τ) a4 fullShare t0 ∗ owns (c : Thread nD τ) a5 fullShare t1 ∗ owns (c : Thread nD τ) a6 fullShare p0 ∗ owns (c : Thread nD τ) a7 fullShare p1 ∗ owns (c : Thread nD τ) a8 fullShare sr ∗ owns (c : Thread nD τ) a11 fullShare ss ∗ owns (c : Thread nD τ) a12 fullShare sd
            ∗ (iprop(owns (c : Thread nD τ) a2 fullShare x0 ∗ owns (c : Thread nD τ) a3 fullShare x1 ∗ owns (c : Thread nD τ) a4 fullShare t0 ∗ owns (c : Thread nD τ) a5 fullShare t1 ∗ owns (c : Thread nD τ) a6 fullShare p0 ∗ owns (c : Thread nD τ) a7 fullShare p1 ∗ owns (c : Thread nD τ) a8 fullShare sr ∗ (∃ f, a11.view.loc (c : Thread nD τ) ↦[a11.view.set]{fullShare} a11.view.writes (Elt F) f LS)
                ∗ (∃ f, a12.view.loc (c : Thread nD τ) ↦[a12.view.set]{fullShare} a12.view.writes (Elt F) f LD)) -∗ K ⟨⟩))
          ⊢ wp frame (wpE (defs₀ (F := F)) Variants.none c none) E (cc1__loss_kernel i a2 h2 a3 h3 a4 h4 a5 h5 a6 h6 a7 h7 a8 h8 a9 h9 a10 h10 a11 h11 a12 h12) K } := by
  refine ⟨?_, ?_, fun E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f11, %hf11, H11⟩, ⟨%f12, %hf12, H12⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    obtain rfl := h8.eq_unread hf6
    obtain rfl := h11.eq_unread hf11; obtain rfl := h12.eq_unread hf12
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H11]; · iexists _; iexact H11
    iexists _; iexact H12

end Cert.KernelIdeal.Losses

end
-- ==== Proof.Losses.RunLast.lean ====
/-
  The body of the second kernel at the last column tile (k = 7): as at a middle tile it adds the tile's lane sums to
  both scratch columns, and then copies each scratch column into its output block, which the pipeline writes back.
-/
import proofs.«134967_j48713519072039_1_alg».proof.Proof.Losses.Cases

set_option maxRecDepth 16384

noncomputable section

namespace Cert.KernelIdeal.Losses

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Losses

set_option maxHeartbeats 4000000 in
/-- The run at the last column tile: from the seven input buffers at their contents, the scratch columns at `ss` and
    `sd` and the two output blocks at anything, to the inputs as they were and the output blocks and the scratch
    columns each with its stores written. -/
noncomputable def runLast (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole)
    (hf : ¬isFirst i) (hl : isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) :
    Σ' (LOS : List (View.Piece (Elt F) S512x1 .f32)) (LOD : List (View.Piece (Elt F) S512x1 .f32)) (LS : List (View.Piece (Elt F) S512x1 .f32)), { LD : List (View.Piece (Elt F) S512x1 .f32) //
      ∀ (E : Set ℕ) (K : PUnit → sProp 𝕄),
        iprop(owns (c : Thread nD τ) a2 fullShare x0 ∗ owns (c : Thread nD τ) a3 fullShare x1 ∗ owns (c : Thread nD τ) a4 fullShare t0 ∗ owns (c : Thread nD τ) a5 fullShare t1 ∗ owns (c : Thread nD τ) a6 fullShare p0 ∗ owns (c : Thread nD τ) a7 fullShare p1 ∗ owns (c : Thread nD τ) a8 fullShare sr ∗ (∃ d, owns (c : Thread nD τ) a9 fullShare d) ∗ (∃ d, owns (c : Thread nD τ) a10 fullShare d)
            ∗ owns (c : Thread nD τ) a11 fullShare ss ∗ owns (c : Thread nD τ) a12 fullShare sd
            ∗ (iprop(owns (c : Thread nD τ) a2 fullShare x0 ∗ owns (c : Thread nD τ) a3 fullShare x1 ∗ owns (c : Thread nD τ) a4 fullShare t0 ∗ owns (c : Thread nD τ) a5 fullShare t1 ∗ owns (c : Thread nD τ) a6 fullShare p0 ∗ owns (c : Thread nD τ) a7 fullShare p1 ∗ owns (c : Thread nD τ) a8 fullShare sr ∗ (∃ f, a9.view.loc (c : Thread nD τ) ↦[a9.view.set]{fullShare} a9.view.writes (Elt F) f LOS)
                ∗ (∃ f, a10.view.loc (c : Thread nD τ) ↦[a10.view.set]{fullShare} a10.view.writes (Elt F) f LOD)
                ∗ (∃ f, a11.view.loc (c : Thread nD τ) ↦[a11.view.set]{fullShare} a11.view.writes (Elt F) f LS)
                ∗ (∃ f, a12.view.loc (c : Thread nD τ) ↦[a12.view.set]{fullShare} a12.view.writes (Elt F) f LD)) -∗ K ⟨⟩))
          ⊢ wp frame (wpE (defs₀ (F := F)) Variants.none c none) E (cc1__loss_kernel i a2 h2 a3 h3 a4 h4 a5 h5 a6 h6 a7 h7 a8 h8 a9 h9 a10 h10 a11 h11 a12 h12) K } := by
  refine ⟨?_, ?_, ?_, ?_, fun E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%d10, %f10, -, H10⟩, ⟨%f11, %hf11, H11⟩, ⟨%f12, %hf12, H12⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    obtain rfl := h8.eq_unread hf6
    obtain rfl := h11.eq_unread hf11; obtain rfl := h12.eq_unread hf12
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H9]; · iexists _; iexact H9
    isplitl [H10]; · iexists _; iexact H10
    isplitl [H11]; · iexists _; iexact H11
    iexists _; iexact H12

end Cert.KernelIdeal.Losses

end
-- ==== Proof.Losses.Contents.lean ====
/-
  What the second kernel's two scratch columns and two output blocks hold after each grid point.

  Each case's run records the stores it made into each buffer; they tile the 512 x 1 buffer, so reading them back gives
  its contents whatever it held before. Point by point: at a first column tile each scratch column is that case's
  contents of the point's seven input blocks; at a middle or last tile it is that case's contents of the input blocks
  and of what the point before left in the two scratch columns; at a last tile each output block is what that case
  stores into it.
-/
import proofs.«134967_j48713519072039_1_alg».proof.Proof.Losses.RunFirst
import proofs.«134967_j48713519072039_1_alg».proof.Proof.Losses.RunMiddle
import proofs.«134967_j48713519072039_1_alg».proof.Proof.Losses.RunLast

set_option maxRecDepth 16384

noncomputable section

namespace Cert.KernelIdeal.Losses

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Losses

/-! ## The stores of each case cover the buffer they are made into -/

theorem coverFirstS (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : isFirst i) (hl : ¬isLast i) (x0 x1 : Vec F S512x512 .bf16) (t0 : Vec F S512x1 .i32) (t1 : Vec F S1x512 .i32) (p0 : Vec F S512x1 .i32) (p1 : Vec F S1x512 .i32) (sr : Vec F S512x1 .f32)  (y : S512x1.Idx) :
    ∃ pc ∈ (runFirst c i a2 h2 a3 h3 a4 h4 a5 h5 a6 h6 a7 h7 a8 h8 a9 h9 a10 h10 a11 h11 a12 h12 hf hl x0 x1 t0 t1 p0 p1 sr).1, y ∈ pc.1.set :=
  View.cover_of_tiledL (runFirst c i a2 h2 a3 h3 a4 h4 a5 h5 a6 h6 a7 h7 a8 h8 a9 h9 a10 h10 a11 h11 a12 h12 hf hl x0 x1 t0 t1 p0 p1 sr).1 S512x1.size (by sl_kernel_rfl) y

theorem coverFirstD (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : isFirst i) (hl : ¬isLast i) (x0 x1 : Vec F S512x512 .bf16) (t0 : Vec F S512x1 .i32) (t1 : Vec F S1x512 .i32) (p0 : Vec F S512x1 .i32) (p1 : Vec F S1x512 .i32) (sr : Vec F S512x1 .f32)  (y : S512x1.Idx) :
    ∃ pc ∈ (runFirst c i a2 h2 a3 h3 a4 h4 a5 h5 a6 h6 a7 h7 a8 h8 a9 h9 a10 h10 a11 h11 a12 h12 hf hl x0 x1 t0 t1 p0 p1 sr).2.1, y ∈ pc.1.set :=
  View.cover_of_tiledL (runFirst c i a2 h2 a3 h3 a4 h4 a5 h5 a6 h6 a7 h7 a8 h8 a9 h9 a10 h10 a11 h11 a12 h12 hf hl x0 x1 t0 t1 p0 p1 sr).2.1 S512x1.size (by sl_kernel_rfl) y

theorem coverMiddleS (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : ¬isFirst i) (hl : ¬isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) (y : S512x1.Idx) :
    ∃ pc ∈ (runMiddle c i a2 h2 a3 h3 a4 h4 a5 h5 a6 h6 a7 h7 a8 h8 a9 h9 a10 h10 a11 h11 a12 h12 hf hl x0 x1 t0 t1 p0 p1 sr ss sd).1, y ∈ pc.1.set :=
  View.cover_of_tiledL (runMiddle c i a2 h2 a3 h3 a4 h4 a5 h5 a6 h6 a7 h7 a8 h8 a9 h9 a10 h10 a11 h11 a12 h12 hf hl x0 x1 t0 t1 p0 p1 sr ss sd).1 S512x1.size (by sl_kernel_rfl) y

theorem coverMiddleD (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : ¬isFirst i) (hl : ¬isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) (y : S512x1.Idx) :
    ∃ pc ∈ (runMiddle c i a2 h2 a3 h3 a4 h4 a5 h5 a6 h6 a7 h7 a8 h8 a9 h9 a10 h10 a11 h11 a12 h12 hf hl x0 x1 t0 t1 p0 p1 sr ss sd).2.1, y ∈ pc.1.set :=
  View.cover_of_tiledL (runMiddle c i a2 h2 a3 h3 a4 h4 a5 h5 a6 h6 a7 h7 a8 h8 a9 h9 a10 h10 a11 h11 a12 h12 hf hl x0 x1 t0 t1 p0 p1 sr ss sd).2.1 S512x1.size (by sl_kernel_rfl) y

theorem coverLastOutS (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : ¬isFirst i) (hl : isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) (y : S512x1.Idx) :
    ∃ pc ∈ (runLast c i a2 h2 a3 h3 a4 h4 a5 h5 a6 h6 a7 h7 a8 h8 a9 h9 a10 h10 a11 h11 a12 h12 hf hl x0 x1 t0 t1 p0 p1 sr ss sd).1, y ∈ pc.1.set :=
  View.cover_of_tiledL (runLast c i a2 h2 a3 h3 a4 h4 a5 h5 a6 h6 a7 h7 a8 h8 a9 h9 a10 h10 a11 h11 a12 h12 hf hl x0 x1 t0 t1 p0 p1 sr ss sd).1 S512x1.size (by sl_kernel_rfl) y

theorem coverLastOutD (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : ¬isFirst i) (hl : isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) (y : S512x1.Idx) :
    ∃ pc ∈ (runLast c i a2 h2 a3 h3 a4 h4 a5 h5 a6 h6 a7 h7 a8 h8 a9 h9 a10 h10 a11 h11 a12 h12 hf hl x0 x1 t0 t1 p0 p1 sr ss sd).2.1, y ∈ pc.1.set :=
  View.cover_of_tiledL (runLast c i a2 h2 a3 h3 a4 h4 a5 h5 a6 h6 a7 h7 a8 h8 a9 h9 a10 h10 a11 h11 a12 h12 hf hl x0 x1 t0 t1 p0 p1 sr ss sd).2.1 S512x1.size (by sl_kernel_rfl) y

theorem coverLastS (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : ¬isFirst i) (hl : isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) (y : S512x1.Idx) :
    ∃ pc ∈ (runLast c i a2 h2 a3 h3 a4 h4 a5 h5 a6 h6 a7 h7 a8 h8 a9 h9 a10 h10 a11 h11 a12 h12 hf hl x0 x1 t0 t1 p0 p1 sr ss sd).2.2.1, y ∈ pc.1.set :=
  View.cover_of_tiledL (runLast c i a2 h2 a3 h3 a4 h4 a5 h5 a6 h6 a7 h7 a8 h8 a9 h9 a10 h10 a11 h11 a12 h12 hf hl x0 x1 t0 t1 p0 p1 sr ss sd).2.2.1 S512x1.size (by sl_kernel_rfl) y

theorem coverLastD (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : ¬isFirst i) (hl : isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) (y : S512x1.Idx) :
    ∃ pc ∈ (runLast c i a2 h2 a3 h3 a4 h4 a5 h5 a6 h6 a7 h7 a8 h8 a9 h9 a10 h10 a11 h11 a12 h12 hf hl x0 x1 t0 t1 p0 p1 sr ss sd).2.2.2.1, y ∈ pc.1.set :=
  View.cover_of_tiledL (runLast c i a2 h2 a3 h3 a4 h4 a5 h5 a6 h6 a7 h7 a8 h8 a9 h9 a10 h10 a11 h11 a12 h12 hf hl x0 x1 t0 t1 p0 p1 sr ss sd).2.2.2.1 S512x1.size (by sl_kernel_rfl) y

/-! ## What each case leaves -/

/-- The first scratch column after a first column tile. -/
def accSFirst (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : isFirst i) (hl : ¬isLast i) (x0 x1 : Vec F S512x512 .bf16) (t0 : Vec F S512x1 .i32) (t1 : Vec F S1x512 .i32) (p0 : Vec F S512x1 .i32) (p1 : Vec F S1x512 .i32) (sr : Vec F S512x1 .f32)  : Vec F S512x1 .f32 :=
  accSView.read (Elt F) (accSView.writes (Elt F) accSView.junk (runFirst c i a2 h2 a3 h3 a4 h4 a5 h5 a6 h6 a7 h7 a8 h8 a9 h9 a10 h10 a11 h11 a12 h12 hf hl x0 x1 t0 t1 p0 p1 sr).1)

/-- The second scratch column after a first column tile. -/
def accDFirst (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : isFirst i) (hl : ¬isLast i) (x0 x1 : Vec F S512x512 .bf16) (t0 : Vec F S512x1 .i32) (t1 : Vec F S1x512 .i32) (p0 : Vec F S512x1 .i32) (p1 : Vec F S1x512 .i32) (sr : Vec F S512x1 .f32)  : Vec F S512x1 .f32 :=
  accDView.read (Elt F) (accDView.writes (Elt F) accDView.junk (runFirst c i a2 h2 a3 h3 a4 h4 a5 h5 a6 h6 a7 h7 a8 h8 a9 h9 a10 h10 a11 h11 a12 h12 hf hl x0 x1 t0 t1 p0 p1 sr).2.1)

/-- The first scratch column after a middle column tile that found \`ss\`, \`sd\` in the two. -/
def accSMiddle (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : ¬isFirst i) (hl : ¬isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) : Vec F S512x1 .f32 :=
  accSView.read (Elt F) (accSView.writes (Elt F) accSView.junk (runMiddle c i a2 h2 a3 h3 a4 h4 a5 h5 a6 h6 a7 h7 a8 h8 a9 h9 a10 h10 a11 h11 a12 h12 hf hl x0 x1 t0 t1 p0 p1 sr ss sd).1)

/-- The second scratch column after a middle column tile. -/
def accDMiddle (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : ¬isFirst i) (hl : ¬isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) : Vec F S512x1 .f32 :=
  accDView.read (Elt F) (accDView.writes (Elt F) accDView.junk (runMiddle c i a2 h2 a3 h3 a4 h4 a5 h5 a6 h6 a7 h7 a8 h8 a9 h9 a10 h10 a11 h11 a12 h12 hf hl x0 x1 t0 t1 p0 p1 sr ss sd).2.1)

/-- The first output block after the last column tile. -/
def outSLast (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : ¬isFirst i) (hl : isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) : Vec F S512x1 .f32 :=
  outSView.read (Elt F) (outSView.writes (Elt F) outSView.junk (runLast c i a2 h2 a3 h3 a4 h4 a5 h5 a6 h6 a7 h7 a8 h8 a9 h9 a10 h10 a11 h11 a12 h12 hf hl x0 x1 t0 t1 p0 p1 sr ss sd).1)

/-- The second output block after the last column tile. -/
def outDLast (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : ¬isFirst i) (hl : isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) : Vec F S512x1 .f32 :=
  outDView.read (Elt F) (outDView.writes (Elt F) outDView.junk (runLast c i a2 h2 a3 h3 a4 h4 a5 h5 a6 h6 a7 h7 a8 h8 a9 h9 a10 h10 a11 h11 a12 h12 hf hl x0 x1 t0 t1 p0 p1 sr ss sd).2.1)

/-- The first scratch column after the last column tile. -/
def accSLast (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : ¬isFirst i) (hl : isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) : Vec F S512x1 .f32 :=
  accSView.read (Elt F) (accSView.writes (Elt F) accSView.junk (runLast c i a2 h2 a3 h3 a4 h4 a5 h5 a6 h6 a7 h7 a8 h8 a9 h9 a10 h10 a11 h11 a12 h12 hf hl x0 x1 t0 t1 p0 p1 sr ss sd).2.2.1)

/-- The second scratch column after the last column tile. -/
def accDLast (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : ¬isFirst i) (hl : isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) : Vec F S512x1 .f32 :=
  accDView.read (Elt F) (accDView.writes (Elt F) accDView.junk (runLast c i a2 h2 a3 h3 a4 h4 a5 h5 a6 h6 a7 h7 a8 h8 a9 h9 a10 h10 a11 h11 a12 h12 hf hl x0 x1 t0 t1 p0 p1 sr ss sd).2.2.2.1)

/-! ## Point by point -/

section Points

variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two scratch columns after the body at point `n`. -/
def accAt (c : Dev nD) : (n : ℕ) → n < cfg1.N → Vec F S512x1 .f32 × Vec F S512x1 .f32
  | 0, hn =>
    (accSFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) accS (Memref.isWhole_whole _) accD (Memref.isWhole_whole _) ((isFirst_iff ⟨0, hn⟩).mpr (Nat.zero_mod _)) (fun h => by have := (isLast_iff ⟨0, hn⟩).mp h; simp at this) (blk V c 0 ⟨0, hn⟩) (blk V c 1 ⟨0, hn⟩) (blk V c 2 ⟨0, hn⟩) (blk V c 3 ⟨0, hn⟩) (blk V c 4 ⟨0, hn⟩) (blk V c 5 ⟨0, hn⟩) (blk V c 6 ⟨0, hn⟩),
     accDFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) accS (Memref.isWhole_whole _) accD (Memref.isWhole_whole _) ((isFirst_iff ⟨0, hn⟩).mpr (Nat.zero_mod _)) (fun h => by have := (isLast_iff ⟨0, hn⟩).mp h; simp at this) (blk V c 0 ⟨0, hn⟩) (blk V c 1 ⟨0, hn⟩) (blk V c 2 ⟨0, hn⟩) (blk V c 3 ⟨0, hn⟩) (blk V c 4 ⟨0, hn⟩) (blk V c 5 ⟨0, hn⟩) (blk V c 6 ⟨0, hn⟩))
  | n + 1, hn =>
    if h0 : (n + 1) % 8 = 0 then
      (accSFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) accS (Memref.isWhole_whole _) accD (Memref.isWhole_whole _) ((isFirst_iff ⟨n + 1, hn⟩).mpr h0) (fun h => by have := (isLast_iff ⟨n + 1, hn⟩).mp h; dsimp only at this; omega) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (blk V c 6 ⟨n + 1, hn⟩),
       accDFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) accS (Memref.isWhole_whole _) accD (Memref.isWhole_whole _) ((isFirst_iff ⟨n + 1, hn⟩).mpr h0) (fun h => by have := (isLast_iff ⟨n + 1, hn⟩).mp h; dsimp only at this; omega) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (blk V c 6 ⟨n + 1, hn⟩))
    else if h7 : (n + 1) % 8 = 7 then
      (accSLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) accS (Memref.isWhole_whole _) accD (Memref.isWhole_whole _) (fun h => h0 ((isFirst_iff ⟨n + 1, hn⟩).mp h)) ((isLast_iff ⟨n + 1, hn⟩).mpr h7) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (blk V c 6 ⟨n + 1, hn⟩) (accAt c n (Nat.lt_of_succ_lt hn)).1 (accAt c n (Nat.lt_of_succ_lt hn)).2,
       accDLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) accS (Memref.isWhole_whole _) accD (Memref.isWhole_whole _) (fun h => h0 ((isFirst_iff ⟨n + 1, hn⟩).mp h)) ((isLast_iff ⟨n + 1, hn⟩).mpr h7) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (blk V c 6 ⟨n + 1, hn⟩) (accAt c n (Nat.lt_of_succ_lt hn)).1 (accAt c n (Nat.lt_of_succ_lt hn)).2)
    else
      (accSMiddle c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) accS (Memref.isWhole_whole _) accD (Memref.isWhole_whole _) (fun h => h0 ((isFirst_iff ⟨n + 1, hn⟩).mp h)) (fun h => h7 ((isLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (blk V c 6 ⟨n + 1, hn⟩) (accAt c n (Nat.lt_of_succ_lt hn)).1 (accAt c n (Nat.lt_of_succ_lt hn)).2,
       accDMiddle c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) accS (Memref.isWhole_whole _) accD (Memref.isWhole_whole _) (fun h => h0 ((isFirst_iff ⟨n + 1, hn⟩).mp h)) (fun h => h7 ((isLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (blk V c 6 ⟨n + 1, hn⟩) (accAt c n (Nat.lt_of_succ_lt hn)).1 (accAt c n (Nat.lt_of_succ_lt hn)).2)

/-- The two output blocks after the body at a last column tile `n` (elsewhere the blocks are idle and this is not
    consulted). -/
def outAt (c : Dev nD) (n : ℕ) (hn : n < cfg1.N) : Vec F S512x1 .f32 × Vec F S512x1 .f32 :=
  if h7 : n % 8 = 7 then
    (outSLast c (grid1.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) (ms4 ⟨n, hn⟩) (hs4 ⟨n, hn⟩) (ms5 ⟨n, hn⟩) (hs5 ⟨n, hn⟩) (ms6 ⟨n, hn⟩) (hs6 ⟨n, hn⟩) (ms7 ⟨n, hn⟩) (hs7 ⟨n, hn⟩) (ms8 ⟨n, hn⟩) (hs8 ⟨n, hn⟩) accS (Memref.isWhole_whole _) accD (Memref.isWhole_whole _) (fun h => by have := (isFirst_iff ⟨n, hn⟩).mp h; dsimp only at this; omega) ((isLast_iff ⟨n, hn⟩).mpr h7) (blk V c 0 ⟨n, hn⟩) (blk V c 1 ⟨n, hn⟩) (blk V c 2 ⟨n, hn⟩) (blk V c 3 ⟨n, hn⟩) (blk V c 4 ⟨n, hn⟩) (blk V c 5 ⟨n, hn⟩) (blk V c 6 ⟨n, hn⟩) (accAt V c (n - 1) (by omega)).1 (accAt V c (n - 1) (by omega)).2,
     outDLast c (grid1.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) (ms4 ⟨n, hn⟩) (hs4 ⟨n, hn⟩) (ms5 ⟨n, hn⟩) (hs5 ⟨n, hn⟩) (ms6 ⟨n, hn⟩) (hs6 ⟨n, hn⟩) (ms7 ⟨n, hn⟩) (hs7 ⟨n, hn⟩) (ms8 ⟨n, hn⟩) (hs8 ⟨n, hn⟩) accS (Memref.isWhole_whole _) accD (Memref.isWhole_whole _) (fun h => by have := (isFirst_iff ⟨n, hn⟩).mp h; dsimp only at this; omega) ((isLast_iff ⟨n, hn⟩).mpr h7) (blk V c 0 ⟨n, hn⟩) (blk V c 1 ⟨n, hn⟩) (blk V c 2 ⟨n, hn⟩) (blk V c 3 ⟨n, hn⟩) (blk V c 4 ⟨n, hn⟩) (blk V c 5 ⟨n, hn⟩) (blk V c 6 ⟨n, hn⟩) (accAt V c (n - 1) (by omega)).1 (accAt V c (n - 1) (by omega)).2)
  else accAt V c n hn

end Points

end Cert.KernelIdeal.Losses

end
-- ==== Proof.Losses.Data.lean ====
/-
  The second kernel's pipeline, point by point: its proof data and the body obligation.

  The two windows on X read one array, so each holds half of its share; the row sums S of the first kernel come in
  through a window of their own. After the body at a point each input buffer holds its block; each output block holds
  what the last column tile stores into it (before that its window is idle and the buffer is left as found). The
  invariant carries the two scratch columns: before the first point they hold anything, after point n they hold the
  running partial row sums of n's row tile.
-/
import proofs.«134967_j48713519072039_1_alg».proof.Proof.Losses.Contents
import Idealize.ShloMosaic.Lib.Pipeline.Frame

set_option maxRecDepth 16384

noncomputable section

namespace Cert.KernelIdeal.Losses

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Losses

section

variable (V : (c : Dev nD) → (b : Ref sig .tc) → Buf (Elt F) ((c : Thread nD τ).loc b))

/-! ## The recursion, case by case -/

theorem accAt_first (c : Dev nD) (t : Fin cfg1.N) (h0 : t.val % 8 = 0) :
    accAt V c t.val t.isLt =
      (accSFirst c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accS (Memref.isWhole_whole _) accD (Memref.isWhole_whole _) ((isFirst_iff t).mpr h0) (fun h => by have := (isLast_iff t).mp h; omega) (blk V c 0 t) (blk V c 1 t) (blk V c 2 t) (blk V c 3 t) (blk V c 4 t) (blk V c 5 t) (blk V c 6 t),
       accDFirst c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accS (Memref.isWhole_whole _) accD (Memref.isWhole_whole _) ((isFirst_iff t).mpr h0) (fun h => by have := (isLast_iff t).mp h; omega) (blk V c 0 t) (blk V c 1 t) (blk V c 2 t) (blk V c 3 t) (blk V c 4 t) (blk V c 5 t) (blk V c 6 t)) := by
  obtain ⟨n, hn⟩ := t
  cases n with
  | zero => rfl
  | succ n => exact (dif_pos h0)

theorem accAt_middle (c : Dev nD) (t : Fin cfg1.N) (h0 : ¬t.val % 8 = 0) (h7 : ¬t.val % 8 = 7) :
    accAt V c t.val t.isLt =
      (accSMiddle c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accS (Memref.isWhole_whole _) accD (Memref.isWhole_whole _) (fun h => h0 ((isFirst_iff t).mp h)) (fun h => h7 ((isLast_iff t).mp h)) (blk V c 0 t) (blk V c 1 t) (blk V c 2 t) (blk V c 3 t) (blk V c 4 t) (blk V c 5 t) (blk V c 6 t) (accAt V c (t.val - 1) (Nat.lt_of_le_of_lt (Nat.sub_le _ _) t.isLt)).1 (accAt V c (t.val - 1) (Nat.lt_of_le_of_lt (Nat.sub_le _ _) t.isLt)).2,
       accDMiddle c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accS (Memref.isWhole_whole _) accD (Memref.isWhole_whole _) (fun h => h0 ((isFirst_iff t).mp h)) (fun h => h7 ((isLast_iff t).mp h)) (blk V c 0 t) (blk V c 1 t) (blk V c 2 t) (blk V c 3 t) (blk V c 4 t) (blk V c 5 t) (blk V c 6 t) (accAt V c (t.val - 1) (Nat.lt_of_le_of_lt (Nat.sub_le _ _) t.isLt)).1 (accAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h7).trans rfl)

theorem accAt_last (c : Dev nD) (t : Fin cfg1.N) (h0 : ¬t.val % 8 = 0) (h7 : t.val % 8 = 7) :
    accAt V c t.val t.isLt =
      (accSLast c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accS (Memref.isWhole_whole _) accD (Memref.isWhole_whole _) (fun h => h0 ((isFirst_iff t).mp h)) ((isLast_iff t).mpr h7) (blk V c 0 t) (blk V c 1 t) (blk V c 2 t) (blk V c 3 t) (blk V c 4 t) (blk V c 5 t) (blk V c 6 t) (accAt V c (t.val - 1) (Nat.lt_of_le_of_lt (Nat.sub_le _ _) t.isLt)).1 (accAt V c (t.val - 1) (Nat.lt_of_le_of_lt (Nat.sub_le _ _) t.isLt)).2,
       accDLast c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accS (Memref.isWhole_whole _) accD (Memref.isWhole_whole _) (fun h => h0 ((isFirst_iff t).mp h)) ((isLast_iff t).mpr h7) (blk V c 0 t) (blk V c 1 t) (blk V c 2 t) (blk V c 3 t) (blk V c 4 t) (blk V c 5 t) (blk V c 6 t) (accAt V c (t.val - 1) (Nat.lt_of_le_of_lt (Nat.sub_le _ _) t.isLt)).1 (accAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h7).trans rfl)

theorem outAt_last (c : Dev nD) (t : Fin cfg1.N) (h0 : ¬t.val % 8 = 0) (h7 : t.val % 8 = 7) :
    outAt V c t.val t.isLt =
      (outSLast c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accS (Memref.isWhole_whole _) accD (Memref.isWhole_whole _) (fun h => h0 ((isFirst_iff t).mp h)) ((isLast_iff t).mpr h7) (blk V c 0 t) (blk V c 1 t) (blk V c 2 t) (blk V c 3 t) (blk V c 4 t) (blk V c 5 t) (blk V c 6 t) (accAt V c (t.val - 1) (Nat.lt_of_le_of_lt (Nat.sub_le _ _) t.isLt)).1 (accAt V c (t.val - 1) (Nat.lt_of_le_of_lt (Nat.sub_le _ _) t.isLt)).2,
       outDLast c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accS (Memref.isWhole_whole _) accD (Memref.isWhole_whole _) (fun h => h0 ((isFirst_iff t).mp h)) ((isLast_iff t).mpr h7) (blk V c 0 t) (blk V c 1 t) (blk V c 2 t) (blk V c 3 t) (blk V c 4 t) (blk V c 5 t) (blk V c 6 t) (accAt V c (t.val - 1) (Nat.lt_of_le_of_lt (Nat.sub_le _ _) t.isLt)).1 (accAt V c (t.val - 1) (Nat.lt_of_le_of_lt (Nat.sub_le _ _) t.isLt)).2) := by
  unfold outAt; exact dif_pos h7

/-! ## The invariant -/

/-- The core's scoped buffers other than this kernel's staging buffers and its two scratch columns, at anything: the
    other kernel's staging buffers and scratch column, which this kernel does not touch. -/
abbrev others (c : Dev nD) : sProp 𝕄 :=
  Pipeline.scopedRestBut (Ix := Unit) (Name := ℕ) (U := UR sig nD τ) (Lvl := ℕ) (Val := Elt F) spec1 c [cc1_scratch0, cc1_scratch1]

/-- What the region hands the kernel is the two scratch columns at anything, the others, and the generator register. -/
theorem PhiA_eq (c : Dev nD) :
    (Pipeline.ΦA spec1 c : sProp 𝕄)
      = iprop((((∃ d, owns (c : Thread nD τ) accS fullShare d) ∗ (∃ d, owns (c : Thread nD τ) accD fullShare d)) ∗ others c) ∗ (∃ r, prngReg c r)) := by
  unfold Pipeline.ΦA
  rw [Pipeline.scopedRest_split_of_list spec1 c [cc1_scratch0, cc1_scratch1] (by decide) (by decide)]
  simp only [Idealize.SL.BI.bigSepL_cons_cons, Idealize.SL.BI.bigSepL_singleton, accS, accD, owns_whole]
  try rfl

/-- The invariant before position `n`: before the first point what the region hands the kernel; afterwards the two
    scratch columns at what the point before left in them, the other scoped buffers at anything, the generator
    register at some state. -/
def PhiS (c : Dev nD) : (n : ℕ) → n ≤ cfg1.N → sProp 𝕄
  | 0, _ => Pipeline.ΦA spec1 c
  | n + 1, hn => iprop(((owns (c : Thread nD τ) accS fullShare (accAt V c n hn).1 ∗ owns (c : Thread nD τ) accD fullShare (accAt V c n hn).2) ∗ others c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(((owns (c : Thread nD τ) accS fullShare (accAt V c n hn).1 ∗ owns (c : Thread nD τ) accD fullShare (accAt V c n hn).2) ∗ others c) ∗ (∃ r, prngReg c r)) := rfl

theorem PhiS_pos (c : Dev nD) (n : ℕ) (h : n ≤ cfg1.N) (hz : n ≠ 0) :
    PhiS V c n h = iprop(((owns (c : Thread nD τ) accS fullShare (accAt V c (n - 1) (by omega)).1 ∗ owns (c : Thread nD τ) accD fullShare (accAt V c (n - 1) (by omega)).2) ∗ others c) ∗ (∃ r, prngReg c r)) := by
  cases n with
  | zero => exact absurd rfl hz
  | succ n => rfl

/-! ## The proof data -/

/-- The proof data of the second kernel's pipeline on core `c`, at the contents `V` the region finds. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => (outAt V c t.val t.isLt).1
    | ⟨8, _⟩ => (outAt V c t.val t.isLt).2
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = blk V c 3 t := by dsimp only [dat]
theorem after4 (c : Dev nD) (t : Fin cfg1.N) : (dat V c).after 4 t = blk V c 4 t := by dsimp only [dat]
theorem after5 (c : Dev nD) (t : Fin cfg1.N) : (dat V c).after 5 t = blk V c 5 t := by dsimp only [dat]
theorem after6 (c : Dev nD) (t : Fin cfg1.N) : (dat V c).after 6 t = blk V c 6 t := by dsimp only [dat]
theorem after7 (c : Dev nD) (t : Fin cfg1.N) : (dat V c).after 7 t = (outAt V c t.val t.isLt).1 := by dsimp only [dat]
theorem after8 (c : Dev nD) (t : Fin cfg1.N) : (dat V c).after 8 t = (outAt V c t.val t.isLt).2 := by dsimp only [dat]

/-! ## What the body finds in the input buffers: each one's block, fetched at the point or not -/

theorem before0 (c : Dev nD) (t : Fin cfg1.N) (d) : (dat V c).before 0 t d = blk V c 0 t :=
  ((dat V c).before_in_eq_fetched 0 rfl (fun _ => rfl) (fun _ _ _ => rfl)
    (fun t => by rw [after0]; unfold Dat.blockOf blk; rw [A_eq]; try rfl) t d).trans
    (by unfold Dat.fetched Dat.blockOf blk; rw [A_eq]; try rfl)
theorem before1 (c : Dev nD) (t : Fin cfg1.N) (d) : (dat V c).before 1 t d = blk V c 1 t :=
  ((dat V c).before_in_eq_fetched 1 rfl (fun _ => rfl) (fun _ _ _ => rfl)
    (fun t => by rw [after1]; unfold Dat.blockOf blk; rw [A_eq]; try rfl) t d).trans
    (by unfold Dat.fetched Dat.blockOf blk; rw [A_eq]; try rfl)
theorem before2 (c : Dev nD) (t : Fin cfg1.N) (d) : (dat V c).before 2 t d = blk V c 2 t :=
  ((dat V c).before_in_eq_fetched 2 rfl (fun _ => rfl) (fun _ _ _ => rfl)
    (fun t => by rw [after2]; unfold Dat.blockOf blk; rw [A_eq]; try rfl) t d).trans
    (by unfold Dat.fetched Dat.blockOf blk; rw [A_eq]; try rfl)
theorem before3 (c : Dev nD) (t : Fin cfg1.N) (d) : (dat V c).before 3 t d = blk V c 3 t :=
  ((dat V c).before_in_eq_fetched 3 rfl (fun _ => rfl) (fun _ _ _ => rfl)
    (fun t => by rw [after3]; unfold Dat.blockOf blk; rw [A_eq]; try rfl) t d).trans
    (by unfold Dat.fetched Dat.blockOf blk; rw [A_eq]; try rfl)
theorem before4 (c : Dev nD) (t : Fin cfg1.N) (d) : (dat V c).before 4 t d = blk V c 4 t :=
  ((dat V c).before_in_eq_fetched 4 rfl (fun _ => rfl) (fun _ _ _ => rfl)
    (fun t => by rw [after4]; unfold Dat.blockOf blk; rw [A_eq]; try rfl) t d).trans
    (by unfold Dat.fetched Dat.blockOf blk; rw [A_eq]; try rfl)
theorem before5 (c : Dev nD) (t : Fin cfg1.N) (d) : (dat V c).before 5 t d = blk V c 5 t :=
  ((dat V c).before_in_eq_fetched 5 rfl (fun _ => rfl) (fun _ _ _ => rfl)
    (fun t => by rw [after5]; unfold Dat.blockOf blk; rw [A_eq]; try rfl) t d).trans
    (by unfold Dat.fetched Dat.blockOf blk; rw [A_eq]; try rfl)
theorem before6 (c : Dev nD) (t : Fin cfg1.N) (d) : (dat V c).before 6 t d = blk V c 6 t :=
  ((dat V c).before_in_eq_fetched 6 rfl (fun _ => rfl) (fun _ _ _ => rfl)
    (fun t => by rw [after6]; unfold Dat.blockOf blk; rw [A_eq]; try rfl) t d).trans
    (by unfold Dat.fetched Dat.blockOf blk; rw [A_eq]; try rfl)

/-! ## The body obligation at a point -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t)

set_option maxHeartbeats 16000000 in
/-- The body at any point. The input buffers hold their blocks; the point's case is read off its position; the invariant
    hands the body the two scratch columns at what the point before left (at anything before the first point) and takes
    them back at this point's contents; each output block is handed back as found except at a last column tile, where
    it holds what the body stored; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  rw [show (dat V c).leavesExact 3 t = owns (c : Thread nD τ) (ms3 t) fullShare ((dat V c).after 3 t) from by
    unfold Dat.leavesExact; rw [live3 t], after3]
  rw [show (dat V c).leavesExact 4 t = owns (c : Thread nD τ) (ms4 t) fullShare ((dat V c).after 4 t) from by
    unfold Dat.leavesExact; rw [live4 t], after4]
  rw [show (dat V c).leavesExact 5 t = owns (c : Thread nD τ) (ms5 t) fullShare ((dat V c).after 5 t) from by
    unfold Dat.leavesExact; rw [live5 t], after5]
  rw [show (dat V c).leavesExact 6 t = owns (c : Thread nD τ) (ms6 t) fullShare ((dat V c).after 6 t) from by
    unfold Dat.leavesExact; rw [live6 t], after6]
  by_cases h0 : t.val % 8 = 0
  · have h7 : ¬t.val % 8 = 7 := by omega
    rw [Dat.leavesExact_idle (dat V c) 7 t (idle7_of_not_last t (fun h => h7 ((isLast_iff t).mp h))) (noFlush7_of_not_last t (fun h => h7 ((isLast_iff t).mp h)))]
    rw [Dat.leavesExact_idle (dat V c) 8 t (idle8_of_not_last t (fun h => h7 ((isLast_iff t).mp h))) (noFlush8_of_not_last t (fun h => h7 ((isLast_iff t).mp h)))]
    rw [accAt_first V c t h0]
    unfold accSFirst accDFirst; dsimp only
    by_cases hz : t.val = 0
    · rw [PhiS_castSucc V c t, PhiS_zero V c _ _ hz, PhiA_eq]
      iintro ⟨⟨⟨⟨HS, HD⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runFirst c (grid1.coords t) _ _ _ _ _ _ _ _ _ _ _ _ _ _ _ _ _ _ _ _ _ _ ((isFirst_iff t).mpr h0) (fun h => h7 ((isLast_iff t).mp h)) (blk V c 0 t) (blk V c 1 t) (blk V c 2 t) (blk V c 3 t) (blk V c 4 t) (blk V c 5 t) (blk V c 6 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      isplitl [HD]; · iexact HD
      iintro ⟨H0, H1, H2, H3, H4, H5, H6, ⟨%es, HS⟩, ⟨%ed, HD⟩⟩
      isplitl [HS HD Hoth Hg]
      · isplitl [HS HD Hoth]
        · isplitl [HS HD]
          · isplitl [HS]
            · unfold owns; iexists _; isplitr
              swap; · iexact HS
              ipureintro; exact View.read_writes_of_cover _ _ _ _ _ (coverFirstS c _ _ _ _ _ _ _ _ _ _ _ _ _ _ _ _ _ _ _ _ _ _ _ _ _ _ _ _ _ _ _ _)
            unfold owns; iexists _; isplitr
            swap; · iexact HD
            ipureintro; exact View.read_writes_of_cover _ _ _ _ _ (coverFirstD c _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    · rw [PhiS_castSucc V c t, PhiS_pos V c _ _ hz]
      iintro ⟨⟨⟨⟨HS, HD⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runFirst c (grid1.coords t) _ _ _ _ _ _ _ _ _ _ _ _ _ _ _ _ _ _ _ _ _ _ ((isFirst_iff t).mpr h0) (fun h => h7 ((isLast_iff t).mp h)) (blk V c 0 t) (blk V c 1 t) (blk V c 2 t) (blk V c 3 t) (blk V c 4 t) (blk V c 5 t) (blk V c 6 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      isplitl [HD]; · iexists _; iexact HD
      iintro ⟨H0, H1, H2, H3, H4, H5, H6, ⟨%es, HS⟩, ⟨%ed, HD⟩⟩
      isplitl [HS HD Hoth Hg]
      · isplitl [HS HD Hoth]
        · isplitl [HS HD]
          · isplitl [HS]
            · unfold owns; iexists _; isplitr
              swap; · iexact HS
              ipureintro; exact View.read_writes_of_cover _ _ _ _ _ (coverFirstS c _ _ _ _ _ _ _ _ _ _ _ _ _ _ _ _ _ _ _ _ _ _ _ _ _ _ _ _ _ _ _ _)
            unfold owns; iexists _; isplitr
            swap; · iexact HD
            ipureintro; exact View.read_writes_of_cover _ _ _ _ _ (coverFirstD c _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
  · have hz : t.val ≠ 0 := fun e => h0 (by rw [e])
    by_cases h7 : t.val % 8 = 7
    · rw [show (dat V c).leavesExact 7 t = owns (c : Thread nD τ) (ms7 t) fullShare ((dat V c).after 7 t) from by
        unfold Dat.leavesExact; rw [live7_of_last t ((isLast_iff t).mpr h7)], after7]
      rw [show (dat V c).leavesExact 8 t = owns (c : Thread nD τ) (ms8 t) fullShare ((dat V c).after 8 t) from by
        unfold Dat.leavesExact; rw [live8_of_last t ((isLast_iff t).mpr h7)], after8]
      rw [accAt_last V c t h0 h7, outAt_last V c t h0 h7]
      unfold accSLast accDLast outSLast outDLast; dsimp only
      rw [PhiS_castSucc V c t, PhiS_pos V c _ _ hz]
      iintro ⟨⟨⟨⟨HS, HD⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runLast c (grid1.coords t) _ _ _ _ _ _ _ _ _ _ _ _ _ _ _ _ _ _ _ _ _ _ (fun h => h0 ((isFirst_iff t).mp h)) ((isLast_iff t).mpr h7) (blk V c 0 t) (blk V c 1 t) (blk V c 2 t) (blk V c 3 t) (blk V c 4 t) (blk V c 5 t) (blk V c 6 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS]; · iexact HS
      isplitl [HD]; · iexact HD
      iintro ⟨H0, H1, H2, H3, H4, H5, H6, ⟨%eo7, H7⟩, ⟨%eo8, H8⟩, ⟨%es, HS⟩, ⟨%ed, HD⟩⟩
      isplitl [HS HD Hoth Hg]
      · isplitl [HS HD Hoth]
        · isplitl [HS HD]
          · isplitl [HS]
            · unfold owns; iexists _; isplitr
              swap; · iexact HS
              ipureintro; exact View.read_writes_of_cover _ _ _ _ _ (coverLastS c _ _ _ _ _ _ _ _ _ _ _ _ _ _ _ _ _ _ _ _ _ _ _ _ _ _ _ _ _ _ _ _ _ _)
            unfold owns; iexists _; isplitr
            swap; · iexact HD
            ipureintro; exact View.read_writes_of_cover _ _ _ _ _ (coverLastD c _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (coverLastOutS c _ _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (coverLastOutD c _ _ _ _ _ _ _ _ _ _ _ _ _ _ _ _ _ _ _ _ _ _ _ _ _ _ _ _ _ _ _ _ _ _)
    · rw [Dat.leavesExact_idle (dat V c) 7 t (idle7_of_not_last t (fun h => h7 ((isLast_iff t).mp h))) (noFlush7_of_not_last t (fun h => h7 ((isLast_iff t).mp h)))]
      rw [Dat.leavesExact_idle (dat V c) 8 t (idle8_of_not_last t (fun h => h7 ((isLast_iff t).mp h))) (noFlush8_of_not_last t (fun h => h7 ((isLast_iff t).mp h)))]
      rw [accAt_middle V c t h0 h7]
      unfold accSMiddle accDMiddle; dsimp only
      rw [PhiS_castSucc V c t, PhiS_pos V c _ _ hz]
      iintro ⟨⟨⟨⟨HS, HD⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runMiddle c (grid1.coords t) _ _ _ _ _ _ _ _ _ _ _ _ _ _ _ _ _ _ _ _ _ _ (fun h => h0 ((isFirst_iff t).mp h)) (fun h => h7 ((isLast_iff t).mp h)) (blk V c 0 t) (blk V c 1 t) (blk V c 2 t) (blk V c 3 t) (blk V c 4 t) (blk V c 5 t) (blk V c 6 t) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      isplitl [HD]; · iexact HD
      iintro ⟨H0, H1, H2, H3, H4, H5, H6, ⟨%es, HS⟩, ⟨%ed, HD⟩⟩
      isplitl [HS HD Hoth Hg]
      · isplitl [HS HD Hoth]
        · isplitl [HS HD]
          · isplitl [HS]
            · unfold owns; iexists _; isplitr
              swap; · iexact HS
              ipureintro; exact View.read_writes_of_cover _ _ _ _ _ (coverMiddleS c _ _ _ _ _ _ _ _ _ _ _ _ _ _ _ _ _ _ _ _ _ _ _ _ _ _ _ _ _ _ _ _ _ _)
            unfold owns; iexists _; isplitr
            swap; · iexact HD
            ipureintro; exact View.read_writes_of_cover _ _ _ _ _ (coverMiddleD c _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation (c : Dev nD) : BodyObligation (dat (F := F) V c) (defs₀ (F := F)) Variants.none () Set.univ := fun t => by
  rw [bigSep_W1, bigSep_W1]
  exact sound_body V c t

/-! ## Into the invariant and out of it -/

theorem Phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives back what the region handed the kernel: the scratch columns' contents are
    forgotten. -/
theorem Phi_out (c : Dev nD) : (dat V c).Φ (Fin.last cfg1.N) ⊢ Pipeline.ΦA spec1 c := by
  have hne : (Fin.last cfg1.N).val ≠ 0 := by rw [Fin.val_last]; have : cfg1.N = 64 := N_1; omega
  rw [show (dat V c).Φ (Fin.last cfg1.N) = PhiS V c (Fin.last cfg1.N).val (Nat.le_of_lt_succ (Fin.last cfg1.N).isLt) from rfl,
    PhiS_pos V c _ _ hne, PhiA_eq]
  iintro ⟨⟨⟨HS, HD⟩, Hoth⟩, Hg⟩
  isplitl [HS HD Hoth]
  · isplitl [HS HD]
    · isplitl [HS]
      · iexists _; iexact HS
      iexists _; iexact HD
    iexact Hoth
  iexact Hg

end

end Cert.KernelIdeal.Losses

end
-- ==== Proof.Program.Arrays.lean ====
/-
  The windows' arrays of the two kernels against the buffers behind them.

  Both kernels are handed X through two windows (the row tile and the column tile), so two of a kernel's windows sit on
  one buffer. A buffer held whole at the full share is dealt to the windows on it by splitting the share: X's goes in
  halves to its two windows, every other buffer's whole to its one window; and the windows give the buffers back the
  same way.
-/
import proofs.«134967_j48713519072039_1_alg».proof.Proof.RowSums.Data
import proofs.«134967_j48713519072039_1_alg».proof.Proof.Losses.Data
import Idealize.ShloMosaic.Lib.Pipeline.Regions

set_option maxRecDepth 16384

noncomputable section

namespace Cert.KernelIdeal.Program

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The distinct buffers behind the first kernel's windows, each whole at the full share at contents `Vv`, are the windows' arrays
    at those contents with the shares the proof data names: the buffer of X is read by two windows, each at half of
    its share; every other buffer by one window at the full share. Both ways: at the region's entry the buffers are dealt
    to the windows, at its exit the windows give them back. -/
theorem arrays_iff0 (Vc : (c : Dev nD) → (b : Ref sig .tc) → Buf (Elt F) ((c : Thread nD τ).loc b)) (c : Dev nD)
    (Vv : (b : Ref sig .tc) → Buf (Elt F) ((c : Thread nD τ).loc b))
    (G : (w : Fin cfg0.W) → Buf (Elt F) ((cfg0.win w).arr.view.loc (c.tc : Thread nD τ))) (hG : ∀ w, G w = Vv (Pipeline.arrRef spec0 w)) :
    (Pipeline.arrBufs spec0 c Vv : sProp 𝕄) ⊣⊢ (RowSums.dat Vc c).arrays G := by
  have hL : (Pipeline.arrBufs spec0 c Vv : sProp 𝕄)
      = iprop((((c : Thread nD τ).loc main_v1) ↦{fullShare} Vv main_v1)
          ∗ (((c : Thread nD τ).loc main_v8) ↦{fullShare} Vv main_v8)
          ∗ (((c : Thread nD τ).loc main_v9) ↦{fullShare} Vv main_v9)
          ∗ (((c : Thread nD τ).loc main_v10) ↦{fullShare} Vv main_v10)
          ∗ (((c : Thread nD τ).loc main_v11) ↦{fullShare} Vv main_v11)
          ∗ (((c : Thread nD τ).loc main_v12) ↦{fullShare} Vv main_v12)) := by
    unfold Pipeline.arrBufs
    exact Idealize.SL.BI.bigSep_eq_bigSepL_of_eq [main_v1, main_v8, main_v9, main_v10, main_v11, main_v12] (by decide) (by decide) _
  rw [hL]
  unfold Dat.arrays
  rw [bigSep_W0]
  rw [hG 0, hG 1, hG 2, hG 3, hG 4, hG 5, hG 6]
  have s0 : (RowSums.dat Vc c).share 0 = fullShare.left := rfl
  have s1 : (RowSums.dat Vc c).share 1 = fullShare.right := rfl
  have s2 : (RowSums.dat Vc c).share 2 = fullShare := rfl
  have s3 : (RowSums.dat Vc c).share 3 = fullShare := rfl
  have s4 : (RowSums.dat Vc c).share 4 = fullShare := rfl
  have s5 : (RowSums.dat Vc c).share 5 = fullShare := rfl
  have s6 : (RowSums.dat Vc c).share 6 = fullShare := rfl
  rw [s0, s1, s2, s3, s4, s5, s6]
  simp only [View.set_whole]
  exact ⟨(sep_mono (pointsTo_share (PosShare.mem_left_op_right fullShare)).1 .rfl).trans sep_assoc.1,
    sep_assoc.2.trans (sep_mono (pointsTo_share (PosShare.mem_left_op_right fullShare)).2 .rfl)⟩

set_option maxHeartbeats 8000000 in
/-- The distinct buffers behind the second kernel's windows, each whole at the full share at contents `Vv`, are the windows' arrays
    at those contents with the shares the proof data names: the buffer of X is read by two windows, each at half of
    its share; every other buffer by one window at the full share. Both ways: at the region's entry the buffers are dealt
    to the windows, at its exit the windows give them back. -/
theorem arrays_iff1 (Vc : (c : Dev nD) → (b : Ref sig .tc) → Buf (Elt F) ((c : Thread nD τ).loc b)) (c : Dev nD)
    (Vv : (b : Ref sig .tc) → Buf (Elt F) ((c : Thread nD τ).loc b))
    (G : (w : Fin cfg1.W) → Buf (Elt F) ((cfg1.win w).arr.view.loc (c.tc : Thread nD τ))) (hG : ∀ w, G w = Vv (Pipeline.arrRef spec1 w)) :
    (Pipeline.arrBufs spec1 c Vv : sProp 𝕄) ⊣⊢ (Losses.dat Vc c).arrays G := by
  have hL : (Pipeline.arrBufs spec1 c Vv : sProp 𝕄)
      = iprop((((c : Thread nD τ).loc main_v1) ↦{fullShare} Vv main_v1)
          ∗ (((c : Thread nD τ).loc main_v8) ↦{fullShare} Vv main_v8)
          ∗ (((c : Thread nD τ).loc main_v9) ↦{fullShare} Vv main_v9)
          ∗ (((c : Thread nD τ).loc main_v10) ↦{fullShare} Vv main_v10)
          ∗ (((c : Thread nD τ).loc main_v11) ↦{fullShare} Vv main_v11)
          ∗ (((c : Thread nD τ).loc main_v12) ↦{fullShare} Vv main_v12)
          ∗ (((c : Thread nD τ).loc main_v13_0) ↦{fullShare} Vv main_v13_0)
          ∗ (((c : Thread nD τ).loc main_v13_1) ↦{fullShare} Vv main_v13_1)) := by
    unfold Pipeline.arrBufs
    exact Idealize.SL.BI.bigSep_eq_bigSepL_of_eq [main_v1, main_v8, main_v9, main_v10, main_v11, main_v12, main_v13_0, main_v13_1] (by decide) (by decide) _
  rw [hL]
  unfold Dat.arrays
  rw [bigSep_W1]
  rw [hG 0, hG 1, hG 2, hG 3, hG 4, hG 5, hG 6, hG 7, hG 8]
  have s0 : (Losses.dat Vc c).share 0 = fullShare.left := rfl
  have s1 : (Losses.dat Vc c).share 1 = fullShare.right := rfl
  have s2 : (Losses.dat Vc c).share 2 = fullShare := rfl
  have s3 : (Losses.dat Vc c).share 3 = fullShare := rfl
  have s4 : (Losses.dat Vc c).share 4 = fullShare := rfl
  have s5 : (Losses.dat Vc c).share 5 = fullShare := rfl
  have s6 : (Losses.dat Vc c).share 6 = fullShare := rfl
  have s7 : (Losses.dat Vc c).share 7 = fullShare := rfl
  have s8 : (Losses.dat Vc c).share 8 = fullShare := rfl
  rw [s0, s1, s2, s3, s4, s5, s6, s7, s8]
  simp only [View.set_whole]
  exact ⟨(sep_mono (pointsTo_share (PosShare.mem_left_op_right fullShare)).1 .rfl).trans sep_assoc.1,
    sep_assoc.2.trans (sep_mono (pointsTo_share (PosShare.mem_left_op_right fullShare)).2 .rfl)⟩

end Cert.KernelIdeal.Program

end
-- ==== Proof.Program.Valuations.lean ====
/-
  What the TensorCore's unscoped buffers hold at each boundary of @main.

  @main is four stretches: host operations (the re-laying of the input, the label and part columns and rows), the first
  kernel, the second kernel, host operations (the two totals, their sum, the division). The first kernel changes one
  buffer, its row sums; the second changes two, its two loss columns; a host stretch changes the buffers its operations
  write. Each kernel's proof data is stated at the contents its region finds.
-/
import proofs.«134967_j48713519072039_1_alg».proof.Proof.Program.Arrays
import proofs.«134967_j48713519072039_1_alg».proof.Proof.Gen.KernelIdeal.Regions
import Idealize.ShloMosaic.Lib.Pipeline.Frame

set_option maxRecDepth 16384

noncomputable section

namespace Cert.KernelIdeal.Program

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents, boundary by boundary -/

/-- At launch. -/
abbrev W0 (c : Dev nD) : Valuation τ sig (Elt F) := fun b => m (c, b)
/-- After the first host stretch: what the first kernel's region finds. -/
abbrev W1 (c : Dev nD) : Valuation τ sig (Elt F) := StableHlo.after hostOps0 (W0 m c)
/-- The same read at the TensorCore's references. -/
abbrev E0 (c : Dev nD) (b : Ref sig .tc) : Buf (Elt F) ((c : Thread nD τ).loc b) := W1 m c b

/-- The row sums the first kernel leaves in its result buffer. -/
def rowSums (c : Dev nD) : Buf (Elt F) ((c : Thread nD τ).loc main_v12) := (RowSums.dat (E0 m) c).arrAt 6 cfg0.N

/-- After the first kernel: what the second kernel's region finds. -/
def W2 (c : Dev nD) : Valuation τ sig (Elt F) := Function.update (W1 m c) main_v12 (rowSums m c)
abbrev E1 (c : Dev nD) (b : Ref sig .tc) : Buf (Elt F) ((c : Thread nD τ).loc b) := W2 m c b

/-- The two loss columns the second kernel leaves in its result buffers. -/
def lossS (c : Dev nD) : Buf (Elt F) ((c : Thread nD τ).loc main_v13_0) := (Losses.dat (E1 m) c).arrAt 7 cfg1.N
def lossD (c : Dev nD) : Buf (Elt F) ((c : Thread nD τ).loc main_v13_1) := (Losses.dat (E1 m) c).arrAt 8 cfg1.N

/-- After the second kernel. -/
def W3 (c : Dev nD) : Valuation τ sig (Elt F) :=
  Function.update (Function.update (W2 m c) main_v13_0 (lossS m c)) main_v13_1 (lossD m c)
abbrev E2 (c : Dev nD) (b : Ref sig .tc) : Buf (Elt F) ((c : Thread nD τ).loc b) := W3 m c b
/-- After the last host stretch: at the return. -/
abbrev W4 (c : Dev nD) : Valuation τ sig (Elt F) := StableHlo.after hostOps2 (W3 m c)

theorem W2_self (c : Dev nD) : W2 m c main_v12 = rowSums m c := by
  simp only [W2, Function.update_self]
theorem W2_of (c : Dev nD) (r : Ref sig .tc) (h : r ≠ main_v12) : W2 m c r = W1 m c r := by
  simp only [W2, Function.update_of_ne (StableHlo.devRef_ne_of_ne h : (Proc.devRef .tc r : DevRef τ sig) ≠ Proc.devRef .tc main_v12)]
theorem W3_lossD (c : Dev nD) : W3 m c main_v13_1 = lossD m c := by
  simp only [W3, Function.update_self]
theorem W3_lossS (c : Dev nD) : W3 m c main_v13_0 = lossS m c := by
  simp only [W3, Function.update_of_ne (StableHlo.devRef_ne_of_ne (by decide : main_v13_0 ≠ main_v13_1) : (Proc.devRef .tc main_v13_0 : DevRef τ sig) ≠ Proc.devRef .tc main_v13_1), Function.update_self]
theorem W3_of (c : Dev nD) (r : Ref sig .tc) (h0 : r ≠ main_v13_0) (h1 : r ≠ main_v13_1) : W3 m c r = W2 m c r := by
  simp only [W3, Function.update_of_ne (StableHlo.devRef_ne_of_ne h0 : (Proc.devRef .tc r : DevRef τ sig) ≠ Proc.devRef .tc main_v13_0),
    Function.update_of_ne (StableHlo.devRef_ne_of_ne h1 : (Proc.devRef .tc r : DevRef τ sig) ≠ Proc.devRef .tc main_v13_1)]

/-! ## The proof data of the two pipelines -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => RowSums.dat (E0 m) c
  | ⟨1, _⟩ => fun c => Losses.dat (E1 m) c

/-! ## The first kernel's arrays at its exit -/

/-- Each window's array after the first kernel is the next boundary's contents at its buffer: an input's as the region
    found it, the result's at the row sums. -/
theorem exit0 (c : Dev nD) : ∀ w : Fin cfg0.W, (RowSums.dat (E0 m) c).arrAt w cfg0.N = E1 m c (Pipeline.arrRef spec0 w)
  | ⟨0, _⟩ => ((RowSums.dat (E0 m) c).arrAt_in 0 rfl _).trans ((RowSums.A_eq (E0 m) c 0).trans (W2_of m c main_v1 (by decide)).symm)
  | ⟨1, _⟩ => ((RowSums.dat (E0 m) c).arrAt_in 1 rfl _).trans ((RowSums.A_eq (E0 m) c 1).trans (W2_of m c main_v1 (by decide)).symm)
  | ⟨2, _⟩ => ((RowSums.dat (E0 m) c).arrAt_in 2 rfl _).trans ((RowSums.A_eq (E0 m) c 2).trans (W2_of m c main_v8 (by decide)).symm)
  | ⟨3, _⟩ => ((RowSums.dat (E0 m) c).arrAt_in 3 rfl _).trans ((RowSums.A_eq (E0 m) c 3).trans (W2_of m c main_v9 (by decide)).symm)
  | ⟨4, _⟩ => ((RowSums.dat (E0 m) c).arrAt_in 4 rfl _).trans ((RowSums.A_eq (E0 m) c 4).trans (W2_of m c main_v10 (by decide)).symm)
  | ⟨5, _⟩ => ((RowSums.dat (E0 m) c).arrAt_in 5 rfl _).trans ((RowSums.A_eq (E0 m) c 5).trans (W2_of m c main_v11 (by decide)).symm)
  | ⟨6, _⟩ => (W2_self m c).symm

/-- Off the first kernel's windows nothing changed. -/
theorem rest0 (c : Dev nD) (b : Ref sig .tc) (hb : b ∉ Finset.univ.image (Pipeline.arrRef spec0)) : E1 m c b = E0 m c b :=
  W2_of m c b fun e => hb (e ▸ Finset.mem_image.mpr ⟨6, Finset.mem_univ _, rfl⟩)

/-! ## The second kernel's arrays at its exit -/

theorem exit1 (c : Dev nD) : ∀ w : Fin cfg1.W, (Losses.dat (E1 m) c).arrAt w cfg1.N = E2 m c (Pipeline.arrRef spec1 w)
  | ⟨0, _⟩ => ((Losses.dat (E1 m) c).arrAt_in 0 rfl _).trans ((Losses.A_eq (E1 m) c 0).trans (W3_of m c main_v1 (by decide) (by decide)).symm)
  | ⟨1, _⟩ => ((Losses.dat (E1 m) c).arrAt_in 1 rfl _).trans ((Losses.A_eq (E1 m) c 1).trans (W3_of m c main_v1 (by decide) (by decide)).symm)
  | ⟨2, _⟩ => ((Losses.dat (E1 m) c).arrAt_in 2 rfl _).trans ((Losses.A_eq (E1 m) c 2).trans (W3_of m c main_v8 (by decide) (by decide)).symm)
  | ⟨3, _⟩ => ((Losses.dat (E1 m) c).arrAt_in 3 rfl _).trans ((Losses.A_eq (E1 m) c 3).trans (W3_of m c main_v9 (by decide) (by decide)).symm)
  | ⟨4, _⟩ => ((Losses.dat (E1 m) c).arrAt_in 4 rfl _).trans ((Losses.A_eq (E1 m) c 4).trans (W3_of m c main_v10 (by decide) (by decide)).symm)
  | ⟨5, _⟩ => ((Losses.dat (E1 m) c).arrAt_in 5 rfl _).trans ((Losses.A_eq (E1 m) c 5).trans (W3_of m c main_v11 (by decide) (by decide)).symm)
  | ⟨6, _⟩ => ((Losses.dat (E1 m) c).arrAt_in 6 rfl _).trans ((Losses.A_eq (E1 m) c 6).trans (W3_of m c main_v12 (by decide) (by decide)).symm)
  | ⟨7, _⟩ => (W3_lossS m c).symm
  | ⟨8, _⟩ => (W3_lossD m c).symm

theorem rest1 (c : Dev nD) (b : Ref sig .tc) (hb : b ∉ Finset.univ.image (Pipeline.arrRef spec1)) : E2 m c b = E1 m c b :=
  W3_of m c b (fun e => hb (e ▸ Finset.mem_image.mpr ⟨7, Finset.mem_univ _, rfl⟩)) (fun e => hb (e ▸ Finset.mem_image.mpr ⟨8, Finset.mem_univ _, rfl⟩))

end Cert.KernelIdeal.Program

end
-- ==== Proof.Program.Regions.lean ====
/-
  The two kernels as regions of @main.

  A region is entered from a state in which the TensorCore holds every unscoped buffer at the boundary's contents,
  beside its generator register and owing nothing. The windows' arrays are dealt out of those buffers (X's share in
  halves to its two windows) and the rest bypasses the region; the generator register and the scoped buffers enter the
  kernel's invariant, which carries the scratch columns from point to point; at the exit the arrays are put back at the
  next boundary's contents — the inputs as found, the results at what the write-backs left.
-/
import proofs.«134967_j48713519072039_1_alg».proof.Proof.Program.Valuations

set_option maxRecDepth 16384

noncomputable section

namespace Cert.KernelIdeal.Program

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every stretch: the core's generator register at some state, and its owing
    nothing. -/
abbrev R (c : Dev nD) : sProp 𝕄 := iprop((∃ r, prngReg c r) ∗ ∃ W, owes (c : Thread nD τ) (0 : CellTallies nD τ sig Unit) W)

-- the library's lemmas are stated over the pinned configuration `pin pcs a p`; matching them against the printed one
-- unfolds plain definitions in a metavariable's type
set_option backward.isDefEq.respectTransparency.types false in
set_option maxHeartbeats 8000000 in
/-- THE FIRST KERNEL as a region: entered with every unscoped buffer at the contents after the first host stretch, left with the row sums in its result buffer and everything else as found. -/
def reg0 : RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (RowSums.body_obligation (E0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit : (unscopedBufs c (E0 m c) : sProp 𝕄)
        ⊢ iprop((pdats m 0 c).arrays ((pdats m 0 c).arrAt · 0) ∗ Pipeline.unscopedRest spec0 c (E0 m c)) := by
      rw [Pipeline.unscopedBufs_split₀ cfgs 0 winFacts₀0.arr_unscoped c (E0 m c)]
      exact sep_mono (arrays_iff0 (E0 m) c (E0 m c) _ (fun w => RowSums.A_eq (E0 m) c w)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (RowSums.Phi_in (E0 m) c)
    unfold Pipeline.ΦA
    iintro ⟨Hp, -, Hr⟩
    isplitl [Hr]; · iexact Hr
    iexact Hp
  hout c := by
    rw [Pipeline.ownSems0_none]
    refine (RowSums.Phi_out (E0 m) c).trans ?_
    unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (E0 m c))
        ⊢ (unscopedBufs c (E1 m c) : sProp 𝕄) := by
      rw [Pipeline.unscopedBufs_split₀ cfgs 0 winFacts₀0.arr_unscoped c (E1 m c)]
      refine sep_mono (arrays_iff0 (E0 m) c (E1 m c) _ (exit0 m c)).2 (Entails.of_eq ?_)
      unfold Pipeline.unscopedRest
      exact bigSep_congr fun b hb => by rw [rest0 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration `pin pcs a p`; matching them against the printed one
-- unfolds plain definitions in a metavariable's type
set_option backward.isDefEq.respectTransparency.types false in
set_option maxHeartbeats 8000000 in
/-- THE SECOND KERNEL as a region: entered with every unscoped buffer at the contents the first kernel left, left with the two loss columns in its result buffers and everything else as found. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Losses.body_obligation (E1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit : (unscopedBufs c (E1 m c) : sProp 𝕄)
        ⊢ iprop((pdats m 1 c).arrays ((pdats m 1 c).arrAt · 0) ∗ Pipeline.unscopedRest spec1 c (E1 m c)) := by
      rw [Pipeline.unscopedBufs_split₀ cfgs 1 winFacts₀1.arr_unscoped c (E1 m c)]
      exact sep_mono (arrays_iff1 (E1 m) c (E1 m c) _ (fun w => Losses.A_eq (E1 m) c w)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (Losses.Phi_in (E1 m) c)
    unfold Pipeline.ΦA
    iintro ⟨Hp, -, Hr⟩
    isplitl [Hr]; · iexact Hr
    iexact Hp
  hout c := by
    rw [Pipeline.ownSems0_none]
    refine (Losses.Phi_out (E1 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (E1 m c))
        ⊢ (unscopedBufs c (E2 m c) : sProp 𝕄) := by
      rw [Pipeline.unscopedBufs_split₀ cfgs 1 winFacts₀1.arr_unscoped c (E2 m c)]
      refine sep_mono (arrays_iff1 (E1 m) c (E2 m c) _ (exit1 m c)).2 (Entails.of_eq ?_)
      unfold Pipeline.unscopedRest
      exact bigSep_congr fun b hb => by rw [rest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Program

end
-- ==== Proof.Program.Run.lean ====
/-
  The run of @main: the four stretches in order.

  From any memory with zero counters every weakly fair execution of @main terminates, and in every final memory each
  unscoped buffer of the TensorCore holds the last boundary's contents: the launch contents pushed through the first
  host stretch, the first kernel's row sums, the second kernel's loss columns, the last host stretch. The two arguments
  are written by no stretch; the result buffer holds what the last stretch computes from the loss columns.
-/
import proofs.«134967_j48713519072039_1_alg».proof.Proof.Program.Regions

set_option maxRecDepth 16384

noncomputable section

namespace Cert.KernelIdeal.Program

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A host stretch as a segment over the unscoped buffers from the contents `W`, the generator register and the core's
    owing nothing riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main's four segments in order. -/
abbrev segs : List (Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

theorem main_run (c : Dev nD) : main (F := F) c = Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owing: every unscoped buffer at the last boundary's contents, the generator
    register at some state. -/
abbrev Tlast (c : Dev nD) : sProp 𝕄 := iprop(StableHlo.held (c : Thread nD τ) (Pipeline.ucRefs τ sig) (W4 m c) ∗ ∃ r, prngReg c r)

set_option backward.isDefEq.respectTransparency.types false in
set_option maxHeartbeats 8000000 in
/-- THE RUN. Every weakly fair execution of @main from memory `m` with zero counters terminates, nothing faulting, and
    every final memory holds each unscoped buffer of each core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tlast m)
    (hch := ⟨fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## What the last boundary holds at the arguments -/

theorem W4_of (c : Dev nD) (r : Ref sig .tc) (h : r ∉ hostOps2_W) : W4 m c r = W3 m c r :=
  StableHlo.after_of_writes_sub hostOps2 _ hostOps2_writes h

theorem W1_of (c : Dev nD) (r : Ref sig .tc) (h : r ∉ hostOps0_W) : W1 m c r = W0 m c r :=
  StableHlo.after_of_writes_sub hostOps0 _ hostOps0_writes h

/-- No stretch writes the first argument. -/
theorem W4_arg0 (c : Dev nD) : W4 m c main_arg0 = m ((c : Thread nD τ).loc main_arg0) :=
  (W4_of m c main_arg0 (by decide)).trans <| (W3_of m c main_arg0 (by decide) (by decide)).trans <|
    (W2_of m c main_arg0 (by decide)).trans <| (W1_of m c main_arg0 (by decide)).trans rfl

/-- No stretch writes the second argument. -/
theorem W4_arg1 (c : Dev nD) : W4 m c main_arg1 = m ((c : Thread nD τ).loc main_arg1) :=
  (W4_of m c main_arg1 (by decide)).trans <| (W3_of m c main_arg1 (by decide) (by decide)).trans <|
    (W2_of m c main_arg1 (by decide)).trans <| (W1_of m c main_arg1 (by decide)).trans rfl

/-- THE FRAME: @main runs to the end, nothing faulting, and its two arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_arg0 m c), (h c _ (mem_uc main_arg1 (by decide))).trans (W4_arg1 m c)⟩) (run m ρ)

/-- The run with the result named: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v18) = W4 m c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v18 (by decide)),
      (h c _ (mem_uc main_arg0 (by decide))).trans (W4_arg0 m c), (h c _ (mem_uc main_arg1 (by decide))).trans (W4_arg1 m c)⟩) (run m ρ)

end Cert.KernelIdeal.Program

end
-- ==== Proof.WordLevel.RowSums.Cases.lean ====
/-
  The first kernel computes, for the 512 rows of row tile i, the partial row sums
    S r = Σ_j [t r ≠ t j ∧ p r ≠ p j] · exp (prod r j)
  one 512-column tile k at a time, in a 512 x 1 scratch column: the column is zeroed when k = 0, every point adds its
  tile's lane sums to it, and the point k = 7 copies it to the output block. A grid point t = 8·i + k is therefore in
  one of three cases: the first column tile (k = 0: zero, then add), a middle one (0 < k < 7: add), the last (k = 7: add,
  then copy out). This module decides, over the 64 grid points, which points are in which case, where the output
  window is idle and where its block is written back, and names the buffers the body is called with.
-/
import proofs.«134967_j48713519072039_1_alg».proof.Proof.Gen.Kernel.Launch
import proofs.«134967_j48713519072039_1_alg».proof.Proof.Gen.Kernel.Skeleton
import proofs.«134967_j48713519072039_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.RowSums

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two conditions of the body, from the grid coordinates -/

/-- "This is the first column tile": the body's test k = 0, as it computes it from the second grid coordinate. -/
abbrev isFirst (i : grid0.Coords) : Prop :=
  (Scalar.cmpi .ne (Scalar.extui (Scalar.cmpi .eq (BitVec.ofNat 32 (i 1).val) 0#32)) 0#32) = 1#1

/-- "This is the last column tile": the body's test k = 7. -/
abbrev isLast (i : grid0.Coords) : Prop := k0_cond2 i = 1#1

/-- Point t = 8·i + k is a first column tile exactly when k = 0. -/
theorem isFirst_iff : ∀ t : Fin cfg0.N, isFirst (grid0.coords t) ↔ t.val % 8 = 0 :=
  (by decide +kernel : ∀ t : Fin grid0.N, isFirst (grid0.coords t) ↔ t.val % 8 = 0)

/-- Point t = 8·i + k is a last column tile exactly when k = 7. -/
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- Before the last column tile nothing is stored into the output block: the window is idle there, -/
theorem idle6_of_not_last : ∀ t : Fin cfg0.N, ¬isLast (grid0.coords t) → cfg0.idle 6 (grid0.coords t) = true := by decide +kernel
/-- and its block is not written back there. -/
theorem noFlush6_of_not_last : ∀ t : Fin cfg0.N, ¬isLast (grid0.coords t) → (cfg0.win 6).flush t = false := by decide +kernel
/-- At the last column tile the output block is stored into -/
theorem live6_of_last : ∀ t : Fin cfg0.N, isLast (grid0.coords t) → cfg0.idle 6 (grid0.coords t) = false := by decide +kernel
/-- and written back. -/
theorem flush6_of_last : ∀ t : Fin cfg0.N, isLast (grid0.coords t) → (cfg0.win 6).flush t = true := by decide +kernel

/-! ## The buffers the body is called with at a point -/

abbrev ms0 (t : Fin cfg0.N) : Memref sig .tc .vmem S512x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x1 .f32 := win0_6.stage (cfg0.slots t 6)
abbrev hs6 (t : Fin cfg0.N) : (ms6 t).IsWhole := hstage0_6 ((cfg0.slots t 6).cast nbuf0_6)
/-- The scratch column that carries the partial row sums from one column tile to the next. -/
abbrev acc : Memref sig .tc .vmem S512x1 .f32 := Memref.whole cc0_scratch0
abbrev accView : View sig .tc .vmem S512x1 .f32 := (acc).view
/-- One staging buffer of the output window, through which its contents are stated. -/
abbrev outView : View sig .tc .vmem S512x1 .f32 := (Memref.whole cc0_stg6_0 : Memref sig .tc .vmem S512x1 .f32).view

end Cert.Kernel.RowSums

end
-- ==== Proof.WordLevel.RowSums.RunFirst.lean ====
/-
  The body of the first kernel at a first column tile (k = 0, which is not the last): it zeroes the scratch column,
  loads the two 512 x 512 tiles of X and the label and part columns and rows, and stores into the scratch column the
  zero column plus the tile's lane sums. The output block is not touched. What the scratch column holds afterwards is
  recorded as the list of stores made into it.
-/
import proofs.«134967_j48713519072039_1_alg».proof.Proof.WordLevel.RowSums.Cases

set_option maxRecDepth 16384

noncomputable section

namespace Cert.Kernel.RowSums

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.RowSums

set_option maxHeartbeats 2000000 in
/-- The run at a first column tile: from the six input buffers at their contents and the scratch column at anything, to
    the inputs as they were and the scratch column with its stores written. -/
noncomputable def runFirst (c : Dev nD) (i : grid0.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole)
    (hf : isFirst i) (hl : ¬isLast i) (x0 x1 : Vec F S512x512 .bf16) (t0 : Vec F S512x1 .i32) (t1 : Vec F S1x512 .i32) (p0 : Vec F S512x1 .i32) (p1 : Vec F S1x512 .i32) :
    { LS : List (View.Piece (Elt F) S512x1 .f32) //
      ∀ (E : Set ℕ) (K : PUnit → sProp 𝕄),
        iprop(owns (c : Thread nD τ) a2 fullShare x0 ∗ owns (c : Thread nD τ) a3 fullShare x1 ∗ owns (c : Thread nD τ) a4 fullShare t0 ∗ owns (c : Thread nD τ) a5 fullShare t1 ∗ owns (c : Thread nD τ) a6 fullShare p0 ∗ owns (c : Thread nD τ) a7 fullShare p1 ∗ (∃ d, owns (c : Thread nD τ) a9 fullShare d)
            ∗ (iprop(owns (c : Thread nD τ) a2 fullShare x0 ∗ owns (c : Thread nD τ) a3 fullShare x1 ∗ owns (c : Thread nD τ) a4 fullShare t0 ∗ owns (c : Thread nD τ) a5 fullShare t1 ∗ owns (c : Thread nD τ) a6 fullShare p0 ∗ owns (c : Thread nD τ) a7 fullShare p1 ∗ (∃ f, a9.view.loc (c : Thread nD τ) ↦[a9.view.set]{fullShare} a9.view.writes (Elt F) f LS)) -∗ K ⟨⟩))
          ⊢ wp frame (wpE (defs₀ (F := F)) Variants.none c none) E (cc0__s_kernel i a2 h2 a3 h3 a4 h4 a5 h5 a6 h6 a7 h7 a8 h8 a9 h9) K } := by
  refine ⟨?_, fun E K => ?run⟩
  case run =>
    simp only [cc0__s_kernel_eq_skeleton]; unfold cc0__s_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d9, %f9, -, H9⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    iexists _; iexact H9

end Cert.Kernel.RowSums

end
-- ==== Proof.WordLevel.RowSums.RunMiddle.lean ====
/-
  The body of the first kernel at a middle column tile (0 < k < 7): it loads the two tiles of X, the label and part
  columns and rows and the scratch column, and stores back into the scratch column what it held plus the tile's lane
  sums. The output block is not touched.
-/
import proofs.«134967_j48713519072039_1_alg».proof.Proof.WordLevel.RowSums.Cases

set_option maxRecDepth 16384

noncomputable section

namespace Cert.Kernel.RowSums

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.RowSums

set_option maxHeartbeats 2000000 in
/-- The run at a middle column tile: from the six input buffers at their contents and the scratch column at `s`, to
    the inputs as they were and the scratch column with its stores written. -/
noncomputable def runMiddle (c : Dev nD) (i : grid0.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole)
    (hf : ¬isFirst i) (hl : ¬isLast i) (x0 x1 : Vec F S512x512 .bf16) (t0 : Vec F S512x1 .i32) (t1 : Vec F S1x512 .i32) (p0 : Vec F S512x1 .i32) (p1 : Vec F S1x512 .i32) (s : Vec F S512x1 .f32) :
    { LS : List (View.Piece (Elt F) S512x1 .f32) //
      ∀ (E : Set ℕ) (K : PUnit → sProp 𝕄),
        iprop(owns (c : Thread nD τ) a2 fullShare x0 ∗ owns (c : Thread nD τ) a3 fullShare x1 ∗ owns (c : Thread nD τ) a4 fullShare t0 ∗ owns (c : Thread nD τ) a5 fullShare t1 ∗ owns (c : Thread nD τ) a6 fullShare p0 ∗ owns (c : Thread nD τ) a7 fullShare p1 ∗ owns (c : Thread nD τ) a9 fullShare s
            ∗ (iprop(owns (c : Thread nD τ) a2 fullShare x0 ∗ owns (c : Thread nD τ) a3 fullShare x1 ∗ owns (c : Thread nD τ) a4 fullShare t0 ∗ owns (c : Thread nD τ) a5 fullShare t1 ∗ owns (c : Thread nD τ) a6 fullShare p0 ∗ owns (c : Thread nD τ) a7 fullShare p1 ∗ (∃ f, a9.view.loc (c : Thread nD τ) ↦[a9.view.set]{fullShare} a9.view.writes (Elt F) f LS)) -∗ K ⟨⟩))
          ⊢ wp frame (wpE (defs₀ (F := F)) Variants.none c none) E (cc0__s_kernel i a2 h2 a3 h3 a4 h4 a5 h5 a6 h6 a7 h7 a8 h8 a9 h9) K } := by
  refine ⟨?_, fun E K => ?run⟩
  case run =>
    simp only [cc0__s_kernel_eq_skeleton]; unfold cc0__s_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f9, %hf9, H9⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    obtain rfl := h9.eq_unread hf9
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    iexists _; iexact H9

end Cert.Kernel.RowSums

end
-- ==== Proof.WordLevel.RowSums.RunLast.lean ====
/-
  The body of the first kernel at the last column tile (k = 7): as at a middle tile it adds the tile's lane sums to
  the scratch column, and then copies the scratch column into the output block, which the pipeline writes back.
-/
import proofs.«134967_j48713519072039_1_alg».proof.Proof.WordLevel.RowSums.Cases

set_option maxRecDepth 16384

noncomputable section

namespace Cert.Kernel.RowSums

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.RowSums

set_option maxHeartbeats 2000000 in
/-- The run at the last column tile: from the six input buffers at their contents, the scratch column at `s` and the
    output block at anything, to the inputs as they were and the output block and the scratch column each with its
    stores written. -/
noncomputable def runLast (c : Dev nD) (i : grid0.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole)
    (hf : ¬isFirst i) (hl : isLast i) (x0 x1 : Vec F S512x512 .bf16) (t0 : Vec F S512x1 .i32) (t1 : Vec F S1x512 .i32) (p0 : Vec F S512x1 .i32) (p1 : Vec F S1x512 .i32) (s : Vec F S512x1 .f32) :
    Σ' (LO : List (View.Piece (Elt F) S512x1 .f32)), { LS : List (View.Piece (Elt F) S512x1 .f32) //
      ∀ (E : Set ℕ) (K : PUnit → sProp 𝕄),
        iprop(owns (c : Thread nD τ) a2 fullShare x0 ∗ owns (c : Thread nD τ) a3 fullShare x1 ∗ owns (c : Thread nD τ) a4 fullShare t0 ∗ owns (c : Thread nD τ) a5 fullShare t1 ∗ owns (c : Thread nD τ) a6 fullShare p0 ∗ owns (c : Thread nD τ) a7 fullShare p1 ∗ (∃ d, owns (c : Thread nD τ) a8 fullShare d) ∗ owns (c : Thread nD τ) a9 fullShare s
            ∗ (iprop(owns (c : Thread nD τ) a2 fullShare x0 ∗ owns (c : Thread nD τ) a3 fullShare x1 ∗ owns (c : Thread nD τ) a4 fullShare t0 ∗ owns (c : Thread nD τ) a5 fullShare t1 ∗ owns (c : Thread nD τ) a6 fullShare p0 ∗ owns (c : Thread nD τ) a7 fullShare p1 ∗ (∃ f, a8.view.loc (c : Thread nD τ) ↦[a8.view.set]{fullShare} a8.view.writes (Elt F) f LO)
                ∗ (∃ f, a9.view.loc (c : Thread nD τ) ↦[a9.view.set]{fullShare} a9.view.writes (Elt F) f LS)) -∗ K ⟨⟩))
          ⊢ wp frame (wpE (defs₀ (F := F)) Variants.none c none) E (cc0__s_kernel i a2 h2 a3 h3 a4 h4 a5 h5 a6 h6 a7 h7 a8 h8 a9 h9) K } := by
  refine ⟨?_, ?_, fun E K => ?run⟩
  case run =>
    simp only [cc0__s_kernel_eq_skeleton]; unfold cc0__s_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%f9, %hf9, H9⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    obtain rfl := h9.eq_unread hf9
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H8]; · iexists _; iexact H8
    iexists _; iexact H9

end Cert.Kernel.RowSums

end
-- ==== Proof.WordLevel.RowSums.Contents.lean ====
/-
  What the first kernel's scratch column and output block hold after each grid point.

  Each case's run records the stores it made; they tile the 512 x 1 buffer, so reading them back gives the buffer's
  contents whatever it held before. Point by point: at a first column tile the scratch column is that case's contents
  of the point's six input blocks; at a middle or last tile it is that case's contents of the input blocks and of what
  the point before left in the scratch column; at a last tile the output block is what that case stores into it.
-/
import proofs.«134967_j48713519072039_1_alg».proof.Proof.WordLevel.RowSums.RunFirst
import proofs.«134967_j48713519072039_1_alg».proof.Proof.WordLevel.RowSums.RunMiddle
import proofs.«134967_j48713519072039_1_alg».proof.Proof.WordLevel.RowSums.RunLast

set_option maxRecDepth 16384

noncomputable section

namespace Cert.Kernel.RowSums

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.RowSums

/-! ## The stores of each case cover the buffer they are made into -/

theorem coverFirst (c : Dev nD) (i : grid0.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (hf : isFirst i) (hl : ¬isLast i) (x0 x1 : Vec F S512x512 .bf16) (t0 : Vec F S512x1 .i32) (t1 : Vec F S1x512 .i32) (p0 : Vec F S512x1 .i32) (p1 : Vec F S1x512 .i32) (y : S512x1.Idx) :
    ∃ pc ∈ (runFirst c i a2 h2 a3 h3 a4 h4 a5 h5 a6 h6 a7 h7 a8 h8 a9 h9 hf hl x0 x1 t0 t1 p0 p1).1, y ∈ pc.1.set :=
  View.cover_of_tiledL (runFirst c i a2 h2 a3 h3 a4 h4 a5 h5 a6 h6 a7 h7 a8 h8 a9 h9 hf hl x0 x1 t0 t1 p0 p1).1 S512x1.size (by sl_kernel_rfl) y

theorem coverMiddle (c : Dev nD) (i : grid0.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (hf : ¬isFirst i) (hl : ¬isLast i) (x0 x1 : Vec F S512x512 .bf16) (t0 : Vec F S512x1 .i32) (t1 : Vec F S1x512 .i32) (p0 : Vec F S512x1 .i32) (p1 : Vec F S1x512 .i32) (s : Vec F S512x1 .f32) (y : S512x1.Idx) :
    ∃ pc ∈ (runMiddle c i a2 h2 a3 h3 a4 h4 a5 h5 a6 h6 a7 h7 a8 h8 a9 h9 hf hl x0 x1 t0 t1 p0 p1 s).1, y ∈ pc.1.set :=
  View.cover_of_tiledL (runMiddle c i a2 h2 a3 h3 a4 h4 a5 h5 a6 h6 a7 h7 a8 h8 a9 h9 hf hl x0 x1 t0 t1 p0 p1 s).1 S512x1.size (by sl_kernel_rfl) y

theorem coverLastAcc (c : Dev nD) (i : grid0.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (hf : ¬isFirst i) (hl : isLast i) (x0 x1 : Vec F S512x512 .bf16) (t0 : Vec F S512x1 .i32) (t1 : Vec F S1x512 .i32) (p0 : Vec F S512x1 .i32) (p1 : Vec F S1x512 .i32) (s : Vec F S512x1 .f32) (y : S512x1.Idx) :
    ∃ pc ∈ (runLast c i a2 h2 a3 h3 a4 h4 a5 h5 a6 h6 a7 h7 a8 h8 a9 h9 hf hl x0 x1 t0 t1 p0 p1 s).2.1, y ∈ pc.1.set :=
  View.cover_of_tiledL (runLast c i a2 h2 a3 h3 a4 h4 a5 h5 a6 h6 a7 h7 a8 h8 a9 h9 hf hl x0 x1 t0 t1 p0 p1 s).2.1 S512x1.size (by sl_kernel_rfl) y

theorem coverLastOut (c : Dev nD) (i : grid0.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (hf : ¬isFirst i) (hl : isLast i) (x0 x1 : Vec F S512x512 .bf16) (t0 : Vec F S512x1 .i32) (t1 : Vec F S1x512 .i32) (p0 : Vec F S512x1 .i32) (p1 : Vec F S1x512 .i32) (s : Vec F S512x1 .f32) (y : S512x1.Idx) :
    ∃ pc ∈ (runLast c i a2 h2 a3 h3 a4 h4 a5 h5 a6 h6 a7 h7 a8 h8 a9 h9 hf hl x0 x1 t0 t1 p0 p1 s).1, y ∈ pc.1.set :=
  View.cover_of_tiledL (runLast c i a2 h2 a3 h3 a4 h4 a5 h5 a6 h6 a7 h7 a8 h8 a9 h9 hf hl x0 x1 t0 t1 p0 p1 s).1 S512x1.size (by sl_kernel_rfl) y

/-! ## What each case leaves -/

/-- The scratch column after a first column tile. -/
def accFirst (c : Dev nD) (i : grid0.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (hf : isFirst i) (hl : ¬isLast i) (x0 x1 : Vec F S512x512 .bf16) (t0 : Vec F S512x1 .i32) (t1 : Vec F S1x512 .i32) (p0 : Vec F S512x1 .i32) (p1 : Vec F S1x512 .i32) : Vec F S512x1 .f32 :=
  accView.read (Elt F) (accView.writes (Elt F) accView.junk (runFirst c i a2 h2 a3 h3 a4 h4 a5 h5 a6 h6 a7 h7 a8 h8 a9 h9 hf hl x0 x1 t0 t1 p0 p1).1)

/-- The scratch column after a middle column tile that found `s` in it. -/
def accMiddle (c : Dev nD) (i : grid0.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (hf : ¬isFirst i) (hl : ¬isLast i) (x0 x1 : Vec F S512x512 .bf16) (t0 : Vec F S512x1 .i32) (t1 : Vec F S1x512 .i32) (p0 : Vec F S512x1 .i32) (p1 : Vec F S1x512 .i32) (s : Vec F S512x1 .f32) : Vec F S512x1 .f32 :=
  accView.read (Elt F) (accView.writes (Elt F) accView.junk (runMiddle c i a2 h2 a3 h3 a4 h4 a5 h5 a6 h6 a7 h7 a8 h8 a9 h9 hf hl x0 x1 t0 t1 p0 p1 s).1)

/-- The scratch column after the last column tile that found `s` in it. -/
def accLast (c : Dev nD) (i : grid0.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (hf : ¬isFirst i) (hl : isLast i) (x0 x1 : Vec F S512x512 .bf16) (t0 : Vec F S512x1 .i32) (t1 : Vec F S1x512 .i32) (p0 : Vec F S512x1 .i32) (p1 : Vec F S1x512 .i32) (s : Vec F S512x1 .f32) : Vec F S512x1 .f32 :=
  accView.read (Elt F) (accView.writes (Elt F) accView.junk (runLast c i a2 h2 a3 h3 a4 h4 a5 h5 a6 h6 a7 h7 a8 h8 a9 h9 hf hl x0 x1 t0 t1 p0 p1 s).2.1)

/-- The output block after the last column tile. -/
def outLast (c : Dev nD) (i : grid0.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (hf : ¬isFirst i) (hl : isLast i) (x0 x1 : Vec F S512x512 .bf16) (t0 : Vec F S512x1 .i32) (t1 : Vec F S1x512 .i32) (p0 : Vec F S512x1 .i32) (p1 : Vec F S1x512 .i32) (s : Vec F S512x1 .f32) : Vec F S512x1 .f32 :=
  outView.read (Elt F) (outView.writes (Elt F) outView.junk (runLast c i a2 h2 a3 h3 a4 h4 a5 h5 a6 h6 a7 h7 a8 h8 a9 h9 hf hl x0 x1 t0 t1 p0 p1 s).1)

/-! ## Point by point -/

section Points

variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch column after the body at point `n`. -/
def accAt (c : Dev nD) : (n : ℕ) → n < cfg0.N → Vec F S512x1 .f32
  | 0, hn => accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) acc (Memref.isWhole_whole _) ((isFirst_iff ⟨0, hn⟩).mpr (Nat.zero_mod _)) (fun h => by have := (isLast_iff ⟨0, hn⟩).mp h; simp at this) (blk V c 0 ⟨0, hn⟩) (blk V c 1 ⟨0, hn⟩) (blk V c 2 ⟨0, hn⟩) (blk V c 3 ⟨0, hn⟩) (blk V c 4 ⟨0, hn⟩) (blk V c 5 ⟨0, hn⟩)
  | n + 1, hn =>
    if h0 : (n + 1) % 8 = 0 then
      accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) acc (Memref.isWhole_whole _) ((isFirst_iff ⟨n + 1, hn⟩).mpr h0) (fun h => by have := (isLast_iff ⟨n + 1, hn⟩).mp h; dsimp only at this; omega) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩)
    else if h7 : (n + 1) % 8 = 7 then
      accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) acc (Memref.isWhole_whole _) (fun h => h0 ((isFirst_iff ⟨n + 1, hn⟩).mp h)) ((isLast_iff ⟨n + 1, hn⟩).mpr h7) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (accAt c n (Nat.lt_of_succ_lt hn))
    else
      accMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) acc (Memref.isWhole_whole _) (fun h => h0 ((isFirst_iff ⟨n + 1, hn⟩).mp h)) (fun h => h7 ((isLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (accAt c n (Nat.lt_of_succ_lt hn))

/-- The output block after the body at a last column tile `n` (elsewhere the block is idle and this is not consulted). -/
def outAt (c : Dev nD) (n : ℕ) (hn : n < cfg0.N) : Vec F S512x1 .f32 :=
  if h7 : n % 8 = 7 then
    outLast c (grid0.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) (ms4 ⟨n, hn⟩) (hs4 ⟨n, hn⟩) (ms5 ⟨n, hn⟩) (hs5 ⟨n, hn⟩) (ms6 ⟨n, hn⟩) (hs6 ⟨n, hn⟩) acc (Memref.isWhole_whole _) (fun h => by have := (isFirst_iff ⟨n, hn⟩).mp h; dsimp only at this; omega) ((isLast_iff ⟨n, hn⟩).mpr h7) (blk V c 0 ⟨n, hn⟩) (blk V c 1 ⟨n, hn⟩) (blk V c 2 ⟨n, hn⟩) (blk V c 3 ⟨n, hn⟩) (blk V c 4 ⟨n, hn⟩) (blk V c 5 ⟨n, hn⟩) (accAt V c (n - 1) (by omega))
  else accAt V c n hn

end Points

end Cert.Kernel.RowSums

end
-- ==== Proof.WordLevel.RowSums.Data.lean ====
/-
  The first kernel's pipeline, point by point: its proof data and the body obligation.

  The two windows on X (the row tile and the column tile) read one array, so each holds half of its share. After the
  body at a point each input buffer holds its block; the output block holds what the last column tile stores into it
  (before that the window is idle and the buffer is left as found). The invariant carries the scratch column: before
  the first point it holds anything, after point n it holds the running partial row sums of n's row tile.
-/
import proofs.«134967_j48713519072039_1_alg».proof.Proof.WordLevel.RowSums.Contents
import Idealize.ShloMosaic.Lib.Pipeline.Frame

set_option maxRecDepth 16384

noncomputable section

namespace Cert.Kernel.RowSums

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.RowSums

section

variable (V : (c : Dev nD) → (b : Ref sig .tc) → Buf (Elt F) ((c : Thread nD τ).loc b))

/-! ## The recursion, case by case -/

theorem accAt_first (c : Dev nD) (t : Fin cfg0.N) (h0 : t.val % 8 = 0) :
    accAt V c t.val t.isLt = accFirst c (grid0.coords t) (ms0 t) (hs0 t) (ms1 t) (hs1 t) (ms2 t) (hs2 t) (ms3 t) (hs3 t) (ms4 t) (hs4 t) (ms5 t) (hs5 t) (ms6 t) (hs6 t) acc (Memref.isWhole_whole _) ((isFirst_iff t).mpr h0) (fun h => by have := (isLast_iff t).mp h; omega) (blk V c 0 t) (blk V c 1 t) (blk V c 2 t) (blk V c 3 t) (blk V c 4 t) (blk V c 5 t) := by
  obtain ⟨n, hn⟩ := t
  cases n with
  | zero => rfl
  | succ n => exact (dif_pos h0)

theorem accAt_middle (c : Dev nD) (t : Fin cfg0.N) (h0 : ¬t.val % 8 = 0) (h7 : ¬t.val % 8 = 7) :
    accAt V c t.val t.isLt = accMiddle c (grid0.coords t) (ms0 t) (hs0 t) (ms1 t) (hs1 t) (ms2 t) (hs2 t) (ms3 t) (hs3 t) (ms4 t) (hs4 t) (ms5 t) (hs5 t) (ms6 t) (hs6 t) acc (Memref.isWhole_whole _) (fun h => h0 ((isFirst_iff t).mp h)) (fun h => h7 ((isLast_iff t).mp h)) (blk V c 0 t) (blk V c 1 t) (blk V c 2 t) (blk V c 3 t) (blk V c 4 t) (blk V c 5 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h7).trans rfl)

theorem accAt_last (c : Dev nD) (t : Fin cfg0.N) (h0 : ¬t.val % 8 = 0) (h7 : t.val % 8 = 7) :
    accAt V c t.val t.isLt = accLast c (grid0.coords t) (ms0 t) (hs0 t) (ms1 t) (hs1 t) (ms2 t) (hs2 t) (ms3 t) (hs3 t) (ms4 t) (hs4 t) (ms5 t) (hs5 t) (ms6 t) (hs6 t) acc (Memref.isWhole_whole _) (fun h => h0 ((isFirst_iff t).mp h)) ((isLast_iff t).mpr h7) (blk V c 0 t) (blk V c 1 t) (blk V c 2 t) (blk V c 3 t) (blk V c 4 t) (blk V c 5 t)
      (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h7).trans rfl)

theorem outAt_last (c : Dev nD) (t : Fin cfg0.N) (h0 : ¬t.val % 8 = 0) (h7 : t.val % 8 = 7) :
    outAt V c t.val t.isLt = outLast c (grid0.coords t) (ms0 t) (hs0 t) (ms1 t) (hs1 t) (ms2 t) (hs2 t) (ms3 t) (hs3 t) (ms4 t) (hs4 t) (ms5 t) (hs5 t) (ms6 t) (hs6 t) acc (Memref.isWhole_whole _) (fun h => h0 ((isFirst_iff t).mp h)) ((isLast_iff t).mpr h7) (blk V c 0 t) (blk V c 1 t) (blk V c 2 t) (blk V c 3 t) (blk V c 4 t) (blk V c 5 t)
      (accAt V c (t.val - 1) (Nat.lt_of_le_of_lt (Nat.sub_le _ _) t.isLt)) := by
  unfold outAt; exact dif_pos h7

/-! ## The invariant -/

/-- The core's scoped buffers other than this kernel's staging buffers and its scratch column, at anything: the other
    kernel's staging buffers and scratch columns, which this kernel does not touch. -/
abbrev others (c : Dev nD) : sProp 𝕄 :=
  Pipeline.scopedRestBut (Ix := Unit) (Name := ℕ) (U := UR sig nD τ) (Lvl := ℕ) (Val := Elt F) spec0 c [cc0_scratch0]

/-- What the region hands the kernel — every scoped buffer that is no staging buffer at anything, and the generator
    register — is the scratch column at anything, the others, and the register. -/
theorem PhiA_eq (c : Dev nD) :
    (Pipeline.ΦA spec0 c : sProp 𝕄)
      = iprop(((∃ d, owns (c : Thread nD τ) acc fullShare d) ∗ others c) ∗ (∃ r, prngReg c r)) := by
  unfold Pipeline.ΦA
  rw [Pipeline.scopedRest_split_of_list spec0 c [cc0_scratch0] (by decide) (by decide)]
  simp only [Idealize.SL.BI.bigSepL_singleton, acc, owns_whole]
  try rfl

/-- The invariant before position `n`: before the first point what the region hands the kernel; afterwards the scratch
    column at what the point before left in it, the other scoped buffers at anything, the generator register at some
    state. -/
def PhiS (c : Dev nD) : (n : ℕ) → n ≤ cfg0.N → sProp 𝕄
  | 0, _ => Pipeline.ΦA spec0 c
  | n + 1, hn => iprop((owns (c : Thread nD τ) acc fullShare (accAt V c n hn) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) acc fullShare (accAt V c n hn) ∗ others c) ∗ (∃ r, prngReg c r)) := rfl

theorem PhiS_pos (c : Dev nD) (n : ℕ) (h : n ≤ cfg0.N) (hz : n ≠ 0) :
    PhiS V c n h = iprop((owns (c : Thread nD τ) acc fullShare (accAt V c (n - 1) (by omega)) ∗ others c) ∗ (∃ r, prngReg c r)) := by
  cases n with
  | zero => exact absurd rfl hz
  | succ n => rfl

/-! ## The proof data -/

/-- The proof data of the first kernel's pipeline on core `c`, at the contents `V` the region finds. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => outAt V c t.val t.isLt
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = blk V c 3 t := by dsimp only [dat]
theorem after4 (c : Dev nD) (t : Fin cfg0.N) : (dat V c).after 4 t = blk V c 4 t := by dsimp only [dat]
theorem after5 (c : Dev nD) (t : Fin cfg0.N) : (dat V c).after 5 t = blk V c 5 t := by dsimp only [dat]
theorem after6 (c : Dev nD) (t : Fin cfg0.N) : (dat V c).after 6 t = outAt V c t.val t.isLt := by dsimp only [dat]

/-! ## What the body finds in the input buffers: each one's block, fetched at the point or not -/

theorem before0 (c : Dev nD) (t : Fin cfg0.N) (d) : (dat V c).before 0 t d = blk V c 0 t :=
  ((dat V c).before_in_eq_fetched 0 rfl (fun _ => rfl) (fun _ _ _ => rfl)
    (fun t => by rw [after0]; unfold Dat.blockOf blk; rw [A_eq]; try rfl) t d).trans
    (by unfold Dat.fetched Dat.blockOf blk; rw [A_eq]; try rfl)
theorem before1 (c : Dev nD) (t : Fin cfg0.N) (d) : (dat V c).before 1 t d = blk V c 1 t :=
  ((dat V c).before_in_eq_fetched 1 rfl (fun _ => rfl) (fun _ _ _ => rfl)
    (fun t => by rw [after1]; unfold Dat.blockOf blk; rw [A_eq]; try rfl) t d).trans
    (by unfold Dat.fetched Dat.blockOf blk; rw [A_eq]; try rfl)
theorem before2 (c : Dev nD) (t : Fin cfg0.N) (d) : (dat V c).before 2 t d = blk V c 2 t :=
  ((dat V c).before_in_eq_fetched 2 rfl (fun _ => rfl) (fun _ _ _ => rfl)
    (fun t => by rw [after2]; unfold Dat.blockOf blk; rw [A_eq]; try rfl) t d).trans
    (by unfold Dat.fetched Dat.blockOf blk; rw [A_eq]; try rfl)
theorem before3 (c : Dev nD) (t : Fin cfg0.N) (d) : (dat V c).before 3 t d = blk V c 3 t :=
  ((dat V c).before_in_eq_fetched 3 rfl (fun _ => rfl) (fun _ _ _ => rfl)
    (fun t => by rw [after3]; unfold Dat.blockOf blk; rw [A_eq]; try rfl) t d).trans
    (by unfold Dat.fetched Dat.blockOf blk; rw [A_eq]; try rfl)
theorem before4 (c : Dev nD) (t : Fin cfg0.N) (d) : (dat V c).before 4 t d = blk V c 4 t :=
  ((dat V c).before_in_eq_fetched 4 rfl (fun _ => rfl) (fun _ _ _ => rfl)
    (fun t => by rw [after4]; unfold Dat.blockOf blk; rw [A_eq]; try rfl) t d).trans
    (by unfold Dat.fetched Dat.blockOf blk; rw [A_eq]; try rfl)
theorem before5 (c : Dev nD) (t : Fin cfg0.N) (d) : (dat V c).before 5 t d = blk V c 5 t :=
  ((dat V c).before_in_eq_fetched 5 rfl (fun _ => rfl) (fun _ _ _ => rfl)
    (fun t => by rw [after5]; unfold Dat.blockOf blk; rw [A_eq]; try rfl) t d).trans
    (by unfold Dat.fetched Dat.blockOf blk; rw [A_eq]; try rfl)

/-! ## The body obligation at a point -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 8000000 in
/-- The body at any point. The input buffers hold their blocks; the point's case is read off its position; the invariant
    hands the body the scratch column at what the point before left (at anything before the first point) and takes it
    back at this point's contents; the output block is handed back as found except at a last column tile, where it
    holds what the body stored; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  rw [show (dat V c).leavesExact 3 t = owns (c : Thread nD τ) (ms3 t) fullShare ((dat V c).after 3 t) from by
    unfold Dat.leavesExact; rw [live3 t], after3]
  rw [show (dat V c).leavesExact 4 t = owns (c : Thread nD τ) (ms4 t) fullShare ((dat V c).after 4 t) from by
    unfold Dat.leavesExact; rw [live4 t], after4]
  rw [show (dat V c).leavesExact 5 t = owns (c : Thread nD τ) (ms5 t) fullShare ((dat V c).after 5 t) from by
    unfold Dat.leavesExact; rw [live5 t], after5]
  by_cases h0 : t.val % 8 = 0
  · have h7 : ¬t.val % 8 = 7 := by omega
    rw [Dat.leavesExact_idle (dat V c) 6 t (idle6_of_not_last t (fun h => h7 ((isLast_iff t).mp h))) (noFlush6_of_not_last t (fun h => h7 ((isLast_iff t).mp h)))]
    rw [accAt_first V c t h0]
    unfold accFirst
    by_cases hz : t.val = 0
    · rw [PhiS_castSucc V c t, PhiS_zero V c _ _ hz, PhiA_eq]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) _ _ _ _ _ _ _ _ _ _ _ _ _ _ _ _ ((isFirst_iff t).mpr h0) (fun h => h7 ((isLast_iff t).mp h)) (blk V c 0 t) (blk V c 1 t) (blk V c 2 t) (blk V c 3 t) (blk V c 4 t) (blk V c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS Hoth]
        · isplitl [HS]
          · unfold owns; iexists _; isplitr
            swap; · iexact HS
            ipureintro; exact View.read_writes_of_cover _ _ _ _ _ (coverFirst c _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid0.coords t) _ _ _ _ _ _ _ _ _ _ _ _ _ _ _ _ ((isFirst_iff t).mpr h0) (fun h => h7 ((isLast_iff t).mp h)) (blk V c 0 t) (blk V c 1 t) (blk V c 2 t) (blk V c 3 t) (blk V c 4 t) (blk V c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hoth Hg]
      · isplitl [HS Hoth]
        · isplitl [HS]
          · unfold owns; iexists _; isplitr
            swap; · iexact HS
            ipureintro; exact View.read_writes_of_cover _ _ _ _ _ (coverFirst c _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h7 : t.val % 8 = 7
    · rw [show (dat V c).leavesExact 6 t = owns (c : Thread nD τ) (ms6 t) fullShare ((dat V c).after 6 t) from by
        unfold Dat.leavesExact; rw [live6_of_last t ((isLast_iff t).mpr h7)], after6]
      rw [accAt_last V c t h0 h7, outAt_last V c t h0 h7]
      unfold accLast outLast
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid0.coords t) _ _ _ _ _ _ _ _ _ _ _ _ _ _ _ _ (fun h => h0 ((isFirst_iff t).mp h)) ((isLast_iff t).mpr h7) (blk V c 0 t) (blk V c 1 t) (blk V c 2 t) (blk V c 3 t) (blk V c 4 t) (blk V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%eo, H6⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverLastAcc c _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverLastOut c _ _ _ _ _ _ _ _ _ _ _ _ _ _ _ _ _ _ _ _ _ _ _ _ _ _)
    · rw [Dat.leavesExact_idle (dat V c) 6 t (idle6_of_not_last t (fun h => h7 ((isLast_iff t).mp h))) (noFlush6_of_not_last t (fun h => h7 ((isLast_iff t).mp h)))]
      rw [accAt_middle V c t h0 h7]
      unfold accMiddle
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((runMiddle c (grid0.coords t) _ _ _ _ _ _ _ _ _ _ _ _ _ _ _ _ (fun h => h0 ((isFirst_iff t).mp h)) (fun h => h7 ((isLast_iff t).mp h)) (blk V c 0 t) (blk V c 1 t) (blk V c 2 t) (blk V c 3 t) (blk V c 4 t) (blk V c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hoth Hg]
      · isplitl [HS Hoth]
        · isplitl [HS]
          · unfold owns; iexists _; isplitr
            swap; · iexact HS
            ipureintro; exact View.read_writes_of_cover _ _ _ _ _ (coverMiddle c _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dat (F := F) V c) (defs₀ (F := F)) Variants.none () Set.univ := fun t => by
  rw [bigSep_W0, bigSep_W0]
  exact sound_body V c t

/-! ## Into the invariant and out of it -/

theorem Phi_in (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives back what the region handed the kernel: the scratch column's contents are
    forgotten. -/
theorem Phi_out (c : Dev nD) : (dat V c).Φ (Fin.last cfg0.N) ⊢ Pipeline.ΦA spec0 c := by
  have hne : (Fin.last cfg0.N).val ≠ 0 := by rw [Fin.val_last]; have : cfg0.N = 64 := N_0; omega
  rw [show (dat V c).Φ (Fin.last cfg0.N) = PhiS V c (Fin.last cfg0.N).val (Nat.le_of_lt_succ (Fin.last cfg0.N).isLt) from rfl,
    PhiS_pos V c _ _ hne, PhiA_eq]
  iintro ⟨⟨HS, Hoth⟩, Hg⟩
  isplitl [HS Hoth]
  · isplitl [HS]
    · iexists _; iexact HS
    iexact Hoth
  iexact Hg

end

end Cert.Kernel.RowSums

end
-- ==== Proof.WordLevel.Losses.Cases.lean ====
/-
  The second kernel computes, for the 512 rows of row tile i and with the row sums S r of the first kernel as an input,
  the two partial row sums
    Lsadc r = Σ_j [t r ≠ t j ∧ p r = p j] · log1p (S r · exp (0 - prod r j))
    Ldasc r = Σ_j [t r = t j ∧ p r ≠ p j] · log1p (S r · exp (0 - prod r j))
  one 512-column tile k at a time, each in a 512 x 1 scratch column of its own: both columns are zeroed when k = 0, every
  point adds its tile's lane sums to them, and the point k = 7 copies each to its output block. A grid point
  t = 8·i + k is in one of three cases: the first column tile, a middle one, the last. This module decides, over the 64
  grid points, which points are in which case, where the two output windows are idle and where their blocks are written
  back, and names the buffers the body is called with.
-/
import proofs.«134967_j48713519072039_1_alg».proof.Proof.Gen.Kernel.Launch
import proofs.«134967_j48713519072039_1_alg».proof.Proof.Gen.Kernel.Skeleton
import proofs.«134967_j48713519072039_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Losses

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two conditions of the body, from the grid coordinates -/

/-- "This is the first column tile": the body's test k = 0, as it computes it from the second grid coordinate. -/
abbrev isFirst (i : grid1.Coords) : Prop :=
  (Scalar.cmpi .ne (Scalar.extui (Scalar.cmpi .eq (BitVec.ofNat 32 (i 1).val) 0#32)) 0#32) = 1#1

/-- "This is the last column tile": the body's test k = 7. -/
abbrev isLast (i : grid1.Coords) : Prop := k1_cond2 i = 1#1

/-- Point t = 8·i + k is a first column tile exactly when k = 0. -/
theorem isFirst_iff : ∀ t : Fin cfg1.N, isFirst (grid1.coords t) ↔ t.val % 8 = 0 :=
  (by decide +kernel : ∀ t : Fin grid1.N, isFirst (grid1.coords t) ↔ t.val % 8 = 0)

/-- Point t = 8·i + k is a last column tile exactly when k = 7. -/
theorem isLast_iff : ∀ t : Fin cfg1.N, isLast (grid1.coords t) ↔ t.val % 8 = 7 :=
  (by decide +kernel : ∀ t : Fin grid1.N, isLast (grid1.coords t) ↔ t.val % 8 = 7)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
theorem live4 : ∀ t : Fin cfg1.N, cfg1.idle 4 (grid1.coords t) = false := by decide +kernel
theorem live5 : ∀ t : Fin cfg1.N, cfg1.idle 5 (grid1.coords t) = false := by decide +kernel
theorem live6 : ∀ t : Fin cfg1.N, cfg1.idle 6 (grid1.coords t) = false := by decide +kernel
/-- Before the last column tile nothing is stored into the output blocks: their windows are idle there, -/
theorem idle7_of_not_last : ∀ t : Fin cfg1.N, ¬isLast (grid1.coords t) → cfg1.idle 7 (grid1.coords t) = true := by decide +kernel
theorem idle8_of_not_last : ∀ t : Fin cfg1.N, ¬isLast (grid1.coords t) → cfg1.idle 8 (grid1.coords t) = true := by decide +kernel
/-- and their blocks are not written back there. -/
theorem noFlush7_of_not_last : ∀ t : Fin cfg1.N, ¬isLast (grid1.coords t) → (cfg1.win 7).flush t = false := by decide +kernel
theorem noFlush8_of_not_last : ∀ t : Fin cfg1.N, ¬isLast (grid1.coords t) → (cfg1.win 8).flush t = false := by decide +kernel
/-- At the last column tile the output blocks are stored into -/
theorem live7_of_last : ∀ t : Fin cfg1.N, isLast (grid1.coords t) → cfg1.idle 7 (grid1.coords t) = false := by decide +kernel
theorem live8_of_last : ∀ t : Fin cfg1.N, isLast (grid1.coords t) → cfg1.idle 8 (grid1.coords t) = false := by decide +kernel
/-- and written back. -/
theorem flush7_of_last : ∀ t : Fin cfg1.N, isLast (grid1.coords t) → (cfg1.win 7).flush t = true := by decide +kernel
theorem flush8_of_last : ∀ t : Fin cfg1.N, isLast (grid1.coords t) → (cfg1.win 8).flush t = true := by decide +kernel

/-! ## The buffers the body is called with at a point -/

abbrev ms0 (t : Fin cfg1.N) : Memref sig .tc .vmem S512x512 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x512 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x1 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x512 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S512x1 .i32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x512 .i32 := win1_5.stage (cfg1.slots t 5)
abbrev hs5 (t : Fin cfg1.N) : (ms5 t).IsWhole := hstage1_5 ((cfg1.slots t 5).cast nbuf1_5)
abbrev ms6 (t : Fin cfg1.N) : Memref sig .tc .vmem S512x1 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S512x1 .f32 := win1_7.stage (cfg1.slots t 7)
abbrev hs7 (t : Fin cfg1.N) : (ms7 t).IsWhole := hstage1_7 ((cfg1.slots t 7).cast nbuf1_7)
abbrev ms8 (t : Fin cfg1.N) : Memref sig .tc .vmem S512x1 .f32 := win1_8.stage (cfg1.slots t 8)
abbrev hs8 (t : Fin cfg1.N) : (ms8 t).IsWhole := hstage1_8 ((cfg1.slots t 8).cast nbuf1_8)
/-- The two scratch columns that carry the partial row sums from one column tile to the next. -/
abbrev accS : Memref sig .tc .vmem S512x1 .f32 := Memref.whole cc1_scratch0
abbrev accD : Memref sig .tc .vmem S512x1 .f32 := Memref.whole cc1_scratch1
abbrev accSView : View sig .tc .vmem S512x1 .f32 := (accS).view
abbrev accDView : View sig .tc .vmem S512x1 .f32 := (accD).view
/-- One staging buffer of each output window, through which its contents are stated. -/
abbrev outSView : View sig .tc .vmem S512x1 .f32 := (Memref.whole cc1_stg7_0 : Memref sig .tc .vmem S512x1 .f32).view
abbrev outDView : View sig .tc .vmem S512x1 .f32 := (Memref.whole cc1_stg8_0 : Memref sig .tc .vmem S512x1 .f32).view

end Cert.Kernel.Losses

end
-- ==== Proof.WordLevel.Losses.RunFirst.lean ====
/-
  The body of the second kernel at a first column tile (k = 0): it zeroes both scratch columns, loads the two tiles of
  X, the label and part columns and rows and the row sums S of its row tile, and stores into each scratch column the
  zero column plus the tile's lane sums of its masked terms. The output blocks are not touched.
-/
import proofs.«134967_j48713519072039_1_alg».proof.Proof.WordLevel.Losses.Cases

set_option maxRecDepth 16384

noncomputable section

namespace Cert.Kernel.Losses

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Losses

set_option maxHeartbeats 4000000 in
/-- The run at a first column tile: from the seven input buffers at their contents and the two scratch columns at
    anything, to the inputs as they were and each scratch column with its stores written. -/
noncomputable def runFirst (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole)
    (hf : isFirst i) (hl : ¬isLast i) (x0 x1 : Vec F S512x512 .bf16) (t0 : Vec F S512x1 .i32) (t1 : Vec F S1x512 .i32) (p0 : Vec F S512x1 .i32) (p1 : Vec F S1x512 .i32) (sr : Vec F S512x1 .f32) :
    Σ' (LS : List (View.Piece (Elt F) S512x1 .f32)), { LD : List (View.Piece (Elt F) S512x1 .f32) //
      ∀ (E : Set ℕ) (K : PUnit → sProp 𝕄),
        iprop(owns (c : Thread nD τ) a2 fullShare x0 ∗ owns (c : Thread nD τ) a3 fullShare x1 ∗ owns (c : Thread nD τ) a4 fullShare t0 ∗ owns (c : Thread nD τ) a5 fullShare t1 ∗ owns (c : Thread nD τ) a6 fullShare p0 ∗ owns (c : Thread nD τ) a7 fullShare p1 ∗ owns (c : Thread nD τ) a8 fullShare sr ∗ (∃ d, owns (c : Thread nD τ) a11 fullShare d) ∗ (∃ d, owns (c : Thread nD τ) a12 fullShare d)
            ∗ (iprop(owns (c : Thread nD τ) a2 fullShare x0 ∗ owns (c : Thread nD τ) a3 fullShare x1 ∗ owns (c : Thread nD τ) a4 fullShare t0 ∗ owns (c : Thread nD τ) a5 fullShare t1 ∗ owns (c : Thread nD τ) a6 fullShare p0 ∗ owns (c : Thread nD τ) a7 fullShare p1 ∗ owns (c : Thread nD τ) a8 fullShare sr ∗ (∃ f, a11.view.loc (c : Thread nD τ) ↦[a11.view.set]{fullShare} a11.view.writes (Elt F) f LS)
                ∗ (∃ f, a12.view.loc (c : Thread nD τ) ↦[a12.view.set]{fullShare} a12.view.writes (Elt F) f LD)) -∗ K ⟨⟩))
          ⊢ wp frame (wpE (defs₀ (F := F)) Variants.none c none) E (cc1__loss_kernel i a2 h2 a3 h3 a4 h4 a5 h5 a6 h6 a7 h7 a8 h8 a9 h9 a10 h10 a11 h11 a12 h12) K } := by
  refine ⟨?_, ?_, fun E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d11, %f11, -, H11⟩, ⟨%d12, %f12, -, H12⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    obtain rfl := h8.eq_unread hf6
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H11]; · iexists _; iexact H11
    iexists _; iexact H12

end Cert.Kernel.Losses

end
-- ==== Proof.WordLevel.Losses.RunMiddle.lean ====
/-
  The body of the second kernel at a middle column tile (0 < k < 7): it loads its inputs and both scratch columns and
  stores back into each scratch column what it held plus the tile's lane sums of its masked terms. The output blocks
  are not touched.
-/
import proofs.«134967_j48713519072039_1_alg».proof.Proof.WordLevel.Losses.Cases

set_option maxRecDepth 16384

noncomputable section

namespace Cert.Kernel.Losses

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Losses

set_option maxHeartbeats 4000000 in
/-- The run at a middle column tile: from the seven input buffers at their contents and the scratch columns at `ss`
    and `sd`, to the inputs as they were and each scratch column with its stores written. -/
noncomputable def runMiddle (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole)
    (hf : ¬isFirst i) (hl : ¬isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) :
    Σ' (LS : List (View.Piece (Elt F) S512x1 .f32)), { LD : List (View.Piece (Elt F) S512x1 .f32) //
      ∀ (E : Set ℕ) (K : PUnit → sProp 𝕄),
        iprop(owns (c : Thread nD τ) a2 fullShare x0 ∗ owns (c : Thread nD τ) a3 fullShare x1 ∗ owns (c : Thread nD τ) a4 fullShare t0 ∗ owns (c : Thread nD τ) a5 fullShare t1 ∗ owns (c : Thread nD τ) a6 fullShare p0 ∗ owns (c : Thread nD τ) a7 fullShare p1 ∗ owns (c : Thread nD τ) a8 fullShare sr ∗ owns (c : Thread nD τ) a11 fullShare ss ∗ owns (c : Thread nD τ) a12 fullShare sd
            ∗ (iprop(owns (c : Thread nD τ) a2 fullShare x0 ∗ owns (c : Thread nD τ) a3 fullShare x1 ∗ owns (c : Thread nD τ) a4 fullShare t0 ∗ owns (c : Thread nD τ) a5 fullShare t1 ∗ owns (c : Thread nD τ) a6 fullShare p0 ∗ owns (c : Thread nD τ) a7 fullShare p1 ∗ owns (c : Thread nD τ) a8 fullShare sr ∗ (∃ f, a11.view.loc (c : Thread nD τ) ↦[a11.view.set]{fullShare} a11.view.writes (Elt F) f LS)
                ∗ (∃ f, a12.view.loc (c : Thread nD τ) ↦[a12.view.set]{fullShare} a12.view.writes (Elt F) f LD)) -∗ K ⟨⟩))
          ⊢ wp frame (wpE (defs₀ (F := F)) Variants.none c none) E (cc1__loss_kernel i a2 h2 a3 h3 a4 h4 a5 h5 a6 h6 a7 h7 a8 h8 a9 h9 a10 h10 a11 h11 a12 h12) K } := by
  refine ⟨?_, ?_, fun E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f11, %hf11, H11⟩, ⟨%f12, %hf12, H12⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    obtain rfl := h8.eq_unread hf6
    obtain rfl := h11.eq_unread hf11; obtain rfl := h12.eq_unread hf12
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H11]; · iexists _; iexact H11
    iexists _; iexact H12

end Cert.Kernel.Losses

end
-- ==== Proof.WordLevel.Losses.RunLast.lean ====
/-
  The body of the second kernel at the last column tile (k = 7): as at a middle tile it adds the tile's lane sums to
  both scratch columns, and then copies each scratch column into its output block, which the pipeline writes back.
-/
import proofs.«134967_j48713519072039_1_alg».proof.Proof.WordLevel.Losses.Cases

set_option maxRecDepth 16384

noncomputable section

namespace Cert.Kernel.Losses

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Losses

set_option maxHeartbeats 4000000 in
/-- The run at the last column tile: from the seven input buffers at their contents, the scratch columns at `ss` and
    `sd` and the two output blocks at anything, to the inputs as they were and the output blocks and the scratch
    columns each with its stores written. -/
noncomputable def runLast (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole)
    (hf : ¬isFirst i) (hl : isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) :
    Σ' (LOS : List (View.Piece (Elt F) S512x1 .f32)) (LOD : List (View.Piece (Elt F) S512x1 .f32)) (LS : List (View.Piece (Elt F) S512x1 .f32)), { LD : List (View.Piece (Elt F) S512x1 .f32) //
      ∀ (E : Set ℕ) (K : PUnit → sProp 𝕄),
        iprop(owns (c : Thread nD τ) a2 fullShare x0 ∗ owns (c : Thread nD τ) a3 fullShare x1 ∗ owns (c : Thread nD τ) a4 fullShare t0 ∗ owns (c : Thread nD τ) a5 fullShare t1 ∗ owns (c : Thread nD τ) a6 fullShare p0 ∗ owns (c : Thread nD τ) a7 fullShare p1 ∗ owns (c : Thread nD τ) a8 fullShare sr ∗ (∃ d, owns (c : Thread nD τ) a9 fullShare d) ∗ (∃ d, owns (c : Thread nD τ) a10 fullShare d)
            ∗ owns (c : Thread nD τ) a11 fullShare ss ∗ owns (c : Thread nD τ) a12 fullShare sd
            ∗ (iprop(owns (c : Thread nD τ) a2 fullShare x0 ∗ owns (c : Thread nD τ) a3 fullShare x1 ∗ owns (c : Thread nD τ) a4 fullShare t0 ∗ owns (c : Thread nD τ) a5 fullShare t1 ∗ owns (c : Thread nD τ) a6 fullShare p0 ∗ owns (c : Thread nD τ) a7 fullShare p1 ∗ owns (c : Thread nD τ) a8 fullShare sr ∗ (∃ f, a9.view.loc (c : Thread nD τ) ↦[a9.view.set]{fullShare} a9.view.writes (Elt F) f LOS)
                ∗ (∃ f, a10.view.loc (c : Thread nD τ) ↦[a10.view.set]{fullShare} a10.view.writes (Elt F) f LOD)
                ∗ (∃ f, a11.view.loc (c : Thread nD τ) ↦[a11.view.set]{fullShare} a11.view.writes (Elt F) f LS)
                ∗ (∃ f, a12.view.loc (c : Thread nD τ) ↦[a12.view.set]{fullShare} a12.view.writes (Elt F) f LD)) -∗ K ⟨⟩))
          ⊢ wp frame (wpE (defs₀ (F := F)) Variants.none c none) E (cc1__loss_kernel i a2 h2 a3 h3 a4 h4 a5 h5 a6 h6 a7 h7 a8 h8 a9 h9 a10 h10 a11 h11 a12 h12) K } := by
  refine ⟨?_, ?_, ?_, ?_, fun E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%d10, %f10, -, H10⟩, ⟨%f11, %hf11, H11⟩, ⟨%f12, %hf12, H12⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    obtain rfl := h8.eq_unread hf6
    obtain rfl := h11.eq_unread hf11; obtain rfl := h12.eq_unread hf12
    sl_exec (disch := first | exact hf | exact hl)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H9]; · iexists _; iexact H9
    isplitl [H10]; · iexists _; iexact H10
    isplitl [H11]; · iexists _; iexact H11
    iexists _; iexact H12

end Cert.Kernel.Losses

end
-- ==== Proof.WordLevel.Losses.Contents.lean ====
/-
  What the second kernel's two scratch columns and two output blocks hold after each grid point.

  Each case's run records the stores it made into each buffer; they tile the 512 x 1 buffer, so reading them back gives
  its contents whatever it held before. Point by point: at a first column tile each scratch column is that case's
  contents of the point's seven input blocks; at a middle or last tile it is that case's contents of the input blocks
  and of what the point before left in the two scratch columns; at a last tile each output block is what that case
  stores into it.
-/
import proofs.«134967_j48713519072039_1_alg».proof.Proof.WordLevel.Losses.RunFirst
import proofs.«134967_j48713519072039_1_alg».proof.Proof.WordLevel.Losses.RunMiddle
import proofs.«134967_j48713519072039_1_alg».proof.Proof.WordLevel.Losses.RunLast

set_option maxRecDepth 16384

noncomputable section

namespace Cert.Kernel.Losses

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Losses

/-! ## The stores of each case cover the buffer they are made into -/

theorem coverFirstS (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : isFirst i) (hl : ¬isLast i) (x0 x1 : Vec F S512x512 .bf16) (t0 : Vec F S512x1 .i32) (t1 : Vec F S1x512 .i32) (p0 : Vec F S512x1 .i32) (p1 : Vec F S1x512 .i32) (sr : Vec F S512x1 .f32)  (y : S512x1.Idx) :
    ∃ pc ∈ (runFirst c i a2 h2 a3 h3 a4 h4 a5 h5 a6 h6 a7 h7 a8 h8 a9 h9 a10 h10 a11 h11 a12 h12 hf hl x0 x1 t0 t1 p0 p1 sr).1, y ∈ pc.1.set :=
  View.cover_of_tiledL (runFirst c i a2 h2 a3 h3 a4 h4 a5 h5 a6 h6 a7 h7 a8 h8 a9 h9 a10 h10 a11 h11 a12 h12 hf hl x0 x1 t0 t1 p0 p1 sr).1 S512x1.size (by sl_kernel_rfl) y

theorem coverFirstD (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : isFirst i) (hl : ¬isLast i) (x0 x1 : Vec F S512x512 .bf16) (t0 : Vec F S512x1 .i32) (t1 : Vec F S1x512 .i32) (p0 : Vec F S512x1 .i32) (p1 : Vec F S1x512 .i32) (sr : Vec F S512x1 .f32)  (y : S512x1.Idx) :
    ∃ pc ∈ (runFirst c i a2 h2 a3 h3 a4 h4 a5 h5 a6 h6 a7 h7 a8 h8 a9 h9 a10 h10 a11 h11 a12 h12 hf hl x0 x1 t0 t1 p0 p1 sr).2.1, y ∈ pc.1.set :=
  View.cover_of_tiledL (runFirst c i a2 h2 a3 h3 a4 h4 a5 h5 a6 h6 a7 h7 a8 h8 a9 h9 a10 h10 a11 h11 a12 h12 hf hl x0 x1 t0 t1 p0 p1 sr).2.1 S512x1.size (by sl_kernel_rfl) y

theorem coverMiddleS (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : ¬isFirst i) (hl : ¬isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) (y : S512x1.Idx) :
    ∃ pc ∈ (runMiddle c i a2 h2 a3 h3 a4 h4 a5 h5 a6 h6 a7 h7 a8 h8 a9 h9 a10 h10 a11 h11 a12 h12 hf hl x0 x1 t0 t1 p0 p1 sr ss sd).1, y ∈ pc.1.set :=
  View.cover_of_tiledL (runMiddle c i a2 h2 a3 h3 a4 h4 a5 h5 a6 h6 a7 h7 a8 h8 a9 h9 a10 h10 a11 h11 a12 h12 hf hl x0 x1 t0 t1 p0 p1 sr ss sd).1 S512x1.size (by sl_kernel_rfl) y

theorem coverMiddleD (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : ¬isFirst i) (hl : ¬isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) (y : S512x1.Idx) :
    ∃ pc ∈ (runMiddle c i a2 h2 a3 h3 a4 h4 a5 h5 a6 h6 a7 h7 a8 h8 a9 h9 a10 h10 a11 h11 a12 h12 hf hl x0 x1 t0 t1 p0 p1 sr ss sd).2.1, y ∈ pc.1.set :=
  View.cover_of_tiledL (runMiddle c i a2 h2 a3 h3 a4 h4 a5 h5 a6 h6 a7 h7 a8 h8 a9 h9 a10 h10 a11 h11 a12 h12 hf hl x0 x1 t0 t1 p0 p1 sr ss sd).2.1 S512x1.size (by sl_kernel_rfl) y

theorem coverLastOutS (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : ¬isFirst i) (hl : isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) (y : S512x1.Idx) :
    ∃ pc ∈ (runLast c i a2 h2 a3 h3 a4 h4 a5 h5 a6 h6 a7 h7 a8 h8 a9 h9 a10 h10 a11 h11 a12 h12 hf hl x0 x1 t0 t1 p0 p1 sr ss sd).1, y ∈ pc.1.set :=
  View.cover_of_tiledL (runLast c i a2 h2 a3 h3 a4 h4 a5 h5 a6 h6 a7 h7 a8 h8 a9 h9 a10 h10 a11 h11 a12 h12 hf hl x0 x1 t0 t1 p0 p1 sr ss sd).1 S512x1.size (by sl_kernel_rfl) y

theorem coverLastOutD (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : ¬isFirst i) (hl : isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) (y : S512x1.Idx) :
    ∃ pc ∈ (runLast c i a2 h2 a3 h3 a4 h4 a5 h5 a6 h6 a7 h7 a8 h8 a9 h9 a10 h10 a11 h11 a12 h12 hf hl x0 x1 t0 t1 p0 p1 sr ss sd).2.1, y ∈ pc.1.set :=
  View.cover_of_tiledL (runLast c i a2 h2 a3 h3 a4 h4 a5 h5 a6 h6 a7 h7 a8 h8 a9 h9 a10 h10 a11 h11 a12 h12 hf hl x0 x1 t0 t1 p0 p1 sr ss sd).2.1 S512x1.size (by sl_kernel_rfl) y

theorem coverLastS (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : ¬isFirst i) (hl : isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) (y : S512x1.Idx) :
    ∃ pc ∈ (runLast c i a2 h2 a3 h3 a4 h4 a5 h5 a6 h6 a7 h7 a8 h8 a9 h9 a10 h10 a11 h11 a12 h12 hf hl x0 x1 t0 t1 p0 p1 sr ss sd).2.2.1, y ∈ pc.1.set :=
  View.cover_of_tiledL (runLast c i a2 h2 a3 h3 a4 h4 a5 h5 a6 h6 a7 h7 a8 h8 a9 h9 a10 h10 a11 h11 a12 h12 hf hl x0 x1 t0 t1 p0 p1 sr ss sd).2.2.1 S512x1.size (by sl_kernel_rfl) y

theorem coverLastD (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : ¬isFirst i) (hl : isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) (y : S512x1.Idx) :
    ∃ pc ∈ (runLast c i a2 h2 a3 h3 a4 h4 a5 h5 a6 h6 a7 h7 a8 h8 a9 h9 a10 h10 a11 h11 a12 h12 hf hl x0 x1 t0 t1 p0 p1 sr ss sd).2.2.2.1, y ∈ pc.1.set :=
  View.cover_of_tiledL (runLast c i a2 h2 a3 h3 a4 h4 a5 h5 a6 h6 a7 h7 a8 h8 a9 h9 a10 h10 a11 h11 a12 h12 hf hl x0 x1 t0 t1 p0 p1 sr ss sd).2.2.2.1 S512x1.size (by sl_kernel_rfl) y

/-! ## What each case leaves -/

/-- The first scratch column after a first column tile. -/
def accSFirst (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : isFirst i) (hl : ¬isLast i) (x0 x1 : Vec F S512x512 .bf16) (t0 : Vec F S512x1 .i32) (t1 : Vec F S1x512 .i32) (p0 : Vec F S512x1 .i32) (p1 : Vec F S1x512 .i32) (sr : Vec F S512x1 .f32)  : Vec F S512x1 .f32 :=
  accSView.read (Elt F) (accSView.writes (Elt F) accSView.junk (runFirst c i a2 h2 a3 h3 a4 h4 a5 h5 a6 h6 a7 h7 a8 h8 a9 h9 a10 h10 a11 h11 a12 h12 hf hl x0 x1 t0 t1 p0 p1 sr).1)

/-- The second scratch column after a first column tile. -/
def accDFirst (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : isFirst i) (hl : ¬isLast i) (x0 x1 : Vec F S512x512 .bf16) (t0 : Vec F S512x1 .i32) (t1 : Vec F S1x512 .i32) (p0 : Vec F S512x1 .i32) (p1 : Vec F S1x512 .i32) (sr : Vec F S512x1 .f32)  : Vec F S512x1 .f32 :=
  accDView.read (Elt F) (accDView.writes (Elt F) accDView.junk (runFirst c i a2 h2 a3 h3 a4 h4 a5 h5 a6 h6 a7 h7 a8 h8 a9 h9 a10 h10 a11 h11 a12 h12 hf hl x0 x1 t0 t1 p0 p1 sr).2.1)

/-- The first scratch column after a middle column tile that found \`ss\`, \`sd\` in the two. -/
def accSMiddle (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : ¬isFirst i) (hl : ¬isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) : Vec F S512x1 .f32 :=
  accSView.read (Elt F) (accSView.writes (Elt F) accSView.junk (runMiddle c i a2 h2 a3 h3 a4 h4 a5 h5 a6 h6 a7 h7 a8 h8 a9 h9 a10 h10 a11 h11 a12 h12 hf hl x0 x1 t0 t1 p0 p1 sr ss sd).1)

/-- The second scratch column after a middle column tile. -/
def accDMiddle (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : ¬isFirst i) (hl : ¬isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) : Vec F S512x1 .f32 :=
  accDView.read (Elt F) (accDView.writes (Elt F) accDView.junk (runMiddle c i a2 h2 a3 h3 a4 h4 a5 h5 a6 h6 a7 h7 a8 h8 a9 h9 a10 h10 a11 h11 a12 h12 hf hl x0 x1 t0 t1 p0 p1 sr ss sd).2.1)

/-- The first output block after the last column tile. -/
def outSLast (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : ¬isFirst i) (hl : isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) : Vec F S512x1 .f32 :=
  outSView.read (Elt F) (outSView.writes (Elt F) outSView.junk (runLast c i a2 h2 a3 h3 a4 h4 a5 h5 a6 h6 a7 h7 a8 h8 a9 h9 a10 h10 a11 h11 a12 h12 hf hl x0 x1 t0 t1 p0 p1 sr ss sd).1)

/-- The second output block after the last column tile. -/
def outDLast (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : ¬isFirst i) (hl : isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) : Vec F S512x1 .f32 :=
  outDView.read (Elt F) (outDView.writes (Elt F) outDView.junk (runLast c i a2 h2 a3 h3 a4 h4 a5 h5 a6 h6 a7 h7 a8 h8 a9 h9 a10 h10 a11 h11 a12 h12 hf hl x0 x1 t0 t1 p0 p1 sr ss sd).2.1)

/-- The first scratch column after the last column tile. -/
def accSLast (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : ¬isFirst i) (hl : isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) : Vec F S512x1 .f32 :=
  accSView.read (Elt F) (accSView.writes (Elt F) accSView.junk (runLast c i a2 h2 a3 h3 a4 h4 a5 h5 a6 h6 a7 h7 a8 h8 a9 h9 a10 h10 a11 h11 a12 h12 hf hl x0 x1 t0 t1 p0 p1 sr ss sd).2.2.1)

/-- The second scratch column after the last column tile. -/
def accDLast (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : ¬isFirst i) (hl : isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) : Vec F S512x1 .f32 :=
  accDView.read (Elt F) (accDView.writes (Elt F) accDView.junk (runLast c i a2 h2 a3 h3 a4 h4 a5 h5 a6 h6 a7 h7 a8 h8 a9 h9 a10 h10 a11 h11 a12 h12 hf hl x0 x1 t0 t1 p0 p1 sr ss sd).2.2.2.1)

/-! ## Point by point -/

section Points

variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two scratch columns after the body at point `n`. -/
def accAt (c : Dev nD) : (n : ℕ) → n < cfg1.N → Vec F S512x1 .f32 × Vec F S512x1 .f32
  | 0, hn =>
    (accSFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) accS (Memref.isWhole_whole _) accD (Memref.isWhole_whole _) ((isFirst_iff ⟨0, hn⟩).mpr (Nat.zero_mod _)) (fun h => by have := (isLast_iff ⟨0, hn⟩).mp h; simp at this) (blk V c 0 ⟨0, hn⟩) (blk V c 1 ⟨0, hn⟩) (blk V c 2 ⟨0, hn⟩) (blk V c 3 ⟨0, hn⟩) (blk V c 4 ⟨0, hn⟩) (blk V c 5 ⟨0, hn⟩) (blk V c 6 ⟨0, hn⟩),
     accDFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) accS (Memref.isWhole_whole _) accD (Memref.isWhole_whole _) ((isFirst_iff ⟨0, hn⟩).mpr (Nat.zero_mod _)) (fun h => by have := (isLast_iff ⟨0, hn⟩).mp h; simp at this) (blk V c 0 ⟨0, hn⟩) (blk V c 1 ⟨0, hn⟩) (blk V c 2 ⟨0, hn⟩) (blk V c 3 ⟨0, hn⟩) (blk V c 4 ⟨0, hn⟩) (blk V c 5 ⟨0, hn⟩) (blk V c 6 ⟨0, hn⟩))
  | n + 1, hn =>
    if h0 : (n + 1) % 8 = 0 then
      (accSFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) accS (Memref.isWhole_whole _) accD (Memref.isWhole_whole _) ((isFirst_iff ⟨n + 1, hn⟩).mpr h0) (fun h => by have := (isLast_iff ⟨n + 1, hn⟩).mp h; dsimp only at this; omega) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (blk V c 6 ⟨n + 1, hn⟩),
       accDFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) accS (Memref.isWhole_whole _) accD (Memref.isWhole_whole _) ((isFirst_iff ⟨n + 1, hn⟩).mpr h0) (fun h => by have := (isLast_iff ⟨n + 1, hn⟩).mp h; dsimp only at this; omega) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (blk V c 6 ⟨n + 1, hn⟩))
    else if h7 : (n + 1) % 8 = 7 then
      (accSLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) accS (Memref.isWhole_whole _) accD (Memref.isWhole_whole _) (fun h => h0 ((isFirst_iff ⟨n + 1, hn⟩).mp h)) ((isLast_iff ⟨n + 1, hn⟩).mpr h7) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (blk V c 6 ⟨n + 1, hn⟩) (accAt c n (Nat.lt_of_succ_lt hn)).1 (accAt c n (Nat.lt_of_succ_lt hn)).2,
       accDLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) accS (Memref.isWhole_whole _) accD (Memref.isWhole_whole _) (fun h => h0 ((isFirst_iff ⟨n + 1, hn⟩).mp h)) ((isLast_iff ⟨n + 1, hn⟩).mpr h7) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (blk V c 6 ⟨n + 1, hn⟩) (accAt c n (Nat.lt_of_succ_lt hn)).1 (accAt c n (Nat.lt_of_succ_lt hn)).2)
    else
      (accSMiddle c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) accS (Memref.isWhole_whole _) accD (Memref.isWhole_whole _) (fun h => h0 ((isFirst_iff ⟨n + 1, hn⟩).mp h)) (fun h => h7 ((isLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (blk V c 6 ⟨n + 1, hn⟩) (accAt c n (Nat.lt_of_succ_lt hn)).1 (accAt c n (Nat.lt_of_succ_lt hn)).2,
       accDMiddle c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) accS (Memref.isWhole_whole _) accD (Memref.isWhole_whole _) (fun h => h0 ((isFirst_iff ⟨n + 1, hn⟩).mp h)) (fun h => h7 ((isLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (blk V c 6 ⟨n + 1, hn⟩) (accAt c n (Nat.lt_of_succ_lt hn)).1 (accAt c n (Nat.lt_of_succ_lt hn)).2)

/-- The two output blocks after the body at a last column tile `n` (elsewhere the blocks are idle and this is not
    consulted). -/
def outAt (c : Dev nD) (n : ℕ) (hn : n < cfg1.N) : Vec F S512x1 .f32 × Vec F S512x1 .f32 :=
  if h7 : n % 8 = 7 then
    (outSLast c (grid1.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) (ms4 ⟨n, hn⟩) (hs4 ⟨n, hn⟩) (ms5 ⟨n, hn⟩) (hs5 ⟨n, hn⟩) (ms6 ⟨n, hn⟩) (hs6 ⟨n, hn⟩) (ms7 ⟨n, hn⟩) (hs7 ⟨n, hn⟩) (ms8 ⟨n, hn⟩) (hs8 ⟨n, hn⟩) accS (Memref.isWhole_whole _) accD (Memref.isWhole_whole _) (fun h => by have := (isFirst_iff ⟨n, hn⟩).mp h; dsimp only at this; omega) ((isLast_iff ⟨n, hn⟩).mpr h7) (blk V c 0 ⟨n, hn⟩) (blk V c 1 ⟨n, hn⟩) (blk V c 2 ⟨n, hn⟩) (blk V c 3 ⟨n, hn⟩) (blk V c 4 ⟨n, hn⟩) (blk V c 5 ⟨n, hn⟩) (blk V c 6 ⟨n, hn⟩) (accAt V c (n - 1) (by omega)).1 (accAt V c (n - 1) (by omega)).2,
     outDLast c (grid1.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) (ms4 ⟨n, hn⟩) (hs4 ⟨n, hn⟩) (ms5 ⟨n, hn⟩) (hs5 ⟨n, hn⟩) (ms6 ⟨n, hn⟩) (hs6 ⟨n, hn⟩) (ms7 ⟨n, hn⟩) (hs7 ⟨n, hn⟩) (ms8 ⟨n, hn⟩) (hs8 ⟨n, hn⟩) accS (Memref.isWhole_whole _) accD (Memref.isWhole_whole _) (fun h => by have := (isFirst_iff ⟨n, hn⟩).mp h; dsimp only at this; omega) ((isLast_iff ⟨n, hn⟩).mpr h7) (blk V c 0 ⟨n, hn⟩) (blk V c 1 ⟨n, hn⟩) (blk V c 2 ⟨n, hn⟩) (blk V c 3 ⟨n, hn⟩) (blk V c 4 ⟨n, hn⟩) (blk V c 5 ⟨n, hn⟩) (blk V c 6 ⟨n, hn⟩) (accAt V c (n - 1) (by omega)).1 (accAt V c (n - 1) (by omega)).2)
  else accAt V c n hn

end Points

end Cert.Kernel.Losses

end
-- ==== Proof.WordLevel.Losses.Data.lean ====
/-
  The second kernel's pipeline, point by point: its proof data and the body obligation.

  The two windows on X read one array, so each holds half of its share; the row sums S of the first kernel come in
  through a window of their own. After the body at a point each input buffer holds its block; each output block holds
  what the last column tile stores into it (before that its window is idle and the buffer is left as found). The
  invariant carries the two scratch columns: before the first point they hold anything, after point n they hold the
  running partial row sums of n's row tile.
-/
import proofs.«134967_j48713519072039_1_alg».proof.Proof.WordLevel.Losses.Contents
import Idealize.ShloMosaic.Lib.Pipeline.Frame

set_option maxRecDepth 16384

noncomputable section

namespace Cert.Kernel.Losses

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Losses

section

variable (V : (c : Dev nD) → (b : Ref sig .tc) → Buf (Elt F) ((c : Thread nD τ).loc b))

/-! ## The recursion, case by case -/

theorem accAt_first (c : Dev nD) (t : Fin cfg1.N) (h0 : t.val % 8 = 0) :
    accAt V c t.val t.isLt =
      (accSFirst c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accS (Memref.isWhole_whole _) accD (Memref.isWhole_whole _) ((isFirst_iff t).mpr h0) (fun h => by have := (isLast_iff t).mp h; omega) (blk V c 0 t) (blk V c 1 t) (blk V c 2 t) (blk V c 3 t) (blk V c 4 t) (blk V c 5 t) (blk V c 6 t),
       accDFirst c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accS (Memref.isWhole_whole _) accD (Memref.isWhole_whole _) ((isFirst_iff t).mpr h0) (fun h => by have := (isLast_iff t).mp h; omega) (blk V c 0 t) (blk V c 1 t) (blk V c 2 t) (blk V c 3 t) (blk V c 4 t) (blk V c 5 t) (blk V c 6 t)) := by
  obtain ⟨n, hn⟩ := t
  cases n with
  | zero => rfl
  | succ n => exact (dif_pos h0)

theorem accAt_middle (c : Dev nD) (t : Fin cfg1.N) (h0 : ¬t.val % 8 = 0) (h7 : ¬t.val % 8 = 7) :
    accAt V c t.val t.isLt =
      (accSMiddle c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accS (Memref.isWhole_whole _) accD (Memref.isWhole_whole _) (fun h => h0 ((isFirst_iff t).mp h)) (fun h => h7 ((isLast_iff t).mp h)) (blk V c 0 t) (blk V c 1 t) (blk V c 2 t) (blk V c 3 t) (blk V c 4 t) (blk V c 5 t) (blk V c 6 t) (accAt V c (t.val - 1) (Nat.lt_of_le_of_lt (Nat.sub_le _ _) t.isLt)).1 (accAt V c (t.val - 1) (Nat.lt_of_le_of_lt (Nat.sub_le _ _) t.isLt)).2,
       accDMiddle c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accS (Memref.isWhole_whole _) accD (Memref.isWhole_whole _) (fun h => h0 ((isFirst_iff t).mp h)) (fun h => h7 ((isLast_iff t).mp h)) (blk V c 0 t) (blk V c 1 t) (blk V c 2 t) (blk V c 3 t) (blk V c 4 t) (blk V c 5 t) (blk V c 6 t) (accAt V c (t.val - 1) (Nat.lt_of_le_of_lt (Nat.sub_le _ _) t.isLt)).1 (accAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h7).trans rfl)

theorem accAt_last (c : Dev nD) (t : Fin cfg1.N) (h0 : ¬t.val % 8 = 0) (h7 : t.val % 8 = 7) :
    accAt V c t.val t.isLt =
      (accSLast c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accS (Memref.isWhole_whole _) accD (Memref.isWhole_whole _) (fun h => h0 ((isFirst_iff t).mp h)) ((isLast_iff t).mpr h7) (blk V c 0 t) (blk V c 1 t) (blk V c 2 t) (blk V c 3 t) (blk V c 4 t) (blk V c 5 t) (blk V c 6 t) (accAt V c (t.val - 1) (Nat.lt_of_le_of_lt (Nat.sub_le _ _) t.isLt)).1 (accAt V c (t.val - 1) (Nat.lt_of_le_of_lt (Nat.sub_le _ _) t.isLt)).2,
       accDLast c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accS (Memref.isWhole_whole _) accD (Memref.isWhole_whole _) (fun h => h0 ((isFirst_iff t).mp h)) ((isLast_iff t).mpr h7) (blk V c 0 t) (blk V c 1 t) (blk V c 2 t) (blk V c 3 t) (blk V c 4 t) (blk V c 5 t) (blk V c 6 t) (accAt V c (t.val - 1) (Nat.lt_of_le_of_lt (Nat.sub_le _ _) t.isLt)).1 (accAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h7).trans rfl)

theorem outAt_last (c : Dev nD) (t : Fin cfg1.N) (h0 : ¬t.val % 8 = 0) (h7 : t.val % 8 = 7) :
    outAt V c t.val t.isLt =
      (outSLast c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accS (Memref.isWhole_whole _) accD (Memref.isWhole_whole _) (fun h => h0 ((isFirst_iff t).mp h)) ((isLast_iff t).mpr h7) (blk V c 0 t) (blk V c 1 t) (blk V c 2 t) (blk V c 3 t) (blk V c 4 t) (blk V c 5 t) (blk V c 6 t) (accAt V c (t.val - 1) (Nat.lt_of_le_of_lt (Nat.sub_le _ _) t.isLt)).1 (accAt V c (t.val - 1) (Nat.lt_of_le_of_lt (Nat.sub_le _ _) t.isLt)).2,
       outDLast c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accS (Memref.isWhole_whole _) accD (Memref.isWhole_whole _) (fun h => h0 ((isFirst_iff t).mp h)) ((isLast_iff t).mpr h7) (blk V c 0 t) (blk V c 1 t) (blk V c 2 t) (blk V c 3 t) (blk V c 4 t) (blk V c 5 t) (blk V c 6 t) (accAt V c (t.val - 1) (Nat.lt_of_le_of_lt (Nat.sub_le _ _) t.isLt)).1 (accAt V c (t.val - 1) (Nat.lt_of_le_of_lt (Nat.sub_le _ _) t.isLt)).2) := by
  unfold outAt; exact dif_pos h7

/-! ## The invariant -/

/-- The core's scoped buffers other than this kernel's staging buffers and its two scratch columns, at anything: the
    other kernel's staging buffers and scratch column, which this kernel does not touch. -/
abbrev others (c : Dev nD) : sProp 𝕄 :=
  Pipeline.scopedRestBut (Ix := Unit) (Name := ℕ) (U := UR sig nD τ) (Lvl := ℕ) (Val := Elt F) spec1 c [cc1_scratch0, cc1_scratch1]

/-- What the region hands the kernel is the two scratch columns at anything, the others, and the generator register. -/
theorem PhiA_eq (c : Dev nD) :
    (Pipeline.ΦA spec1 c : sProp 𝕄)
      = iprop((((∃ d, owns (c : Thread nD τ) accS fullShare d) ∗ (∃ d, owns (c : Thread nD τ) accD fullShare d)) ∗ others c) ∗ (∃ r, prngReg c r)) := by
  unfold Pipeline.ΦA
  rw [Pipeline.scopedRest_split_of_list spec1 c [cc1_scratch0, cc1_scratch1] (by decide) (by decide)]
  simp only [Idealize.SL.BI.bigSepL_cons_cons, Idealize.SL.BI.bigSepL_singleton, accS, accD, owns_whole]
  try rfl

/-- The invariant before position `n`: before the first point what the region hands the kernel; afterwards the two
    scratch columns at what the point before left in them, the other scoped buffers at anything, the generator
    register at some state. -/
def PhiS (c : Dev nD) : (n : ℕ) → n ≤ cfg1.N → sProp 𝕄
  | 0, _ => Pipeline.ΦA spec1 c
  | n + 1, hn => iprop(((owns (c : Thread nD τ) accS fullShare (accAt V c n hn).1 ∗ owns (c : Thread nD τ) accD fullShare (accAt V c n hn).2) ∗ others c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(((owns (c : Thread nD τ) accS fullShare (accAt V c n hn).1 ∗ owns (c : Thread nD τ) accD fullShare (accAt V c n hn).2) ∗ others c) ∗ (∃ r, prngReg c r)) := rfl

theorem PhiS_pos (c : Dev nD) (n : ℕ) (h : n ≤ cfg1.N) (hz : n ≠ 0) :
    PhiS V c n h = iprop(((owns (c : Thread nD τ) accS fullShare (accAt V c (n - 1) (by omega)).1 ∗ owns (c : Thread nD τ) accD fullShare (accAt V c (n - 1) (by omega)).2) ∗ others c) ∗ (∃ r, prngReg c r)) := by
  cases n with
  | zero => exact absurd rfl hz
  | succ n => rfl

/-! ## The proof data -/

/-- The proof data of the second kernel's pipeline on core `c`, at the contents `V` the region finds. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => (outAt V c t.val t.isLt).1
    | ⟨8, _⟩ => (outAt V c t.val t.isLt).2
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = blk V c 3 t := by dsimp only [dat]
theorem after4 (c : Dev nD) (t : Fin cfg1.N) : (dat V c).after 4 t = blk V c 4 t := by dsimp only [dat]
theorem after5 (c : Dev nD) (t : Fin cfg1.N) : (dat V c).after 5 t = blk V c 5 t := by dsimp only [dat]
theorem after6 (c : Dev nD) (t : Fin cfg1.N) : (dat V c).after 6 t = blk V c 6 t := by dsimp only [dat]
theorem after7 (c : Dev nD) (t : Fin cfg1.N) : (dat V c).after 7 t = (outAt V c t.val t.isLt).1 := by dsimp only [dat]
theorem after8 (c : Dev nD) (t : Fin cfg1.N) : (dat V c).after 8 t = (outAt V c t.val t.isLt).2 := by dsimp only [dat]

/-! ## What the body finds in the input buffers: each one's block, fetched at the point or not -/

theorem before0 (c : Dev nD) (t : Fin cfg1.N) (d) : (dat V c).before 0 t d = blk V c 0 t :=
  ((dat V c).before_in_eq_fetched 0 rfl (fun _ => rfl) (fun _ _ _ => rfl)
    (fun t => by rw [after0]; unfold Dat.blockOf blk; rw [A_eq]; try rfl) t d).trans
    (by unfold Dat.fetched Dat.blockOf blk; rw [A_eq]; try rfl)
theorem before1 (c : Dev nD) (t : Fin cfg1.N) (d) : (dat V c).before 1 t d = blk V c 1 t :=
  ((dat V c).before_in_eq_fetched 1 rfl (fun _ => rfl) (fun _ _ _ => rfl)
    (fun t => by rw [after1]; unfold Dat.blockOf blk; rw [A_eq]; try rfl) t d).trans
    (by unfold Dat.fetched Dat.blockOf blk; rw [A_eq]; try rfl)
theorem before2 (c : Dev nD) (t : Fin cfg1.N) (d) : (dat V c).before 2 t d = blk V c 2 t :=
  ((dat V c).before_in_eq_fetched 2 rfl (fun _ => rfl) (fun _ _ _ => rfl)
    (fun t => by rw [after2]; unfold Dat.blockOf blk; rw [A_eq]; try rfl) t d).trans
    (by unfold Dat.fetched Dat.blockOf blk; rw [A_eq]; try rfl)
theorem before3 (c : Dev nD) (t : Fin cfg1.N) (d) : (dat V c).before 3 t d = blk V c 3 t :=
  ((dat V c).before_in_eq_fetched 3 rfl (fun _ => rfl) (fun _ _ _ => rfl)
    (fun t => by rw [after3]; unfold Dat.blockOf blk; rw [A_eq]; try rfl) t d).trans
    (by unfold Dat.fetched Dat.blockOf blk; rw [A_eq]; try rfl)
theorem before4 (c : Dev nD) (t : Fin cfg1.N) (d) : (dat V c).before 4 t d = blk V c 4 t :=
  ((dat V c).before_in_eq_fetched 4 rfl (fun _ => rfl) (fun _ _ _ => rfl)
    (fun t => by rw [after4]; unfold Dat.blockOf blk; rw [A_eq]; try rfl) t d).trans
    (by unfold Dat.fetched Dat.blockOf blk; rw [A_eq]; try rfl)
theorem before5 (c : Dev nD) (t : Fin cfg1.N) (d) : (dat V c).before 5 t d = blk V c 5 t :=
  ((dat V c).before_in_eq_fetched 5 rfl (fun _ => rfl) (fun _ _ _ => rfl)
    (fun t => by rw [after5]; unfold Dat.blockOf blk; rw [A_eq]; try rfl) t d).trans
    (by unfold Dat.fetched Dat.blockOf blk; rw [A_eq]; try rfl)
theorem before6 (c : Dev nD) (t : Fin cfg1.N) (d) : (dat V c).before 6 t d = blk V c 6 t :=
  ((dat V c).before_in_eq_fetched 6 rfl (fun _ => rfl) (fun _ _ _ => rfl)
    (fun t => by rw [after6]; unfold Dat.blockOf blk; rw [A_eq]; try rfl) t d).trans
    (by unfold Dat.fetched Dat.blockOf blk; rw [A_eq]; try rfl)

/-! ## The body obligation at a point -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t)

set_option maxHeartbeats 16000000 in
/-- The body at any point. The input buffers hold their blocks; the point's case is read off its position; the invariant
    hands the body the two scratch columns at what the point before left (at anything before the first point) and takes
    them back at this point's contents; each output block is handed back as found except at a last column tile, where
    it holds what the body stored; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  rw [show (dat V c).leavesExact 3 t = owns (c : Thread nD τ) (ms3 t) fullShare ((dat V c).after 3 t) from by
    unfold Dat.leavesExact; rw [live3 t], after3]
  rw [show (dat V c).leavesExact 4 t = owns (c : Thread nD τ) (ms4 t) fullShare ((dat V c).after 4 t) from by
    unfold Dat.leavesExact; rw [live4 t], after4]
  rw [show (dat V c).leavesExact 5 t = owns (c : Thread nD τ) (ms5 t) fullShare ((dat V c).after 5 t) from by
    unfold Dat.leavesExact; rw [live5 t], after5]
  rw [show (dat V c).leavesExact 6 t = owns (c : Thread nD τ) (ms6 t) fullShare ((dat V c).after 6 t) from by
    unfold Dat.leavesExact; rw [live6 t], after6]
  by_cases h0 : t.val % 8 = 0
  · have h7 : ¬t.val % 8 = 7 := by omega
    rw [Dat.leavesExact_idle (dat V c) 7 t (idle7_of_not_last t (fun h => h7 ((isLast_iff t).mp h))) (noFlush7_of_not_last t (fun h => h7 ((isLast_iff t).mp h)))]
    rw [Dat.leavesExact_idle (dat V c) 8 t (idle8_of_not_last t (fun h => h7 ((isLast_iff t).mp h))) (noFlush8_of_not_last t (fun h => h7 ((isLast_iff t).mp h)))]
    rw [accAt_first V c t h0]
    unfold accSFirst accDFirst; dsimp only
    by_cases hz : t.val = 0
    · rw [PhiS_castSucc V c t, PhiS_zero V c _ _ hz, PhiA_eq]
      iintro ⟨⟨⟨⟨HS, HD⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runFirst c (grid1.coords t) _ _ _ _ _ _ _ _ _ _ _ _ _ _ _ _ _ _ _ _ _ _ ((isFirst_iff t).mpr h0) (fun h => h7 ((isLast_iff t).mp h)) (blk V c 0 t) (blk V c 1 t) (blk V c 2 t) (blk V c 3 t) (blk V c 4 t) (blk V c 5 t) (blk V c 6 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      isplitl [HD]; · iexact HD
      iintro ⟨H0, H1, H2, H3, H4, H5, H6, ⟨%es, HS⟩, ⟨%ed, HD⟩⟩
      isplitl [HS HD Hoth Hg]
      · isplitl [HS HD Hoth]
        · isplitl [HS HD]
          · isplitl [HS]
            · unfold owns; iexists _; isplitr
              swap; · iexact HS
              ipureintro; exact View.read_writes_of_cover _ _ _ _ _ (coverFirstS c _ _ _ _ _ _ _ _ _ _ _ _ _ _ _ _ _ _ _ _ _ _ _ _ _ _ _ _ _ _ _ _)
            unfold owns; iexists _; isplitr
            swap; · iexact HD
            ipureintro; exact View.read_writes_of_cover _ _ _ _ _ (coverFirstD c _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    · rw [PhiS_castSucc V c t, PhiS_pos V c _ _ hz]
      iintro ⟨⟨⟨⟨HS, HD⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runFirst c (grid1.coords t) _ _ _ _ _ _ _ _ _ _ _ _ _ _ _ _ _ _ _ _ _ _ ((isFirst_iff t).mpr h0) (fun h => h7 ((isLast_iff t).mp h)) (blk V c 0 t) (blk V c 1 t) (blk V c 2 t) (blk V c 3 t) (blk V c 4 t) (blk V c 5 t) (blk V c 6 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      isplitl [HD]; · iexists _; iexact HD
      iintro ⟨H0, H1, H2, H3, H4, H5, H6, ⟨%es, HS⟩, ⟨%ed, HD⟩⟩
      isplitl [HS HD Hoth Hg]
      · isplitl [HS HD Hoth]
        · isplitl [HS HD]
          · isplitl [HS]
            · unfold owns; iexists _; isplitr
              swap; · iexact HS
              ipureintro; exact View.read_writes_of_cover _ _ _ _ _ (coverFirstS c _ _ _ _ _ _ _ _ _ _ _ _ _ _ _ _ _ _ _ _ _ _ _ _ _ _ _ _ _ _ _ _)
            unfold owns; iexists _; isplitr
            swap; · iexact HD
            ipureintro; exact View.read_writes_of_cover _ _ _ _ _ (coverFirstD c _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
  · have hz : t.val ≠ 0 := fun e => h0 (by rw [e])
    by_cases h7 : t.val % 8 = 7
    · rw [show (dat V c).leavesExact 7 t = owns (c : Thread nD τ) (ms7 t) fullShare ((dat V c).after 7 t) from by
        unfold Dat.leavesExact; rw [live7_of_last t ((isLast_iff t).mpr h7)], after7]
      rw [show (dat V c).leavesExact 8 t = owns (c : Thread nD τ) (ms8 t) fullShare ((dat V c).after 8 t) from by
        unfold Dat.leavesExact; rw [live8_of_last t ((isLast_iff t).mpr h7)], after8]
      rw [accAt_last V c t h0 h7, outAt_last V c t h0 h7]
      unfold accSLast accDLast outSLast outDLast; dsimp only
      rw [PhiS_castSucc V c t, PhiS_pos V c _ _ hz]
      iintro ⟨⟨⟨⟨HS, HD⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runLast c (grid1.coords t) _ _ _ _ _ _ _ _ _ _ _ _ _ _ _ _ _ _ _ _ _ _ (fun h => h0 ((isFirst_iff t).mp h)) ((isLast_iff t).mpr h7) (blk V c 0 t) (blk V c 1 t) (blk V c 2 t) (blk V c 3 t) (blk V c 4 t) (blk V c 5 t) (blk V c 6 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS]; · iexact HS
      isplitl [HD]; · iexact HD
      iintro ⟨H0, H1, H2, H3, H4, H5, H6, ⟨%eo7, H7⟩, ⟨%eo8, H8⟩, ⟨%es, HS⟩, ⟨%ed, HD⟩⟩
      isplitl [HS HD Hoth Hg]
      · isplitl [HS HD Hoth]
        · isplitl [HS HD]
          · isplitl [HS]
            · unfold owns; iexists _; isplitr
              swap; · iexact HS
              ipureintro; exact View.read_writes_of_cover _ _ _ _ _ (coverLastS c _ _ _ _ _ _ _ _ _ _ _ _ _ _ _ _ _ _ _ _ _ _ _ _ _ _ _ _ _ _ _ _ _ _)
            unfold owns; iexists _; isplitr
            swap; · iexact HD
            ipureintro; exact View.read_writes_of_cover _ _ _ _ _ (coverLastD c _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (coverLastOutS c _ _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (coverLastOutD c _ _ _ _ _ _ _ _ _ _ _ _ _ _ _ _ _ _ _ _ _ _ _ _ _ _ _ _ _ _ _ _ _ _)
    · rw [Dat.leavesExact_idle (dat V c) 7 t (idle7_of_not_last t (fun h => h7 ((isLast_iff t).mp h))) (noFlush7_of_not_last t (fun h => h7 ((isLast_iff t).mp h)))]
      rw [Dat.leavesExact_idle (dat V c) 8 t (idle8_of_not_last t (fun h => h7 ((isLast_iff t).mp h))) (noFlush8_of_not_last t (fun h => h7 ((isLast_iff t).mp h)))]
      rw [accAt_middle V c t h0 h7]
      unfold accSMiddle accDMiddle; dsimp only
      rw [PhiS_castSucc V c t, PhiS_pos V c _ _ hz]
      iintro ⟨⟨⟨⟨HS, HD⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runMiddle c (grid1.coords t) _ _ _ _ _ _ _ _ _ _ _ _ _ _ _ _ _ _ _ _ _ _ (fun h => h0 ((isFirst_iff t).mp h)) (fun h => h7 ((isLast_iff t).mp h)) (blk V c 0 t) (blk V c 1 t) (blk V c 2 t) (blk V c 3 t) (blk V c 4 t) (blk V c 5 t) (blk V c 6 t) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      isplitl [HD]; · iexact HD
      iintro ⟨H0, H1, H2, H3, H4, H5, H6, ⟨%es, HS⟩, ⟨%ed, HD⟩⟩
      isplitl [HS HD Hoth Hg]
      · isplitl [HS HD Hoth]
        · isplitl [HS HD]
          · isplitl [HS]
            · unfold owns; iexists _; isplitr
              swap; · iexact HS
              ipureintro; exact View.read_writes_of_cover _ _ _ _ _ (coverMiddleS c _ _ _ _ _ _ _ _ _ _ _ _ _ _ _ _ _ _ _ _ _ _ _ _ _ _ _ _ _ _ _ _ _ _)
            unfold owns; iexists _; isplitr
            swap; · iexact HD
            ipureintro; exact View.read_writes_of_cover _ _ _ _ _ (coverMiddleD c _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation (c : Dev nD) : BodyObligation (dat (F := F) V c) (defs₀ (F := F)) Variants.none () Set.univ := fun t => by
  rw [bigSep_W1, bigSep_W1]
  exact sound_body V c t

/-! ## Into the invariant and out of it -/

theorem Phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives back what the region handed the kernel: the scratch columns' contents are
    forgotten. -/
theorem Phi_out (c : Dev nD) : (dat V c).Φ (Fin.last cfg1.N) ⊢ Pipeline.ΦA spec1 c := by
  have hne : (Fin.last cfg1.N).val ≠ 0 := by rw [Fin.val_last]; have : cfg1.N = 64 := N_1; omega
  rw [show (dat V c).Φ (Fin.last cfg1.N) = PhiS V c (Fin.last cfg1.N).val (Nat.le_of_lt_succ (Fin.last cfg1.N).isLt) from rfl,
    PhiS_pos V c _ _ hne, PhiA_eq]
  iintro ⟨⟨⟨HS, HD⟩, Hoth⟩, Hg⟩
  isplitl [HS HD Hoth]
  · isplitl [HS HD]
    · isplitl [HS]
      · iexists _; iexact HS
      iexists _; iexact HD
    iexact Hoth
  iexact Hg

end

end Cert.Kernel.Losses

end
-- ==== Proof.WordLevel.Program.Arrays.lean ====
/-
  The windows' arrays of the two kernels against the buffers behind them.

  Both kernels are handed X through two windows (the row tile and the column tile), so two of a kernel's windows sit on
  one buffer. A buffer held whole at the full share is dealt to the windows on it by splitting the share: X's goes in
  halves to its two windows, every other buffer's whole to its one window; and the windows give the buffers back the
  same way.
-/
import proofs.«134967_j48713519072039_1_alg».proof.Proof.WordLevel.RowSums.Data
import proofs.«134967_j48713519072039_1_alg».proof.Proof.WordLevel.Losses.Data
import Idealize.ShloMosaic.Lib.Pipeline.Regions

set_option maxRecDepth 16384

noncomputable section

namespace Cert.Kernel.Program

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The distinct buffers behind the first kernel's windows, each whole at the full share at contents `Vv`, are the windows' arrays
    at those contents with the shares the proof data names: the buffer of X is read by two windows, each at half of
    its share; every other buffer by one window at the full share. Both ways: at the region's entry the buffers are dealt
    to the windows, at its exit the windows give them back. -/
theorem arrays_iff0 (Vc : (c : Dev nD) → (b : Ref sig .tc) → Buf (Elt F) ((c : Thread nD τ).loc b)) (c : Dev nD)
    (Vv : (b : Ref sig .tc) → Buf (Elt F) ((c : Thread nD τ).loc b))
    (G : (w : Fin cfg0.W) → Buf (Elt F) ((cfg0.win w).arr.view.loc (c.tc : Thread nD τ))) (hG : ∀ w, G w = Vv (Pipeline.arrRef spec0 w)) :
    (Pipeline.arrBufs spec0 c Vv : sProp 𝕄) ⊣⊢ (RowSums.dat Vc c).arrays G := by
  have hL : (Pipeline.arrBufs spec0 c Vv : sProp 𝕄)
      = iprop((((c : Thread nD τ).loc main_v1) ↦{fullShare} Vv main_v1)
          ∗ (((c : Thread nD τ).loc main_v8) ↦{fullShare} Vv main_v8)
          ∗ (((c : Thread nD τ).loc main_v9) ↦{fullShare} Vv main_v9)
          ∗ (((c : Thread nD τ).loc main_v10) ↦{fullShare} Vv main_v10)
          ∗ (((c : Thread nD τ).loc main_v11) ↦{fullShare} Vv main_v11)
          ∗ (((c : Thread nD τ).loc main_v12) ↦{fullShare} Vv main_v12)) := by
    unfold Pipeline.arrBufs
    exact Idealize.SL.BI.bigSep_eq_bigSepL_of_eq [main_v1, main_v8, main_v9, main_v10, main_v11, main_v12] (by decide) (by decide) _
  rw [hL]
  unfold Dat.arrays
  rw [bigSep_W0]
  rw [hG 0, hG 1, hG 2, hG 3, hG 4, hG 5, hG 6]
  have s0 : (RowSums.dat Vc c).share 0 = fullShare.left := rfl
  have s1 : (RowSums.dat Vc c).share 1 = fullShare.right := rfl
  have s2 : (RowSums.dat Vc c).share 2 = fullShare := rfl
  have s3 : (RowSums.dat Vc c).share 3 = fullShare := rfl
  have s4 : (RowSums.dat Vc c).share 4 = fullShare := rfl
  have s5 : (RowSums.dat Vc c).share 5 = fullShare := rfl
  have s6 : (RowSums.dat Vc c).share 6 = fullShare := rfl
  rw [s0, s1, s2, s3, s4, s5, s6]
  simp only [View.set_whole]
  exact ⟨(sep_mono (pointsTo_share (PosShare.mem_left_op_right fullShare)).1 .rfl).trans sep_assoc.1,
    sep_assoc.2.trans (sep_mono (pointsTo_share (PosShare.mem_left_op_right fullShare)).2 .rfl)⟩

set_option maxHeartbeats 8000000 in
/-- The distinct buffers behind the second kernel's windows, each whole at the full share at contents `Vv`, are the windows' arrays
    at those contents with the shares the proof data names: the buffer of X is read by two windows, each at half of
    its share; every other buffer by one window at the full share. Both ways: at the region's entry the buffers are dealt
    to the windows, at its exit the windows give them back. -/
theorem arrays_iff1 (Vc : (c : Dev nD) → (b : Ref sig .tc) → Buf (Elt F) ((c : Thread nD τ).loc b)) (c : Dev nD)
    (Vv : (b : Ref sig .tc) → Buf (Elt F) ((c : Thread nD τ).loc b))
    (G : (w : Fin cfg1.W) → Buf (Elt F) ((cfg1.win w).arr.view.loc (c.tc : Thread nD τ))) (hG : ∀ w, G w = Vv (Pipeline.arrRef spec1 w)) :
    (Pipeline.arrBufs spec1 c Vv : sProp 𝕄) ⊣⊢ (Losses.dat Vc c).arrays G := by
  have hL : (Pipeline.arrBufs spec1 c Vv : sProp 𝕄)
      = iprop((((c : Thread nD τ).loc main_v1) ↦{fullShare} Vv main_v1)
          ∗ (((c : Thread nD τ).loc main_v8) ↦{fullShare} Vv main_v8)
          ∗ (((c : Thread nD τ).loc main_v9) ↦{fullShare} Vv main_v9)
          ∗ (((c : Thread nD τ).loc main_v10) ↦{fullShare} Vv main_v10)
          ∗ (((c : Thread nD τ).loc main_v11) ↦{fullShare} Vv main_v11)
          ∗ (((c : Thread nD τ).loc main_v12) ↦{fullShare} Vv main_v12)
          ∗ (((c : Thread nD τ).loc main_v13_0) ↦{fullShare} Vv main_v13_0)
          ∗ (((c : Thread nD τ).loc main_v13_1) ↦{fullShare} Vv main_v13_1)) := by
    unfold Pipeline.arrBufs
    exact Idealize.SL.BI.bigSep_eq_bigSepL_of_eq [main_v1, main_v8, main_v9, main_v10, main_v11, main_v12, main_v13_0, main_v13_1] (by decide) (by decide) _
  rw [hL]
  unfold Dat.arrays
  rw [bigSep_W1]
  rw [hG 0, hG 1, hG 2, hG 3, hG 4, hG 5, hG 6, hG 7, hG 8]
  have s0 : (Losses.dat Vc c).share 0 = fullShare.left := rfl
  have s1 : (Losses.dat Vc c).share 1 = fullShare.right := rfl
  have s2 : (Losses.dat Vc c).share 2 = fullShare := rfl
  have s3 : (Losses.dat Vc c).share 3 = fullShare := rfl
  have s4 : (Losses.dat Vc c).share 4 = fullShare := rfl
  have s5 : (Losses.dat Vc c).share 5 = fullShare := rfl
  have s6 : (Losses.dat Vc c).share 6 = fullShare := rfl
  have s7 : (Losses.dat Vc c).share 7 = fullShare := rfl
  have s8 : (Losses.dat Vc c).share 8 = fullShare := rfl
  rw [s0, s1, s2, s3, s4, s5, s6, s7, s8]
  simp only [View.set_whole]
  exact ⟨(sep_mono (pointsTo_share (PosShare.mem_left_op_right fullShare)).1 .rfl).trans sep_assoc.1,
    sep_assoc.2.trans (sep_mono (pointsTo_share (PosShare.mem_left_op_right fullShare)).2 .rfl)⟩

end Cert.Kernel.Program

end
-- ==== Proof.WordLevel.Program.Valuations.lean ====
/-
  What the TensorCore's unscoped buffers hold at each boundary of @main.

  @main is four stretches: host operations (the re-laying of the input, the label and part columns and rows), the first
  kernel, the second kernel, host operations (the two totals, their sum, the division). The first kernel changes one
  buffer, its row sums; the second changes two, its two loss columns; a host stretch changes the buffers its operations
  write. Each kernel's proof data is stated at the contents its region finds.
-/
import proofs.«134967_j48713519072039_1_alg».proof.Proof.WordLevel.Program.Arrays
import proofs.«134967_j48713519072039_1_alg».proof.Proof.Gen.Kernel.Regions
import Idealize.ShloMosaic.Lib.Pipeline.Frame

set_option maxRecDepth 16384

noncomputable section

namespace Cert.Kernel.Program

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents, boundary by boundary -/

/-- At launch. -/
abbrev W0 (c : Dev nD) : Valuation τ sig (Elt F) := fun b => m (c, b)
/-- After the first host stretch: what the first kernel's region finds. -/
abbrev W1 (c : Dev nD) : Valuation τ sig (Elt F) := StableHlo.after hostOps0 (W0 m c)
/-- The same read at the TensorCore's references. -/
abbrev E0 (c : Dev nD) (b : Ref sig .tc) : Buf (Elt F) ((c : Thread nD τ).loc b) := W1 m c b

/-- The row sums the first kernel leaves in its result buffer. -/
def rowSums (c : Dev nD) : Buf (Elt F) ((c : Thread nD τ).loc main_v12) := (RowSums.dat (E0 m) c).arrAt 6 cfg0.N

/-- After the first kernel: what the second kernel's region finds. -/
def W2 (c : Dev nD) : Valuation τ sig (Elt F) := Function.update (W1 m c) main_v12 (rowSums m c)
abbrev E1 (c : Dev nD) (b : Ref sig .tc) : Buf (Elt F) ((c : Thread nD τ).loc b) := W2 m c b

/-- The two loss columns the second kernel leaves in its result buffers. -/
def lossS (c : Dev nD) : Buf (Elt F) ((c : Thread nD τ).loc main_v13_0) := (Losses.dat (E1 m) c).arrAt 7 cfg1.N
def lossD (c : Dev nD) : Buf (Elt F) ((c : Thread nD τ).loc main_v13_1) := (Losses.dat (E1 m) c).arrAt 8 cfg1.N

/-- After the second kernel. -/
def W3 (c : Dev nD) : Valuation τ sig (Elt F) :=
  Function.update (Function.update (W2 m c) main_v13_0 (lossS m c)) main_v13_1 (lossD m c)
abbrev E2 (c : Dev nD) (b : Ref sig .tc) : Buf (Elt F) ((c : Thread nD τ).loc b) := W3 m c b
/-- After the last host stretch: at the return. -/
abbrev W4 (c : Dev nD) : Valuation τ sig (Elt F) := StableHlo.after hostOps2 (W3 m c)

theorem W2_self (c : Dev nD) : W2 m c main_v12 = rowSums m c := by
  simp only [W2, Function.update_self]
theorem W2_of (c : Dev nD) (r : Ref sig .tc) (h : r ≠ main_v12) : W2 m c r = W1 m c r := by
  simp only [W2, Function.update_of_ne (StableHlo.devRef_ne_of_ne h : (Proc.devRef .tc r : DevRef τ sig) ≠ Proc.devRef .tc main_v12)]
theorem W3_lossD (c : Dev nD) : W3 m c main_v13_1 = lossD m c := by
  simp only [W3, Function.update_self]
theorem W3_lossS (c : Dev nD) : W3 m c main_v13_0 = lossS m c := by
  simp only [W3, Function.update_of_ne (StableHlo.devRef_ne_of_ne (by decide : main_v13_0 ≠ main_v13_1) : (Proc.devRef .tc main_v13_0 : DevRef τ sig) ≠ Proc.devRef .tc main_v13_1), Function.update_self]
theorem W3_of (c : Dev nD) (r : Ref sig .tc) (h0 : r ≠ main_v13_0) (h1 : r ≠ main_v13_1) : W3 m c r = W2 m c r := by
  simp only [W3, Function.update_of_ne (StableHlo.devRef_ne_of_ne h0 : (Proc.devRef .tc r : DevRef τ sig) ≠ Proc.devRef .tc main_v13_0),
    Function.update_of_ne (StableHlo.devRef_ne_of_ne h1 : (Proc.devRef .tc r : DevRef τ sig) ≠ Proc.devRef .tc main_v13_1)]

/-! ## The proof data of the two pipelines -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => RowSums.dat (E0 m) c
  | ⟨1, _⟩ => fun c => Losses.dat (E1 m) c

/-! ## The first kernel's arrays at its exit -/

/-- Each window's array after the first kernel is the next boundary's contents at its buffer: an input's as the region
    found it, the result's at the row sums. -/
theorem exit0 (c : Dev nD) : ∀ w : Fin cfg0.W, (RowSums.dat (E0 m) c).arrAt w cfg0.N = E1 m c (Pipeline.arrRef spec0 w)
  | ⟨0, _⟩ => ((RowSums.dat (E0 m) c).arrAt_in 0 rfl _).trans ((RowSums.A_eq (E0 m) c 0).trans (W2_of m c main_v1 (by decide)).symm)
  | ⟨1, _⟩ => ((RowSums.dat (E0 m) c).arrAt_in 1 rfl _).trans ((RowSums.A_eq (E0 m) c 1).trans (W2_of m c main_v1 (by decide)).symm)
  | ⟨2, _⟩ => ((RowSums.dat (E0 m) c).arrAt_in 2 rfl _).trans ((RowSums.A_eq (E0 m) c 2).trans (W2_of m c main_v8 (by decide)).symm)
  | ⟨3, _⟩ => ((RowSums.dat (E0 m) c).arrAt_in 3 rfl _).trans ((RowSums.A_eq (E0 m) c 3).trans (W2_of m c main_v9 (by decide)).symm)
  | ⟨4, _⟩ => ((RowSums.dat (E0 m) c).arrAt_in 4 rfl _).trans ((RowSums.A_eq (E0 m) c 4).trans (W2_of m c main_v10 (by decide)).symm)
  | ⟨5, _⟩ => ((RowSums.dat (E0 m) c).arrAt_in 5 rfl _).trans ((RowSums.A_eq (E0 m) c 5).trans (W2_of m c main_v11 (by decide)).symm)
  | ⟨6, _⟩ => (W2_self m c).symm

/-- Off the first kernel's windows nothing changed. -/
theorem rest0 (c : Dev nD) (b : Ref sig .tc) (hb : b ∉ Finset.univ.image (Pipeline.arrRef spec0)) : E1 m c b = E0 m c b :=
  W2_of m c b fun e => hb (e ▸ Finset.mem_image.mpr ⟨6, Finset.mem_univ _, rfl⟩)

/-! ## The second kernel's arrays at its exit -/

theorem exit1 (c : Dev nD) : ∀ w : Fin cfg1.W, (Losses.dat (E1 m) c).arrAt w cfg1.N = E2 m c (Pipeline.arrRef spec1 w)
  | ⟨0, _⟩ => ((Losses.dat (E1 m) c).arrAt_in 0 rfl _).trans ((Losses.A_eq (E1 m) c 0).trans (W3_of m c main_v1 (by decide) (by decide)).symm)
  | ⟨1, _⟩ => ((Losses.dat (E1 m) c).arrAt_in 1 rfl _).trans ((Losses.A_eq (E1 m) c 1).trans (W3_of m c main_v1 (by decide) (by decide)).symm)
  | ⟨2, _⟩ => ((Losses.dat (E1 m) c).arrAt_in 2 rfl _).trans ((Losses.A_eq (E1 m) c 2).trans (W3_of m c main_v8 (by decide) (by decide)).symm)
  | ⟨3, _⟩ => ((Losses.dat (E1 m) c).arrAt_in 3 rfl _).trans ((Losses.A_eq (E1 m) c 3).trans (W3_of m c main_v9 (by decide) (by decide)).symm)
  | ⟨4, _⟩ => ((Losses.dat (E1 m) c).arrAt_in 4 rfl _).trans ((Losses.A_eq (E1 m) c 4).trans (W3_of m c main_v10 (by decide) (by decide)).symm)
  | ⟨5, _⟩ => ((Losses.dat (E1 m) c).arrAt_in 5 rfl _).trans ((Losses.A_eq (E1 m) c 5).trans (W3_of m c main_v11 (by decide) (by decide)).symm)
  | ⟨6, _⟩ => ((Losses.dat (E1 m) c).arrAt_in 6 rfl _).trans ((Losses.A_eq (E1 m) c 6).trans (W3_of m c main_v12 (by decide) (by decide)).symm)
  | ⟨7, _⟩ => (W3_lossS m c).symm
  | ⟨8, _⟩ => (W3_lossD m c).symm

theorem rest1 (c : Dev nD) (b : Ref sig .tc) (hb : b ∉ Finset.univ.image (Pipeline.arrRef spec1)) : E2 m c b = E1 m c b :=
  W3_of m c b (fun e => hb (e ▸ Finset.mem_image.mpr ⟨7, Finset.mem_univ _, rfl⟩)) (fun e => hb (e ▸ Finset.mem_image.mpr ⟨8, Finset.mem_univ _, rfl⟩))

end Cert.Kernel.Program

end
-- ==== Proof.WordLevel.Program.Regions.lean ====
/-
  The two kernels as regions of @main.

  A region is entered from a state in which the TensorCore holds every unscoped buffer at the boundary's contents,
  beside its generator register and owing nothing. The windows' arrays are dealt out of those buffers (X's share in
  halves to its two windows) and the rest bypasses the region; the generator register and the scoped buffers enter the
  kernel's invariant, which carries the scratch columns from point to point; at the exit the arrays are put back at the
  next boundary's contents — the inputs as found, the results at what the write-backs left.
-/
import proofs.«134967_j48713519072039_1_alg».proof.Proof.WordLevel.Program.Valuations

set_option maxRecDepth 16384

noncomputable section

namespace Cert.Kernel.Program

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every stretch: the core's generator register at some state, and its owing
    nothing. -/
abbrev R (c : Dev nD) : sProp 𝕄 := iprop((∃ r, prngReg c r) ∗ ∃ W, owes (c : Thread nD τ) (0 : CellTallies nD τ sig Unit) W)

-- the library's lemmas are stated over the pinned configuration `pin pcs a p`; matching them against the printed one
-- unfolds plain definitions in a metavariable's type
set_option backward.isDefEq.respectTransparency.types false in
set_option maxHeartbeats 8000000 in
/-- THE FIRST KERNEL as a region: entered with every unscoped buffer at the contents after the first host stretch, left with the row sums in its result buffer and everything else as found. -/
def reg0 : RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (RowSums.body_obligation (E0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit : (unscopedBufs c (E0 m c) : sProp 𝕄)
        ⊢ iprop((pdats m 0 c).arrays ((pdats m 0 c).arrAt · 0) ∗ Pipeline.unscopedRest spec0 c (E0 m c)) := by
      rw [Pipeline.unscopedBufs_split₀ cfgs 0 winFacts₀0.arr_unscoped c (E0 m c)]
      exact sep_mono (arrays_iff0 (E0 m) c (E0 m c) _ (fun w => RowSums.A_eq (E0 m) c w)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (RowSums.Phi_in (E0 m) c)
    unfold Pipeline.ΦA
    iintro ⟨Hp, -, Hr⟩
    isplitl [Hr]; · iexact Hr
    iexact Hp
  hout c := by
    rw [Pipeline.ownSems0_none]
    refine (RowSums.Phi_out (E0 m) c).trans ?_
    unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (E0 m c))
        ⊢ (unscopedBufs c (E1 m c) : sProp 𝕄) := by
      rw [Pipeline.unscopedBufs_split₀ cfgs 0 winFacts₀0.arr_unscoped c (E1 m c)]
      refine sep_mono (arrays_iff0 (E0 m) c (E1 m c) _ (exit0 m c)).2 (Entails.of_eq ?_)
      unfold Pipeline.unscopedRest
      exact bigSep_congr fun b hb => by rw [rest0 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration `pin pcs a p`; matching them against the printed one
-- unfolds plain definitions in a metavariable's type
set_option backward.isDefEq.respectTransparency.types false in
set_option maxHeartbeats 8000000 in
/-- THE SECOND KERNEL as a region: entered with every unscoped buffer at the contents the first kernel left, left with the two loss columns in its result buffers and everything else as found. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Losses.body_obligation (E1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit : (unscopedBufs c (E1 m c) : sProp 𝕄)
        ⊢ iprop((pdats m 1 c).arrays ((pdats m 1 c).arrAt · 0) ∗ Pipeline.unscopedRest spec1 c (E1 m c)) := by
      rw [Pipeline.unscopedBufs_split₀ cfgs 1 winFacts₀1.arr_unscoped c (E1 m c)]
      exact sep_mono (arrays_iff1 (E1 m) c (E1 m c) _ (fun w => Losses.A_eq (E1 m) c w)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (Losses.Phi_in (E1 m) c)
    unfold Pipeline.ΦA
    iintro ⟨Hp, -, Hr⟩
    isplitl [Hr]; · iexact Hr
    iexact Hp
  hout c := by
    rw [Pipeline.ownSems0_none]
    refine (Losses.Phi_out (E1 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (E1 m c))
        ⊢ (unscopedBufs c (E2 m c) : sProp 𝕄) := by
      rw [Pipeline.unscopedBufs_split₀ cfgs 1 winFacts₀1.arr_unscoped c (E2 m c)]
      refine sep_mono (arrays_iff1 (E1 m) c (E2 m c) _ (exit1 m c)).2 (Entails.of_eq ?_)
      unfold Pipeline.unscopedRest
      exact bigSep_congr fun b hb => by rw [rest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Program

end
-- ==== Proof.WordLevel.Program.Run.lean ====
/-
  The run of @main: the four stretches in order.

  From any memory with zero counters every weakly fair execution of @main terminates, and in every final memory each
  unscoped buffer of the TensorCore holds the last boundary's contents: the launch contents pushed through the first
  host stretch, the first kernel's row sums, the second kernel's loss columns, the last host stretch. The two arguments
  are written by no stretch; the result buffer holds what the last stretch computes from the loss columns.
-/
import proofs.«134967_j48713519072039_1_alg».proof.Proof.WordLevel.Program.Regions

set_option maxRecDepth 16384

noncomputable section

namespace Cert.Kernel.Program

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A host stretch as a segment over the unscoped buffers from the contents `W`, the generator register and the core's
    owing nothing riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main's four segments in order. -/
abbrev segs : List (Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

theorem main_run (c : Dev nD) : main (F := F) c = Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owing: every unscoped buffer at the last boundary's contents, the generator
    register at some state. -/
abbrev Tlast (c : Dev nD) : sProp 𝕄 := iprop(StableHlo.held (c : Thread nD τ) (Pipeline.ucRefs τ sig) (W4 m c) ∗ ∃ r, prngReg c r)

set_option backward.isDefEq.respectTransparency.types false in
set_option maxHeartbeats 8000000 in
/-- THE RUN. Every weakly fair execution of @main from memory `m` with zero counters terminates, nothing faulting, and
    every final memory holds each unscoped buffer of each core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tlast m)
    (hch := ⟨fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## What the last boundary holds at the arguments -/

theorem W4_of (c : Dev nD) (r : Ref sig .tc) (h : r ∉ hostOps2_W) : W4 m c r = W3 m c r :=
  StableHlo.after_of_writes_sub hostOps2 _ hostOps2_writes h

theorem W1_of (c : Dev nD) (r : Ref sig .tc) (h : r ∉ hostOps0_W) : W1 m c r = W0 m c r :=
  StableHlo.after_of_writes_sub hostOps0 _ hostOps0_writes h

/-- No stretch writes the first argument. -/
theorem W4_arg0 (c : Dev nD) : W4 m c main_arg0 = m ((c : Thread nD τ).loc main_arg0) :=
  (W4_of m c main_arg0 (by decide)).trans <| (W3_of m c main_arg0 (by decide) (by decide)).trans <|
    (W2_of m c main_arg0 (by decide)).trans <| (W1_of m c main_arg0 (by decide)).trans rfl

/-- No stretch writes the second argument. -/
theorem W4_arg1 (c : Dev nD) : W4 m c main_arg1 = m ((c : Thread nD τ).loc main_arg1) :=
  (W4_of m c main_arg1 (by decide)).trans <| (W3_of m c main_arg1 (by decide) (by decide)).trans <|
    (W2_of m c main_arg1 (by decide)).trans <| (W1_of m c main_arg1 (by decide)).trans rfl

/-- THE FRAME: @main runs to the end, nothing faulting, and its two arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_arg0 m c), (h c _ (mem_uc main_arg1 (by decide))).trans (W4_arg1 m c)⟩) (run m ρ)

/-- The run with the result named: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v18) = W4 m c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v18 (by decide)),
      (h c _ (mem_uc main_arg0 (by decide))).trans (W4_arg0 m c), (h c _ (mem_uc main_arg1 (by decide))).trans (W4_arg1 m c)⟩) (run m ρ)

end Cert.Kernel.Program

end
-- ==== Proof.Spec.lean ====
/-
  The specification: the loss as ONE function of three arrays, on the extended reals.

  X is the 4096 x 512 matrix of feature rows, tt the class label of each row and pp the part label of each row (both
  32-bit words). For rows r and j let prod r j = Σ_{d<512} X(r,d) · X(j,d) be their similarity. Then
    rowS r   = Σ_j [tt r ≠ tt j ∧ pp r ≠ pp j] · exp (prod r j)           (other class, other part)
    term r j = log1p (rowS r · exp (−prod r j))
    sadc     = Σ_r Σ_j [tt r ≠ tt j ∧ pp r = pp j] · term r j              (other class, same part)
    dasc     = Σ_r Σ_j [tt r = tt j ∧ pp r ≠ pp j] · term r j              (same class, other part)
    result   = (sadc + sadc + dasc) / 4096.
  A bracket [c] · x is x where c holds and 0 elsewhere. Every sum is a finite sum in the commutative monoid of the
  extended reals under addition, so its value does not depend on the order or grouping of its terms; no finiteness
  of X is used anywhere. The divisor 4096 is kept as the float word it is written with.
  The last part reads the one-bit words that a program computes for the three brackets (comparisons of label words,
  complemented and conjoined, feeding a select) as these brackets.
-/
import Idealize.ShloMosaic.PureOps.Ideal
import Idealize.ShloMosaic.PureOps.Ideal.Laws
import Idealize.ShloMosaic.Lib.ValueIdx
import Idealize.ShloMosaic.Lib.Affine

noncomputable section

open scoped BigOperators

namespace Cert.Spec

open Idealize.ShloMosaic Idealize.ShloMosaic.ValueIdx

section Loss

variable (X : (⟨2, ![4096, 512]⟩ : Shape).Idx → EReal) (tt pp : (⟨1, ![4096]⟩ : Shape).Idx → BitVec 32)

/-- The similarity of rows r and j: the inner product of the two feature rows. -/
def prod (r j : Fin 4096) : EReal := ∑ d : Fin 512, X (ix2 r d) * X (ix2 j d)

/-- The summand of rowS: exp of the similarity where j has another class and another part than r, else 0. -/
def rowSTerm (r j : Fin 4096) : EReal :=
  if ¬tt (ix1 r) = tt (ix1 j) ∧ ¬pp (ix1 r) = pp (ix1 j) then Ideal.exp (prod X r j) else 0

/-- rowS r: the sum over the rows j of another class and another part of exp (prod r j). -/
def rowS (r : Fin 4096) : EReal := ∑ j : Fin 4096, rowSTerm X tt pp r j

/-- term r j = log1p (rowS r · exp (−prod r j)). -/
def term (r j : Fin 4096) : EReal := Ideal.log1p (rowS X tt pp r * Ideal.exp (-(prod X r j)))

/-- The summand of sadc: term r j where j has another class and the same part as r, else 0. -/
def sadcTerm (r j : Fin 4096) : EReal :=
  if ¬tt (ix1 r) = tt (ix1 j) ∧ pp (ix1 r) = pp (ix1 j) then term X tt pp r j else 0

/-- The summand of dasc: term r j where j has the same class and another part than r, else 0. -/
def dascTerm (r j : Fin 4096) : EReal :=
  if tt (ix1 r) = tt (ix1 j) ∧ ¬pp (ix1 r) = pp (ix1 j) then term X tt pp r j else 0

/-- Row r's share of sadc. -/
def sadcRow (r : Fin 4096) : EReal := ∑ j : Fin 4096, sadcTerm X tt pp r j

/-- Row r's share of dasc. -/
def dascRow (r : Fin 4096) : EReal := ∑ j : Fin 4096, dascTerm X tt pp r j

/-- The loss over the pairs of another class and the same part. -/
def sadc : EReal := ∑ r : Fin 4096, sadcRow X tt pp r

/-- The loss over the pairs of the same class and another part. -/
def dasc : EReal := ∑ r : Fin 4096, dascRow X tt pp r

/-- The result: (sadc + sadc + dasc) / 4096, the divisor the float word 0x45800000. -/
def result : EReal := Ideal.div (sadc X tt pp + sadc X tt pp + dasc X tt pp) (Ideal.ofBits .f32 0x45800000#32)

end Loss

/-! ## The brackets as a program computes them: one-bit words feeding a select -/

section Brackets

variable {α : Type} (a b c d : BitVec 32) (x y : α)

/-- not (a = b) and not (c = d), as words. -/
theorem select_ne_ne :
    Scalar.select (IntOp.andi (~~~(IntOp.cmpi .eq a b)) (~~~(IntOp.cmpi .eq c d))) x y
      = if ¬a = b ∧ ¬c = d then x else y := by
  unfold Scalar.select
  exact if_congr (IntOp.andi_eq_one.trans (and_congr (IntOp.not_eq_one.trans (not_congr IntOp.cmpi_eq))
    (IntOp.not_eq_one.trans (not_congr IntOp.cmpi_eq)))) rfl rfl

/-- not (a = b) and (c = d), as words. -/
theorem select_ne_eq :
    Scalar.select (IntOp.andi (~~~(IntOp.cmpi .eq a b)) (IntOp.cmpi .eq c d)) x y
      = if ¬a = b ∧ c = d then x else y := by
  unfold Scalar.select
  exact if_congr (IntOp.andi_eq_one.trans (and_congr (IntOp.not_eq_one.trans (not_congr IntOp.cmpi_eq))
    IntOp.cmpi_eq)) rfl rfl

/-- (a = b) and not (c = d), as words. -/
theorem select_eq_ne :
    Scalar.select (IntOp.andi (IntOp.cmpi .eq a b) (~~~(IntOp.cmpi .eq c d))) x y
      = if a = b ∧ ¬c = d then x else y := by
  unfold Scalar.select
  exact if_congr (IntOp.andi_eq_one.trans (and_congr IntOp.cmpi_eq
    (IntOp.not_eq_one.trans (not_congr IntOp.cmpi_eq)))) rfl rfl

end Brackets

end Cert.Spec

end
-- ==== Proof.ReferenceValue.lean ====
/-
  The reference's value, read one operation at a time.

  The reference computes, for rows r and columns j of the 4096 x 4096 similarity matrix prod = X Xᵀ (X the 4096 x 512
  re-laying of the input), with class labels t and part labels p per row:
    S r        = Σ_j [t r ≠ t j ∧ p r ≠ p j] · exp (prod r j)
    term r j   = log1p (S r · exp (-(prod r j)))
    loss_sadc  = Σ_{r,j} [t r ≠ t j ∧ p r = p j] · term r j
    loss_dasc  = Σ_{r,j} [t r = t j ∧ p r ≠ p j] · term r j
    result     = (loss_sadc + loss_sadc + loss_dasc) / 4096
  on the extended reals. This module states that value as one function of the two argument arrays: the specification's
  result at X = the re-laid input, t = each label repeated for its four parts, p = the part number of each row.
  The stages are read from the innermost outwards: the similarity at (r, j) is the inner product of rows r and j; the
  label comparisons at (r, j) compare the words at r and at j; a masked entry is a bracket times its value; a row sum
  and a sum over the whole matrix start from the zero word, which denotes 0, and a sum over all pairs (r, j) is the
  double sum; the row sum S is computed twice by the program, both times as the same term.
-/
import proofs.«134967_j48713519072039_1_alg».proof.Proof.Gen.ReferenceIdeal.Read
import proofs.«134967_j48713519072039_1_alg».proof.Proof.Spec
import Idealize.ShloMosaic.Lib.ValueIdx
import Idealize.ShloMosaic.Lib.Pipeline.Value
import Idealize.ShloMosaic.PureOps.Ideal.Laws
import Idealize.ShloMosaic.Lib.StableHlo.Run

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

variable (x0 : (⟨S1024x4x512, .f32⟩ : BufTy).Contents (Elt Ideal)) (x1 : (⟨S1024, .i32⟩ : BufTy).Contents (Elt Ideal))

/-- The zero word denotes 0. -/
theorem zero_word : (FloatOps.ofBits (F := Ideal) .f32 0x00000000#32 : EReal) = 0 := Ideal.ofBits_zero_f32

/-- The similarity at (r, j) is the inner product of rows r and j of the re-laid input: the transposed operand read
    at (d, j) is the input's row j at d. -/
theorem v8_eq (r j : Fin 4096) :
    val_main_v8 (F := Ideal) x0 (ix2 r j) = Cert.Spec.prod (val_main_v0 (F := Ideal) x0) r j := by
  rw [val_main_v8_apply]
  unfold Cert.Spec.prod
  refine Finset.sum_congr rfl fun k _ => ?_
  rw [val_main_v7_apply,
    show lidx_main_v8 (ix2 r j) k = ix2 r k from
      funext fun a => Fin.ext (by match a with | ⟨0, _⟩ => rfl | ⟨1, _⟩ => rfl),
    show idx_main_v7 (ridx_main_v8 (ix2 r j) k) = ix2 j k from
      funext fun a => Fin.ext (by match a with | ⟨0, _⟩ => rfl | ⟨1, _⟩ => rfl)]

/-- The class comparison at (r, j) compares the class words of rows r and j. -/
theorem v13_eq (r j : Fin 4096) :
    val_main_v13 (F := Ideal) x1 (ix2 r j)
      = IntOp.cmpi .eq (val_main_v2 (F := Ideal) x1 (ix1 r)) (val_main_v2 (F := Ideal) x1 (ix1 j)) := by
  rw [val_main_v13_apply, val_main_v11_apply, val_main_v9_apply, val_main_v12_apply, val_main_v10_apply,
    show idx_main_v9 (idx_main_v11 (ix2 r j)) = ix1 r from
      funext fun a => Fin.ext (by match a with | ⟨0, _⟩ => rfl),
    show idx_main_v10 (idx_main_v12 (ix2 r j)) = ix1 j from
      funext fun a => Fin.ext (by match a with | ⟨0, _⟩ => rfl)]

/-- The part comparison at (r, j) compares the part words of rows r and j. -/
theorem v18_eq (r j : Fin 4096) :
    val_main_v18 (F := Ideal) (ix2 r j)
      = IntOp.cmpi .eq (val_main_v6 (F := Ideal) (ix1 r)) (val_main_v6 (F := Ideal) (ix1 j)) := by
  rw [val_main_v18_apply, val_main_v16_apply, val_main_v14_apply, val_main_v17_apply, val_main_v15_apply,
    show idx_main_v14 (idx_main_v16 (ix2 r j)) = ix1 r from
      funext fun a => Fin.ext (by match a with | ⟨0, _⟩ => rfl),
    show idx_main_v15 (idx_main_v17 (ix2 r j)) = ix1 j from
      funext fun a => Fin.ext (by match a with | ⟨0, _⟩ => rfl)]

/-- The masked exponential at (r, j) is the summand of the row sum S (first copy). -/
theorem v29_eq (r j : Fin 4096) :
    val_main_v29 (F := Ideal) x0 x1 (ix2 r j)
      = Cert.Spec.rowSTerm (val_main_v0 (F := Ideal) x0) (val_main_v2 (F := Ideal) x1) (val_main_v6 (F := Ideal)) r j := by
  rw [val_main_v29_apply, val_main_v25_apply, val_main_v23_apply, val_main_v24_apply, v13_eq, v18_eq,
    val_main_v26_apply, v8_eq, val_main_call0_v1_apply, val_main_call0_v0_apply, val_main_cst_apply, zero_word,
    Cert.Spec.select_ne_ne]
  rfl

/-- The masked exponential at (r, j) is the summand of the row sum S (second copy). -/
theorem v37_eq (r j : Fin 4096) :
    val_main_v37 (F := Ideal) x0 x1 (ix2 r j)
      = Cert.Spec.rowSTerm (val_main_v0 (F := Ideal) x0) (val_main_v2 (F := Ideal) x1) (val_main_v6 (F := Ideal)) r j := by
  rw [val_main_v37_apply, val_main_v25_apply, val_main_v23_apply, val_main_v24_apply, v13_eq, v18_eq,
    val_main_v26_apply, v8_eq, val_main_call2_v1_apply, val_main_call2_v0_apply, val_main_cst_3_apply, zero_word,
    Cert.Spec.select_ne_ne]
  rfl

/-- The first row sum at r is S r. -/
theorem v30_eq (r : Fin 4096) :
    val_main_v30 (F := Ideal) x0 x1 (ix1 r)
      = Cert.Spec.rowS (val_main_v0 (F := Ideal) x0) (val_main_v2 (F := Ideal) x1) (val_main_v6 (F := Ideal)) r := by
  rw [val_main_v30_apply, val_main_cst_0_apply, zero_word, zero_add]
  unfold Cert.Spec.rowS
  refine Finset.sum_congr rfl fun k _ => ?_
  rw [show idx_main_v30 (ix1 r) k = ix2 r k from
      funext fun a => Fin.ext (by match a with | ⟨0, _⟩ => rfl | ⟨1, _⟩ => rfl), v29_eq]

/-- The second row sum at r is S r too. -/
theorem v38_eq (r : Fin 4096) :
    val_main_v38 (F := Ideal) x0 x1 (ix1 r)
      = Cert.Spec.rowS (val_main_v0 (F := Ideal) x0) (val_main_v2 (F := Ideal) x1) (val_main_v6 (F := Ideal)) r := by
  rw [val_main_v38_apply, val_main_cst_4_apply, zero_word, zero_add]
  unfold Cert.Spec.rowS
  refine Finset.sum_congr rfl fun k _ => ?_
  rw [show idx_main_v38 (ix1 r) k = ix2 r k from
      funext fun a => Fin.ext (by match a with | ⟨0, _⟩ => rfl | ⟨1, _⟩ => rfl), v37_eq]

/-- log1p (S r · exp (−prod r j)) at (r, j), over the first row sum. -/
theorem v34_eq (r j : Fin 4096) :
    val_main_v34 (F := Ideal) x0 x1 (ix2 r j)
      = Cert.Spec.term (val_main_v0 (F := Ideal) x0) (val_main_v2 (F := Ideal) x1) (val_main_v6 (F := Ideal)) r j := by
  rw [val_main_v34_apply, val_main_v33_apply, val_main_v32_apply, val_main_v31_apply, val_main_v28_apply,
    val_main_v27_apply, v8_eq,
    show idx_main_v31 (idx_main_v32 (ix2 r j)) = ix1 r from
      funext fun a => Fin.ext (by match a with | ⟨0, _⟩ => rfl), v30_eq]
  rfl

/-- The same over the second row sum. -/
theorem v42_eq (r j : Fin 4096) :
    val_main_v42 (F := Ideal) x0 x1 (ix2 r j)
      = Cert.Spec.term (val_main_v0 (F := Ideal) x0) (val_main_v2 (F := Ideal) x1) (val_main_v6 (F := Ideal)) r j := by
  rw [val_main_v42_apply, val_main_v41_apply, val_main_v40_apply, val_main_v39_apply, val_main_v28_apply,
    val_main_v27_apply, v8_eq,
    show idx_main_v39 (idx_main_v40 (ix2 r j)) = ix1 r from
      funext fun a => Fin.ext (by match a with | ⟨0, _⟩ => rfl), v38_eq]
  rfl

/-- The entry of the first masked matrix: other class, same part. -/
theorem v35_eq (r j : Fin 4096) :
    val_main_v35 (F := Ideal) x0 x1 (ix2 r j)
      = Cert.Spec.sadcTerm (val_main_v0 (F := Ideal) x0) (val_main_v2 (F := Ideal) x1) (val_main_v6 (F := Ideal)) r j := by
  rw [val_main_v35_apply, val_main_v20_apply, val_main_v19_apply, v13_eq, v18_eq, v34_eq,
    val_main_call1_v1_apply, val_main_call1_v0_apply, val_main_cst_1_apply, zero_word, Cert.Spec.select_ne_eq]
  rfl

/-- The entry of the second masked matrix: same class, other part. -/
theorem v43_eq (r j : Fin 4096) :
    val_main_v43 (F := Ideal) x0 x1 (ix2 r j)
      = Cert.Spec.dascTerm (val_main_v0 (F := Ideal) x0) (val_main_v2 (F := Ideal) x1) (val_main_v6 (F := Ideal)) r j := by
  rw [val_main_v43_apply, val_main_v22_apply, val_main_v21_apply, v13_eq, v18_eq, v42_eq,
    val_main_call3_v1_apply, val_main_call3_v0_apply, val_main_cst_5_apply, zero_word, Cert.Spec.select_eq_ne]
  rfl

/-- The sum of the first masked matrix over all pairs is sadc. -/
theorem v36_eq (i : S_.Idx) :
    val_main_v36 (F := Ideal) x0 x1 i
      = Cert.Spec.sadc (val_main_v0 (F := Ideal) x0) (val_main_v2 (F := Ideal) x1) (val_main_v6 (F := Ideal)) := by
  rw [val_main_v36_apply, val_main_cst_2_apply, zero_word, zero_add]
  refine (sum_idx2 (n0 := 4096) (n1 := 4096) _).trans ?_
  unfold Cert.Spec.sadc Cert.Spec.sadcRow
  exact Finset.sum_congr rfl fun r _ => Finset.sum_congr rfl fun j _ => v35_eq x0 x1 r j

/-- The sum of the second masked matrix over all pairs is dasc. -/
theorem v44_eq (i : S_.Idx) :
    val_main_v44 (F := Ideal) x0 x1 i
      = Cert.Spec.dasc (val_main_v0 (F := Ideal) x0) (val_main_v2 (F := Ideal) x1) (val_main_v6 (F := Ideal)) := by
  rw [val_main_v44_apply, val_main_cst_6_apply, zero_word, zero_add]
  refine (sum_idx2 (n0 := 4096) (n1 := 4096) _).trans ?_
  unfold Cert.Spec.dasc Cert.Spec.dascRow
  exact Finset.sum_congr rfl fun r _ => Finset.sum_congr rfl fun j _ => v43_eq x0 x1 r j

/-- THE REFERENCE'S RESULT is the specification's, at the re-laid input, the repeated class labels and the part numbers. -/
theorem reference_eq :
    val_main_v47 (F := Ideal) x0 x1
      = fun _ => Cert.Spec.result (val_main_v0 (F := Ideal) x0) (val_main_v2 (F := Ideal) x1) (val_main_v6 (F := Ideal)) := by
  funext i
  rw [val_main_v47_apply, val_main_v46_apply, val_main_v45_apply, v36_eq, v44_eq, val_main_cst_7_apply]
  rfl

end Cert.ReferenceIdeal.RefValue

end
-- ==== Proof.SpecArrays.lean ====
/-
  The three arrays the loss is a function of, index by index, and the loss as a function of the two inputs.

  The input holds 1024 samples of 4 parts of 512 features; its rows are laid one after the other, so row r = 4·b + p of
  the 4096 x 512 matrix is part p of sample b: X(r, d) = input(r / 4, r % 4, d). The class label of row r is the label
  of its sample, tt r = targets(r / 4), and its part label is its part number, pp r = r % 4 as a 32-bit word.
-/
import proofs.«134967_j48713519072039_1_alg».proof.Proof.Spec

noncomputable section

namespace Cert.Spec

open Idealize.ShloMosaic Idealize.ShloMosaic.ValueIdx

/-- The input re-laid: X(r, d) = input(r / 4, r % 4, d). -/
def relaid (x0 : (⟨3, ![1024, 4, 512]⟩ : Shape).Idx → EReal) : (⟨2, ![4096, 512]⟩ : Shape).Idx → EReal :=
  fun i => x0 (ix3 (⟨(i 0).val / 4, by have := idx2_lt0 i; omega⟩ : Fin 1024) (⟨(i 0).val % 4, by omega⟩ : Fin 4)
    (⟨(i 1).val, idx2_lt1 i⟩ : Fin 512))

/-- The class label of each row: tt r = targets(r / 4). -/
def labels (x1 : (⟨1, ![1024]⟩ : Shape).Idx → BitVec 32) : (⟨1, ![4096]⟩ : Shape).Idx → BitVec 32 :=
  fun i => x1 (ix1 (⟨(i 0).val / 4, by have h : (i 0).val < 4096 := (i 0).isLt; omega⟩ : Fin 1024))

/-- The part label of each row: pp r = r % 4. -/
def parts : (⟨1, ![4096]⟩ : Shape).Idx → BitVec 32 := fun i => BitVec.ofNat 32 ((i 0).val % 4)

/-- The loss as a function of the two inputs (a scalar: one value at the one index of the rank-0 shape). -/
def loss (x0 : (⟨3, ![1024, 4, 512]⟩ : Shape).Idx → EReal) (x1 : (⟨1, ![1024]⟩ : Shape).Idx → BitVec 32) :
    (⟨0, ![]⟩ : Shape).Idx → EReal :=
  fun _ => result (relaid x0) (labels x1) parts

theorem relaid_apply (x0 : (⟨3, ![1024, 4, 512]⟩ : Shape).Idx → EReal) (r : Fin 4096) (d : Fin 512) :
    relaid x0 (ix2 r d) = x0 (ix3 (⟨r.val / 4, by have := r.isLt; omega⟩ : Fin 1024) (⟨r.val % 4, by omega⟩ : Fin 4) d) := rfl

theorem labels_apply (x1 : (⟨1, ![1024]⟩ : Shape).Idx → BitVec 32) (r : Fin 4096) :
    labels x1 (ix1 r) = x1 (ix1 (⟨r.val / 4, by have := r.isLt; omega⟩ : Fin 1024)) := rfl

theorem parts_apply (r : Fin 4096) : parts (ix1 r) = BitVec.ofNat 32 (r.val % 4) := rfl

end Cert.Spec

end
-- ==== Proof.ReferenceRun.lean ====
/-
  The reference's run, with its result stated as the loss of the two inputs.

  The three arrays the reference builds before anything else are the index-level ones: the reshape of the input reads
  the input at (r / 4, r % 4, d); the labels broadcast over the four parts and flattened read the label of sample r / 4;
  the part numbers 0..3 broadcast over the samples and flattened read r % 4. So the reference's result is the loss of
  its two argument arrays, every execution of it ends there with its arguments unchanged, and any run of the kernel's
  program that ends at the loss of the same arguments agrees with it.
-/
import proofs.«134967_j48713519072039_1_alg».proof.Defs
import proofs.«134967_j48713519072039_1_alg».proof.Proof.Gen.KernelIdeal
import proofs.«134967_j48713519072039_1_alg».proof.Proof.Gen.ReferenceIdeal
import proofs.«134967_j48713519072039_1_alg».proof.Proof.Gen.Pre_finite_inputs
import proofs.«134967_j48713519072039_1_alg».proof.Proof.ReferenceValue
import proofs.«134967_j48713519072039_1_alg».proof.Proof.SpecArrays

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

variable (x0 : (⟨S1024x4x512, .f32⟩ : BufTy).Contents (Elt Ideal)) (x1 : (⟨S1024, .i32⟩ : BufTy).Contents (Elt Ideal))

/-- The reshape of the input is the re-laid input. -/
theorem v0_eq : val_main_v0 (F := Ideal) x0 = Cert.Spec.relaid x0 := by
  funext i
  rw [val_main_v0_apply]
  unfold Cert.Spec.relaid
  refine congrArg x0 (funext fun a => Fin.ext ?_)
  have h0 : (i 0).val < 4096 := (i 0).isLt
  have h1 : (i 1).val < 512 := (i 1).isLt
  match a with
  | ⟨0, _⟩ => show ((i 0).val * 512 + (i 1).val) / 2048 = (i 0).val / 4; omega
  | ⟨1, _⟩ => show ((i 0).val * 512 + (i 1).val) / 512 % 4 = (i 0).val % 4; omega
  | ⟨2, _⟩ => show ((i 0).val * 512 + (i 1).val) % 512 = (i 1).val; omega

/-- The labels broadcast over the parts and flattened are each row's class label. -/
theorem v2_eq : val_main_v2 (F := Ideal) x1 = Cert.Spec.labels x1 := by
  funext i
  rw [val_main_v2_apply, val_main_v1_apply]
  unfold Cert.Spec.labels
  exact congrArg x1 (funext fun a => Fin.ext (by match a with | ⟨0, _⟩ => rfl))

/-- The part numbers broadcast over the samples and flattened are each row's part label. -/
theorem v6_eq : val_main_v6 (F := Ideal) = Cert.Spec.parts := by
  funext i
  rw [val_main_v6_apply, val_main_v5_apply, val_main_v4_apply, val_main_v3_apply]
  unfold Cert.Spec.parts
  refine congrArg (BitVec.ofNat 32) ?_
  show 0 * 4 + (i 0).val % 4 = (i 0).val % 4
  omega

/-- THE REFERENCE'S RESULT is the loss of its two argument arrays. -/
theorem reference_loss : val_main_v47 (F := Ideal) x0 x1 = Cert.Spec.loss x0 x1 := by
  rw [reference_eq, v0_eq, v2_eq, v6_eq]
  rfl

end Cert.ReferenceIdeal.RefValue

namespace Cert.Proof.RefClaims

open Idealize.ShloMosaic Idealize.ShloMosaic.TcCoe Idealize.SL.Sem

/-- The reference runs, and its argument arrays end unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Every execution of the reference ends with its result at the loss of its argument arrays, the arguments unchanged. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v47)
          = Cert.Spec.loss (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)) :=
  (θ_run Cert.ReferenceIdeal.defs _ _).mono
    (fun _ h c => ⟨(h c).1.trans ((Cert.ReferenceIdeal.Read.val_main_v47_eq m c).trans
      (Cert.ReferenceIdeal.RefValue.reference_loss _ _)), (h c).2⟩)
    (Cert.ReferenceIdeal.Value.run (F := Ideal) m ρ)

/-- The assembly: if every execution of the kernel's program ends with its result at the loss of its argument arrays
    and the arguments unchanged, the two programs, run from memories that agree on the arguments, end with equal results. -/
theorem algebraic_of_kernel_run
    (hk : ∀ (m : (ℓ : Loc Cert.KernelIdeal.nD Cert.KernelIdeal.τ Cert.KernelIdeal.sig) → Buf (Elt Ideal) ℓ)
        (ρ : Dev Cert.KernelIdeal.nD → PrngReg), Cert.Pre_KernelIdeal m →
      θ_run (Cert.KernelIdeal.defs (F := Ideal)) (onTc (τ := Cert.KernelIdeal.τ) (Cert.KernelIdeal.main (F := Ideal)))
        ⟨m, fun _ => 0, ρ⟩ (fun r => ∀ c : Dev Cert.KernelIdeal.nD,
          r.2.mem ((c.tc : Thread Cert.KernelIdeal.nD Cert.KernelIdeal.τ).loc Cert.KernelIdeal.main_v18)
            = Cert.Spec.loss (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
          ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))) :
    Cert.algebraic_KernelIdeal_ReferenceIdeal := by
  intro m ρ m' ρ' hpre hagree
  refine ⟨fun c => Cert.Spec.loss (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), hk m ρ hpre, ?_⟩
  refine (θ_run Cert.ReferenceIdeal.defs _ _).mono (fun _ h c => ⟨(h c).1.trans ?_, (h c).2⟩) (reference_run m' ρ')
  rw [(hagree c).1, (hagree c).2]

end Cert.Proof.RefClaims

end
-- ==== Proof.KernelLayout.lean ====
/-
  The kernels' vector operations read at an index, on the extended reals.

  Both kernels work on 512 x 512 tiles of the 4096 x 4096 matrix of row pairs. A tile's entry (p, c) pairs row p of the
  row block with row c of the column block. The operations that are not entry by entry are read here once:
    * a vector of 512 values viewed as a 512 x 1 column keeps its values; a column broadcast along the lanes reads the
      column at the entry's row, a row broadcast down the rows reads the row at the entry's lane;
    * the matrix product of a tile A with a tile B into the zero tile is, at (p, c), the sum over k of A(p,k) · B(k,c);
    * the sum along the lanes of a tile is, at row p, the sum over the lanes c of the entries (p, c): on the extended
      reals the sum's zero starting word adds nothing;
    * the exclusive or of a one-bit word with the bit 1 is its complement.
-/
import proofs.«134967_j48713519072039_1_alg».proof.Proof.Gen.KernelIdeal.Skeleton
import proofs.«134967_j48713519072039_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KValue

open Idealize.ShloMosaic Idealize.ShloMosaic.ValueIdx
open Cert.KernelIdeal Cert.KernelIdeal.Gen

section Layout
variable {α : Type}

/-- An [a] array viewed as an [a, 1] column reads, at (i, u), the array at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The exclusive or with the bit 1 is the complement. -/
theorem xori_one (c : BitVec 1) : IntOp.xori c 1#1 = ~~~c := by revert c; decide

/-- The left operand's index of the tile product at (j, q): row coordinate j's. -/
theorem lhs_tile_0 (j : S512x512.Idx) (q : dot_S512x512_S512x512_S512x512_1_0_0_1_n_n.contr.Idx) :
    (dot_S512x512_S512x512_S512x512_1_0_0_1_n_n.lhsIdx j q 0).val = (j 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl
theorem lhs_tile_1 (j : S512x512.Idx) (q : dot_S512x512_S512x512_S512x512_1_0_0_1_n_n.contr.Idx) :
    (dot_S512x512_S512x512_S512x512_1_0_0_1_n_n.lhsIdx j q 1).val = (q ⟨0, by decide⟩).val :=
  dot_S512x512_S512x512_S512x512_1_0_0_1_n_n.lhsIdx_val_of_single rfl j q
theorem rhs_tile_0 (j : S512x512.Idx) (q : dot_S512x512_S512x512_S512x512_1_0_0_1_n_n.contr.Idx) :
    (dot_S512x512_S512x512_S512x512_1_0_0_1_n_n.rhsIdx j q 0).val = (q ⟨0, by decide⟩).val :=
  dot_S512x512_S512x512_S512x512_1_0_0_1_n_n.rhsIdx_val_of_single rfl j q
theorem rhs_tile_1 (j : S512x512.Idx) (q : dot_S512x512_S512x512_S512x512_1_0_0_1_n_n.contr.Idx) :
    (dot_S512x512_S512x512_S512x512_1_0_0_1_n_n.rhsIdx j q 1).val = (j 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl

/-- The product of two tiles into the zero tile, at (p, c): the sum over k of A(p,k) · B(k,c). -/
theorem matmul_tile_apply (A B : FVec Ideal S512x512 .bf16) (p c : Fin 512) :
    matmul (F := Ideal) dot_S512x512_S512x512_S512x512_1_0_0_1_n_n none A B (constant (F := Ideal) S512x512 .f32 0x00000000#32) (ix2 p c)
      = ∑ k : Fin 512, A (ix2 p k) * B (ix2 k c) := by
  refine (Ideal.matmul_constant_zero_apply dot_S512x512_S512x512_S512x512_1_0_0_1_n_n none A B (ix2 p c)).trans ?_
  rw [← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 p c)
      ((ValueIdx.contrEquiv1 dot_S512x512_S512x512_S512x512_1_0_0_1_n_n 512 rfl rfl).symm k) = ix2 p k :=
    funext fun a => Fin.ext (by
      match a with
      | ⟨0, _⟩ => exact lhs_tile_0 _ _
      | ⟨1, _⟩ => exact (lhs_tile_1 _ _).trans hk)
  have er : dot_S512x512_S512x512_S512x512_1_0_0_1_n_n.rhsIdx (ix2 p c)
      ((ValueIdx.contrEquiv1 dot_S512x512_S512x512_S512x512_1_0_0_1_n_n 512 rfl rfl).symm k) = ix2 k c :=
    funext fun a => Fin.ext (by
      match a with
      | ⟨0, _⟩ => exact (rhs_tile_0 _ _).trans hk
      | ⟨1, _⟩ => exact rhs_tile_1 _ _)
  rw [el, er]

/-- The sum along the lanes of a tile, at row p: the sum over the lanes c of the entries (p, c). -/
theorem laneSum_apply (v : FVec Ideal S512x512 .f32) (p : Fin 512) :
    multiReduction (F := Ideal) .add [1] S512 v 0x00000000#32 reduces_S512x512_S512 (.inl rfl) rfl (ix1 p)
      = ∑ c : Fin 512, v (ix2 p c) := by
  refine (Ideal.multiReduction_add_single v 0x00000000#32 reduces_S512x512_S512 (.inl rfl) rfl (ix1 p)).trans ?_
  exact Finset.sum_congr rfl fun c _ =>
    congrArg v (funext fun a => Fin.ext (by match a with | ⟨0, _⟩ => rfl | ⟨1, _⟩ => rfl))

/-- The lane sums viewed as a column, at (p, 0). -/
theorem laneSumColumn_apply (v : FVec Ideal S512x512 .f32) (p : Fin 512) :
    shapeCast S512x1 (multiReduction (F := Ideal) .add [1] S512 v 0x00000000#32 reduces_S512x512_S512 (.inl rfl) rfl)
        shapeCasts_S512_S512x1 (ix2 p (0 : Fin 1))
      = ∑ c : Fin 512, v (ix2 p c) :=
  (shapeCast_a_a1_apply _ shapeCasts_S512_S512x1 p (0 : Fin 1)).trans (laneSum_apply v p)

end Cert.KernelIdeal.KValue

end
-- ==== Proof.KernelPrelude.lean ====
/-
  The arrays the kernels read, as the host operations before them leave them.

  Before the first kernel the program re-lays the input as the 4096 x 512 matrix X (and narrows it to sixteen bits, which
  changes nothing on the extended reals), repeats each sample's label for its four parts and flattens (the class label of
  each row), lays the part numbers 0..3 under every sample and flattens (the part label of each row), and views each of the
  two label arrays once as a 4096 x 1 column and once as a 1 x 4096 row. Read at an index these are the specification's
  three arrays: X(r, d) = input(r / 4, r % 4, d), class(r) = targets(r / 4), part(r) = r % 4.
-/
import proofs.«134967_j48713519072039_1_alg».proof.Proof.Gen.KernelIdeal.Regions
import proofs.«134967_j48713519072039_1_alg».proof.Proof.KernelLayout
import proofs.«134967_j48713519072039_1_alg».proof.Proof.SpecArrays
import Idealize.ShloMosaic.Lib.StableHlo.Run

noncomputable section

namespace Cert.KernelIdeal.KValue

open Idealize.ShloMosaic Idealize.ShloMosaic.TcCoe Idealize.SL.Sem Idealize.ShloMosaic.ValueIdx Idealize.ShloMosaic.StableHlo
open Cert.KernelIdeal Cert.KernelIdeal.Gen

/-- The input re-laid as a matrix reads the input at (r / 4, r % 4, d). -/
theorem flatX (x0 : S1024x4x512.Idx → EReal) :
    shapeCast S4096x512 x0 shapeCasts_S1024x4x512_S4096x512 = Cert.Spec.relaid x0 := by
  funext i
  have h0 : (i 0).val < 4096 := (i 0).isLt
  have h1 : (i 1).val < 512 := (i 1).isLt
  unfold Cert.Spec.relaid
  exact shapeCast_apply x0 shapeCasts_S1024x4x512_S4096x512 i _ (by
    rewrite [Shape.rowMajor_val_three, Shape.rowMajor_val_two]
    show ((i 0).val / 4 * 4 + (i 0).val % 4) * 512 + (i 1).val = (i 0).val * 512 + (i 1).val
    omega)

/-- The labels repeated over the four parts and flattened read the label of sample r / 4. -/
theorem flatLabels (x1 : S1024.Idx → BitVec 32) :
    shapeCast S4096 (broadcastInDim S1024x4 ![0] bcast_S1024_S1024x4_0 x1) shapeCasts_S1024x4_S4096
      = Cert.Spec.labels x1 := by
  funext i
  have h0 : (i 0).val < 4096 := (i 0).isLt
  unfold Cert.Spec.labels
  refine (shapeCast_apply _ shapeCasts_S1024x4_S4096 i
    (ix2 (⟨(i 0).val / 4, by omega⟩ : Fin 1024) (⟨(i 0).val % 4, by omega⟩ : Fin 4)) (by
      rewrite [Shape.rowMajor_val_two, Shape.rowMajor_val_one]
      show (i 0).val / 4 * 4 + (i 0).val % 4 = (i 0).val
      omega)).trans ?_
  exact broadcastInDim_apply _ bcast_S1024_S1024x4_0 x1 _ _ (fun a => match a with
    | ⟨0, _⟩ => by show (i 0).val / 4 = if (1024 : Nat) = 1 then 0 else (i 0).val / 4; rw [if_neg (by decide)])

/-- The part numbers laid under every sample and flattened read r % 4. -/
theorem flatParts :
    shapeCast S4096 (broadcastInDim S1024x4 ![0, 1] bcast_S1x4_S1024x4_0_1
        (shapeCast S1x4 (iotaInDim S4 32 0) shapeCasts_S4_S1x4)) shapeCasts_S1024x4_S4096
      = Cert.Spec.parts := by
  funext i
  have h0 : (i 0).val < 4096 := (i 0).isLt
  unfold Cert.Spec.parts
  refine (shapeCast_apply _ shapeCasts_S1024x4_S4096 i
    (ix2 (⟨(i 0).val / 4, by omega⟩ : Fin 1024) (⟨(i 0).val % 4, by omega⟩ : Fin 4)) (by
      rewrite [Shape.rowMajor_val_two, Shape.rowMajor_val_one]
      show (i 0).val / 4 * 4 + (i 0).val % 4 = (i 0).val
      omega)).trans ?_
  refine (broadcastInDim_apply _ bcast_S1x4_S1024x4_0_1 _ _
    (ix2 (0 : Fin 1) (⟨(i 0).val % 4, by omega⟩ : Fin 4)) (fun a => match a with
      | ⟨0, _⟩ => by show 0 = if (1 : Nat) = 1 then 0 else (i 0).val / 4; rw [if_pos rfl]
      | ⟨1, _⟩ => by show (i 0).val % 4 = if (4 : Nat) = 1 then 0 else (i 0).val % 4; rw [if_neg (by decide)])).trans ?_
  refine (shapeCast_apply _ shapeCasts_S4_S1x4 _ (ix1 (⟨(i 0).val % 4, by omega⟩ : Fin 4)) (by
    rewrite [Shape.rowMajor_val_one, Shape.rowMajor_val_two]
    show (i 0).val % 4 = 0 * 4 + (i 0).val % 4
    omega)).trans ?_
  rfl

/-- A flat array of 4096 words viewed as a 1 x 4096 row reads, at (0, j), the array at j. -/
theorem rowView_apply (y : S4096.Idx → BitVec 32) (u : Fin 1) (j : Fin 4096) :
    shapeCast S1x4096 y shapeCasts_S4096_S1x4096 (ix2 u j) = y (ix1 j) :=
  shapeCast_a_1a_apply y shapeCasts_S4096_S1x4096 u j

/-- A flat array of 4096 words viewed as a 4096 x 1 column reads, at (r, 0), the array at r. -/
theorem colView_apply (y : S4096.Idx → BitVec 32) (r : Fin 4096) (u : Fin 1) :
    shapeCast S4096x1 y shapeCasts_S4096_S4096x1 (ix2 r u) = y (ix1 r) :=
  shapeCast_a_a1_apply y shapeCasts_S4096_S4096x1 r u

variable (m : (ℓ : Loc nD τ sig) → Buf (Elt Ideal) ℓ) (c : Dev nD)

/-- The matrix the kernels read is the re-laid input. -/
theorem V1_v1 :
    (V1 (F := Ideal) m c main_v1 : S4096x512.Idx → EReal) = Cert.Spec.relaid (V0 (F := Ideal) m c main_arg0) := by
  have e : (V1 (F := Ideal) m c main_v1 : S4096x512.Idx → EReal)
      = truncf (F := Ideal) .bf16 (shapeCast S4096x512 (V0 (F := Ideal) m c main_arg0) shapeCasts_S1024x4x512_S4096x512)
          bitsLt_bf16_f32 := by
    dsimp only [V1, hostOps0]; after_results; rfl
  rw [e, flatX]
  rfl

/-- The class labels as a column. -/
theorem V1_v8 (r : Fin 4096) (u : Fin 1) :
    (V1 (F := Ideal) m c main_v8 : S4096x1.Idx → BitVec 32) (ix2 r u)
      = Cert.Spec.labels (V0 (F := Ideal) m c main_arg1) (ix1 r) := by
  have e : (V1 (F := Ideal) m c main_v8 : S4096x1.Idx → BitVec 32)
      = shapeCast S4096x1 (shapeCast S4096 (broadcastInDim S1024x4 ![0] bcast_S1024_S1024x4_0
          (V0 (F := Ideal) m c main_arg1)) shapeCasts_S1024x4_S4096) shapeCasts_S4096_S4096x1 := by
    dsimp only [V1, hostOps0]; after_results; rfl
  rw [e, flatLabels, colView_apply]

/-- The class labels as a row. -/
theorem V1_v9 (u : Fin 1) (j : Fin 4096) :
    (V1 (F := Ideal) m c main_v9 : S1x4096.Idx → BitVec 32) (ix2 u j)
      = Cert.Spec.labels (V0 (F := Ideal) m c main_arg1) (ix1 j) := by
  have e : (V1 (F := Ideal) m c main_v9 : S1x4096.Idx → BitVec 32)
      = shapeCast S1x4096 (shapeCast S4096 (broadcastInDim S1024x4 ![0] bcast_S1024_S1024x4_0
          (V0 (F := Ideal) m c main_arg1)) shapeCasts_S1024x4_S4096) shapeCasts_S4096_S1x4096 := by
    dsimp only [V1, hostOps0]; after_results; rfl
  rw [e, flatLabels, rowView_apply]

/-- The part labels as a column. -/
theorem V1_v10 (r : Fin 4096) (u : Fin 1) :
    (V1 (F := Ideal) m c main_v10 : S4096x1.Idx → BitVec 32) (ix2 r u) = Cert.Spec.parts (ix1 r) := by
  have e : (V1 (F := Ideal) m c main_v10 : S4096x1.Idx → BitVec 32)
      = shapeCast S4096x1 (shapeCast S4096 (broadcastInDim S1024x4 ![0, 1] bcast_S1x4_S1024x4_0_1
          (shapeCast S1x4 (iotaInDim S4 32 0) shapeCasts_S4_S1x4)) shapeCasts_S1024x4_S4096) shapeCasts_S4096_S4096x1 := by
    dsimp only [V1, hostOps0]; after_results; rfl
  rw [e, flatParts, colView_apply]

/-- The part labels as a row. -/
theorem V1_v11 (u : Fin 1) (j : Fin 4096) :
    (V1 (F := Ideal) m c main_v11 : S1x4096.Idx → BitVec 32) (ix2 u j) = Cert.Spec.parts (ix1 j) := by
  have e : (V1 (F := Ideal) m c main_v11 : S1x4096.Idx → BitVec 32)
      = shapeCast S1x4096 (shapeCast S4096 (broadcastInDim S1024x4 ![0, 1] bcast_S1x4_S1024x4_0_1
          (shapeCast S1x4 (iotaInDim S4 32 0) shapeCasts_S4_S1x4)) shapeCasts_S1024x4_S4096) shapeCasts_S4096_S1x4096 := by
    dsimp only [V1, hostOps0]; after_results; rfl
  rw [e, flatParts, rowView_apply]

end Cert.KernelIdeal.KValue

end
-- ==== Proof.SpecTail.lean ====
/-
  The loss from per-row shares held in a column.

  If a 4096 x 1 column A holds each row's share of sadc and a column B each row's share of dasc, then adding up each
  column from 0, adding the first total to itself and the second to that, and dividing by 4096 gives the result: a sum
  over the 4096 x 1 indices is the sum over the rows (the second coordinate has one value), and 0 + x = x.
-/
import proofs.«134967_j48713519072039_1_alg».proof.Proof.Spec

noncomputable section

open scoped BigOperators

namespace Cert.Spec

open Idealize.ShloMosaic Idealize.ShloMosaic.ValueIdx

/-- A sum over the indices of a 4096 x 1 column is the sum over its rows. -/
theorem sum_column {M : Type*} [AddCommMonoid M] (A : (⟨2, ![4096, 1]⟩ : Shape).Idx → M) :
    ∑ i, A i = ∑ r : Fin 4096, A (ix2 r (0 : Fin 1)) := by
  rw [sum_idx2]
  exact Finset.sum_congr rfl fun r _ => Fin.sum_univ_one _

/-- The result from the two columns of per-row shares. -/
theorem result_of_columns (X : (⟨2, ![4096, 512]⟩ : Shape).Idx → EReal) (tt pp : (⟨1, ![4096]⟩ : Shape).Idx → BitVec 32)
    (A B : (⟨2, ![4096, 1]⟩ : Shape).Idx → EReal)
    (hA : ∀ r : Fin 4096, A (ix2 r (0 : Fin 1)) = sadcRow X tt pp r)
    (hB : ∀ r : Fin 4096, B (ix2 r (0 : Fin 1)) = dascRow X tt pp r) :
    Ideal.div ((0 + ∑ i, A i) + (0 + ∑ i, A i) + (0 + ∑ i, B i)) (Ideal.ofBits .f32 0x45800000#32) = result X tt pp := by
  rw [zero_add, zero_add, sum_column A, sum_column B]
  unfold result sadc dasc
  rw [Finset.sum_congr rfl fun r _ => hA r, Finset.sum_congr rfl fun r _ => hB r]

end Cert.Spec

end
-- ==== Proof.KernelTail.lean ====
/-
  The host operations after the kernels.

  The second kernel leaves two 4096 x 1 columns A and B. The program adds up each column from the zero word, adds the
  first total to itself, adds the second total, and divides by the word of 4096. On the extended reals the zero word is
  0, so this is (0 + Σ A) + (0 + Σ A) + (0 + Σ B) over 4096; with A and B holding each row's shares of the two losses it is
  the specification's result.
-/
import proofs.«134967_j48713519072039_1_alg».proof.Proof.Gen.KernelIdeal.Launch
import proofs.«134967_j48713519072039_1_alg».proof.Proof.SpecTail
import Idealize.ShloMosaic.Lib.StableHlo.Run
import Idealize.ShloMosaic.Lib.ValueIdx
import Idealize.ShloMosaic.PureOps.Ideal.Laws

noncomputable section

open scoped BigOperators

namespace Cert.KernelIdeal.KValue

open Idealize.ShloMosaic Idealize.ShloMosaic.TcCoe Idealize.SL.Sem Idealize.ShloMosaic.ValueIdx Idealize.ShloMosaic.StableHlo
open Cert.KernelIdeal Cert.KernelIdeal.Gen

/-- A column added up from the zero word: 0 plus the sum of its entries. -/
theorem columnTotal_apply (A : S4096x1.Idx → EReal) (i : S_.Idx) :
    Host.reduceAdd (F := Ideal) A (constant (F := Ideal) S_ .f32 0x00000000#32) reducesTo_S4096x1_S_d0_1 h_S_ i
      = 0 + ∑ j, A j := by
  simp only [Host.reduceAdd, Ideal.hostReduceAdd_def]
  refine (Ideal.hostReduceAdd_total reducesTo_S4096x1_S_d0_1 (fun b => b.elim0) A _ i).trans ?_
  exact congrArg (· + ∑ j, A j) Ideal.ofBits_zero_f32

/-- The result buffer after the host tail, from contents W of the buffers before it whose two columns are A and B. -/
theorem tail_apply (W : Valuation τ sig (Elt Ideal)) (A B : S4096x1.Idx → EReal)
    (hA : (W main_v13_0 : S4096x1.Idx → EReal) = A) (hB : (W main_v13_1 : S4096x1.Idx → EReal) = B) :
    (StableHlo.after (hostOps2 (F := Ideal)) W main_v18 : S_.Idx → EReal)
      = fun _ => Ideal.div ((0 + ∑ j, A j) + (0 + ∑ j, A j) + (0 + ∑ j, B j)) (Ideal.ofBits .f32 0x45800000#32) := by
  have e : (StableHlo.after (hostOps2 (F := Ideal)) W main_v18 : S_.Idx → EReal)
      = Host.divf (F := Ideal)
          (addf (F := Ideal)
            (addf (F := Ideal)
              (Host.reduceAdd (F := Ideal) (W main_v13_0 : S4096x1.Idx → EReal) (constant (F := Ideal) S_ .f32 0x00000000#32)
                reducesTo_S4096x1_S_d0_1 h_S_)
              (Host.reduceAdd (F := Ideal) (W main_v13_0 : S4096x1.Idx → EReal) (constant (F := Ideal) S_ .f32 0x00000000#32)
                reducesTo_S4096x1_S_d0_1 h_S_))
            (Host.reduceAdd (F := Ideal) (W main_v13_1 : S4096x1.Idx → EReal) (constant (F := Ideal) S_ .f32 0x00000000#32)
              reducesTo_S4096x1_S_d0_1 h_S_))
          (constant (F := Ideal) S_ .f32 0x45800000#32) := by
    dsimp only [hostOps2]; after_results <;> rfl
  rw [e, hA, hB]
  funext i
  show Ideal.div
      (Host.reduceAdd (F := Ideal) A (constant (F := Ideal) S_ .f32 0x00000000#32) reducesTo_S4096x1_S_d0_1 h_S_ i
        + Host.reduceAdd (F := Ideal) A (constant (F := Ideal) S_ .f32 0x00000000#32) reducesTo_S4096x1_S_d0_1 h_S_ i
        + Host.reduceAdd (F := Ideal) B (constant (F := Ideal) S_ .f32 0x00000000#32) reducesTo_S4096x1_S_d0_1 h_S_ i)
      (Ideal.ofBits .f32 0x45800000#32) = _
  rw [columnTotal_apply, columnTotal_apply]

/-- With the two columns holding each row's shares of the two losses, the result buffer holds the specification's result. -/
theorem tail_result (W : Valuation τ sig (Elt Ideal)) (A B : S4096x1.Idx → EReal)
    (hWA : (W main_v13_0 : S4096x1.Idx → EReal) = A) (hWB : (W main_v13_1 : S4096x1.Idx → EReal) = B)
    (X : (⟨2, ![4096, 512]⟩ : Shape).Idx → EReal) (tt pp : (⟨1, ![4096]⟩ : Shape).Idx → BitVec 32)
    (hA : ∀ r : Fin 4096, A (ix2 r (0 : Fin 1)) = Cert.Spec.sadcRow X tt pp r)
    (hB : ∀ r : Fin 4096, B (ix2 r (0 : Fin 1)) = Cert.Spec.dascRow X tt pp r) :
    (StableHlo.after (hostOps2 (F := Ideal)) W main_v18 : S_.Idx → EReal) = fun _ => Cert.Spec.result X tt pp := by
  rw [tail_apply W A B hWA hWB]
  funext _
  exact Cert.Spec.result_of_columns X tt pp A B hA hB

end Cert.KernelIdeal.KValue

end
-- ==== Proof.RowSums.ValuePieces.lean ====
/-
  What each case of the first kernel leaves, as a value.

  Each case's recorded stores are one store covering the 512 x 1 buffer (after, at a first column tile, the store of the
  zero column, which the covering store overwrites), so the buffer reads back that store's value: the tile's lane sums
  added to the column found — the zero column at a first tile, what the point before left otherwise. At the last tile
  the output block receives what the scratch column then holds.
-/
import proofs.«134967_j48713519072039_1_alg».proof.Proof.RowSums.Contents
import Idealize.ShloMosaic.Lib.Pipeline.Value
import Idealize.ShloMosaic.Lib.Tactic

set_option maxRecDepth 16384

noncomputable section

namespace Cert.KernelIdeal.RowSums

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- A first column tile leaves the lane sums added to the zero column. -/
theorem accFirst_eq (c : Dev nD) (i : grid0.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (hf : isFirst i) (hl : ¬isLast i) (x0 x1 : Vec F S512x512 .bf16) (t0 : Vec F S512x1 .i32) (t1 : Vec F S1x512 .i32) (p0 : Vec F S512x1 .i32) (p1 : Vec F S1x512 .i32) :
    accFirst c i a2 h2 a3 h3 a4 h4 a5 h5 a6 h6 a7 h7 a8 h8 a9 h9 hf hl x0 x1 t0 t1 p0 p1 = k0_pay1 (k0_pay3 x0 x1 t0 t1 p0 p1 (k0_pay2 (F := F))) := by
  unfold accFirst
  rw [View.read_writes_eq_canon _ _ _ (coverFirst c i a2 h2 a3 h3 a4 h4 a5 h5 a6 h6 a7 h7 a8 h8 a9 h9 hf hl x0 x1 t0 t1 p0 p1)]
  unfold runFirst
  dsimp only
  sl_unfold_words
  rw [View.canon_cons_unit_zero (S := S512x1) hz, View.readCov_unit_zero (S := S512x1) _ hz]
  simp only [View.readAt_eq_ld, h2.read_unread, h3.read_unread, h4.read_unread, h5.read_unread, h6.read_unread, h7.read_unread,
    View.ld_unit_zero (S := S512x512) hz, View.ld_unit_zero (S := S512x1) hz, View.ld_unit_zero (S := S1x512) hz]

/-- A middle column tile leaves the lane sums added to the column it found. -/
theorem accMiddle_eq (c : Dev nD) (i : grid0.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (hf : ¬isFirst i) (hl : ¬isLast i) (x0 x1 : Vec F S512x512 .bf16) (t0 : Vec F S512x1 .i32) (t1 : Vec F S1x512 .i32) (p0 : Vec F S512x1 .i32) (p1 : Vec F S1x512 .i32) (s : Vec F S512x1 .f32) :
    accMiddle c i a2 h2 a3 h3 a4 h4 a5 h5 a6 h6 a7 h7 a8 h8 a9 h9 hf hl x0 x1 t0 t1 p0 p1 s = k0_pay1 (k0_pay3 x0 x1 t0 t1 p0 p1 s) := by
  unfold accMiddle
  rw [View.read_writes_eq_canon _ _ _ (coverMiddle c i a2 h2 a3 h3 a4 h4 a5 h5 a6 h6 a7 h7 a8 h8 a9 h9 hf hl x0 x1 t0 t1 p0 p1 s)]
  unfold runMiddle
  dsimp only
  sl_unfold_words
  rw [View.canon_unit_zero hz]
  simp only [View.readAt_eq_ld, h2.read_unread, h3.read_unread, h4.read_unread, h5.read_unread, h6.read_unread, h7.read_unread,
    h9.read_unread, View.ld_unit_zero (S := S512x512) hz, View.ld_unit_zero (S := S512x1) hz, View.ld_unit_zero (S := S1x512) hz]

/-- The last column tile leaves, in the scratch column, the lane sums added to the column it found. -/
theorem accLast_eq (c : Dev nD) (i : grid0.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (hf : ¬isFirst i) (hl : isLast i) (x0 x1 : Vec F S512x512 .bf16) (t0 : Vec F S512x1 .i32) (t1 : Vec F S1x512 .i32) (p0 : Vec F S512x1 .i32) (p1 : Vec F S1x512 .i32) (s : Vec F S512x1 .f32) :
    accLast c i a2 h2 a3 h3 a4 h4 a5 h5 a6 h6 a7 h7 a8 h8 a9 h9 hf hl x0 x1 t0 t1 p0 p1 s = k0_pay1 (k0_pay3 x0 x1 t0 t1 p0 p1 s) := by
  unfold accLast
  rw [View.read_writes_eq_canon _ _ _ (coverLastAcc c i a2 h2 a3 h3 a4 h4 a5 h5 a6 h6 a7 h7 a8 h8 a9 h9 hf hl x0 x1 t0 t1 p0 p1 s)]
  unfold runLast
  dsimp only
  sl_unfold_words
  rw [View.canon_unit_zero hz]
  simp only [View.readAt_eq_ld, h2.read_unread, h3.read_unread, h4.read_unread, h5.read_unread, h6.read_unread, h7.read_unread,
    h9.read_unread, View.ld_unit_zero (S := S512x512) hz, View.ld_unit_zero (S := S512x1) hz, View.ld_unit_zero (S := S1x512) hz]

/-- The last column tile copies that column to the output block. -/
theorem outLast_eq (c : Dev nD) (i : grid0.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (hf : ¬isFirst i) (hl : isLast i) (x0 x1 : Vec F S512x512 .bf16) (t0 : Vec F S512x1 .i32) (t1 : Vec F S1x512 .i32) (p0 : Vec F S512x1 .i32) (p1 : Vec F S1x512 .i32) (s : Vec F S512x1 .f32) :
    outLast c i a2 h2 a3 h3 a4 h4 a5 h5 a6 h6 a7 h7 a8 h8 a9 h9 hf hl x0 x1 t0 t1 p0 p1 s = k0_pay1 (k0_pay3 x0 x1 t0 t1 p0 p1 s) := by
  unfold outLast
  rw [View.read_writes_eq_canon _ _ _ (coverLastOut c i a2 h2 a3 h3 a4 h4 a5 h5 a6 h6 a7 h7 a8 h8 a9 h9 hf hl x0 x1 t0 t1 p0 p1 s)]
  unfold runLast
  dsimp only
  sl_unfold_words
  rw [View.canon_unit_zero hz, View.readCov_unit_zero (S := S512x1) _ hz]
  simp only [View.readAt_eq_ld, h2.read_unread, h3.read_unread, h4.read_unread, h5.read_unread, h6.read_unread, h7.read_unread,
    h9.read_unread, View.ld_unit_zero (S := S512x512) hz, View.ld_unit_zero (S := S512x1) hz, View.ld_unit_zero (S := S1x512) hz]

end Cert.KernelIdeal.RowSums

end
-- ==== Proof.RowSums.ValueBlocks.lean ====
/-
  The blocks the first kernel reads at a grid point.

  Grid point t = 8·i + k holds row tile i = t / 8 and column tile k = t % 8. Its first window is rows 512·i .. 512·i + 511 of
  the matrix X, its second rows 512·k .. 512·k + 511 of X; the class and part columns are cut at the row tile, the class and
  part rows at the column tile. The windows' block indices are decided once over the 64 grid points; a block's coordinate
  in its array is the block index times the block's extent plus the coordinate inside the block.
-/
import proofs.«134967_j48713519072039_1_alg».proof.Proof.RowSums.Contents
import Idealize.ShloMosaic.Lib.ValueIdx
import Idealize.ShloMosaic.Lib.Pipeline.Value
import Idealize.ShloMosaic.Lib.Tactic

set_option maxRecDepth 16384

noncomputable section

namespace Cert.KernelIdeal.RowSums

open Cert.KernelIdeal Cert.KernelIdeal.Gen
open Idealize.ShloMosaic Idealize.ShloMosaic.TcCoe Idealize.ShloMosaic.Tactic Idealize.SL.Sem

variable {F : FTy → Type} [FloatOps F]

open Idealize.ShloMosaic.ValueIdx

/-- The windows' block indices at grid point t: row tile t / 8, column tile t % 8. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0
    ∧ win0_5.index t (0 : Fin 2) = 0 ∧ win0_5.index t (1 : Fin 2) = t.val % 8
    ∧ win0_6.index t (0 : Fin 2) = t.val / 8 ∧ win0_6.index t (1 : Fin 2) = 0 :=
  (by decide +kernel : ∀ t : Fin grid0.N, _)

section Blocks

variable (V : (c : Dev nD) → (b : Ref sig .tc) → Buf (Elt F) ((c : Thread nD τ).loc b)) (c : Dev nD) (t : Fin cfg0.N)

theorem tile_lt (p : Fin 512) : 512 * (t.val / 8) + p.val < 4096 := by
  have := t.isLt; have h : cfg0.N = 64 := N_0; have := p.isLt; omega
theorem tile_lt' (p : Fin 512) : 512 * (t.val % 8) + p.val < 4096 := by
  have := p.isLt; omega

/-- The row tile of X. -/
theorem blk0_apply (p d : Fin 512) :
    blk V c 0 t (ix2 p d) = (V c main_v1 : S4096x512.Idx → Elt F .bf16) (ix2 ⟨512 * (t.val / 8) + p.val, tile_lt t p⟩ d) := by
  obtain ⟨e0, e1, -⟩ := idx_facts t
  show (V c main_v1 : S4096x512.Idx → Elt F .bf16) (((cfg0.win 0).blk t).view.emb (ix2 p d)) = _
  refine congrArg _ (funext fun a => Fin.ext ?_)
  match a with
  | ⟨0, _⟩ => show win0_0.index t (0 : Fin 2) * 512 + 1 * p.val = 512 * (t.val / 8) + p.val; omega
  | ⟨1, _⟩ => show win0_0.index t (1 : Fin 2) * 512 + 1 * d.val = d.val; omega

/-- The column tile of X. -/
theorem blk1_apply (q d : Fin 512) :
    blk V c 1 t (ix2 q d) = (V c main_v1 : S4096x512.Idx → Elt F .bf16) (ix2 ⟨512 * (t.val % 8) + q.val, tile_lt' t q⟩ d) := by
  obtain ⟨-, -, e0, e1, -⟩ := idx_facts t
  show (V c main_v1 : S4096x512.Idx → Elt F .bf16) (((cfg0.win 1).blk t).view.emb (ix2 q d)) = _
  refine congrArg _ (funext fun a => Fin.ext ?_)
  match a with
  | ⟨0, _⟩ => show win0_1.index t (0 : Fin 2) * 512 + 1 * q.val = 512 * (t.val % 8) + q.val; omega
  | ⟨1, _⟩ => show win0_1.index t (1 : Fin 2) * 512 + 1 * d.val = d.val; omega

/-- The class column of the row tile. -/
theorem blk2_apply (p : Fin 512) (u : Fin 1) :
    blk V c 2 t (ix2 p u) = (V c main_v8 : S4096x1.Idx → Elt F .i32) (ix2 ⟨512 * (t.val / 8) + p.val, tile_lt t p⟩ u) := by
  obtain ⟨-, -, -, -, e0, e1, -⟩ := idx_facts t
  show (V c main_v8 : S4096x1.Idx → Elt F .i32) (((cfg0.win 2).blk t).view.emb (ix2 p u)) = _
  refine congrArg _ (funext fun a => Fin.ext ?_)
  match a with
  | ⟨0, _⟩ => show win0_2.index t (0 : Fin 2) * 512 + 1 * p.val = 512 * (t.val / 8) + p.val; omega
  | ⟨1, _⟩ => show win0_2.index t (1 : Fin 2) * 1 + 1 * u.val = u.val; omega

/-- The class row of the column tile. -/
theorem blk3_apply (u : Fin 1) (q : Fin 512) :
    blk V c 3 t (ix2 u q) = (V c main_v9 : S1x4096.Idx → Elt F .i32) (ix2 u ⟨512 * (t.val % 8) + q.val, tile_lt' t q⟩) := by
  obtain ⟨-, -, -, -, -, -, e0, e1, -⟩ := idx_facts t
  show (V c main_v9 : S1x4096.Idx → Elt F .i32) (((cfg0.win 3).blk t).view.emb (ix2 u q)) = _
  refine congrArg _ (funext fun a => Fin.ext ?_)
  match a with
  | ⟨0, _⟩ => show win0_3.index t (0 : Fin 2) * 1 + 1 * u.val = u.val; omega
  | ⟨1, _⟩ => show win0_3.index t (1 : Fin 2) * 512 + 1 * q.val = 512 * (t.val % 8) + q.val; omega

/-- The part column of the row tile. -/
theorem blk4_apply (p : Fin 512) (u : Fin 1) :
    blk V c 4 t (ix2 p u) = (V c main_v10 : S4096x1.Idx → Elt F .i32) (ix2 ⟨512 * (t.val / 8) + p.val, tile_lt t p⟩ u) := by
  obtain ⟨-, -, -, -, -, -, -, -, e0, e1, -⟩ := idx_facts t
  show (V c main_v10 : S4096x1.Idx → Elt F .i32) (((cfg0.win 4).blk t).view.emb (ix2 p u)) = _
  refine congrArg _ (funext fun a => Fin.ext ?_)
  match a with
  | ⟨0, _⟩ => show win0_4.index t (0 : Fin 2) * 512 + 1 * p.val = 512 * (t.val / 8) + p.val; omega
  | ⟨1, _⟩ => show win0_4.index t (1 : Fin 2) * 1 + 1 * u.val = u.val; omega

/-- The part row of the column tile. -/
theorem blk5_apply (u : Fin 1) (q : Fin 512) :
    blk V c 5 t (ix2 u q) = (V c main_v11 : S1x4096.Idx → Elt F .i32) (ix2 u ⟨512 * (t.val % 8) + q.val, tile_lt' t q⟩) := by
  obtain ⟨-, -, -, -, -, -, -, -, -, -, e0, e1, -⟩ := idx_facts t
  show (V c main_v11 : S1x4096.Idx → Elt F .i32) (((cfg0.win 5).blk t).view.emb (ix2 u q)) = _
  refine congrArg _ (funext fun a => Fin.ext ?_)
  match a with
  | ⟨0, _⟩ => show win0_5.index t (0 : Fin 2) * 1 + 1 * u.val = u.val; omega
  | ⟨1, _⟩ => show win0_5.index t (1 : Fin 2) * 512 + 1 * q.val = 512 * (t.val % 8) + q.val; omega

end Blocks

end Cert.KernelIdeal.RowSums

end
-- ==== Proof.LibBlockSum.lean ====
/-
  A finite sum evaluated in blocks of consecutive indices.

  In a commutative monoid, for a block width B and a number of blocks n:
    * the sum over the first B * n natural numbers is the sum over t < n of the sums over the B numbers from B * t on;
    * so a sum over an index type with B * n elements is the sum of its n blocks' sums;
    * and a sum over B indices whose r-th entry is entry B * t + r of a family is that family's block t.
  The blocks' sums added one after the other (the blocks 0 .. n, then block n + 1) are the library's sum over a range
  with one more element. Only associativity and commutativity of addition are used, so all of this holds on the
  extended reals with no finiteness condition: it is the law that joins an accumulation over K-blocks (a matrix
  product cut along its contracted axis and accumulated block by block) to the whole sum.
-/
import Mathlib.Algebra.BigOperators.Fin
import Mathlib.Algebra.BigOperators.Intervals

namespace Cert.LibBlockSum

variable {M : Type*} [AddCommMonoid M]

/-- The sum over the first B * n natural numbers is the sum, block by block, of n blocks of B consecutive numbers. -/
theorem sum_range_blocks (g : ℕ → M) (B : ℕ) :
    ∀ n, ∑ k ∈ Finset.range (B * n), g k = ∑ t ∈ Finset.range n, ∑ r ∈ Finset.range B, g (B * t + r)
  | 0 => by simp
  | n + 1 => by
    rw [Nat.mul_succ, Finset.sum_range_add, sum_range_blocks g B n, Finset.sum_range_succ]

/-- A family indexed by N indices, continued by zero to every natural number. -/
def total {N : ℕ} (f : Fin N → M) (k : ℕ) : M := if h : k < N then f ⟨k, h⟩ else 0

theorem total_val {N : ℕ} (f : Fin N → M) (k : Fin N) : total f k.val = f k := dif_pos k.isLt

theorem total_of_lt {N : ℕ} (f : Fin N → M) (k : ℕ) (h : k < N) : total f k = f ⟨k, h⟩ := dif_pos h

/-- The sum of block t of width B: the B indices from B * t on. -/
def block {N : ℕ} (B : ℕ) (f : Fin N → M) (t : ℕ) : M := ∑ r : Fin B, total f (B * t + r.val)

/-- A sum over B * n indices is the sum of its n blocks of width B. -/
theorem sum_eq_blocks {N : ℕ} (B n : ℕ) (hN : N = B * n) (f : Fin N → M) :
    ∑ k, f k = ∑ t ∈ Finset.range n, block B f t := by
  subst hN
  have e : ∑ k, f k = ∑ k : Fin (B * n), total f k.val := Finset.sum_congr rfl fun k _ => (total_val f k).symm
  rw [e, Fin.sum_univ_eq_sum_range (total f) (B * n), sum_range_blocks (total f) B n]
  refine Finset.sum_congr rfl fun t _ => ?_
  exact (Fin.sum_univ_eq_sum_range (fun r => total f (B * t + r)) B).symm

/-- A sum over B indices whose r-th entry is entry B * t + r of the family is block t's sum. -/
theorem block_eq {N : ℕ} (B : ℕ) (f : Fin N → M) (t : ℕ) (g : Fin B → M) (hlt : ∀ r : Fin B, B * t + r.val < N)
    (hg : ∀ r : Fin B, g r = f ⟨B * t + r.val, hlt r⟩) : ∑ r, g r = block B f t :=
  Finset.sum_congr rfl fun r _ => (hg r).trans (total_of_lt f _ (hlt r)).symm

/-- The blocks 0 .. n + 1 added up are the blocks 0 .. n added up, plus block n + 1. -/
theorem blocks_succ {N : ℕ} (B : ℕ) (f : Fin N → M) (n : ℕ) :
    ∑ t ∈ Finset.range (n + 1 + 1), block B f t = ∑ t ∈ Finset.range (n + 1), block B f t + block B f (n + 1) :=
  Finset.sum_range_succ _ (n + 1)

end Cert.LibBlockSum
-- ==== Proof.TileSums.lean ====
/-
  A sum over 4096 indices taken tile by tile: 8 tiles of 512 consecutive indices.

  In a commutative monoid the sum of a family g over the 4096 indices is
    * the sum over the 8 tiles k of the tile sums  Σ_{c<512} g (512·k + c);
    * and the value reached by starting from 0 and, tile after tile, replacing the running value acc by
      acc + (0 + the tile's sum)  — the way an accumulator that is cleared before the first tile collects lane sums that
      themselves start from 0.
  Only associativity and commutativity of addition and 0 + x = x are used, so on the extended reals no finiteness is needed.
-/
import proofs.«134967_j48713519072039_1_alg».proof.Proof.LibBlockSum

open scoped BigOperators

namespace Cert.TileSums

open Cert.LibBlockSum

variable {M : Type*} [AddCommMonoid M]

/-- The sum of tile k: the 512 entries from 512·k on. -/
def tileSum (g : Fin 4096 → M) (k : Fin 8) : M :=
  ∑ c : Fin 512, g ⟨512 * k.val + c.val, by have := k.isLt; have := c.isLt; omega⟩

/-- A tile's sum is the block sum of the general law. -/
theorem block_tile (g : Fin 4096 → M) (k : Fin 8) : block 512 g k.val = tileSum g k :=
  (block_eq 512 g k.val _ (fun c => by have := k.isLt; have := c.isLt; omega) (fun _ => rfl)).symm

/-- Any sum over 512 indices whose c-th entry is entry 512·k + c of g is tile k's sum. -/
theorem tileSum_eq (g : Fin 4096 → M) (k : Fin 8) (h : Fin 512 → M)
    (hh : ∀ c : Fin 512, h c = g ⟨512 * k.val + c.val, by have := k.isLt; have := c.isLt; omega⟩) :
    ∑ c, h c = tileSum g k :=
  Finset.sum_congr rfl fun c _ => hh c

/-- The whole sum is the sum of the 8 tile sums. -/
theorem sum_tiles (g : Fin 4096 → M) : ∑ j, g j = ∑ k : Fin 8, tileSum g k := by
  rw [sum_eq_blocks 512 8 rfl g, ← Fin.sum_univ_eq_sum_range (fun t => block 512 g t) 8]
  exact Finset.sum_congr rfl fun k _ => block_tile g k

/-- The same with the tile sums written out. -/
theorem sum_tiles' (g : Fin 4096 → M) :
    ∑ j, g j = ∑ k : Fin 8, ∑ c : Fin 512, g ⟨512 * k.val + c.val, by have := k.isLt; have := c.isLt; omega⟩ :=
  sum_tiles g

/-- The running value after n tiles: from 0, each tile replaces acc by acc + (0 + the tile's sum). -/
def accTiles (g : Fin 4096 → M) : ℕ → M
  | 0 => 0
  | n + 1 => accTiles g n + (0 + block 512 g n)

theorem accTiles_zero (g : Fin 4096 → M) : accTiles g 0 = 0 := rfl

theorem accTiles_succ (g : Fin 4096 → M) (n : ℕ) : accTiles g (n + 1) = accTiles g n + (0 + block 512 g n) := rfl

/-- One step at a tile k < 8, with the tile's sum written as tileSum. -/
theorem accTiles_step (g : Fin 4096 → M) (k : Fin 8) :
    accTiles g (k.val + 1) = accTiles g k.val + (0 + tileSum g k) := by
  rw [accTiles_succ, block_tile]

/-- After n tiles the running value is the sum of the first n tile sums. -/
theorem accTiles_eq (g : Fin 4096 → M) : ∀ n, accTiles g n = ∑ t ∈ Finset.range n, block 512 g t
  | 0 => by rw [accTiles_zero, Finset.sum_range_zero]
  | n + 1 => by rw [accTiles_succ, accTiles_eq g n, zero_add, Finset.sum_range_succ]

/-- After all 8 tiles it is the whole sum. -/
theorem accTiles_eight (g : Fin 4096 → M) : accTiles g 8 = ∑ j, g j := by
  rw [accTiles_eq, sum_eq_blocks 512 8 rfl g]

/-- The eight steps written out: the left fold over the tiles 0..7 from 0. -/
theorem sum_eq_fold (g : Fin 4096 → M) :
    ∑ j, g j = 0 + (0 + tileSum g 0) + (0 + tileSum g 1) + (0 + tileSum g 2) + (0 + tileSum g 3)
      + (0 + tileSum g 4) + (0 + tileSum g 5) + (0 + tileSum g 6) + (0 + tileSum g 7) := by
  rw [← accTiles_eight g]
  simp only [accTiles, block_tile g 0, block_tile g 1, block_tile g 2, block_tile g 3,
    block_tile g 4, block_tile g 5, block_tile g 6, block_tile g 7]
  rfl

end Cert.TileSums
-- ==== Proof.KernelPayloads.lean ====
/-
  The kernels' payloads read at an index, on the extended reals.

  Both kernels hold a 512 x 512 tile of the matrix of row pairs: x0 are the 512 feature rows of the row block, x1 the 512
  feature rows of the column block, t0 / p0 the class and part words of the row block as a column, t1 / p1 those of the
  column block as a row. Entry (p, c) of a tile pairs row p of the row block with row c of the column block:
    * the similarity is the matrix product of x0 with the transpose of x1: Σ_d x0(p,d) · x1(c,d);
    * a comparison tile compares the word of row p with the word of row c; the complement is an exclusive or with 1;
    * the first kernel adds to a column s, at row p, the sum over the lanes c of exp (similarity) where class and part
      both differ, 0 elsewhere;
    * the second kernel's entry is log1p (sr(p) · exp (0 − similarity)) for a column sr, and it adds to two columns, at
      row p, the sum over the lanes c of that entry where (class differs, part agrees), resp. (class agrees, part
      differs), 0 elsewhere;
    * the columns the kernels clear hold 0.
-/
import proofs.«134967_j48713519072039_1_alg».proof.Proof.KernelLayout
import proofs.«134967_j48713519072039_1_alg».proof.Proof.TileSums

noncomputable section

open scoped BigOperators

namespace Cert.KernelIdeal.KValue

open Idealize.ShloMosaic Idealize.ShloMosaic.ValueIdx
open Cert.KernelIdeal Cert.KernelIdeal.Gen

/-- The zero word, as a scalar, denotes 0. -/
theorem scalar_zero_word : (Scalar.ofBits (F := Ideal) .f32 0x00000000#32 : EReal) = 0 := Ideal.ofBits_zero_f32

/-- The transposed tile at (k, c) is the tile at (c, k). -/
theorem transpose_tile_apply {α : Type} (B : S512x512.Idx → α) (k c : Fin 512) :
    transpose S512x512 [1, 0] B transposes_S512x512_p1_0_S512x512 (ix2 k c) = B (ix2 c k) :=
  transpose_apply [1, 0] B transposes_S512x512_p1_0_S512x512 (ix2 k c) (ix2 c k) (fun b => match b with
    | ⟨0, _⟩ => rfl
    | ⟨1, _⟩ => rfl)

/-- The similarity tile at (p, c): Σ_d x0(p,d) · x1(c,d). -/
theorem prodTile_apply (x0 x1 : FVec Ideal S512x512 .bf16) (p c : Fin 512) :
    matmul (F := Ideal) dot_S512x512_S512x512_S512x512_1_0_0_1_n_n none
        (shapeCast S512x512 x0 shapeCasts_S512x512_S512x512)
        (transpose S512x512 [1, 0] (shapeCast S512x512 x1 shapeCasts_S512x512_S512x512) transposes_S512x512_p1_0_S512x512)
        (constant (F := Ideal) S512x512 .f32 0x00000000#32) (ix2 p c)
      = ∑ d : Fin 512, x0 (ix2 p d) * x1 (ix2 c d) := by
  rw [shapeCast_self, shapeCast_self]
  refine (matmul_tile_apply _ _ p c).trans (Finset.sum_congr rfl fun d _ => ?_)
  rw [transpose_tile_apply]

/-- A comparison tile at (p, c) compares the column's word at p with the row's word at c. -/
theorem eqTile_apply (u : IVec S512x1 32) (w : IVec S1x512 32) (p c : Fin 512) :
    cmpi .eq (broadcastTo S512x512 (shapeCast S512x1 u shapeCasts_S512x1_S512x1) broadcasts_S512x1_S512x512)
        (broadcastTo S512x512 (shapeCast S1x512 w shapeCasts_S1x512_S1x512) broadcasts_S1x512_S512x512) (ix2 p c)
      = IntOp.cmpi .eq (u (ix2 p (0 : Fin 1))) (w (ix2 (0 : Fin 1) c)) := by
  show IntOp.cmpi .eq
      (broadcastTo S512x512 (shapeCast S512x1 u shapeCasts_S512x1_S512x1) broadcasts_S512x1_S512x512 (ix2 p c))
      (broadcastTo S512x512 (shapeCast S1x512 w shapeCasts_S1x512_S1x512) broadcasts_S1x512_S512x512 (ix2 p c)) = _
  rw [shapeCast_self, shapeCast_self, broadcastTo_a1_ab_apply, broadcastTo_1b_ab_apply]

/-- The two comparison payloads of the second kernel at (p, c). -/
theorem k1_pay5_apply (u : Vec Ideal S512x1 .i32) (w : Vec Ideal S1x512 .i32) (p c : Fin 512) :
    k1_pay5 (F := Ideal) u w (ix2 p c) = IntOp.cmpi .eq (u (ix2 p (0 : Fin 1))) (w (ix2 (0 : Fin 1) c)) :=
  eqTile_apply u w p c
theorem k1_pay6_apply (u : Vec Ideal S512x1 .i32) (w : Vec Ideal S1x512 .i32) (p c : Fin 512) :
    k1_pay6 (F := Ideal) u w (ix2 p c) = IntOp.cmpi .eq (u (ix2 p (0 : Fin 1))) (w (ix2 (0 : Fin 1) c)) :=
  eqTile_apply u w p c

/-- The cleared columns hold 0. -/
theorem k0_pay2_apply (p : Fin 512) : k0_pay2 (F := Ideal) (ix2 p (0 : Fin 1)) = 0 := by
  unfold k0_pay2
  rw [shapeCast_self]
  exact scalar_zero_word
theorem k1_pay3_apply (p : Fin 512) : k1_pay3 (F := Ideal) (ix2 p (0 : Fin 1)) = 0 := by
  unfold k1_pay3
  rw [shapeCast_self]
  exact scalar_zero_word
theorem k1_pay4_apply (p : Fin 512) : k1_pay4 (F := Ideal) (ix2 p (0 : Fin 1)) = 0 := by
  unfold k1_pay4
  rw [shapeCast_self]
  exact scalar_zero_word

/-- The column the first kernel stores is the column it computed. -/
theorem k0_pay1_eq (v : FVec Ideal S512x1 .f32) : k0_pay1 (F := Ideal) v = v := by
  unfold k0_pay1
  exact shapeCast_self v _

/-- The zero tile holds 0. -/
theorem k1_pay10_apply (p c : Fin 512) : k1_pay10 (F := Ideal) (ix2 p c) = 0 := scalar_zero_word

/-- The mask of the second kernel's first column at (p, c): class differs and part agrees. -/
theorem k1_pay7_apply (t0 : Vec Ideal S512x1 .i32) (t1 : Vec Ideal S1x512 .i32) (p0 : Vec Ideal S512x1 .i32)
    (p1 : Vec Ideal S1x512 .i32) (p c : Fin 512) :
    k1_pay7 (F := Ideal) t0 t1 p0 p1 (ix2 p c)
      = IntOp.andi (~~~(IntOp.cmpi .eq (t0 (ix2 p (0 : Fin 1))) (t1 (ix2 (0 : Fin 1) c))))
          (IntOp.cmpi .eq (p0 (ix2 p (0 : Fin 1))) (p1 (ix2 (0 : Fin 1) c))) := by
  unfold k1_pay7
  show IntOp.andi (IntOp.xori (k1_pay5 (F := Ideal) t0 t1 (ix2 p c)) 1#1) (k1_pay6 (F := Ideal) p0 p1 (ix2 p c)) = _
  rw [xori_one, k1_pay5_apply, k1_pay6_apply]

/-- The mask of the second kernel's second column at (p, c): class agrees and part differs. -/
theorem k1_pay8_apply (t0 : Vec Ideal S512x1 .i32) (t1 : Vec Ideal S1x512 .i32) (p0 : Vec Ideal S512x1 .i32)
    (p1 : Vec Ideal S1x512 .i32) (p c : Fin 512) :
    k1_pay8 (F := Ideal) t0 t1 p0 p1 (ix2 p c)
      = IntOp.andi (IntOp.cmpi .eq (t0 (ix2 p (0 : Fin 1))) (t1 (ix2 (0 : Fin 1) c)))
          (~~~(IntOp.cmpi .eq (p0 (ix2 p (0 : Fin 1))) (p1 (ix2 (0 : Fin 1) c)))) := by
  unfold k1_pay8
  show IntOp.andi (k1_pay5 (F := Ideal) t0 t1 (ix2 p c)) (IntOp.xori (k1_pay6 (F := Ideal) p0 p1 (ix2 p c)) 1#1) = _
  rw [xori_one, k1_pay5_apply, k1_pay6_apply]

/-- The second kernel's entry at (p, c): log1p (sr(p) · exp (0 − similarity)). -/
theorem k1_pay9_apply (x0 x1 : Vec Ideal S512x512 .bf16) (sr : Vec Ideal S512x1 .f32) (p c : Fin 512) :
    k1_pay9 (F := Ideal) x0 x1 sr (ix2 p c)
      = Ideal.log1p (sr (ix2 p (0 : Fin 1)) * Ideal.exp (0 - ∑ d : Fin 512, x0 (ix2 p d) * x1 (ix2 c d))) := by
  unfold k1_pay9
  show Ideal.log1p
      (broadcastTo S512x512 (shapeCast S512x1 sr shapeCasts_S512x1_S512x1) broadcasts_S512x1_S512x512 (ix2 p c)
        * Ideal.exp (Scalar.ofBits (F := Ideal) .f32 0x00000000#32
            - matmul (F := Ideal) dot_S512x512_S512x512_S512x512_1_0_0_1_n_n none
                (shapeCast S512x512 x0 shapeCasts_S512x512_S512x512)
                (transpose S512x512 [1, 0] (shapeCast S512x512 x1 shapeCasts_S512x512_S512x512) transposes_S512x512_p1_0_S512x512)
                (constant (F := Ideal) S512x512 .f32 0x00000000#32) (ix2 p c))) = _
  rw [prodTile_apply, shapeCast_self sr, broadcastTo_a1_ab_apply, scalar_zero_word]

/-- The first kernel's step at row p: the column's value plus the sum over the lanes c of exp (similarity) where class
    and part both differ. -/
theorem k0_pay3_apply (x0 x1 : Vec Ideal S512x512 .bf16) (t0 : Vec Ideal S512x1 .i32) (t1 : Vec Ideal S1x512 .i32)
    (p0 : Vec Ideal S512x1 .i32) (p1 : Vec Ideal S1x512 .i32) (s : Vec Ideal S512x1 .f32) (p : Fin 512) :
    k0_pay3 (F := Ideal) x0 x1 t0 t1 p0 p1 s (ix2 p (0 : Fin 1))
      = s (ix2 p (0 : Fin 1)) + ∑ c : Fin 512,
          (if ¬t0 (ix2 p (0 : Fin 1)) = t1 (ix2 (0 : Fin 1) c) ∧ ¬p0 (ix2 p (0 : Fin 1)) = p1 (ix2 (0 : Fin 1) c)
            then Ideal.exp (∑ d : Fin 512, x0 (ix2 p d) * x1 (ix2 c d)) else 0) := by
  unfold k0_pay3
  show s (ix2 p (0 : Fin 1))
      + shapeCast S512x1 (multiReduction (F := Ideal) .add [1] S512
          (select
            (andi
              (xori (cmpi .eq (broadcastTo S512x512 (shapeCast S512x1 t0 shapeCasts_S512x1_S512x1) broadcasts_S512x1_S512x512)
                (broadcastTo S512x512 (shapeCast S1x512 t1 shapeCasts_S1x512_S1x512) broadcasts_S1x512_S512x512))
                (constantI S512x512 1 1#1))
              (xori (cmpi .eq (broadcastTo S512x512 (shapeCast S512x1 p0 shapeCasts_S512x1_S512x1) broadcasts_S512x1_S512x512)
                (broadcastTo S512x512 (shapeCast S1x512 p1 shapeCasts_S1x512_S1x512) broadcasts_S1x512_S512x512))
                (constantI S512x512 1 1#1)))
            (exp (matmul (F := Ideal) dot_S512x512_S512x512_S512x512_1_0_0_1_n_n none
                (shapeCast S512x512 x0 shapeCasts_S512x512_S512x512)
                (transpose S512x512 [1, 0] (shapeCast S512x512 x1 shapeCasts_S512x512_S512x512) transposes_S512x512_p1_0_S512x512)
                (constant (F := Ideal) S512x512 .f32 0x00000000#32)))
            (broadcast S512x512 (Scalar.ofBits (F := Ideal) .f32 0x00000000#32)))
          0x00000000#32 reduces_S512x512_S512 (.inl rfl) rfl) shapeCasts_S512_S512x1 (ix2 p (0 : Fin 1)) = _
  rw [laneSumColumn_apply]
  refine congrArg (s (ix2 p (0 : Fin 1)) + ·) (Finset.sum_congr rfl fun c _ => ?_)
  show Scalar.select
      (IntOp.andi
        (IntOp.xori (cmpi .eq (broadcastTo S512x512 (shapeCast S512x1 t0 shapeCasts_S512x1_S512x1) broadcasts_S512x1_S512x512)
          (broadcastTo S512x512 (shapeCast S1x512 t1 shapeCasts_S1x512_S1x512) broadcasts_S1x512_S512x512) (ix2 p c)) 1#1)
        (IntOp.xori (cmpi .eq (broadcastTo S512x512 (shapeCast S512x1 p0 shapeCasts_S512x1_S512x1) broadcasts_S512x1_S512x512)
          (broadcastTo S512x512 (shapeCast S1x512 p1 shapeCasts_S1x512_S1x512) broadcasts_S1x512_S512x512) (ix2 p c)) 1#1))
      (Ideal.exp (matmul (F := Ideal) dot_S512x512_S512x512_S512x512_1_0_0_1_n_n none
          (shapeCast S512x512 x0 shapeCasts_S512x512_S512x512)
          (transpose S512x512 [1, 0] (shapeCast S512x512 x1 shapeCasts_S512x512_S512x512) transposes_S512x512_p1_0_S512x512)
          (constant (F := Ideal) S512x512 .f32 0x00000000#32) (ix2 p c)))
      (Scalar.ofBits (F := Ideal) .f32 0x00000000#32) = _
  rw [eqTile_apply, eqTile_apply, xori_one, xori_one, prodTile_apply, scalar_zero_word, Cert.Spec.select_ne_ne]

/-- A masked lane sum added to a column, at row p (the second kernel's first column). -/
theorem k1_pay1_apply (m : IVec S512x512 1) (e z : FVec Ideal S512x512 .f32) (s : Vec Ideal S512x1 .f32) (p : Fin 512) :
    k1_pay1 (F := Ideal) m e z s (ix2 p (0 : Fin 1))
      = s (ix2 p (0 : Fin 1)) + ∑ c : Fin 512, Scalar.select (m (ix2 p c)) (e (ix2 p c)) (z (ix2 p c)) := by
  unfold k1_pay1
  show shapeCast S512x1 (addf (F := Ideal) s (shapeCast S512x1 (multiReduction (F := Ideal) .add [1] S512 (select m e z)
      0x00000000#32 reduces_S512x512_S512 (.inl rfl) rfl) shapeCasts_S512_S512x1)) shapeCasts_S512x1_S512x1 (ix2 p (0 : Fin 1)) = _
  rw [shapeCast_self]
  show s (ix2 p (0 : Fin 1)) + shapeCast S512x1 (multiReduction (F := Ideal) .add [1] S512 (select m e z)
      0x00000000#32 reduces_S512x512_S512 (.inl rfl) rfl) shapeCasts_S512_S512x1 (ix2 p (0 : Fin 1)) = _
  rw [laneSumColumn_apply]
  rfl

/-- The same for the second column, whose other branch is the zero tile. -/
theorem k1_pay2_apply (m : IVec S512x512 1) (e : FVec Ideal S512x512 .f32) (s : Vec Ideal S512x1 .f32) (p : Fin 512) :
    k1_pay2 (F := Ideal) m e s (ix2 p (0 : Fin 1))
      = s (ix2 p (0 : Fin 1)) + ∑ c : Fin 512, Scalar.select (m (ix2 p c)) (e (ix2 p c)) 0 := by
  unfold k1_pay2
  show shapeCast S512x1 (addf (F := Ideal) s (shapeCast S512x1 (multiReduction (F := Ideal) .add [1] S512
      (select m e (broadcast S512x512 (Scalar.ofBits (F := Ideal) .f32 0x00000000#32)))
      0x00000000#32 reduces_S512x512_S512 (.inl rfl) rfl) shapeCasts_S512_S512x1)) shapeCasts_S512x1_S512x1 (ix2 p (0 : Fin 1)) = _
  rw [shapeCast_self]
  show s (ix2 p (0 : Fin 1)) + shapeCast S512x1 (multiReduction (F := Ideal) .add [1] S512
      (select m e (broadcast S512x512 (Scalar.ofBits (F := Ideal) .f32 0x00000000#32)))
      0x00000000#32 reduces_S512x512_S512 (.inl rfl) rfl) shapeCasts_S512_S512x1 (ix2 p (0 : Fin 1)) = _
  rw [laneSumColumn_apply]
  refine congrArg (s (ix2 p (0 : Fin 1)) + ·) (Finset.sum_congr rfl fun c _ => ?_)
  show Scalar.select (m (ix2 p c)) (e (ix2 p c)) (Scalar.ofBits (F := Ideal) .f32 0x00000000#32) = _
  rw [scalar_zero_word]

/-- The second kernel's first step at row p: the column's value plus the sum over the lanes c of the entry where the class
    differs and the part agrees. -/
theorem sadcStep_apply (x0 x1 : Vec Ideal S512x512 .bf16) (t0 : Vec Ideal S512x1 .i32) (t1 : Vec Ideal S1x512 .i32)
    (p0 : Vec Ideal S512x1 .i32) (p1 : Vec Ideal S1x512 .i32) (sr s : Vec Ideal S512x1 .f32) (p : Fin 512) :
    k1_pay1 (F := Ideal) (k1_pay7 (F := Ideal) t0 t1 p0 p1) (k1_pay9 (F := Ideal) x0 x1 sr) (k1_pay10 (F := Ideal)) s
        (ix2 p (0 : Fin 1))
      = s (ix2 p (0 : Fin 1)) + ∑ c : Fin 512,
          (if ¬t0 (ix2 p (0 : Fin 1)) = t1 (ix2 (0 : Fin 1) c) ∧ p0 (ix2 p (0 : Fin 1)) = p1 (ix2 (0 : Fin 1) c)
            then Ideal.log1p (sr (ix2 p (0 : Fin 1)) * Ideal.exp (0 - ∑ d : Fin 512, x0 (ix2 p d) * x1 (ix2 c d)))
            else 0) := by
  rw [k1_pay1_apply]
  refine congrArg (s (ix2 p (0 : Fin 1)) + ·) (Finset.sum_congr rfl fun c _ => ?_)
  rw [k1_pay7_apply, k1_pay9_apply, k1_pay10_apply, Cert.Spec.select_ne_eq]

/-- The second kernel's second step at row p: the same where the class agrees and the part differs. -/
theorem dascStep_apply (x0 x1 : Vec Ideal S512x512 .bf16) (t0 : Vec Ideal S512x1 .i32) (t1 : Vec Ideal S1x512 .i32)
    (p0 : Vec Ideal S512x1 .i32) (p1 : Vec Ideal S1x512 .i32) (sr s : Vec Ideal S512x1 .f32) (p : Fin 512) :
    k1_pay2 (F := Ideal) (k1_pay8 (F := Ideal) t0 t1 p0 p1) (k1_pay9 (F := Ideal) x0 x1 sr) s (ix2 p (0 : Fin 1))
      = s (ix2 p (0 : Fin 1)) + ∑ c : Fin 512,
          (if t0 (ix2 p (0 : Fin 1)) = t1 (ix2 (0 : Fin 1) c) ∧ ¬p0 (ix2 p (0 : Fin 1)) = p1 (ix2 (0 : Fin 1) c)
            then Ideal.log1p (sr (ix2 p (0 : Fin 1)) * Ideal.exp (0 - ∑ d : Fin 512, x0 (ix2 p d) * x1 (ix2 c d)))
            else 0) := by
  rw [k1_pay2_apply]
  refine congrArg (s (ix2 p (0 : Fin 1)) + ·) (Finset.sum_congr rfl fun c _ => ?_)
  rw [k1_pay8_apply, k1_pay9_apply, Cert.Spec.select_eq_ne]

end Cert.KernelIdeal.KValue

namespace Cert.TileSums

open Cert.LibBlockSum

variable {M : Type*} [AddCommMonoid M]

/-- One step of the running value when the tile's sum is added bare. -/
theorem accTiles_succ' (g : Fin 4096 → M) (n : ℕ) : accTiles g (n + 1) = accTiles g n + block 512 g n := by
  rw [accTiles_succ, zero_add]

theorem accTiles_step' (g : Fin 4096 → M) (k : Fin 8) : accTiles g (k.val + 1) = accTiles g k.val + tileSum g k := by
  rw [accTiles_step, zero_add]

end Cert.TileSums

end
-- ==== Proof.KernelTiles.lean ====
/-
  One grid point of each kernel, in the specification's terms.

  The 4096 rows are cut into 8 blocks of 512: row p of block i is row 512·i + p. At grid point (i, k) a kernel holds the
  feature rows and the class and part words of row block i and of column block k. Then, at row p of the block,
    * the first kernel's step adds to its column the sum of tile k of the summands of rowS at row 512·i + p;
    * the second kernel's two steps, reading rowS of the row block from the first kernel's column, add to their columns the
      sums of tile k of the summands of that row's shares of the two losses (0 − y is −y).
  After the 8 column tiles, from 0, the columns therefore hold rowS, resp. the row's shares of the two losses.
-/
import proofs.«134967_j48713519072039_1_alg».proof.Proof.KernelPayloads

noncomputable section

open scoped BigOperators

namespace Cert.KernelIdeal.KValue

open Idealize.ShloMosaic Idealize.ShloMosaic.ValueIdx
open Cert.KernelIdeal Cert.KernelIdeal.Gen Cert.TileSums

/-- Row p of block i among the 4096 rows. -/
def grow (i : Fin 8) (p : Fin 512) : Fin 4096 := ⟨512 * i.val + p.val, by have := i.isLt; have := p.isLt; omega⟩

theorem grow_val (i : Fin 8) (p : Fin 512) : (grow i p).val = 512 * i.val + p.val := rfl

section Steps

variable (X : (⟨2, ![4096, 512]⟩ : Shape).Idx → EReal) (tt pp : (⟨1, ![4096]⟩ : Shape).Idx → BitVec 32)
variable (i k : Fin 8)
variable (x0 x1 : Vec Ideal S512x512 .bf16) (t0 : Vec Ideal S512x1 .i32) (t1 : Vec Ideal S1x512 .i32)
  (p0 : Vec Ideal S512x1 .i32) (p1 : Vec Ideal S1x512 .i32)

/-- The first kernel's step at grid point (i, k), row p. -/
theorem rowS_step (s : Vec Ideal S512x1 .f32)
    (hx0 : ∀ (p : Fin 512) (d : Fin 512), x0 (ix2 p d) = X (ix2 (grow i p) d))
    (hx1 : ∀ (c : Fin 512) (d : Fin 512), x1 (ix2 c d) = X (ix2 (grow k c) d))
    (ht0 : ∀ p : Fin 512, t0 (ix2 p (0 : Fin 1)) = tt (ix1 (grow i p)))
    (ht1 : ∀ c : Fin 512, t1 (ix2 (0 : Fin 1) c) = tt (ix1 (grow k c)))
    (hp0 : ∀ p : Fin 512, p0 (ix2 p (0 : Fin 1)) = pp (ix1 (grow i p)))
    (hp1 : ∀ c : Fin 512, p1 (ix2 (0 : Fin 1) c) = pp (ix1 (grow k c))) (p : Fin 512) :
    k0_pay3 (F := Ideal) x0 x1 t0 t1 p0 p1 s (ix2 p (0 : Fin 1))
      = s (ix2 p (0 : Fin 1)) + tileSum (fun j => Cert.Spec.rowSTerm X tt pp (grow i p) j) k := by
  rw [k0_pay3_apply]
  refine congrArg (s (ix2 p (0 : Fin 1)) + ·) (Finset.sum_congr rfl fun c _ => ?_)
  rw [ht0, ht1, hp0, hp1]
  simp only [hx0, hx1]
  rfl

/-- The second kernel's entry at grid point (i, k), entry (p, c): the specification's term. -/
theorem term_entry (sr : Vec Ideal S512x1 .f32)
    (hx0 : ∀ (p : Fin 512) (d : Fin 512), x0 (ix2 p d) = X (ix2 (grow i p) d))
    (hx1 : ∀ (c : Fin 512) (d : Fin 512), x1 (ix2 c d) = X (ix2 (grow k c) d))
    (hsr : ∀ p : Fin 512, sr (ix2 p (0 : Fin 1)) = Cert.Spec.rowS X tt pp (grow i p)) (p c : Fin 512) :
    Ideal.log1p (sr (ix2 p (0 : Fin 1)) * Ideal.exp (0 - ∑ d : Fin 512, x0 (ix2 p d) * x1 (ix2 c d)))
      = Cert.Spec.term X tt pp (grow i p) (grow k c) := by
  rw [hsr, zero_sub]
  simp only [hx0, hx1]
  rfl

/-- The second kernel's first step at grid point (i, k), row p. -/
theorem sadc_step (sr s : Vec Ideal S512x1 .f32)
    (hx0 : ∀ (p : Fin 512) (d : Fin 512), x0 (ix2 p d) = X (ix2 (grow i p) d))
    (hx1 : ∀ (c : Fin 512) (d : Fin 512), x1 (ix2 c d) = X (ix2 (grow k c) d))
    (ht0 : ∀ p : Fin 512, t0 (ix2 p (0 : Fin 1)) = tt (ix1 (grow i p)))
    (ht1 : ∀ c : Fin 512, t1 (ix2 (0 : Fin 1) c) = tt (ix1 (grow k c)))
    (hp0 : ∀ p : Fin 512, p0 (ix2 p (0 : Fin 1)) = pp (ix1 (grow i p)))
    (hp1 : ∀ c : Fin 512, p1 (ix2 (0 : Fin 1) c) = pp (ix1 (grow k c)))
    (hsr : ∀ p : Fin 512, sr (ix2 p (0 : Fin 1)) = Cert.Spec.rowS X tt pp (grow i p)) (p : Fin 512) :
    k1_pay1 (F := Ideal) (k1_pay7 (F := Ideal) t0 t1 p0 p1) (k1_pay9 (F := Ideal) x0 x1 sr) (k1_pay10 (F := Ideal)) s
        (ix2 p (0 : Fin 1))
      = s (ix2 p (0 : Fin 1)) + tileSum (fun j => Cert.Spec.sadcTerm X tt pp (grow i p) j) k := by
  rw [sadcStep_apply]
  refine congrArg (s (ix2 p (0 : Fin 1)) + ·) (Finset.sum_congr rfl fun c _ => ?_)
  rw [term_entry X tt pp i k x0 x1 sr hx0 hx1 hsr p c, ht0, ht1, hp0, hp1]
  rfl

/-- The second kernel's second step at grid point (i, k), row p. -/
theorem dasc_step (sr s : Vec Ideal S512x1 .f32)
    (hx0 : ∀ (p : Fin 512) (d : Fin 512), x0 (ix2 p d) = X (ix2 (grow i p) d))
    (hx1 : ∀ (c : Fin 512) (d : Fin 512), x1 (ix2 c d) = X (ix2 (grow k c) d))
    (ht0 : ∀ p : Fin 512, t0 (ix2 p (0 : Fin 1)) = tt (ix1 (grow i p)))
    (ht1 : ∀ c : Fin 512, t1 (ix2 (0 : Fin 1) c) = tt (ix1 (grow k c)))
    (hp0 : ∀ p : Fin 512, p0 (ix2 p (0 : Fin 1)) = pp (ix1 (grow i p)))
    (hp1 : ∀ c : Fin 512, p1 (ix2 (0 : Fin 1) c) = pp (ix1 (grow k c)))
    (hsr : ∀ p : Fin 512, sr (ix2 p (0 : Fin 1)) = Cert.Spec.rowS X tt pp (grow i p)) (p : Fin 512) :
    k1_pay2 (F := Ideal) (k1_pay8 (F := Ideal) t0 t1 p0 p1) (k1_pay9 (F := Ideal) x0 x1 sr) s (ix2 p (0 : Fin 1))
      = s (ix2 p (0 : Fin 1)) + tileSum (fun j => Cert.Spec.dascTerm X tt pp (grow i p) j) k := by
  rw [dascStep_apply]
  refine congrArg (s (ix2 p (0 : Fin 1)) + ·) (Finset.sum_congr rfl fun c _ => ?_)
  rw [term_entry X tt pp i k x0 x1 sr hx0 hx1 hsr p c, ht0, ht1, hp0, hp1]
  rfl

end Steps

section Ends

variable (X : (⟨2, ![4096, 512]⟩ : Shape).Idx → EReal) (tt pp : (⟨1, ![4096]⟩ : Shape).Idx → BitVec 32) (r : Fin 4096)

/-- After the 8 column tiles, from 0, the running values are rowS and the row's shares of the two losses. -/
theorem acc_rowS : accTiles (fun j => Cert.Spec.rowSTerm X tt pp r j) 8 = Cert.Spec.rowS X tt pp r := accTiles_eight _
theorem acc_sadcRow : accTiles (fun j => Cert.Spec.sadcTerm X tt pp r j) 8 = Cert.Spec.sadcRow X tt pp r := accTiles_eight _
theorem acc_dascRow : accTiles (fun j => Cert.Spec.dascTerm X tt pp r j) 8 = Cert.Spec.dascRow X tt pp r := accTiles_eight _

end Ends

end Cert.KernelIdeal.KValue

end
-- ==== Proof.RowSums.ValueInduction.lean ====
/-
  The first kernel's scratch column and output block, point by point, as partial row sums.

  Let X, tt, pp be the matrix of feature rows and the class and part labels, and let the arrays the kernel reads hold them.
  At grid point t = 8·i + k the scratch column holds, at row p, the sum of the first k + 1 column tiles of the summands of
  rowS at row 512·i + p: a first column tile starts from the zero column, every other tile adds its tile's sum to what the
  point before left (same row tile, one tile fewer). At the last column tile the column, and the output block it is copied
  to, hold rowS at the rows of the row tile.
-/
import proofs.«134967_j48713519072039_1_alg».proof.Proof.RowSums.Data
import proofs.«134967_j48713519072039_1_alg».proof.Proof.RowSums.ValuePieces
import proofs.«134967_j48713519072039_1_alg».proof.Proof.RowSums.ValueBlocks
import proofs.«134967_j48713519072039_1_alg».proof.Proof.KernelTiles

set_option maxRecDepth 16384

noncomputable section

namespace Cert.TileSums

variable {M : Type*} [AddCommMonoid M]

/-- From 0, the first tile's sum is the running value after one tile. -/
theorem acc_first (g : Fin 4096 → M) (k : Fin 8) (hk : k.val = 0) : 0 + tileSum g k = accTiles g (k.val + 1) := by
  rw [accTiles_step', hk, accTiles_zero]

/-- The running value after k tiles plus tile k's sum is the running value after k + 1 tiles. -/
theorem acc_next (g : Fin 4096 → M) (k : Fin 8) (a : M) (ha : a = accTiles g k.val) :
    a + tileSum g k = accTiles g (k.val + 1) := by
  rw [ha, accTiles_step']

end Cert.TileSums

namespace Cert.KernelIdeal.RowSums

open Cert.KernelIdeal Cert.KernelIdeal.Gen Cert.KernelIdeal.KValue Cert.TileSums
open Idealize.ShloMosaic Idealize.ShloMosaic.TcCoe Idealize.ShloMosaic.ValueIdx Idealize.SL.Sem

/-- The row tile of grid point n. -/
def rowTile (n : ℕ) (hn : n < cfg0.N) : Fin 8 := ⟨n / 8, by have h : cfg0.N = 64 := N_0; omega⟩
/-- The column tile of grid point n. -/
def colTile (n : ℕ) : Fin 8 := ⟨n % 8, by omega⟩

/-- What the arrays the kernel reads hold: the matrix X and the labels tt, pp as columns and as rows. -/
structure Reads (V : (c : Dev nD) → (b : Ref sig .tc) → Buf (Elt Ideal) ((c : Thread nD τ).loc b)) (c : Dev nD)
    (X : (⟨2, ![4096, 512]⟩ : Shape).Idx → EReal) (tt pp : (⟨1, ![4096]⟩ : Shape).Idx → BitVec 32) : Prop where
  hX : (V c main_v1 : S4096x512.Idx → EReal) = X
  ht8 : ∀ (r : Fin 4096) (u : Fin 1), (V c main_v8 : S4096x1.Idx → BitVec 32) (ix2 r u) = tt (ix1 r)
  ht9 : ∀ (u : Fin 1) (j : Fin 4096), (V c main_v9 : S1x4096.Idx → BitVec 32) (ix2 u j) = tt (ix1 j)
  hp10 : ∀ (r : Fin 4096) (u : Fin 1), (V c main_v10 : S4096x1.Idx → BitVec 32) (ix2 r u) = pp (ix1 r)
  hp11 : ∀ (u : Fin 1) (j : Fin 4096), (V c main_v11 : S1x4096.Idx → BitVec 32) (ix2 u j) = pp (ix1 j)

section

variable (V : (c : Dev nD) → (b : Ref sig .tc) → Buf (Elt Ideal) ((c : Thread nD τ).loc b)) (c : Dev nD)
variable (X : (⟨2, ![4096, 512]⟩ : Shape).Idx → EReal) (tt pp : (⟨1, ![4096]⟩ : Shape).Idx → BitVec 32)

/-- One grid point: the column a case stores, at row p, is the column it found plus the tile's sum. -/
theorem point_eq (R : Reads V c X tt pp) (t : Fin cfg0.N) (s : Vec Ideal S512x1 .f32) (p : Fin 512) :
    k0_pay1 (F := Ideal) (k0_pay3 (F := Ideal) (blk V c 0 t) (blk V c 1 t) (blk V c 2 t) (blk V c 3 t) (blk V c 4 t) (blk V c 5 t) s)
        (ix2 p (0 : Fin 1))
      = s (ix2 p (0 : Fin 1))
        + tileSum (fun j => Cert.Spec.rowSTerm X tt pp (grow (rowTile t.val t.isLt) p) j) (colTile t.val) := by
  rw [k0_pay1_eq]
  exact rowS_step X tt pp (rowTile t.val t.isLt) (colTile t.val) (blk V c 0 t) (blk V c 1 t) (blk V c 2 t) (blk V c 3 t)
    (blk V c 4 t) (blk V c 5 t) s
    (fun p d => (blk0_apply V c t p d).trans (congrFun R.hX _))
    (fun q d => (blk1_apply V c t q d).trans (congrFun R.hX _))
    (fun p => (blk2_apply V c t p 0).trans (R.ht8 _ _))
    (fun q => (blk3_apply V c t 0 q).trans (R.ht9 _ _))
    (fun p => (blk4_apply V c t p 0).trans (R.hp10 _ _))
    (fun q => (blk5_apply V c t 0 q).trans (R.hp11 _ _)) p

/-- The scratch column after grid point n, at row p: the first n % 8 + 1 column tiles of rowS's summands at the row. -/
theorem accAt_eq (R : Reads V c X tt pp) : ∀ (n : ℕ) (hn : n < cfg0.N) (p : Fin 512),
    accAt V c n hn (ix2 p (0 : Fin 1))
      = accTiles (fun j => Cert.Spec.rowSTerm X tt pp (grow (rowTile n hn) p) j) (n % 8 + 1) := by
  intro n
  induction n with
  | zero =>
    intro hn p
    rw [accAt_first V c ⟨0, hn⟩ rfl, accFirst_eq, point_eq V c X tt pp R ⟨0, hn⟩, k0_pay2_apply]
    exact acc_first _ (colTile 0) rfl
  | succ n ih =>
    intro hn p
    have hN : cfg0.N = 64 := N_0
    by_cases h0 : (n + 1) % 8 = 0
    · rw [accAt_first V c ⟨n + 1, hn⟩ h0, accFirst_eq, point_eq V c X tt pp R ⟨n + 1, hn⟩, k0_pay2_apply]
      exact acc_first _ (colTile (n + 1)) h0
    · have hrow : rowTile n (Nat.lt_of_succ_lt hn) = rowTile (n + 1) hn := Fin.ext (by show n / 8 = (n + 1) / 8; omega)
      have hcol : n % 8 + 1 = (colTile (n + 1)).val := by show n % 8 + 1 = (n + 1) % 8; omega
      have hprev := ih (Nat.lt_of_succ_lt hn) p
      rw [hrow, hcol] at hprev
      by_cases h7 : (n + 1) % 8 = 7
      · rw [accAt_last V c ⟨n + 1, hn⟩ h0 h7, accLast_eq, point_eq V c X tt pp R ⟨n + 1, hn⟩]
        exact acc_next _ (colTile (n + 1)) _ hprev
      · rw [accAt_middle V c ⟨n + 1, hn⟩ h0 h7, accMiddle_eq, point_eq V c X tt pp R ⟨n + 1, hn⟩]
        exact acc_next _ (colTile (n + 1)) _ hprev

/-- The output block after a last column tile, at row p: rowS at the row. -/
theorem outAt_eq (R : Reads V c X tt pp) (n : ℕ) (hn : n < cfg0.N) (h7 : n % 8 = 7) (p : Fin 512) :
    outAt V c n hn (ix2 p (0 : Fin 1)) = Cert.Spec.rowS X tt pp (grow (rowTile n hn) p) := by
  have hN : cfg0.N = 64 := N_0
  have h0 : ¬n % 8 = 0 := by omega
  obtain ⟨m, rfl⟩ : ∃ m, n = m + 1 := ⟨n - 1, by omega⟩
  have hrow : rowTile m (Nat.lt_of_succ_lt hn) = rowTile (m + 1) hn := Fin.ext (by show m / 8 = (m + 1) / 8; omega)
  have hcol : m % 8 + 1 = 7 := by omega
  have hprev := accAt_eq V c X tt pp R m (Nat.lt_of_succ_lt hn) p
  rw [hrow, hcol] at hprev
  rw [outAt_last V c ⟨m + 1, hn⟩ h0 h7, outLast_eq, point_eq V c X tt pp R ⟨m + 1, hn⟩]
  have hk : (colTile (m + 1)).val = 7 := h7
  rw [← hk] at hprev
  refine (acc_next _ (colTile (m + 1)) _ hprev).trans ?_
  rw [hk]
  exact acc_rowS X tt pp _

end

end Cert.KernelIdeal.RowSums

end
-- ==== Proof.RowSums.ValueArray.lean ====
/-
  The first kernel's output array: the row sums.

  The output window is written back only at the last column tile of each row tile, and the block written back there is the
  row tile's 512 rows of the column of row sums. The 8 blocks written back tile the 4096 x 1 array, so after the run it
  holds rowS at every row.
-/
import proofs.«134967_j48713519072039_1_alg».proof.Proof.RowSums.ValueInduction
import Idealize.ShloMosaic.Lib.Pipeline.Value

set_option maxRecDepth 16384

noncomputable section

namespace Cert.KernelIdeal.RowSums

open Cert.KernelIdeal Cert.KernelIdeal.Gen Cert.KernelIdeal.KValue Cert.TileSums
open Idealize.ShloMosaic Idealize.ShloMosaic.TcCoe Idealize.ShloMosaic.ValueIdx Idealize.SL.Sem
open Idealize.ShloMosaic.Pipeline (Dat)

/-- The column of row sums as one function of the array's index. -/
def rowSArr (X : (⟨2, ![4096, 512]⟩ : Shape).Idx → EReal) (tt pp : (⟨1, ![4096]⟩ : Shape).Idx → BitVec 32) :
    S4096x1.Idx → EReal :=
  fun i => Cert.Spec.rowS X tt pp ⟨(i 0).val, idx2_lt0 i⟩

theorem rowSArr_apply (X : (⟨2, ![4096, 512]⟩ : Shape).Idx → EReal) (tt pp : (⟨1, ![4096]⟩ : Shape).Idx → BitVec 32)
    (r : Fin 4096) (u : Fin 1) : rowSArr X tt pp (ix2 r u) = Cert.Spec.rowS X tt pp r := rfl

/-- An index of the array is in point t's block iff each coordinate is in the block's range on its axis. -/
theorem mem_blk6 (t : Fin cfg0.N) (i : S4096x1.Idx) :
    i ∈ ((cfg0.win 6).blk t).view.set ↔ ∀ a : Fin 2,
      win0_6.index t a * S512x1.size a ≤ (i a).val ∧ (i a).val < win0_6.index t a * S512x1.size a + S512x1.size a := by
  show i ∈ ((View.whole main_v12).slice (win0_6.rect t)).set ↔ _
  rw [View.set_slice_whole, Rect.mem_set_unit]
  exact Iff.rfl

section

variable (V : (c : Dev nD) → (b : Ref sig .tc) → Buf (Elt Ideal) ((c : Thread nD τ).loc b)) (c : Dev nD)
variable (X : (⟨2, ![4096, 512]⟩ : Shape).Idx → EReal) (tt pp : (⟨1, ![4096]⟩ : Shape).Idx → BitVec 32)

/-- The output window is written back only at last column tiles. -/
theorem last_of_flush6 (t : Fin cfg0.N) (hf : (cfg0.win 6).flush t = true) : t.val % 8 = 7 := by
  by_contra h
  have hn := noFlush6_of_not_last t (fun hl => h ((isLast_iff t).mp hl))
  rw [hn] at hf
  exact Bool.noConfusion hf

/-- What a last column tile writes back is its block of the column of row sums. -/
theorem flushed6_eq (R : Reads V c X tt pp) (t : Fin cfg0.N) (hf : (cfg0.win 6).flush t = true) :
    (dat (F := Ideal) V c).flushed 6 t = ((cfg0.win 6).blk t).view.read (Elt Ideal) (rowSArr X tt pp) := by
  have h7 := last_of_flush6 t hf
  obtain ⟨-, -, -, -, -, -, -, -, -, -, -, -, e0, e1⟩ := idx_facts t
  show (cfg0.win 6).cut (grid0.coords t) ((dat (F := Ideal) V c).after 6 t) = _
  rw [after6]
  funext j
  obtain ⟨p, u, rfl⟩ : ∃ (p : Fin 512) (u : Fin 1), j = ix2 p u := ⟨j 0, j 1, eq_ix2 j⟩
  obtain rfl : u = 0 := Subsingleton.elim _ _
  show outAt V c t.val t.isLt (ix2 p (0 : Fin 1)) = rowSArr X tt pp (((cfg0.win 6).blk t).view.emb (ix2 p (0 : Fin 1)))
  rw [outAt_eq V c X tt pp R t.val t.isLt h7 p]
  unfold rowSArr
  refine congrArg (Cert.Spec.rowS X tt pp) (Fin.ext ?_)
  show 512 * (t.val / 8) + p.val = win0_6.index t (0 : Fin 2) * 512 + 1 * p.val
  omega

/-- Every row of the array is in the block some last column tile writes back. -/
theorem cover6 (i : S4096x1.Idx) : ∃ t : Fin cfg0.N, (cfg0.win 6).flush t = true ∧ i ∈ ((cfg0.win 6).blk t).view.set := by
  have hN : cfg0.N = 64 := N_0
  have h0 : (i 0).val < 4096 := (i 0).isLt
  have h1 : (i 1).val < 1 := (i 1).isLt
  let t : Fin cfg0.N := ⟨8 * ((i 0).val / 512) + 7, by omega⟩
  have ht7 : t.val % 8 = 7 := by show (8 * ((i 0).val / 512) + 7) % 8 = 7; omega
  refine ⟨t, flush6_of_last t ((isLast_iff t).mpr ht7), ?_⟩
  obtain ⟨-, -, -, -, -, -, -, -, -, -, -, -, e0, e1⟩ := idx_facts t
  have htv : t.val / 8 = (i 0).val / 512 := by show (8 * ((i 0).val / 512) + 7) / 8 = (i 0).val / 512; omega
  rw [mem_blk6]
  intro a
  match a with
  | ⟨0, _⟩ =>
    show win0_6.index t (0 : Fin 2) * 512 ≤ (i 0).val ∧ (i 0).val < win0_6.index t (0 : Fin 2) * 512 + 512
    omega
  | ⟨1, _⟩ =>
    show win0_6.index t (1 : Fin 2) * 1 ≤ (i 1).val ∧ (i 1).val < win0_6.index t (1 : Fin 2) * 1 + 1
    omega

/-- The output array after the run is the column of row sums. -/
theorem final6 (R : Reads V c X tt pp) : (dat (F := Ideal) V c).arrAt 6 cfg0.N = rowSArr X tt pp :=
  (dat (F := Ideal) V c).arrAt_eq_of_cover 6 (rowSArr X tt pp) (fun t hf => flushed6_eq V c X tt pp R t hf) cover6

/-- The output array after the run, read at a row. -/
theorem final6_apply (R : Reads V c X tt pp) (r : Fin 4096) (u : Fin 1) :
    ((dat (F := Ideal) V c).arrAt 6 cfg0.N : S4096x1.Idx → EReal) (ix2 r u) = Cert.Spec.rowS X tt pp r := by
  rw [final6 V c X tt pp R]
  rfl

end

end Cert.KernelIdeal.RowSums

end
-- ==== Proof.Losses.ValuePieces.lean ====
/-
  What each case of the second kernel leaves, as values.

  Each case's recorded stores into a 512 x 1 buffer are one store covering it (after, at a first column tile, the store of
  the zero column, which the covering store overwrites), so the buffer reads back that store's value: the masked lane sums
  of the tile's entries added to the column found — the zero column at a first tile, what the point before left otherwise.
  At the last tile each output block receives what its scratch column then holds.
-/
import proofs.«134967_j48713519072039_1_alg».proof.Proof.Losses.Contents
import Idealize.ShloMosaic.Lib.Pipeline.Value
import Idealize.ShloMosaic.Lib.Tactic

set_option maxRecDepth 16384

noncomputable section

namespace Cert.KernelIdeal.Losses

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- A first column tile leaves, in the first column, the masked lane sums added to the zero column. -/
theorem accSFirst_eq (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : isFirst i) (hl : ¬isLast i) (x0 x1 : Vec F S512x512 .bf16) (t0 : Vec F S512x1 .i32) (t1 : Vec F S1x512 .i32) (p0 : Vec F S512x1 .i32) (p1 : Vec F S1x512 .i32) (sr : Vec F S512x1 .f32) :
    accSFirst c i a2 h2 a3 h3 a4 h4 a5 h5 a6 h6 a7 h7 a8 h8 a9 h9 a10 h10 a11 h11 a12 h12 hf hl x0 x1 t0 t1 p0 p1 sr = k1_pay1 (k1_pay7 t0 t1 p0 p1) (k1_pay9 x0 x1 sr) (k1_pay10 (F := F)) (k1_pay3 (F := F)) := by
  unfold accSFirst
  rw [View.read_writes_eq_canon _ _ _ (coverFirstS c i a2 h2 a3 h3 a4 h4 a5 h5 a6 h6 a7 h7 a8 h8 a9 h9 a10 h10 a11 h11 a12 h12 hf hl x0 x1 t0 t1 p0 p1 sr)]
  unfold runFirst
  dsimp only
  sl_unfold_words
  rw [View.canon_cons_unit_zero (S := S512x1) hz, View.readCov_unit_zero (S := S512x1) _ hz]
  simp only [View.readAt_eq_ld, h2.read_unread, h3.read_unread, h4.read_unread, h5.read_unread, h6.read_unread, h7.read_unread,
    h8.read_unread, h11.read_unread, h12.read_unread, View.ld_unit_zero (S := S512x512) hz, View.ld_unit_zero (S := S512x1) hz,
    View.ld_unit_zero (S := S1x512) hz]

/-- A first column tile leaves, in the second column, the masked lane sums added to the zero column. -/
theorem accDFirst_eq (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : isFirst i) (hl : ¬isLast i) (x0 x1 : Vec F S512x512 .bf16) (t0 : Vec F S512x1 .i32) (t1 : Vec F S1x512 .i32) (p0 : Vec F S512x1 .i32) (p1 : Vec F S1x512 .i32) (sr : Vec F S512x1 .f32) :
    accDFirst c i a2 h2 a3 h3 a4 h4 a5 h5 a6 h6 a7 h7 a8 h8 a9 h9 a10 h10 a11 h11 a12 h12 hf hl x0 x1 t0 t1 p0 p1 sr = k1_pay2 (k1_pay8 t0 t1 p0 p1) (k1_pay9 x0 x1 sr) (k1_pay4 (F := F)) := by
  unfold accDFirst
  rw [View.read_writes_eq_canon _ _ _ (coverFirstD c i a2 h2 a3 h3 a4 h4 a5 h5 a6 h6 a7 h7 a8 h8 a9 h9 a10 h10 a11 h11 a12 h12 hf hl x0 x1 t0 t1 p0 p1 sr)]
  unfold runFirst
  dsimp only
  sl_unfold_words
  rw [View.canon_cons_unit_zero (S := S512x1) hz, View.readCov_unit_zero (S := S512x1) _ hz]
  simp only [View.readAt_eq_ld, h2.read_unread, h3.read_unread, h4.read_unread, h5.read_unread, h6.read_unread, h7.read_unread,
    h8.read_unread, h11.read_unread, h12.read_unread, View.ld_unit_zero (S := S512x512) hz, View.ld_unit_zero (S := S512x1) hz,
    View.ld_unit_zero (S := S1x512) hz]

/-- A middle column tile adds the masked lane sums to the first column it found. -/
theorem accSMiddle_eq (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : ¬isFirst i) (hl : ¬isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) :
    accSMiddle c i a2 h2 a3 h3 a4 h4 a5 h5 a6 h6 a7 h7 a8 h8 a9 h9 a10 h10 a11 h11 a12 h12 hf hl x0 x1 t0 t1 p0 p1 sr ss sd = k1_pay1 (k1_pay7 t0 t1 p0 p1) (k1_pay9 x0 x1 sr) (k1_pay10 (F := F)) ss := by
  unfold accSMiddle
  rw [View.read_writes_eq_canon _ _ _ (coverMiddleS c i a2 h2 a3 h3 a4 h4 a5 h5 a6 h6 a7 h7 a8 h8 a9 h9 a10 h10 a11 h11 a12 h12 hf hl x0 x1 t0 t1 p0 p1 sr ss sd)]
  unfold runMiddle
  dsimp only
  sl_unfold_words
  rw [View.canon_unit_zero hz]
  simp only [View.readAt_eq_ld, h2.read_unread, h3.read_unread, h4.read_unread, h5.read_unread, h6.read_unread, h7.read_unread,
    h8.read_unread, h11.read_unread, h12.read_unread, View.ld_unit_zero (S := S512x512) hz, View.ld_unit_zero (S := S512x1) hz,
    View.ld_unit_zero (S := S1x512) hz]

/-- A middle column tile adds the masked lane sums to the second column it found. -/
theorem accDMiddle_eq (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : ¬isFirst i) (hl : ¬isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) :
    accDMiddle c i a2 h2 a3 h3 a4 h4 a5 h5 a6 h6 a7 h7 a8 h8 a9 h9 a10 h10 a11 h11 a12 h12 hf hl x0 x1 t0 t1 p0 p1 sr ss sd = k1_pay2 (k1_pay8 t0 t1 p0 p1) (k1_pay9 x0 x1 sr) sd := by
  unfold accDMiddle
  rw [View.read_writes_eq_canon _ _ _ (coverMiddleD c i a2 h2 a3 h3 a4 h4 a5 h5 a6 h6 a7 h7 a8 h8 a9 h9 a10 h10 a11 h11 a12 h12 hf hl x0 x1 t0 t1 p0 p1 sr ss sd)]
  unfold runMiddle
  dsimp only
  sl_unfold_words
  rw [View.canon_unit_zero hz]
  simp only [View.readAt_eq_ld, h2.read_unread, h3.read_unread, h4.read_unread, h5.read_unread, h6.read_unread, h7.read_unread,
    h8.read_unread, h11.read_unread, h12.read_unread, View.ld_unit_zero (S := S512x512) hz, View.ld_unit_zero (S := S512x1) hz,
    View.ld_unit_zero (S := S1x512) hz]

/-- The last column tile adds the masked lane sums to the first scratch column it found. -/
theorem accSLast_eq (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : ¬isFirst i) (hl : isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) :
    accSLast c i a2 h2 a3 h3 a4 h4 a5 h5 a6 h6 a7 h7 a8 h8 a9 h9 a10 h10 a11 h11 a12 h12 hf hl x0 x1 t0 t1 p0 p1 sr ss sd = k1_pay1 (k1_pay7 t0 t1 p0 p1) (k1_pay9 x0 x1 sr) (k1_pay10 (F := F)) ss := by
  unfold accSLast
  rw [View.read_writes_eq_canon _ _ _ (coverLastS c i a2 h2 a3 h3 a4 h4 a5 h5 a6 h6 a7 h7 a8 h8 a9 h9 a10 h10 a11 h11 a12 h12 hf hl x0 x1 t0 t1 p0 p1 sr ss sd)]
  unfold runLast
  dsimp only
  sl_unfold_words
  rw [View.canon_unit_zero hz]
  simp only [View.readAt_eq_ld, h2.read_unread, h3.read_unread, h4.read_unread, h5.read_unread, h6.read_unread, h7.read_unread,
    h8.read_unread, h11.read_unread, h12.read_unread, View.ld_unit_zero (S := S512x512) hz, View.ld_unit_zero (S := S512x1) hz,
    View.ld_unit_zero (S := S1x512) hz]

/-- The last column tile adds the masked lane sums to the second scratch column it found. -/
theorem accDLast_eq (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : ¬isFirst i) (hl : isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) :
    accDLast c i a2 h2 a3 h3 a4 h4 a5 h5 a6 h6 a7 h7 a8 h8 a9 h9 a10 h10 a11 h11 a12 h12 hf hl x0 x1 t0 t1 p0 p1 sr ss sd = k1_pay2 (k1_pay8 t0 t1 p0 p1) (k1_pay9 x0 x1 sr) sd := by
  unfold accDLast
  rw [View.read_writes_eq_canon _ _ _ (coverLastD c i a2 h2 a3 h3 a4 h4 a5 h5 a6 h6 a7 h7 a8 h8 a9 h9 a10 h10 a11 h11 a12 h12 hf hl x0 x1 t0 t1 p0 p1 sr ss sd)]
  unfold runLast
  dsimp only
  sl_unfold_words
  rw [View.canon_unit_zero hz]
  simp only [View.readAt_eq_ld, h2.read_unread, h3.read_unread, h4.read_unread, h5.read_unread, h6.read_unread, h7.read_unread,
    h8.read_unread, h11.read_unread, h12.read_unread, View.ld_unit_zero (S := S512x512) hz, View.ld_unit_zero (S := S512x1) hz,
    View.ld_unit_zero (S := S1x512) hz]

/-- The last column tile copies the first scratch column, with this tile added, to the first output block. -/
theorem outSLast_eq (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : ¬isFirst i) (hl : isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) :
    outSLast c i a2 h2 a3 h3 a4 h4 a5 h5 a6 h6 a7 h7 a8 h8 a9 h9 a10 h10 a11 h11 a12 h12 hf hl x0 x1 t0 t1 p0 p1 sr ss sd = k1_pay1 (k1_pay7 t0 t1 p0 p1) (k1_pay9 x0 x1 sr) (k1_pay10 (F := F)) ss := by
  unfold outSLast
  rw [View.read_writes_eq_canon _ _ _ (coverLastOutS c i a2 h2 a3 h3 a4 h4 a5 h5 a6 h6 a7 h7 a8 h8 a9 h9 a10 h10 a11 h11 a12 h12 hf hl x0 x1 t0 t1 p0 p1 sr ss sd)]
  unfold runLast
  dsimp only
  sl_unfold_words
  rw [View.canon_unit_zero hz, View.readCov_unit_zero (S := S512x1) _ hz]
  simp only [View.readAt_eq_ld, h2.read_unread, h3.read_unread, h4.read_unread, h5.read_unread, h6.read_unread, h7.read_unread,
    h8.read_unread, h11.read_unread, h12.read_unread, View.ld_unit_zero (S := S512x512) hz, View.ld_unit_zero (S := S512x1) hz,
    View.ld_unit_zero (S := S1x512) hz]

/-- The last column tile copies the second scratch column, with this tile added, to the second output block. -/
theorem outDLast_eq (c : Dev nD) (i : grid1.Coords) (a2 : Memref sig .tc .vmem S512x512 .bf16) (h2 : a2.IsWhole) (a3 : Memref sig .tc .vmem S512x512 .bf16) (h3 : a3.IsWhole) (a4 : Memref sig .tc .vmem S512x1 .i32) (h4 : a4.IsWhole) (a5 : Memref sig .tc .vmem S1x512 .i32) (h5 : a5.IsWhole) (a6 : Memref sig .tc .vmem S512x1 .i32) (h6 : a6.IsWhole) (a7 : Memref sig .tc .vmem S1x512 .i32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (hf : ¬isFirst i) (hl : isLast i) (x0 x1 : Vec F S512x512 .bf16) (t0 : Vec F S512x1 .i32) (t1 : Vec F S1x512 .i32) (p0 : Vec F S512x1 .i32) (p1 : Vec F S1x512 .i32) (sr : Vec F S512x1 .f32) (ss sd : Vec F S512x1 .f32) :
    outDLast c i a2 h2 a3 h3 a4 h4 a5 h5 a6 h6 a7 h7 a8 h8 a9 h9 a10 h10 a11 h11 a12 h12 hf hl x0 x1 t0 t1 p0 p1 sr ss sd = k1_pay2 (k1_pay8 t0 t1 p0 p1) (k1_pay9 x0 x1 sr) sd := by
  unfold outDLast
  rw [View.read_writes_eq_canon _ _ _ (coverLastOutD c i a2 h2 a3 h3 a4 h4 a5 h5 a6 h6 a7 h7 a8 h8 a9 h9 a10 h10 a11 h11 a12 h12 hf hl x0 x1 t0 t1 p0 p1 sr ss sd)]
  unfold runLast
  dsimp only
  sl_unfold_words
  rw [View.canon_unit_zero hz, View.readCov_unit_zero (S := S512x1) _ hz]
  simp only [View.readAt_eq_ld, h2.read_unread, h3.read_unread, h4.read_unread, h5.read_unread, h6.read_unread, h7.read_unread,
    h8.read_unread, h11.read_unread, h12.read_unread, View.ld_unit_zero (S := S512x512) hz, View.ld_unit_zero (S := S512x1) hz,
    View.ld_unit_zero (S := S1x512) hz]

end Cert.KernelIdeal.Losses

end
-- ==== Proof.Losses.ValueBlocks.lean ====
/-
  The blocks the second kernel reads at a grid point.

  Grid point t = 8·i + k holds row tile i = t / 8 and column tile k = t % 8. Its first window is rows 512·i .. 512·i + 511 of
  the matrix X, its second rows 512·k .. 512·k + 511 of X; the class and part columns are cut at the row tile, the class and
  part rows at the column tile, and the column of row sums the first kernel left is cut at the row tile. The windows'
  block indices are decided once over the 64 grid points; a block's coordinate in its array is the block index times the
  block's extent plus the coordinate inside the block.
-/
import proofs.«134967_j48713519072039_1_alg».proof.Proof.Losses.Contents
import Idealize.ShloMosaic.Lib.ValueIdx
import Idealize.ShloMosaic.Lib.Pipeline.Value
import Idealize.ShloMosaic.Lib.Tactic

set_option maxRecDepth 16384

noncomputable section

namespace Cert.KernelIdeal.Losses

open Cert.KernelIdeal Cert.KernelIdeal.Gen
open Idealize.ShloMosaic Idealize.ShloMosaic.TcCoe Idealize.ShloMosaic.Tactic Idealize.SL.Sem

variable {F : FTy → Type} [FloatOps F]

open Idealize.ShloMosaic.ValueIdx

/-- The windows' block indices at grid point t: row tile t / 8, column tile t % 8. -/
theorem idx_facts : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = t.val % 8
    ∧ win1_4.index t (0 : Fin 2) = t.val / 8 ∧ win1_4.index t (1 : Fin 2) = 0
    ∧ win1_5.index t (0 : Fin 2) = 0 ∧ win1_5.index t (1 : Fin 2) = t.val % 8
    ∧ win1_6.index t (0 : Fin 2) = t.val / 8 ∧ win1_6.index t (1 : Fin 2) = 0
    ∧ win1_7.index t (0 : Fin 2) = t.val / 8 ∧ win1_7.index t (1 : Fin 2) = 0
    ∧ win1_8.index t (0 : Fin 2) = t.val / 8 ∧ win1_8.index t (1 : Fin 2) = 0 :=
  (by decide +kernel : ∀ t : Fin grid1.N, _)

section Blocks

variable (V : (c : Dev nD) → (b : Ref sig .tc) → Buf (Elt F) ((c : Thread nD τ).loc b)) (c : Dev nD) (t : Fin cfg1.N)

theorem tile_lt (p : Fin 512) : 512 * (t.val / 8) + p.val < 4096 := by
  have := t.isLt; have h : cfg1.N = 64 := N_1; have := p.isLt; omega
theorem tile_lt' (p : Fin 512) : 512 * (t.val % 8) + p.val < 4096 := by
  have := p.isLt; omega

/-- The row tile of X. -/
theorem blk0_apply (p d : Fin 512) :
    blk V c 0 t (ix2 p d) = (V c main_v1 : S4096x512.Idx → Elt F .bf16) (ix2 ⟨512 * (t.val / 8) + p.val, tile_lt t p⟩ d) := by
  obtain ⟨e0, e1, -⟩ := idx_facts t
  show (V c main_v1 : S4096x512.Idx → Elt F .bf16) (((cfg1.win 0).blk t).view.emb (ix2 p d)) = _
  refine congrArg _ (funext fun a => Fin.ext ?_)
  match a with
  | ⟨0, _⟩ => show win1_0.index t (0 : Fin 2) * 512 + 1 * p.val = 512 * (t.val / 8) + p.val; omega
  | ⟨1, _⟩ => show win1_0.index t (1 : Fin 2) * 512 + 1 * d.val = d.val; omega

/-- The column tile of X. -/
theorem blk1_apply (q d : Fin 512) :
    blk V c 1 t (ix2 q d) = (V c main_v1 : S4096x512.Idx → Elt F .bf16) (ix2 ⟨512 * (t.val % 8) + q.val, tile_lt' t q⟩ d) := by
  obtain ⟨-, -, e0, e1, -⟩ := idx_facts t
  show (V c main_v1 : S4096x512.Idx → Elt F .bf16) (((cfg1.win 1).blk t).view.emb (ix2 q d)) = _
  refine congrArg _ (funext fun a => Fin.ext ?_)
  match a with
  | ⟨0, _⟩ => show win1_1.index t (0 : Fin 2) * 512 + 1 * q.val = 512 * (t.val % 8) + q.val; omega
  | ⟨1, _⟩ => show win1_1.index t (1 : Fin 2) * 512 + 1 * d.val = d.val; omega

/-- The class column of the row tile. -/
theorem blk2_apply (p : Fin 512) (u : Fin 1) :
    blk V c 2 t (ix2 p u) = (V c main_v8 : S4096x1.Idx → Elt F .i32) (ix2 ⟨512 * (t.val / 8) + p.val, tile_lt t p⟩ u) := by
  obtain ⟨-, -, -, -, e0, e1, -⟩ := idx_facts t
  show (V c main_v8 : S4096x1.Idx → Elt F .i32) (((cfg1.win 2).blk t).view.emb (ix2 p u)) = _
  refine congrArg _ (funext fun a => Fin.ext ?_)
  match a with
  | ⟨0, _⟩ => show win1_2.index t (0 : Fin 2) * 512 + 1 * p.val = 512 * (t.val / 8) + p.val; omega
  | ⟨1, _⟩ => show win1_2.index t (1 : Fin 2) * 1 + 1 * u.val = u.val; omega

/-- The class row of the column tile. -/
theorem blk3_apply (u : Fin 1) (q : Fin 512) :
    blk V c 3 t (ix2 u q) = (V c main_v9 : S1x4096.Idx → Elt F .i32) (ix2 u ⟨512 * (t.val % 8) + q.val, tile_lt' t q⟩) := by
  obtain ⟨-, -, -, -, -, -, e0, e1, -⟩ := idx_facts t
  show (V c main_v9 : S1x4096.Idx → Elt F .i32) (((cfg1.win 3).blk t).view.emb (ix2 u q)) = _
  refine congrArg _ (funext fun a => Fin.ext ?_)
  match a with
  | ⟨0, _⟩ => show win1_3.index t (0 : Fin 2) * 1 + 1 * u.val = u.val; omega
  | ⟨1, _⟩ => show win1_3.index t (1 : Fin 2) * 512 + 1 * q.val = 512 * (t.val % 8) + q.val; omega

/-- The part column of the row tile. -/
theorem blk4_apply (p : Fin 512) (u : Fin 1) :
    blk V c 4 t (ix2 p u) = (V c main_v10 : S4096x1.Idx → Elt F .i32) (ix2 ⟨512 * (t.val / 8) + p.val, tile_lt t p⟩ u) := by
  obtain ⟨-, -, -, -, -, -, -, -, e0, e1, -⟩ := idx_facts t
  show (V c main_v10 : S4096x1.Idx → Elt F .i32) (((cfg1.win 4).blk t).view.emb (ix2 p u)) = _
  refine congrArg _ (funext fun a => Fin.ext ?_)
  match a with
  | ⟨0, _⟩ => show win1_4.index t (0 : Fin 2) * 512 + 1 * p.val = 512 * (t.val / 8) + p.val; omega
  | ⟨1, _⟩ => show win1_4.index t (1 : Fin 2) * 1 + 1 * u.val = u.val; omega

/-- The part row of the column tile. -/
theorem blk5_apply (u : Fin 1) (q : Fin 512) :
    blk V c 5 t (ix2 u q) = (V c main_v11 : S1x4096.Idx → Elt F .i32) (ix2 u ⟨512 * (t.val % 8) + q.val, tile_lt' t q⟩) := by
  obtain ⟨-, -, -, -, -, -, -, -, -, -, e0, e1, -⟩ := idx_facts t
  show (V c main_v11 : S1x4096.Idx → Elt F .i32) (((cfg1.win 5).blk t).view.emb (ix2 u q)) = _
  refine congrArg _ (funext fun a => Fin.ext ?_)
  match a with
  | ⟨0, _⟩ => show win1_5.index t (0 : Fin 2) * 1 + 1 * u.val = u.val; omega
  | ⟨1, _⟩ => show win1_5.index t (1 : Fin 2) * 512 + 1 * q.val = 512 * (t.val % 8) + q.val; omega

/-- The first kernel's row sums, cut at the row tile. -/
theorem blk6_apply (p : Fin 512) (u : Fin 1) :
    blk V c 6 t (ix2 p u) = (V c main_v12 : S4096x1.Idx → Elt F .f32) (ix2 ⟨512 * (t.val / 8) + p.val, tile_lt t p⟩ u) := by
  obtain ⟨-, -, -, -, -, -, -, -, -, -, -, -, e0, e1, -⟩ := idx_facts t
  show (V c main_v12 : S4096x1.Idx → Elt F .f32) (((cfg1.win 6).blk t).view.emb (ix2 p u)) = _
  refine congrArg _ (funext fun a => Fin.ext ?_)
  match a with
  | ⟨0, _⟩ => show win1_6.index t (0 : Fin 2) * 512 + 1 * p.val = 512 * (t.val / 8) + p.val; omega
  | ⟨1, _⟩ => show win1_6.index t (1 : Fin 2) * 1 + 1 * u.val = u.val; omega

end Blocks

end Cert.KernelIdeal.Losses

end
-- ==== Proof.Losses.ValueInduction.lean ====
/-
  The second kernel's scratch columns and output blocks, point by point, as partial sums of the two losses.

  Let X, tt, pp be the matrix of feature rows and the class and part labels, let the arrays the kernel reads hold them, and
  let the column the first kernel left hold rowS at every row. At grid point t = 8·i + k the two scratch columns hold, at row
  p, the sums of the first k + 1 column tiles of the summands of row 512·i + p's shares of the two losses: a first column
  tile starts from the zero columns, every other tile adds its tile's sums to what the point before left. At the last column
  tile the columns, and the output blocks they are copied to, hold the row tile's shares of the two losses.
-/
import proofs.«134967_j48713519072039_1_alg».proof.Proof.Losses.Data
import proofs.«134967_j48713519072039_1_alg».proof.Proof.Losses.ValuePieces
import proofs.«134967_j48713519072039_1_alg».proof.Proof.Losses.ValueBlocks
import proofs.«134967_j48713519072039_1_alg».proof.Proof.RowSums.ValueInduction

set_option maxRecDepth 16384

noncomputable section

namespace Cert.KernelIdeal.Losses

open Cert.KernelIdeal Cert.KernelIdeal.Gen Cert.KernelIdeal.KValue Cert.TileSums
open Idealize.ShloMosaic Idealize.ShloMosaic.TcCoe Idealize.ShloMosaic.ValueIdx Idealize.SL.Sem

/-- The row tile of grid point n. -/
def rowTile (n : ℕ) (hn : n < cfg1.N) : Fin 8 := ⟨n / 8, by have h : cfg1.N = 64 := N_1; omega⟩
/-- The column tile of grid point n. -/
def colTile (n : ℕ) : Fin 8 := ⟨n % 8, by omega⟩

/-- What the arrays the kernel reads hold: the matrix X, the labels tt, pp as columns and as rows, and the row sums. -/
structure Reads (V : (c : Dev nD) → (b : Ref sig .tc) → Buf (Elt Ideal) ((c : Thread nD τ).loc b)) (c : Dev nD)
    (X : (⟨2, ![4096, 512]⟩ : Shape).Idx → EReal) (tt pp : (⟨1, ![4096]⟩ : Shape).Idx → BitVec 32) : Prop where
  hX : (V c main_v1 : S4096x512.Idx → EReal) = X
  ht8 : ∀ (r : Fin 4096) (u : Fin 1), (V c main_v8 : S4096x1.Idx → BitVec 32) (ix2 r u) = tt (ix1 r)
  ht9 : ∀ (u : Fin 1) (j : Fin 4096), (V c main_v9 : S1x4096.Idx → BitVec 32) (ix2 u j) = tt (ix1 j)
  hp10 : ∀ (r : Fin 4096) (u : Fin 1), (V c main_v10 : S4096x1.Idx → BitVec 32) (ix2 r u) = pp (ix1 r)
  hp11 : ∀ (u : Fin 1) (j : Fin 4096), (V c main_v11 : S1x4096.Idx → BitVec 32) (ix2 u j) = pp (ix1 j)
  hS : ∀ (r : Fin 4096) (u : Fin 1), (V c main_v12 : S4096x1.Idx → EReal) (ix2 r u) = Cert.Spec.rowS X tt pp r

section

variable (V : (c : Dev nD) → (b : Ref sig .tc) → Buf (Elt Ideal) ((c : Thread nD τ).loc b)) (c : Dev nD)
variable (X : (⟨2, ![4096, 512]⟩ : Shape).Idx → EReal) (tt pp : (⟨1, ![4096]⟩ : Shape).Idx → BitVec 32)

/-- One grid point, first column: what a case stores, at row p, is the column it found plus the tile's sum. -/
theorem pointS_eq (R : Reads V c X tt pp) (t : Fin cfg1.N) (s : Vec Ideal S512x1 .f32) (p : Fin 512) :
    k1_pay1 (F := Ideal) (k1_pay7 (F := Ideal) (blk V c 2 t) (blk V c 3 t) (blk V c 4 t) (blk V c 5 t))
        (k1_pay9 (F := Ideal) (blk V c 0 t) (blk V c 1 t) (blk V c 6 t)) (k1_pay10 (F := Ideal)) s (ix2 p (0 : Fin 1))
      = s (ix2 p (0 : Fin 1))
        + tileSum (fun j => Cert.Spec.sadcTerm X tt pp (grow (rowTile t.val t.isLt) p) j) (colTile t.val) :=
  sadc_step X tt pp (rowTile t.val t.isLt) (colTile t.val) (blk V c 0 t) (blk V c 1 t) (blk V c 2 t) (blk V c 3 t)
    (blk V c 4 t) (blk V c 5 t) (blk V c 6 t) s
    (fun p d => (blk0_apply V c t p d).trans (congrFun R.hX _))
    (fun q d => (blk1_apply V c t q d).trans (congrFun R.hX _))
    (fun p => (blk2_apply V c t p 0).trans (R.ht8 _ _))
    (fun q => (blk3_apply V c t 0 q).trans (R.ht9 _ _))
    (fun p => (blk4_apply V c t p 0).trans (R.hp10 _ _))
    (fun q => (blk5_apply V c t 0 q).trans (R.hp11 _ _))
    (fun p => (blk6_apply V c t p 0).trans (R.hS _ _)) p

/-- One grid point, second column. -/
theorem pointD_eq (R : Reads V c X tt pp) (t : Fin cfg1.N) (s : Vec Ideal S512x1 .f32) (p : Fin 512) :
    k1_pay2 (F := Ideal) (k1_pay8 (F := Ideal) (blk V c 2 t) (blk V c 3 t) (blk V c 4 t) (blk V c 5 t))
        (k1_pay9 (F := Ideal) (blk V c 0 t) (blk V c 1 t) (blk V c 6 t)) s (ix2 p (0 : Fin 1))
      = s (ix2 p (0 : Fin 1))
        + tileSum (fun j => Cert.Spec.dascTerm X tt pp (grow (rowTile t.val t.isLt) p) j) (colTile t.val) :=
  dasc_step X tt pp (rowTile t.val t.isLt) (colTile t.val) (blk V c 0 t) (blk V c 1 t) (blk V c 2 t) (blk V c 3 t)
    (blk V c 4 t) (blk V c 5 t) (blk V c 6 t) s
    (fun p d => (blk0_apply V c t p d).trans (congrFun R.hX _))
    (fun q d => (blk1_apply V c t q d).trans (congrFun R.hX _))
    (fun p => (blk2_apply V c t p 0).trans (R.ht8 _ _))
    (fun q => (blk3_apply V c t 0 q).trans (R.ht9 _ _))
    (fun p => (blk4_apply V c t p 0).trans (R.hp10 _ _))
    (fun q => (blk5_apply V c t 0 q).trans (R.hp11 _ _))
    (fun p => (blk6_apply V c t p 0).trans (R.hS _ _)) p

/-- The two scratch columns after grid point n, at row p: the first n % 8 + 1 column tiles of the summands of the row's
    shares of the two losses. -/
theorem accAt_eq (R : Reads V c X tt pp) : ∀ (n : ℕ) (hn : n < cfg1.N) (p : Fin 512),
    (accAt V c n hn).1 (ix2 p (0 : Fin 1))
        = accTiles (fun j => Cert.Spec.sadcTerm X tt pp (grow (rowTile n hn) p) j) (n % 8 + 1)
    ∧ (accAt V c n hn).2 (ix2 p (0 : Fin 1))
        = accTiles (fun j => Cert.Spec.dascTerm X tt pp (grow (rowTile n hn) p) j) (n % 8 + 1) := by
  intro n
  induction n with
  | zero =>
    intro hn p
    rw [accAt_first V c ⟨0, hn⟩ rfl]
    dsimp only
    rw [accSFirst_eq, accDFirst_eq, pointS_eq V c X tt pp R ⟨0, hn⟩, pointD_eq V c X tt pp R ⟨0, hn⟩, k1_pay3_apply,
      k1_pay4_apply]
    exact ⟨acc_first _ (colTile 0) rfl, acc_first _ (colTile 0) rfl⟩
  | succ n ih =>
    intro hn p
    have hN : cfg1.N = 64 := N_1
    by_cases h0 : (n + 1) % 8 = 0
    · rw [accAt_first V c ⟨n + 1, hn⟩ h0]
      dsimp only
      rw [accSFirst_eq, accDFirst_eq, pointS_eq V c X tt pp R ⟨n + 1, hn⟩, pointD_eq V c X tt pp R ⟨n + 1, hn⟩,
        k1_pay3_apply, k1_pay4_apply]
      exact ⟨acc_first _ (colTile (n + 1)) h0, acc_first _ (colTile (n + 1)) h0⟩
    · have hrow : rowTile n (Nat.lt_of_succ_lt hn) = rowTile (n + 1) hn := Fin.ext (by show n / 8 = (n + 1) / 8; omega)
      have hcol : n % 8 + 1 = (colTile (n + 1)).val := by show n % 8 + 1 = (n + 1) % 8; omega
      have hprev := ih (Nat.lt_of_succ_lt hn) p
      rw [hrow, hcol] at hprev
      by_cases h7 : (n + 1) % 8 = 7
      · rw [accAt_last V c ⟨n + 1, hn⟩ h0 h7]
        dsimp only
        rw [accSLast_eq, accDLast_eq, pointS_eq V c X tt pp R ⟨n + 1, hn⟩, pointD_eq V c X tt pp R ⟨n + 1, hn⟩]
        exact ⟨acc_next _ (colTile (n + 1)) _ hprev.1, acc_next _ (colTile (n + 1)) _ hprev.2⟩
      · rw [accAt_middle V c ⟨n + 1, hn⟩ h0 h7]
        dsimp only
        rw [accSMiddle_eq, accDMiddle_eq, pointS_eq V c X tt pp R ⟨n + 1, hn⟩, pointD_eq V c X tt pp R ⟨n + 1, hn⟩]
        exact ⟨acc_next _ (colTile (n + 1)) _ hprev.1, acc_next _ (colTile (n + 1)) _ hprev.2⟩

/-- The two output blocks after a last column tile, at row p: the row's shares of the two losses. -/
theorem outAt_eq (R : Reads V c X tt pp) (n : ℕ) (hn : n < cfg1.N) (h7 : n % 8 = 7) (p : Fin 512) :
    (outAt V c n hn).1 (ix2 p (0 : Fin 1)) = Cert.Spec.sadcRow X tt pp (grow (rowTile n hn) p)
    ∧ (outAt V c n hn).2 (ix2 p (0 : Fin 1)) = Cert.Spec.dascRow X tt pp (grow (rowTile n hn) p) := by
  have hN : cfg1.N = 64 := N_1
  have h0 : ¬n % 8 = 0 := by omega
  obtain ⟨m, rfl⟩ : ∃ m, n = m + 1 := ⟨n - 1, by omega⟩
  have hrow : rowTile m (Nat.lt_of_succ_lt hn) = rowTile (m + 1) hn := Fin.ext (by show m / 8 = (m + 1) / 8; omega)
  have hcol : m % 8 + 1 = 7 := by omega
  have hprev := accAt_eq V c X tt pp R m (Nat.lt_of_succ_lt hn) p
  have hk : (colTile (m + 1)).val = 7 := h7
  rw [hrow, hcol, ← hk] at hprev
  rw [outAt_last V c ⟨m + 1, hn⟩ h0 h7]
  dsimp only
  rw [outSLast_eq, outDLast_eq, pointS_eq V c X tt pp R ⟨m + 1, hn⟩, pointD_eq V c X tt pp R ⟨m + 1, hn⟩]
  refine ⟨(acc_next _ (colTile (m + 1)) _ hprev.1).trans ?_, (acc_next _ (colTile (m + 1)) _ hprev.2).trans ?_⟩
  · rw [hk]; exact acc_sadcRow X tt pp _
  · rw [hk]; exact acc_dascRow X tt pp _

end

end Cert.KernelIdeal.Losses

end
-- ==== Proof.Losses.ValueArray.lean ====
/-
  The second kernel's output arrays: each row's shares of the two losses.

  The two output windows are written back only at the last column tile of each row tile, and the blocks written back there
  are the row tile's 512 rows of the two columns of per-row shares. The 8 blocks written back tile each 4096 x 1 array, so
  after the run the arrays hold every row's shares of the two losses.
-/
import proofs.«134967_j48713519072039_1_alg».proof.Proof.Losses.ValueInduction
import Idealize.ShloMosaic.Lib.Pipeline.Value

set_option maxRecDepth 16384

noncomputable section

namespace Cert.KernelIdeal.Losses

open Cert.KernelIdeal Cert.KernelIdeal.Gen Cert.KernelIdeal.KValue Cert.TileSums
open Idealize.ShloMosaic Idealize.ShloMosaic.TcCoe Idealize.ShloMosaic.ValueIdx Idealize.SL.Sem
open Idealize.ShloMosaic.Pipeline (Dat)

/-- The column of the rows' shares of the first loss, as one function of the array's index. -/
def sadcArr (X : (⟨2, ![4096, 512]⟩ : Shape).Idx → EReal) (tt pp : (⟨1, ![4096]⟩ : Shape).Idx → BitVec 32) :
    S4096x1.Idx → EReal :=
  fun i => Cert.Spec.sadcRow X tt pp ⟨(i 0).val, idx2_lt0 i⟩

/-- The column of the rows' shares of the second loss. -/
def dascArr (X : (⟨2, ![4096, 512]⟩ : Shape).Idx → EReal) (tt pp : (⟨1, ![4096]⟩ : Shape).Idx → BitVec 32) :
    S4096x1.Idx → EReal :=
  fun i => Cert.Spec.dascRow X tt pp ⟨(i 0).val, idx2_lt0 i⟩

theorem sadcArr_apply (X : (⟨2, ![4096, 512]⟩ : Shape).Idx → EReal) (tt pp : (⟨1, ![4096]⟩ : Shape).Idx → BitVec 32)
    (r : Fin 4096) (u : Fin 1) : sadcArr X tt pp (ix2 r u) = Cert.Spec.sadcRow X tt pp r := rfl
theorem dascArr_apply (X : (⟨2, ![4096, 512]⟩ : Shape).Idx → EReal) (tt pp : (⟨1, ![4096]⟩ : Shape).Idx → BitVec 32)
    (r : Fin 4096) (u : Fin 1) : dascArr X tt pp (ix2 r u) = Cert.Spec.dascRow X tt pp r := rfl

/-- An index of the first output array is in point t's block iff each coordinate is in the block's range on its axis. -/
theorem mem_blk7 (t : Fin cfg1.N) (i : S4096x1.Idx) :
    i ∈ ((cfg1.win 7).blk t).view.set ↔ ∀ a : Fin 2,
      win1_7.index t a * S512x1.size a ≤ (i a).val ∧ (i a).val < win1_7.index t a * S512x1.size a + S512x1.size a := by
  show i ∈ ((View.whole main_v13_0).slice (win1_7.rect t)).set ↔ _
  rw [View.set_slice_whole, Rect.mem_set_unit]
  exact Iff.rfl

/-- The same for the second output array. -/
theorem mem_blk8 (t : Fin cfg1.N) (i : S4096x1.Idx) :
    i ∈ ((cfg1.win 8).blk t).view.set ↔ ∀ a : Fin 2,
      win1_8.index t a * S512x1.size a ≤ (i a).val ∧ (i a).val < win1_8.index t a * S512x1.size a + S512x1.size a := by
  show i ∈ ((View.whole main_v13_1).slice (win1_8.rect t)).set ↔ _
  rw [View.set_slice_whole, Rect.mem_set_unit]
  exact Iff.rfl

section

variable (V : (c : Dev nD) → (b : Ref sig .tc) → Buf (Elt Ideal) ((c : Thread nD τ).loc b)) (c : Dev nD)
variable (X : (⟨2, ![4096, 512]⟩ : Shape).Idx → EReal) (tt pp : (⟨1, ![4096]⟩ : Shape).Idx → BitVec 32)

/-- The output windows are written back only at last column tiles. -/
theorem last_of_flush7 (t : Fin cfg1.N) (hf : (cfg1.win 7).flush t = true) : t.val % 8 = 7 := by
  by_contra h
  have hn := noFlush7_of_not_last t (fun hl => h ((isLast_iff t).mp hl))
  rw [hn] at hf
  exact Bool.noConfusion hf
theorem last_of_flush8 (t : Fin cfg1.N) (hf : (cfg1.win 8).flush t = true) : t.val % 8 = 7 := by
  by_contra h
  have hn := noFlush8_of_not_last t (fun hl => h ((isLast_iff t).mp hl))
  rw [hn] at hf
  exact Bool.noConfusion hf

/-- What a last column tile writes back through the first output window is its block of the first column of shares. -/
theorem flushed7_eq (R : Reads V c X tt pp) (t : Fin cfg1.N) (hf : (cfg1.win 7).flush t = true) :
    (dat (F := Ideal) V c).flushed 7 t = ((cfg1.win 7).blk t).view.read (Elt Ideal) (sadcArr X tt pp) := by
  have h7 := last_of_flush7 t hf
  obtain ⟨-, -, -, -, -, -, -, -, -, -, -, -, -, -, e0, e1, -⟩ := idx_facts t
  show (cfg1.win 7).cut (grid1.coords t) ((dat (F := Ideal) V c).after 7 t) = _
  rw [after7]
  funext j
  obtain ⟨p, u, rfl⟩ : ∃ (p : Fin 512) (u : Fin 1), j = ix2 p u := ⟨j 0, j 1, eq_ix2 j⟩
  obtain rfl : u = 0 := Subsingleton.elim _ _
  show (outAt V c t.val t.isLt).1 (ix2 p (0 : Fin 1)) = sadcArr X tt pp (((cfg1.win 7).blk t).view.emb (ix2 p (0 : Fin 1)))
  rw [(outAt_eq V c X tt pp R t.val t.isLt h7 p).1]
  unfold sadcArr
  refine congrArg (Cert.Spec.sadcRow X tt pp) (Fin.ext ?_)
  show 512 * (t.val / 8) + p.val = win1_7.index t (0 : Fin 2) * 512 + 1 * p.val
  omega

/-- What a last column tile writes back through the second output window is its block of the second column of shares. -/
theorem flushed8_eq (R : Reads V c X tt pp) (t : Fin cfg1.N) (hf : (cfg1.win 8).flush t = true) :
    (dat (F := Ideal) V c).flushed 8 t = ((cfg1.win 8).blk t).view.read (Elt Ideal) (dascArr X tt pp) := by
  have h7 := last_of_flush8 t hf
  obtain ⟨-, -, -, -, -, -, -, -, -, -, -, -, -, -, -, -, e0, e1⟩ := idx_facts t
  show (cfg1.win 8).cut (grid1.coords t) ((dat (F := Ideal) V c).after 8 t) = _
  rw [after8]
  funext j
  obtain ⟨p, u, rfl⟩ : ∃ (p : Fin 512) (u : Fin 1), j = ix2 p u := ⟨j 0, j 1, eq_ix2 j⟩
  obtain rfl : u = 0 := Subsingleton.elim _ _
  show (outAt V c t.val t.isLt).2 (ix2 p (0 : Fin 1)) = dascArr X tt pp (((cfg1.win 8).blk t).view.emb (ix2 p (0 : Fin 1)))
  rw [(outAt_eq V c X tt pp R t.val t.isLt h7 p).2]
  unfold dascArr
  refine congrArg (Cert.Spec.dascRow X tt pp) (Fin.ext ?_)
  show 512 * (t.val / 8) + p.val = win1_8.index t (0 : Fin 2) * 512 + 1 * p.val
  omega

/-- Every row of the first output array is in the block some last column tile writes back. -/
theorem cover7 (i : S4096x1.Idx) : ∃ t : Fin cfg1.N, (cfg1.win 7).flush t = true ∧ i ∈ ((cfg1.win 7).blk t).view.set := by
  have hN : cfg1.N = 64 := N_1
  have h0 : (i 0).val < 4096 := (i 0).isLt
  have h1 : (i 1).val < 1 := (i 1).isLt
  let t : Fin cfg1.N := ⟨8 * ((i 0).val / 512) + 7, by omega⟩
  have ht7 : t.val % 8 = 7 := by show (8 * ((i 0).val / 512) + 7) % 8 = 7; omega
  refine ⟨t, flush7_of_last t ((isLast_iff t).mpr ht7), ?_⟩
  obtain ⟨-, -, -, -, -, -, -, -, -, -, -, -, -, -, e0, e1, -⟩ := idx_facts t
  have htv : t.val / 8 = (i 0).val / 512 := by show (8 * ((i 0).val / 512) + 7) / 8 = (i 0).val / 512; omega
  rw [mem_blk7]
  intro a
  match a with
  | ⟨0, _⟩ =>
    show win1_7.index t (0 : Fin 2) * 512 ≤ (i 0).val ∧ (i 0).val < win1_7.index t (0 : Fin 2) * 512 + 512
    omega
  | ⟨1, _⟩ =>
    show win1_7.index t (1 : Fin 2) * 1 ≤ (i 1).val ∧ (i 1).val < win1_7.index t (1 : Fin 2) * 1 + 1
    omega

/-- Every row of the second output array is in the block some last column tile writes back. -/
theorem cover8 (i : S4096x1.Idx) : ∃ t : Fin cfg1.N, (cfg1.win 8).flush t = true ∧ i ∈ ((cfg1.win 8).blk t).view.set := by
  have hN : cfg1.N = 64 := N_1
  have h0 : (i 0).val < 4096 := (i 0).isLt
  have h1 : (i 1).val < 1 := (i 1).isLt
  let t : Fin cfg1.N := ⟨8 * ((i 0).val / 512) + 7, by omega⟩
  have ht7 : t.val % 8 = 7 := by show (8 * ((i 0).val / 512) + 7) % 8 = 7; omega
  refine ⟨t, flush8_of_last t ((isLast_iff t).mpr ht7), ?_⟩
  obtain ⟨-, -, -, -, -, -, -, -, -, -, -, -, -, -, -, -, e0, e1⟩ := idx_facts t
  have htv : t.val / 8 = (i 0).val / 512 := by show (8 * ((i 0).val / 512) + 7) / 8 = (i 0).val / 512; omega
  rw [mem_blk8]
  intro a
  match a with
  | ⟨0, _⟩ =>
    show win1_8.index t (0 : Fin 2) * 512 ≤ (i 0).val ∧ (i 0).val < win1_8.index t (0 : Fin 2) * 512 + 512
    omega
  | ⟨1, _⟩ =>
    show win1_8.index t (1 : Fin 2) * 1 ≤ (i 1).val ∧ (i 1).val < win1_8.index t (1 : Fin 2) * 1 + 1
    omega

/-- The first output array after the run is the column of the rows' shares of the first loss. -/
theorem final7 (R : Reads V c X tt pp) : (dat (F := Ideal) V c).arrAt 7 cfg1.N = sadcArr X tt pp :=
  (dat (F := Ideal) V c).arrAt_eq_of_cover 7 (sadcArr X tt pp) (fun t hf => flushed7_eq V c X tt pp R t hf) cover7

/-- The second output array after the run is the column of the rows' shares of the second loss. -/
theorem final8 (R : Reads V c X tt pp) : (dat (F := Ideal) V c).arrAt 8 cfg1.N = dascArr X tt pp :=
  (dat (F := Ideal) V c).arrAt_eq_of_cover 8 (dascArr X tt pp) (fun t hf => flushed8_eq V c X tt pp R t hf) cover8

/-- The first output array read at a row. -/
theorem final7_apply (R : Reads V c X tt pp) (r : Fin 4096) (u : Fin 1) :
    ((dat (F := Ideal) V c).arrAt 7 cfg1.N : S4096x1.Idx → EReal) (ix2 r u) = Cert.Spec.sadcRow X tt pp r := by
  rw [final7 V c X tt pp R]
  rfl

/-- The second output array read at a row. -/
theorem final8_apply (R : Reads V c X tt pp) (r : Fin 4096) (u : Fin 1) :
    ((dat (F := Ideal) V c).arrAt 8 cfg1.N : S4096x1.Idx → EReal) (ix2 r u) = Cert.Spec.dascRow X tt pp r := by
  rw [final8 V c X tt pp R]
  rfl

end

end Cert.KernelIdeal.Losses

end
-- ==== Proof.KernelValue.lean ====
/-
  The kernel's program computes the loss of its two argument arrays.

  The host operations before the kernels leave the matrix X (the input re-laid), the class label and the part label of every
  row, as columns and as rows. From these the first kernel leaves rowS at every row; from these and rowS the second kernel
  leaves every row's shares of the two losses; the host operations after them add the shares up, add the first total twice
  and the second once, and divide by 4096: the specification's result at X, the class labels and the part labels, which is
  the loss of the two argument arrays.
-/
import proofs.«134967_j48713519072039_1_alg».proof.Proof.Program.Valuations
import proofs.«134967_j48713519072039_1_alg».proof.Proof.KernelPrelude
import proofs.«134967_j48713519072039_1_alg».proof.Proof.KernelTail
import proofs.«134967_j48713519072039_1_alg».proof.Proof.RowSums.ValueArray
import proofs.«134967_j48713519072039_1_alg».proof.Proof.Losses.ValueArray

set_option maxRecDepth 16384

noncomputable section

namespace Cert.KernelIdeal.KValue

open Cert.KernelIdeal Cert.KernelIdeal.Gen Cert.KernelIdeal.Program
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

/-- The matrix of feature rows: the first argument re-laid. -/
abbrev specX : (⟨2, ![4096, 512]⟩ : Shape).Idx → EReal := Cert.Spec.relaid (V0 (F := Ideal) m c main_arg0)
/-- The class label of every row: the second argument's labels, each for its four parts. -/
abbrev specT : (⟨1, ![4096]⟩ : Shape).Idx → BitVec 32 := Cert.Spec.labels (V0 (F := Ideal) m c main_arg1)

/-- What the first kernel's region finds in the arrays it reads. -/
theorem reads0 : RowSums.Reads (E0 (F := Ideal) m) c (specX m c) (specT m c) Cert.Spec.parts where
  hX := V1_v1 m c
  ht8 := V1_v8 m c
  ht9 := V1_v9 m c
  hp10 := V1_v10 m c
  hp11 := V1_v11 m c

/-- The first kernel leaves rowS at every row. -/
theorem rowSums_apply (r : Fin 4096) (u : Fin 1) :
    (rowSums (F := Ideal) m c : S4096x1.Idx → EReal) (ix2 r u) = Cert.Spec.rowS (specX m c) (specT m c) Cert.Spec.parts r :=
  RowSums.final6_apply (E0 (F := Ideal) m) c (specX m c) (specT m c) Cert.Spec.parts (reads0 m c) r u

/-- What the second kernel's region finds in the arrays it reads: the same, and the row sums. -/
theorem reads1 : Losses.Reads (E1 (F := Ideal) m) c (specX m c) (specT m c) Cert.Spec.parts where
  hX := (W2_of m c main_v1 (by decide)).trans (V1_v1 m c)
  ht8 := fun r u => (congrFun (W2_of m c main_v8 (by decide)) _).trans (V1_v8 m c r u)
  ht9 := fun u j => (congrFun (W2_of m c main_v9 (by decide)) _).trans (V1_v9 m c u j)
  hp10 := fun r u => (congrFun (W2_of m c main_v10 (by decide)) _).trans (V1_v10 m c r u)
  hp11 := fun u j => (congrFun (W2_of m c main_v11 (by decide)) _).trans (V1_v11 m c u j)
  hS := fun r u => (congrFun (W2_self m c) _).trans (rowSums_apply m c r u)

/-- The second kernel leaves every row's share of the first loss … -/
theorem lossS_apply (r : Fin 4096) (u : Fin 1) :
    (lossS (F := Ideal) m c : S4096x1.Idx → EReal) (ix2 r u) = Cert.Spec.sadcRow (specX m c) (specT m c) Cert.Spec.parts r :=
  Losses.final7_apply (E1 (F := Ideal) m) c (specX m c) (specT m c) Cert.Spec.parts (reads1 m c) r u

/-- … and of the second. -/
theorem lossD_apply (r : Fin 4096) (u : Fin 1) :
    (lossD (F := Ideal) m c : S4096x1.Idx → EReal) (ix2 r u) = Cert.Spec.dascRow (specX m c) (specT m c) Cert.Spec.parts r :=
  Losses.final8_apply (E1 (F := Ideal) m) c (specX m c) (specT m c) Cert.Spec.parts (reads1 m c) r u

/-- The program's result is the loss of its two argument arrays. -/
theorem result_eq :
    (W4 (F := Ideal) m c main_v18 : S_.Idx → EReal)
      = Cert.Spec.loss (m ((c.tc : Thread nD τ).loc main_arg0)) (m ((c.tc : Thread nD τ).loc main_arg1)) :=
  tail_result (W3 (F := Ideal) m c) (lossS (F := Ideal) m c) (lossD (F := Ideal) m c) (W3_lossS m c) (W3_lossD m c)
    (specX m c) (specT m c) Cert.Spec.parts (fun r => lossS_apply m c r 0) (fun r => lossD_apply m c r 0)

end Cert.KernelIdeal.KValue

end
-- ==== Proof.lean ====
/-
  Two programs compute one number from an input x of shape [1024, 4, 512] and 1024 class labels. With X the input
  re-laid as 4096 rows of 512 features, t r the label of row r (the label of r / 4) and p r = r mod 4 its part,
    prod r j = Σ_d X r d · X j d,
    S r      = Σ_j [t r ≠ t j ∧ p r ≠ p j] · exp (prod r j),
    term r j = log1p (S r · exp (-(prod r j))),
    result   = (A + A + B) / 4096   with   A = Σ_{r,j} [t r ≠ t j ∧ p r = p j] · term r j,
                                            B = Σ_{r,j} [t r = t j ∧ p r ≠ p j] · term r j,
  on the extended reals. The reference computes this with whole 4096 x 4096 arrays. The kernel never forms them: a first
  pipelined kernel computes S, a second one the row sums of A and B given S, each walking the 4096 x 4096 index square
  in 512 x 512 tiles and accumulating a row tile's partial sums over its eight column tiles in a scratch column; the
  host then totals the two columns. The two results are equal because a finite sum on the extended reals may be
  grouped in any way (addition there is commutative and associative; no distributive law and no finiteness is used),
  and because 0 - y = -y.

  The parts: each kernel's body run case by case (first, middle, last column tile) and its proof data point by point
  (RowSums/, Losses/); the two kernels as regions of @main and @main's run (Program/), written once for any reading of
  the floats and instantiated for the word-level program (WordLevel/) and the idealized one; the value each scratch
  column and result array holds (the Value modules, KernelValue); the specification and the law of tile sums (Spec,
  SpecArrays, SpecTail, TileSums, LibBlockSum); the reference's value and run (ReferenceValue, ReferenceRun).
-/
import proofs.«134967_j48713519072039_1_alg».proof.Defs
import proofs.«134967_j48713519072039_1_alg».proof.Proof.Gen.Kernel
import proofs.«134967_j48713519072039_1_alg».proof.Proof.Gen.KernelIdeal
import proofs.«134967_j48713519072039_1_alg».proof.Proof.Gen.ReferenceIdeal
import proofs.«134967_j48713519072039_1_alg».proof.Proof.Gen.Pre_finite_inputs
import proofs.«134967_j48713519072039_1_alg».proof.Proof.Program.Run
import proofs.«134967_j48713519072039_1_alg».proof.Proof.WordLevel.Program.Run
import proofs.«134967_j48713519072039_1_alg».proof.Proof.ReferenceRun
import proofs.«134967_j48713519072039_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs to the end, nothing faulting, and leaves its two arguments as launched. -/
theorem frame_kernel : Cert.frame_Kernel := fun m ρ _ => Cert.Kernel.Program.frame (F := Bits) m ρ

/-- So does the idealized kernel. -/
theorem frame_kernelIdeal : Cert.frame_KernelIdeal := fun m ρ _ => Cert.KernelIdeal.Program.frame (F := Ideal) m ρ

/-- The idealized kernel's run with its result named: the result buffer ends at the specification's loss of the two
    argument arrays — the last host stretch's total of the two loss columns the second kernel leaves, themselves the row
    sums of A and B given the row sums S the first kernel leaves — and the arguments end as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v18)
          = Cert.Spec.loss (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)) :=
  (θ_run (Cert.KernelIdeal.defs (F := Ideal)) _ _).mono
    (fun _ h c => ⟨(h c).1.trans (Cert.KernelIdeal.KValue.result_eq m c), (h c).2⟩)
    (Cert.KernelIdeal.Program.run_result (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, Cert.Proof.RefClaims.frame_ri, trivial,
    Cert.Proof.RefClaims.algebraic_of_kernel_run (fun m ρ _ => kernel_run m ρ)⟩

end Cert.Proof

end
